-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32x32 : Shape := ⟨4, ![32, 256, 32, 32]⟩
abbrev S256 : Shape := ⟨1, ![256]⟩
abbrev S128 : Shape := ⟨1, ![128]⟩
abbrev S256x128 : Shape := ⟨2, ![256, 128]⟩
abbrev S3x3x128x128 : Shape := ⟨4, ![3, 3, 128, 128]⟩
abbrev S128x512 : Shape := ⟨2, ![128, 512]⟩
abbrev S256x512 : Shape := ⟨2, ![256, 512]⟩
abbrev S_ : Shape := ⟨0, ![]⟩

class Facts : Prop where
  bcast_S_S32x256x32x32 : S_.BroadcastsInDim S32x256x32x32 (![] : Fin 0 → Fin S32x256x32x32.rank)
  reducesTo_S32x256x32x32_S_d0_1_2_3 : S32x256x32x32.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S128x512 : S_.BroadcastsInDim S128x512 (![] : Fin 0 → Fin S128x512.rank)
  reducesTo_S128x512_S_d0_1 : S128x512.ReducesTo [0, 1] S_
  bcast_S_S256x512 : S_.BroadcastsInDim S256x512 (![] : Fin 0 → Fin S256x512.rank)
  reducesTo_S256x512_S_d0_1 : S256x512.ReducesTo [0, 1] S_

variable [Facts]

def fn_part3 {F : FTy → Type} [FloatOps F] (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  main_v53

def fn_part2 {F : FTy → Type} [FloatOps F] (main_arg7 : FVec F S256x128 .f32) (main_arg8 : FVec F S3x3x128x128 .f32) (main_arg9 : FVec F S128x512 .f32) (main_arg10 : FVec F S256x512 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S3x3x128x128 .f32 := Host.absf main_arg8
  let main_cst_14 : FVec F S_ .f32 := constant S_ .f32 0x7F800000#32
  let main_v40 : FVec F S3x3x128x128 .f32 := broadcastInDim S3x3x128x128 ![] bcast_S_S3x3x128x128 main_cst_14
  let main_v41 : IVec S3x3x128x128 1 := cmpf .olt main_v39 main_v40
  let main_c_15 : IVec S_ 1 := constantI S_ 1 1#1
  let main_v42 : IVec S_ 1 := (fun x v => Host.reduce IntOp.andi x v reducesTo_S3x3x128x128_S_d0_1_2_3 h_S_) main_v41 main_c_15
  let main_v43 : IVec S_ 1 := andi main_v38 main_v42
  let main_v44 : FVec F S128x512 .f32 := Host.absf main_arg9
  let main_cst_16 : FVec F S_ .f32 := constant S_ .f32 0x7F800000#32
  let main_v45 : FVec F S128x512 .f32 := broadcastInDim S128x512 ![] bcast_S_S128x512 main_cst_16
  let main_v46 : IVec S128x512 1 := cmpf .olt main_v44 main_v45
  let main_c_17 : IVec S_ 1 := constantI S_ 1 1#1
  let main_v47 : IVec S_ 1 := (fun x v => Host.reduce IntOp.andi x v reducesTo_S128x512_S_d0_1 h_S_) main_v46 main_c_17
  let main_v48 : IVec S_ 1 := andi main_v43 main_v47
  let main_v49 : FVec F S256x512 .f32 := Host.absf main_arg10
  let main_cst_18 : FVec F S_ .f32 := constant S_ .f32 0x7F800000#32
  let main_v50 : FVec F S256x512 .f32 := broadcastInDim S256x512 ![] bcast_S_S256x512 main_cst_18
  fn_part3 (F := F) main_v48 main_v49 main_v50

def fn_part1 {F : FTy → Type} [FloatOps F] (main_arg4 : FVec F S128 .f32) (main_arg5 : FVec F S128 .f32) (main_arg6 : FVec F S128 .f32) (main_arg7 : FVec F S256x128 .f32) (main_arg8 : FVec F S3x3x128x128 .f32) (main_arg9 : FVec F S128x512 .f32) (main_arg10 : FVec F S256x512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x256x32x32 .f32) (main_arg1 : FVec F S256 .f32) (main_arg2 : FVec F S256 .f32) (main_arg3 : FVec F S128 .f32) (main_arg4 : FVec F S128 .f32) (main_arg5 : FVec F S128 .f32) (main_arg6 : FVec F S128 .f32) (main_arg7 : FVec F S256x128 .f32) (main_arg8 : FVec F S3x3x128x128 .f32) (main_arg9 : FVec F S128x512 .f32) (main_arg10 : FVec F S256x512 .f32) : IVec S_ 1 :=
  let main_v0 : FVec F S32x256x32x32 .f32 := Host.absf main_arg0
  let main_cst : FVec F S_ .f32 := constant S_ .f32 0x7F800000#32
  let main_v1 : FVec F S32x256x32x32 .f32 := broadcastInDim S32x256x32x32 ![] bcast_S_S32x256x32x32 main_cst
  let main_v2 : IVec S32x256x32x32 1 := cmpf .olt main_v0 main_v1
  let main_c : IVec S_ 1 := constantI S_ 1 1#1
  let main_v3 : IVec S_ 1 := (fun x v => Host.reduce IntOp.andi x v reducesTo_S32x256x32x32_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S32x256x32x32 : Shape := ⟨4, ![32, 256, 32, 32]⟩
abbrev S256 : Shape := ⟨1, ![256]⟩
abbrev S128 : Shape := ⟨1, ![128]⟩
abbrev S256x128 : Shape := ⟨2, ![256, 128]⟩
abbrev S3x3x128x128 : Shape := ⟨4, ![3, 3, 128, 128]⟩
abbrev S128x512 : Shape := ⟨2, ![128, 512]⟩
abbrev S256x512 : Shape := ⟨2, ![256, 512]⟩
abbrev S8192x1024 : Shape := ⟨2, ![8192, 1024]⟩
abbrev S1152x128 : Shape := ⟨2, ![1152, 128]⟩
abbrev S32x2x256 : Shape := ⟨3, ![32, 2, 256]⟩
abbrev S_ : Shape := ⟨0, ![]⟩
abbrev S2x256 : Shape := ⟨2, ![2, 256]⟩
abbrev S1x256 : Shape := ⟨2, ![1, 256]⟩
abbrev S32768x128 : Shape := ⟨2, ![32768, 128]⟩
abbrev S8192x512 : Shape := ⟨2, ![8192, 512]⟩
abbrev S32x2x128 : Shape := ⟨3, ![32, 2, 128]⟩
abbrev S2x128 : Shape := ⟨2, ![2, 128]⟩
abbrev S1x128 : Shape := ⟨2, ![1, 128]⟩
abbrev S8192x128 : Shape := ⟨2, ![8192, 128]⟩
abbrev S16384x256 : Shape := ⟨2, ![16384, 256]⟩
abbrev S32x512x16x16 : Shape := ⟨4, ![32, 512, 16, 16]⟩
abbrev S256x1024 : Shape := ⟨2, ![256, 1024]⟩
abbrev S1x2x256 : Shape := ⟨3, ![1, 2, 256]⟩
abbrev S1024x128 : Shape := ⟨2, ![1024, 128]⟩
abbrev S1x2x128 : Shape := ⟨3, ![1, 2, 128]⟩
abbrev S1024x256 : Shape := ⟨2, ![1024, 256]⟩
abbrev S32x32x256 : Shape := ⟨3, ![32, 32, 256]⟩
abbrev S32x16x512 : Shape := ⟨3, ![32, 16, 512]⟩
abbrev S32x16x256 : Shape := ⟨3, ![32, 16, 256]⟩
abbrev S16x2x16x256 : Shape := ⟨4, ![16, 2, 16, 256]⟩
abbrev S16x1x16x256 : Shape := ⟨4, ![16, 1, 16, 256]⟩
abbrev S16x16x256 : Shape := ⟨3, ![16, 16, 256]⟩
abbrev S256x256 : Shape := ⟨2, ![256, 256]⟩
abbrev S34x34x128 : Shape := ⟨3, ![34, 34, 128]⟩
abbrev S1x34x128 : Shape := ⟨3, ![1, 34, 128]⟩
abbrev S34x1x128 : Shape := ⟨3, ![34, 1, 128]⟩
abbrev S34x2x128 : Shape := ⟨3, ![34, 2, 128]⟩
abbrev S32x32x128 : Shape := ⟨3, ![32, 32, 128]⟩
abbrev S32x34x128 : Shape := ⟨3, ![32, 34, 128]⟩
abbrev S32x16x128 : Shape := ⟨3, ![32, 16, 128]⟩
abbrev S16x2x16x128 : Shape := ⟨4, ![16, 2, 16, 128]⟩
abbrev S16x1x16x128 : Shape := ⟨4, ![16, 1, 16, 128]⟩
abbrev S16x16x128 : Shape := ⟨3, ![16, 16, 128]⟩
abbrev S256x1152 : Shape := ⟨2, ![256, 1152]⟩
abbrev S512x256 : Shape := ⟨2, ![512, 256]⟩

abbrev nBuf : Space → Nat
  | .hbm => 103
  | .vmem => 35
  | .smem => 0
  | _ => 0

abbrev bufTy : (tb : Table) → Fin (tcTables nBuf tb) → BufTy
  | .hbm, ⟨0, _⟩ => ⟨S32x256x32x32, .f32⟩
  | .hbm, ⟨1, _⟩ => ⟨S256, .f32⟩
  | .hbm, ⟨2, _⟩ => ⟨S256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S3x3x128x128, .f32⟩
  | .hbm, ⟨9, _⟩ => ⟨S128x512, .f32⟩
  | .hbm, ⟨10, _⟩ => ⟨S256x512, .f32⟩
  | .hbm, ⟨11, _⟩ => ⟨S8192x1024, .f32⟩
  | .hbm, ⟨12, _⟩ => ⟨S256x128, .bf16⟩
  | .hbm, ⟨13, _⟩ => ⟨S3x3x128x128, .bf16⟩
  | .hbm, ⟨14, _⟩ => ⟨S1152x128, .bf16⟩
  | .hbm, ⟨15, _⟩ => ⟨S128x512, .bf16⟩
  | .hbm, ⟨16, _⟩ => ⟨S256x512, .bf16⟩
  | .hbm, ⟨17, _⟩ => ⟨S32x2x256, .f32⟩
  | .hbm, ⟨18, _⟩ => ⟨S_, .f32⟩
  | .hbm, ⟨19, _⟩ => ⟨S2x256, .f32⟩
  | .hbm, ⟨20, _⟩ => ⟨S1x256, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S1x256, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S1x256, .f32⟩
  | .hbm, ⟨43, _⟩ => ⟨S1x256, .f32⟩
  | .hbm, ⟨44, _⟩ => ⟨S32768x128, .bf16⟩
  | .hbm, ⟨45, _⟩ => ⟨S8192x512, .bf16⟩
  | .hbm, ⟨46, _⟩ => ⟨S32x2x128, .f32⟩
  | .hbm, ⟨47, _⟩ => ⟨S_, .f32⟩
  | .hbm, ⟨48, _⟩ => ⟨S2x128, .f32⟩
  | .hbm, ⟨49, _⟩ => ⟨S1x128, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S1x128, .f32⟩
  | .hbm, ⟨73, _⟩ => ⟨S8192x128, .bf16⟩
  | .hbm, ⟨74, _⟩ => ⟨S32x2x128, .f32⟩
  | .hbm, ⟨75, _⟩ => ⟨S_, .f32⟩
  | .hbm, ⟨76, _⟩ => ⟨S2x128, .f32⟩
  | .hbm, ⟨77, _⟩ => ⟨S1x128, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S1x128, .f32⟩
  | .hbm, ⟨101, _⟩ => ⟨S16384x256, .f32⟩
  | .hbm, ⟨102, _⟩ => ⟨S32x512x16x16, .f32⟩
  | .local _ .vmem, ⟨0, _⟩ => ⟨S256x1024, .f32⟩
  | .local _ .vmem, ⟨1, _⟩ => ⟨S256x1024, .f32⟩
  | .local _ .vmem, ⟨2, _⟩ => ⟨S1x2x256, .f32⟩
  | .local _ .vmem, ⟨3, _⟩ => ⟨S1x2x256, .f32⟩
  | .local _ .vmem, ⟨4, _⟩ => ⟨S256x1024, .f32⟩
  | .local _ .vmem, ⟨5, _⟩ => ⟨S256x1024, .f32⟩
  | .local _ .vmem, ⟨6, _⟩ => ⟨S1x256, .f32⟩
  | .local _ .vmem, ⟨7, _⟩ => ⟨S1x256, .f32⟩
  | .local _ .vmem, ⟨8, _⟩ => ⟨S256x128, .bf16⟩
  | .local _ .vmem, ⟨9, _⟩ => ⟨S256x512, .bf16⟩
  | .local _ .vmem, ⟨10, _⟩ => ⟨S1024x128, .bf16⟩
  | .local _ .vmem, ⟨11, _⟩ => ⟨S1024x128, .bf16⟩
  | .local _ .vmem, ⟨12, _⟩ => ⟨S256x512, .bf16⟩
  | .local _ .vmem, ⟨13, _⟩ => ⟨S256x512, .bf16⟩
  | .local _ .vmem, ⟨14, _⟩ => ⟨S1x2x128, .f32⟩
  | .local _ .vmem, ⟨15, _⟩ => ⟨S1x2x128, .f32⟩
  | .local _ .vmem, ⟨16, _⟩ => ⟨S1024x128, .bf16⟩
  | .local _ .vmem, ⟨17, _⟩ => ⟨S1024x128, .bf16⟩
  | .local _ .vmem, ⟨18, _⟩ => ⟨S1x128, .f32⟩
  | .local _ .vmem, ⟨19, _⟩ => ⟨S1x128, .f32⟩
  | .local _ .vmem, ⟨20, _⟩ => ⟨S1152x128, .bf16⟩
  | .local _ .vmem, ⟨21, _⟩ => ⟨S256x128, .bf16⟩
  | .local _ .vmem, ⟨22, _⟩ => ⟨S256x128, .bf16⟩
  | .local _ .vmem, ⟨23, _⟩ => ⟨S1x2x128, .f32⟩
  | .local _ .vmem, ⟨24, _⟩ => ⟨S1x2x128, .f32⟩
  | .local _ .vmem, ⟨25, _⟩ => ⟨S34x34x128, .bf16⟩
  | .local _ .vmem, ⟨26, _⟩ => ⟨S256x128, .bf16⟩
  | .local _ .vmem, ⟨27, _⟩ => ⟨S256x128, .bf16⟩
  | .local _ .vmem, ⟨28, _⟩ => ⟨S256x512, .bf16⟩
  | .local _ .vmem, ⟨29, _⟩ => ⟨S256x512, .bf16⟩
  | .local _ .vmem, ⟨30, _⟩ => ⟨S1x128, .f32⟩
  | .local _ .vmem, ⟨31, _⟩ => ⟨S1x128, .f32⟩
  | .local _ .vmem, ⟨32, _⟩ => ⟨S128x512, .bf16⟩
  | .local _ .vmem, ⟨33, _⟩ => ⟨S512x256, .f32⟩
  | .local _ .vmem, ⟨34, _⟩ => ⟨S512x256, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_cst_0 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst_1 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_cst_2 : Ref sig .tc := ⟨.hbm, 32, rfl⟩
abbrev main_call0_v18 : Ref sig .tc := ⟨.hbm, 33, rfl⟩
abbrev main_call0_v19 : Ref sig .tc := ⟨.hbm, 34, rfl⟩
abbrev main_call0_cst_3 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_v28_0 : Ref sig .tc := ⟨.hbm, 44, rfl⟩
abbrev main_call0_v28_1 : Ref sig .tc := ⟨.hbm, 45, rfl⟩
abbrev main_call0_v28_2 : Ref sig .tc := ⟨.hbm, 46, rfl⟩
abbrev main_call0_cst_4 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_cst_5 : Ref sig .tc := ⟨.hbm, 51, rfl⟩
abbrev main_call0_v32 : Ref sig .tc := ⟨.hbm, 52, rfl⟩
abbrev main_call0_v33 : Ref sig .tc := ⟨.hbm, 53, rfl⟩
abbrev main_call0_v34 : Ref sig .tc := ⟨.hbm, 54, rfl⟩
abbrev main_call0_v35 : Ref sig .tc := ⟨.hbm, 55, rfl⟩
abbrev main_call0_cst_6 : Ref sig .tc := ⟨.hbm, 56, rfl⟩
abbrev main_call0_v36 : Ref sig .tc := ⟨.hbm, 57, rfl⟩
abbrev main_call0_v37 : Ref sig .tc := ⟨.hbm, 58, rfl⟩
abbrev main_call0_v38 : Ref sig .tc := ⟨.hbm, 59, rfl⟩
abbrev main_call0_v39 : Ref sig .tc := ⟨.hbm, 60, rfl⟩
abbrev main_call0_cst_7 : Ref sig .tc := ⟨.hbm, 61, rfl⟩
abbrev main_call0_v40 : Ref sig .tc := ⟨.hbm, 62, rfl⟩
abbrev main_call0_v41 : Ref sig .tc := ⟨.hbm, 63, rfl⟩
abbrev main_call0_cst_8 : Ref sig .tc := ⟨.hbm, 64, rfl⟩
abbrev main_call0_v42 : Ref sig .tc := ⟨.hbm, 65, rfl⟩
abbrev main_call0_v43 : Ref sig .tc := ⟨.hbm, 66, rfl⟩
abbrev main_call0_v44 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_v49 : Ref sig .tc := ⟨.hbm, 72, rfl⟩
abbrev main_call0_v50_0 : Ref sig .tc := ⟨.hbm, 73, rfl⟩
abbrev main_call0_v50_1 : Ref sig .tc := ⟨.hbm, 74, rfl⟩
abbrev main_call0_cst_9 : Ref sig .tc := ⟨.hbm, 75, rfl⟩
abbrev main_call0_v51 : Ref sig .tc := ⟨.hbm, 76, rfl⟩
abbrev main_call0_v52 : Ref sig .tc := ⟨.hbm, 77, rfl⟩
abbrev main_call0_v53 : Ref sig .tc := ⟨.hbm, 78, rfl⟩
abbrev main_call0_cst_10 : Ref sig .tc := ⟨.hbm, 79, rfl⟩
abbrev main_call0_v54 : Ref sig .tc := ⟨.hbm, 80, rfl⟩
abbrev main_call0_v55 : Ref sig .tc := ⟨.hbm, 81, rfl⟩
abbrev main_call0_v56 : Ref sig .tc := ⟨.hbm, 82, rfl⟩
abbrev main_call0_v57 : Ref sig .tc := ⟨.hbm, 83, rfl⟩
abbrev main_call0_cst_11 : Ref sig .tc := ⟨.hbm, 84, rfl⟩
abbrev main_call0_v58 : Ref sig .tc := ⟨.hbm, 85, rfl⟩
abbrev main_call0_v59 : Ref sig .tc := ⟨.hbm, 86, rfl⟩
abbrev main_call0_v60 : Ref sig .tc := ⟨.hbm, 87, rfl⟩
abbrev main_call0_v61 : Ref sig .tc := ⟨.hbm, 88, rfl⟩
abbrev main_call0_cst_12 : Ref sig .tc := ⟨.hbm, 89, rfl⟩
abbrev main_call0_v62 : Ref sig .tc := ⟨.hbm, 90, rfl⟩
abbrev main_call0_v63 : Ref sig .tc := ⟨.hbm, 91, rfl⟩
abbrev main_call0_cst_13 : Ref sig .tc := ⟨.hbm, 92, rfl⟩
abbrev main_call0_v64 : Ref sig .tc := ⟨.hbm, 93, rfl⟩
abbrev main_call0_v65 : Ref sig .tc := ⟨.hbm, 94, rfl⟩
abbrev main_call0_v66 : Ref sig .tc := ⟨.hbm, 95, rfl⟩
abbrev main_call0_v67 : Ref sig .tc := ⟨.hbm, 96, rfl⟩
abbrev main_call0_v68 : Ref sig .tc := ⟨.hbm, 97, rfl⟩
abbrev main_call0_v69 : Ref sig .tc := ⟨.hbm, 98, rfl⟩
abbrev main_call0_v70 : Ref sig .tc := ⟨.hbm, 99, rfl⟩
abbrev main_call0_v71 : Ref sig .tc := ⟨.hbm, 100, rfl⟩
abbrev main_call0_v72 : Ref sig .tc := ⟨.hbm, 101, rfl⟩
abbrev main_v0 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1152x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x2x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x512 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S32x256x32x32_S8192x1024 : S32x256x32x32.ShapeCasts S8192x1024
  bitsLt_bf16_f32 : FTy.bits .bf16 < FTy.bits .f32
  shapeCasts_S3x3x128x128_S1152x128 : S3x3x128x128.ShapeCasts S1152x128
  reducesTo_S32x2x256_S2x256_d0 : S32x2x256.ReducesTo [0] S2x256
  h_S_ : 0 < S_.numel
  slices_S2x256_S1x256_0_0 : S2x256.Slices ![0, 0] S1x256
  shapeCasts_S1x256_S256 : S1x256.ShapeCasts S256
  bcast_S_S256 : S_.BroadcastsInDim S256 (![] : Fin 0 → Fin S256.rank)
  slices_S2x256_S1x256_1_0 : S2x256.Slices ![1, 0] S1x256
  shapeCasts_S256_S1x256 : S256.ShapeCasts S1x256
  reducesTo_S32x2x128_S2x128_d0 : S32x2x128.ReducesTo [0] S2x128
  slices_S2x128_S1x128_0_0 : S2x128.Slices ![0, 0] S1x128
  shapeCasts_S1x128_S128 : S1x128.ShapeCasts S128
  bcast_S_S128 : S_.BroadcastsInDim S128 (![] : Fin 0 → Fin S128.rank)
  slices_S2x128_S1x128_1_0 : S2x128.Slices ![1, 0] S1x128
  shapeCasts_S128_S1x128 : S128.ShapeCasts S1x128
  shapeCasts_S16384x256_S32x512x16x16 : S16384x256.ShapeCasts S32x512x16x16
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  concatenates_S1x256_S1x256_S2x256_d0 : Shape.Concatenates [S1x256, S1x256] S2x256 0
  shapeCasts_S2x256_S1x2x256 : S2x256.ShapeCasts S1x2x256
  inb_S1x2x256_S1x2x256_0_0_0 : ∀ a, (![0, 0, 0] : Fin 3 → Nat) a + S1x2x256.size a ≤ S1x2x256.size a
  h_S1x2x256 : 0 < S1x2x256.numel
  transposes_S256x1024_p1_0_S1024x256 : S256x1024.Transposes [1, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S1024x128_S128 : S1024x128.Reduces [0] S128
  concatenates_S1x128_S1x128_S2x128_d0 : Shape.Concatenates [S1x128, S1x128] S2x128 0
  shapeCasts_S2x128_S1x2x128 : S2x128.ShapeCasts S1x2x128
  inb_S1x2x128_S1x2x128_0_0_0 : ∀ a, (![0, 0, 0] : Fin 3 → Nat) a + S1x2x128.size a ≤ S1x2x128.size a
  h_S1x2x128 : 0 < S1x2x128.numel
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S1024x256_S32x32x256 : S1024x256.ShapeCasts S32x32x256
  shapeCasts_S32x32x256_S32x16x512 : S32x32x256.ShapeCasts S32x16x512
  slices_S32x16x512_o0_0_0_S32x16x256 : S32x16x512.Slices ![0, 0, 0] S32x16x256
  shapeCasts_S32x16x256_S16x2x16x256 : S32x16x256.ShapeCasts S16x2x16x256
  slices_S16x2x16x256_o0_0_0_0_S16x1x16x256 : S16x2x16x256.Slices ![0, 0, 0, 0] S16x1x16x256
  shapeCasts_S16x1x16x256_S16x16x256 : S16x1x16x256.ShapeCasts S16x16x256
  shapeCasts_S16x16x256_S256x256 : S16x16x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  packedbf16_S256x512_S256x512_0_0 : (Rect.unit (s := S256x512) ![0, 0] S256x512.size inb_S256x512_S256x512_0_0).PackedRows (EltTy.packing .bf16)
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S34x34x128_S1x34x128_0_0_0 : ∀ a, (![0, 0, 0] : Fin 3 → Nat) a + S1x34x128.size a ≤ S34x34x128.size a
  h_S1x34x128 : 0 < S1x34x128.numel
  shapeCasts_S1x34x128_S1x34x128 : S1x34x128.ShapeCasts S1x34x128
  packedbf16_S34x34x128_S1x34x128_0_0_0 : (Rect.unit (s := S34x34x128) ![0, 0, 0] S1x34x128.size inb_S34x34x128_S1x34x128_0_0_0).PackedRows (EltTy.packing .bf16)
  inb_S34x34x128_S1x34x128_33_0_0 : ∀ a, (![33, 0, 0] : Fin 3 → Nat) a + S1x34x128.size a ≤ S34x34x128.size a
  packedbf16_S34x34x128_S1x34x128_33_0_0 : (Rect.unit (s := S34x34x128) ![33, 0, 0] S1x34x128.size inb_S34x34x128_S1x34x128_33_0_0).PackedRows (EltTy.packing .bf16)
  inb_S34x34x128_S34x1x128_0_0_0 : ∀ a, (![0, 0, 0] : Fin 3 → Nat) a + S34x1x128.size a ≤ S34x34x128.size a
  h_S34x1x128 : 0 < S34x1x128.numel
  shapeCasts_S34x1x128_S34x1x128 : S34x1x128.ShapeCasts S34x1x128
  inb_S34x34x128_S34x2x128_0_0_0 : ∀ a, (![0, 0, 0] : Fin 3 → Nat) a + S34x2x128.size a ≤ S34x34x128.size a
  h_S34x2x128 : 0 < S34x2x128.numel
  slices_S34x2x128_S34x1x128_0_0_0 : S34x2x128.Slices ![0, 0, 0] S34x1x128
  packedbf16_S34x34x128_S34x2x128_0_0_0 : (Rect.unit (s := S34x34x128) ![0, 0, 0] S34x2x128.size inb_S34x34x128_S34x2x128_0_0_0).PackedRows (EltTy.packing .bf16)
  inb_S34x34x128_S34x1x128_0_33_0 : ∀ a, (![0, 33, 0] : Fin 3 → Nat) a + S34x1x128.size a ≤ S34x34x128.size a
  inb_S34x34x128_S34x2x128_0_32_0 : ∀ a, (![0, 32, 0] : Fin 3 → Nat) a + S34x2x128.size a ≤ S34x34x128.size a
  slices_S34x2x128_S34x1x128_0_1_0 : S34x2x128.Slices ![0, 1, 0] S34x1x128
  packedbf16_S34x34x128_S34x2x128_0_32_0 : (Rect.unit (s := S34x34x128) ![0, 32, 0] S34x2x128.size inb_S34x34x128_S34x2x128_0_32_0).PackedRows (EltTy.packing .bf16)
  shapeCasts_S1024x128_S32x32x128 : S1024x128.ShapeCasts S32x32x128
  inb_S34x34x128_S32x32x128_1_1_0 : ∀ a, (![1, 1, 0] : Fin 3 → Nat) a + S32x32x128.size a ≤ S34x34x128.size a
  h_S32x32x128 : 0 < S32x32x128.numel
  shapeCasts_S32x32x128_S32x32x128 : S32x32x128.ShapeCasts S32x32x128
  inb_S34x34x128_S32x34x128_1_0_0 : ∀ a, (![1, 0, 0] : Fin 3 → Nat) a + S32x34x128.size a ≤ S34x34x128.size a
  h_S32x34x128 : 0 < S32x34x128.numel
  slices_S32x34x128_S32x32x128_0_1_0 : S32x34x128.Slices ![0, 1, 0] S32x32x128
  packedbf16_S34x34x128_S32x34x128_1_0_0 : (Rect.unit (s := S34x34x128) ![1, 0, 0] S32x34x128.size inb_S34x34x128_S32x34x128_1_0_0).PackedRows (EltTy.packing .bf16)
  inb_S34x34x128_S32x32x128_0_0_0 : ∀ a, (![0, 0, 0] : Fin 3 → Nat) a + S32x32x128.size a ≤ S34x34x128.size a
  shapeCasts_S32x32x128_S32x16x256 : S32x32x128.ShapeCasts S32x16x256
  slices_S32x16x256_o0_0_0_S32x16x128 : S32x16x256.Slices ![0, 0, 0] S32x16x128
  shapeCasts_S32x16x128_S16x2x16x128 : S32x16x128.ShapeCasts S16x2x16x128
  slices_S16x2x16x128_o0_0_0_0_S16x1x16x128 : S16x2x16x128.Slices ![0, 0, 0, 0] S16x1x16x128
  shapeCasts_S16x1x16x128_S16x16x128 : S16x1x16x128.ShapeCasts S16x16x128
  shapeCasts_S16x16x128_S256x128 : S16x16x128.ShapeCasts S256x128
  inb_S34x34x128_S32x32x128_0_1_0 : ∀ a, (![0, 1, 0] : Fin 3 → Nat) a + S32x32x128.size a ≤ S34x34x128.size a
  inb_S34x34x128_S32x32x128_0_2_0 : ∀ a, (![0, 2, 0] : Fin 3 → Nat) a + S32x32x128.size a ≤ S34x34x128.size a
  inb_S34x34x128_S32x32x128_1_0_0 : ∀ a, (![1, 0, 0] : Fin 3 → Nat) a + S32x32x128.size a ≤ S34x34x128.size a
  inb_S34x34x128_S32x32x128_1_2_0 : ∀ a, (![1, 2, 0] : Fin 3 → Nat) a + S32x32x128.size a ≤ S34x34x128.size a
  inb_S34x34x128_S32x32x128_2_0_0 : ∀ a, (![2, 0, 0] : Fin 3 → Nat) a + S32x32x128.size a ≤ S34x34x128.size a
  inb_S34x34x128_S32x32x128_2_1_0 : ∀ a, (![2, 1, 0] : Fin 3 → Nat) a + S32x32x128.size a ≤ S34x34x128.size a
  inb_S34x34x128_S32x32x128_2_2_0 : ∀ a, (![2, 2, 0] : Fin 3 → Nat) a + S32x32x128.size a ≤ S34x34x128.size a
  concatenates_S256x128_S256x128_S256x128_S256x128_S256x128_S256x128_S256x128_S256x128_S256x128_S256x1152_d1 : Shape.Concatenates [S256x128, S256x128, S256x128, S256x128, S256x128, S256x128, S256x128, S256x128, S256x128] S256x1152 1
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  reduces_S256x128_S128 : S256x128.Reduces [0] S128
  packedbf16_S256x128_S256x128_0_0 : (Rect.unit (s := S256x128) ![0, 0] S256x128.size inb_S256x128_S256x128_0_0).PackedRows (EltTy.packing .bf16)
  broadcasts_S1x128_S256x128 : S1x128.Broadcasts S256x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  transposes_S256x512_p1_0_S512x256 : S256x512.Transposes [1, 0] S512x256
  inb_S512x256_S512x256_0_0 : ∀ a, (![0, 0] : Fin 2 → Nat) a + S512x256.size a ≤ S512x256.size a
  h_S512x256 : 0 < S512x256.numel
  dot_S1024x256_S256x128_S1024x128_1_0_0_1_n_n_wf : DotDims.WF S1024x256 S256x128 S1024x128 [1] [0] [0] [1] [] []
  dot_S256x256_S256x512_S256x512_1_0_0_1_n_n_wf : DotDims.WF S256x256 S256x512 S256x512 [1] [0] [0] [1] [] []
  dot_S256x1152_S1152x128_S256x128_1_0_0_1_n_n_wf : DotDims.WF S256x1152 S1152x128 S256x128 [1] [0] [0] [1] [] []
  dot_S256x128_S128x512_S256x512_1_0_0_1_n_n_wf : DotDims.WF S256x128 S128x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x256.size a ≤ S32x2x256.size a
  hwx0_1 : ∀ i : grid0.Coords, EltTy.bits .f32 = 32 ∨ (Rect.block (s := S32x2x256) S1x2x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x1024.size a
  hwx1_0 : ∀ i : grid1.Coords, EltTy.bits .f32 = 32 ∨ (Rect.block (s := S8192x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .bf16 = 32 ∨ (Rect.block (s := S256x512) S256x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S32768x128.size a
  hwx1_5 : ∀ i : grid1.Coords, EltTy.bits .bf16 = 32 ∨ (Rect.block (s := S32768x128) S1024x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x512.size a ≤ S8192x512.size a
  hwx1_6 : ∀ i : grid1.Coords, EltTy.bits .bf16 = 32 ∨ (Rect.block (s := S8192x512) S256x512.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2x128.size a ≤ S32x2x128.size a
  hwx1_7 : ∀ i : grid1.Coords, EltTy.bits .f32 = 32 ∨ (Rect.block (s := S32x2x128) S1x2x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S32768x128.size a
  hwx2_0 : ∀ i : grid2.Coords, EltTy.bits .bf16 = 32 ∨ (Rect.block (s := S32768x128) S1024x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1152x128.size a ≤ S1152x128.size a
  hwx2_3 : ∀ i : grid2.Coords, EltTy.bits .bf16 = 32 ∨ (Rect.block (s := S1152x128) S1152x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S8192x128.size a
  hwx2_4 : ∀ i : grid2.Coords, EltTy.bits .bf16 = 32 ∨ (Rect.block (s := S8192x128) S256x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2x128.size a ≤ S32x2x128.size a
  hwx2_5 : ∀ i : grid2.Coords, EltTy.bits .f32 = 32 ∨ (Rect.block (s := S32x2x128) S1x2x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S8192x128.size a
  hwx3_0 : ∀ i : grid3.Coords, EltTy.bits .bf16 = 32 ∨ (Rect.block (s := S8192x128) S256x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x512.size a ≤ S8192x512.size a
  hwx3_1 : ∀ i : grid3.Coords, EltTy.bits .bf16 = 32 ∨ (Rect.block (s := S8192x512) S256x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x512.size a ≤ S128x512.size a
  hwx3_4 : ∀ i : grid3.Coords, EltTy.bits .bf16 = 32 ∨ (Rect.block (s := S128x512) S128x512.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x256.size a ≤ S16384x256.size a
  hwx3_5 : ∀ i : grid3.Coords, EltTy.bits .f32 = 32 ∨ (Rect.block (s := S16384x256) S512x256.size (cc3_transform_5 i) (hinb3_5 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x1152_S1152x128_S256x128_1_0_0_1_n_n : DotDims S256x1152 S1152x128 S256x128 where
  lhsContracting := [1]
  rhsContracting := [0]
  lhsNonContracting := [0]
  rhsNonContracting := [1]
  lhsBatch := []
  rhsBatch := []
  wf := dot_S256x1152_S1152x128_S256x128_1_0_0_1_n_n_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf

abbrev win0_0 : Pipeline.Window sig grid0 :=
  Pipeline.Window.ofSpec (Memref.whole main_call0_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S1x2x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_call0_v0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v26) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v27) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v5) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v28_0) S1024x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v28_1) S256x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_call0_v28_2) S1x2x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_call0_v28_0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v48) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v3) S1152x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v50_0) S256x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_call0_v50_1) S1x2x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_call0_v50_0) S256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v28_1) S256x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v70) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v71) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v4) S128x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v72) S512x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S32x256x32x32 : Shape := ⟨4, ![32, 256, 32, 32]⟩
abbrev S256 : Shape := ⟨1, ![256]⟩
abbrev S128 : Shape := ⟨1, ![128]⟩
abbrev S256x128 : Shape := ⟨2, ![256, 128]⟩
abbrev S3x3x128x128 : Shape := ⟨4, ![3, 3, 128, 128]⟩
abbrev S128x512 : Shape := ⟨2, ![128, 512]⟩
abbrev S256x512 : Shape := ⟨2, ![256, 512]⟩
abbrev S32x32x32x256 : Shape := ⟨4, ![32, 32, 32, 256]⟩
abbrev S32768x256 : Shape := ⟨2, ![32768, 256]⟩
abbrev S1152x128 : Shape := ⟨2, ![1152, 128]⟩
abbrev S32x2x256 : Shape := ⟨3, ![32, 2, 256]⟩
abbrev S_ : Shape := ⟨0, ![]⟩
abbrev S2x256 : Shape := ⟨2, ![2, 256]⟩
abbrev S1x256 : Shape := ⟨2, ![1, 256]⟩
abbrev S32768x128 : Shape := ⟨2, ![32768, 128]⟩
abbrev S8192x512 : Shape := ⟨2, ![8192, 512]⟩
abbrev S32x2x128 : Shape := ⟨3, ![32, 2, 128]⟩
abbrev S512x8192 : Shape := ⟨2, ![512, 8192]⟩
abbrev S2x128 : Shape := ⟨2, ![2, 128]⟩
abbrev S1x128 : Shape := ⟨2, ![1, 128]⟩
abbrev S8192x128 : Shape := ⟨2, ![8192, 128]⟩
abbrev S32x16x16x512 : Shape := ⟨4, ![32, 16, 16, 512]⟩
abbrev S32x512x16x16 : Shape := ⟨4, ![32, 512, 16, 16]⟩
abbrev S1024x256 : Shape := ⟨2, ![1024, 256]⟩
abbrev S1x2x256 : Shape := ⟨3, ![1, 2, 256]⟩
abbrev S1024x128 : Shape := ⟨2, ![1024, 128]⟩
abbrev S1x2x128 : Shape := ⟨3, ![1, 2, 128]⟩
abbrev S32x32x256 : Shape := ⟨3, ![32, 32, 256]⟩
abbrev S32x16x512 : Shape := ⟨3, ![32, 16, 512]⟩
abbrev S32x16x256 : Shape := ⟨3, ![32, 16, 256]⟩
abbrev S16x2x16x256 : Shape := ⟨4, ![16, 2, 16, 256]⟩
abbrev S16x1x16x256 : Shape := ⟨4, ![16, 1, 16, 256]⟩
abbrev S16x16x256 : Shape := ⟨3, ![16, 16, 256]⟩
abbrev S256x256 : Shape := ⟨2, ![256, 256]⟩
abbrev S34x34x128 : Shape := ⟨3, ![34, 34, 128]⟩
abbrev S1x34x128 : Shape := ⟨3, ![1, 34, 128]⟩
abbrev S34x1x128 : Shape := ⟨3, ![34, 1, 128]⟩
abbrev S32x32x128 : Shape := ⟨3, ![32, 32, 128]⟩
abbrev S32x16x128 : Shape := ⟨3, ![32, 16, 128]⟩
abbrev S16x2x16x128 : Shape := ⟨4, ![16, 2, 16, 128]⟩
abbrev S16x1x16x128 : Shape := ⟨4, ![16, 1, 16, 128]⟩
abbrev S16x16x128 : Shape := ⟨3, ![16, 16, 128]⟩
abbrev S256x1152 : Shape := ⟨2, ![256, 1152]⟩
abbrev S64x8192 : Shape := ⟨2, ![64, 8192]⟩
abbrev S1024x512 : Shape := ⟨2, ![1024, 512]⟩

abbrev nBuf : Space → Nat
  | .hbm => 102
  | .vmem => 35
  | .smem => 0
  | _ => 0

abbrev bufTy : (tb : Table) → Fin (tcTables nBuf tb) → BufTy
  | .hbm, ⟨0, _⟩ => ⟨S32x256x32x32, .f32⟩
  | .hbm, ⟨1, _⟩ => ⟨S256, .f32⟩
  | .hbm, ⟨2, _⟩ => ⟨S256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S3x3x128x128, .f32⟩
  | .hbm, ⟨9, _⟩ => ⟨S128x512, .f32⟩
  | .hbm, ⟨10, _⟩ => ⟨S256x512, .f32⟩
  | .hbm, ⟨11, _⟩ => ⟨S32x32x32x256, .f32⟩
  | .hbm, ⟨12, _⟩ => ⟨S32768x256, .f32⟩
  | .hbm, ⟨13, _⟩ => ⟨S1152x128, .f32⟩
  | .hbm, ⟨14, _⟩ => ⟨S32x2x256, .f32⟩
  | .hbm, ⟨15, _⟩ => ⟨S_, .f32⟩
  | .hbm, ⟨16, _⟩ => ⟨S2x256, .f32⟩
  | .hbm, ⟨17, _⟩ => ⟨S1x256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S1x256, .f32⟩
  | .hbm, ⟨41, _⟩ => ⟨S32768x128, .f32⟩
  | .hbm, ⟨42, _⟩ => ⟨S8192x512, .f32⟩
  | .hbm, ⟨43, _⟩ => ⟨S32x2x128, .f32⟩
  | .hbm, ⟨44, _⟩ => ⟨S512x8192, .f32⟩
  | .hbm, ⟨45, _⟩ => ⟨S_, .f32⟩
  | .hbm, ⟨46, _⟩ => ⟨S2x128, .f32⟩
  | .hbm, ⟨47, _⟩ => ⟨S1x128, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S1x128, .f32⟩
  | .hbm, ⟨71, _⟩ => ⟨S8192x128, .f32⟩
  | .hbm, ⟨72, _⟩ => ⟨S32x2x128, .f32⟩
  | .hbm, ⟨73, _⟩ => ⟨S_, .f32⟩
  | .hbm, ⟨74, _⟩ => ⟨S2x128, .f32⟩
  | .hbm, ⟨75, _⟩ => ⟨S1x128, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S1x128, .f32⟩
  | .hbm, ⟨99, _⟩ => ⟨S512x8192, .f32⟩
  | .hbm, ⟨100, _⟩ => ⟨S32x16x16x512, .f32⟩
  | .hbm, ⟨101, _⟩ => ⟨S32x512x16x16, .f32⟩
  | .local _ .vmem, ⟨0, _⟩ => ⟨S1024x256, .f32⟩
  | .local _ .vmem, ⟨1, _⟩ => ⟨S1024x256, .f32⟩
  | .local _ .vmem, ⟨2, _⟩ => ⟨S1x2x256, .f32⟩
  | .local _ .vmem, ⟨3, _⟩ => ⟨S1x2x256, .f32⟩
  | .local _ .vmem, ⟨4, _⟩ => ⟨S1024x256, .f32⟩
  | .local _ .vmem, ⟨5, _⟩ => ⟨S1024x256, .f32⟩
  | .local _ .vmem, ⟨6, _⟩ => ⟨S1x256, .f32⟩
  | .local _ .vmem, ⟨7, _⟩ => ⟨S1x256, .f32⟩
  | .local _ .vmem, ⟨8, _⟩ => ⟨S256x128, .f32⟩
  | .local _ .vmem, ⟨9, _⟩ => ⟨S256x512, .f32⟩
  | .local _ .vmem, ⟨10, _⟩ => ⟨S1024x128, .f32⟩
  | .local _ .vmem, ⟨11, _⟩ => ⟨S1024x128, .f32⟩
  | .local _ .vmem, ⟨12, _⟩ => ⟨S256x512, .f32⟩
  | .local _ .vmem, ⟨13, _⟩ => ⟨S256x512, .f32⟩
  | .local _ .vmem, ⟨14, _⟩ => ⟨S1x2x128, .f32⟩
  | .local _ .vmem, ⟨15, _⟩ => ⟨S1x2x128, .f32⟩
  | .local _ .vmem, ⟨16, _⟩ => ⟨S1024x128, .f32⟩
  | .local _ .vmem, ⟨17, _⟩ => ⟨S1024x128, .f32⟩
  | .local _ .vmem, ⟨18, _⟩ => ⟨S1x128, .f32⟩
  | .local _ .vmem, ⟨19, _⟩ => ⟨S1x128, .f32⟩
  | .local _ .vmem, ⟨20, _⟩ => ⟨S1152x128, .f32⟩
  | .local _ .vmem, ⟨21, _⟩ => ⟨S256x128, .f32⟩
  | .local _ .vmem, ⟨22, _⟩ => ⟨S256x128, .f32⟩
  | .local _ .vmem, ⟨23, _⟩ => ⟨S1x2x128, .f32⟩
  | .local _ .vmem, ⟨24, _⟩ => ⟨S1x2x128, .f32⟩
  | .local _ .vmem, ⟨25, _⟩ => ⟨S34x34x128, .f32⟩
  | .local _ .vmem, ⟨26, _⟩ => ⟨S1024x128, .f32⟩
  | .local _ .vmem, ⟨27, _⟩ => ⟨S1024x128, .f32⟩
  | .local _ .vmem, ⟨28, _⟩ => ⟨S64x8192, .f32⟩
  | .local _ .vmem, ⟨29, _⟩ => ⟨S64x8192, .f32⟩
  | .local _ .vmem, ⟨30, _⟩ => ⟨S1x128, .f32⟩
  | .local _ .vmem, ⟨31, _⟩ => ⟨S1x128, .f32⟩
  | .local _ .vmem, ⟨32, _⟩ => ⟨S128x512, .f32⟩
  | .local _ .vmem, ⟨33, _⟩ => ⟨S64x8192, .f32⟩
  | .local _ .vmem, ⟨34, _⟩ => ⟨S64x8192, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_cst : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_cst_1 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst_2 : Ref sig .tc := ⟨.hbm, 29, rfl⟩
abbrev main_call0_v15 : Ref sig .tc := ⟨.hbm, 30, rfl⟩
abbrev main_call0_v16 : Ref sig .tc := ⟨.hbm, 31, rfl⟩
abbrev main_call0_cst_3 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25_0 : Ref sig .tc := ⟨.hbm, 41, rfl⟩
abbrev main_call0_v25_1 : Ref sig .tc := ⟨.hbm, 42, rfl⟩
abbrev main_call0_v25_2 : Ref sig .tc := ⟨.hbm, 43, rfl⟩
abbrev main_call0_v26 : Ref sig .tc := ⟨.hbm, 44, rfl⟩
abbrev main_call0_cst_4 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_cst_5 : Ref sig .tc := ⟨.hbm, 49, rfl⟩
abbrev main_call0_v30 : Ref sig .tc := ⟨.hbm, 50, rfl⟩
abbrev main_call0_v31 : Ref sig .tc := ⟨.hbm, 51, rfl⟩
abbrev main_call0_v32 : Ref sig .tc := ⟨.hbm, 52, rfl⟩
abbrev main_call0_v33 : Ref sig .tc := ⟨.hbm, 53, rfl⟩
abbrev main_call0_cst_6 : Ref sig .tc := ⟨.hbm, 54, rfl⟩
abbrev main_call0_v34 : Ref sig .tc := ⟨.hbm, 55, rfl⟩
abbrev main_call0_v35 : Ref sig .tc := ⟨.hbm, 56, rfl⟩
abbrev main_call0_v36 : Ref sig .tc := ⟨.hbm, 57, rfl⟩
abbrev main_call0_v37 : Ref sig .tc := ⟨.hbm, 58, rfl⟩
abbrev main_call0_cst_7 : Ref sig .tc := ⟨.hbm, 59, rfl⟩
abbrev main_call0_v38 : Ref sig .tc := ⟨.hbm, 60, rfl⟩
abbrev main_call0_v39 : Ref sig .tc := ⟨.hbm, 61, rfl⟩
abbrev main_call0_cst_8 : Ref sig .tc := ⟨.hbm, 62, rfl⟩
abbrev main_call0_v40 : Ref sig .tc := ⟨.hbm, 63, rfl⟩
abbrev main_call0_v41 : Ref sig .tc := ⟨.hbm, 64, rfl⟩
abbrev main_call0_v42 : Ref sig .tc := ⟨.hbm, 65, rfl⟩
abbrev main_call0_v43 : Ref sig .tc := ⟨.hbm, 66, rfl⟩
abbrev main_call0_v44 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48_0 : Ref sig .tc := ⟨.hbm, 71, rfl⟩
abbrev main_call0_v48_1 : Ref sig .tc := ⟨.hbm, 72, rfl⟩
abbrev main_call0_cst_9 : Ref sig .tc := ⟨.hbm, 73, rfl⟩
abbrev main_call0_v49 : Ref sig .tc := ⟨.hbm, 74, rfl⟩
abbrev main_call0_v50 : Ref sig .tc := ⟨.hbm, 75, rfl⟩
abbrev main_call0_v51 : Ref sig .tc := ⟨.hbm, 76, rfl⟩
abbrev main_call0_cst_10 : Ref sig .tc := ⟨.hbm, 77, rfl⟩
abbrev main_call0_v52 : Ref sig .tc := ⟨.hbm, 78, rfl⟩
abbrev main_call0_v53 : Ref sig .tc := ⟨.hbm, 79, rfl⟩
abbrev main_call0_v54 : Ref sig .tc := ⟨.hbm, 80, rfl⟩
abbrev main_call0_v55 : Ref sig .tc := ⟨.hbm, 81, rfl⟩
abbrev main_call0_cst_11 : Ref sig .tc := ⟨.hbm, 82, rfl⟩
abbrev main_call0_v56 : Ref sig .tc := ⟨.hbm, 83, rfl⟩
abbrev main_call0_v57 : Ref sig .tc := ⟨.hbm, 84, rfl⟩
abbrev main_call0_v58 : Ref sig .tc := ⟨.hbm, 85, rfl⟩
abbrev main_call0_v59 : Ref sig .tc := ⟨.hbm, 86, rfl⟩
abbrev main_call0_cst_12 : Ref sig .tc := ⟨.hbm, 87, rfl⟩
abbrev main_call0_v60 : Ref sig .tc := ⟨.hbm, 88, rfl⟩
abbrev main_call0_v61 : Ref sig .tc := ⟨.hbm, 89, rfl⟩
abbrev main_call0_cst_13 : Ref sig .tc := ⟨.hbm, 90, rfl⟩
abbrev main_call0_v62 : Ref sig .tc := ⟨.hbm, 91, rfl⟩
abbrev main_call0_v63 : Ref sig .tc := ⟨.hbm, 92, rfl⟩
abbrev main_call0_v64 : Ref sig .tc := ⟨.hbm, 93, rfl⟩
abbrev main_call0_v65 : Ref sig .tc := ⟨.hbm, 94, rfl⟩
abbrev main_call0_v66 : Ref sig .tc := ⟨.hbm, 95, rfl⟩
abbrev main_call0_v67 : Ref sig .tc := ⟨.hbm, 96, rfl⟩
abbrev main_call0_v68 : Ref sig .tc := ⟨.hbm, 97, rfl⟩
abbrev main_call0_v69 : Ref sig .tc := ⟨.hbm, 98, rfl⟩
abbrev main_call0_v70 : Ref sig .tc := ⟨.hbm, 99, rfl⟩
abbrev main_call0_v71 : Ref sig .tc := ⟨.hbm, 100, rfl⟩
abbrev main_v0 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1152x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x2x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x8192 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S64x8192 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  transposes_S32x256x32x32_S32x32x32x256_0_2_3_1 : S32x256x32x32.Transposes [0, 2, 3, 1] S32x32x32x256
  shapeCasts_S32x32x32x256_S32768x256 : S32x32x32x256.ShapeCasts S32768x256
  shapeCasts_S3x3x128x128_S1152x128 : S3x3x128x128.ShapeCasts S1152x128
  reducesTo_S32x2x256_S2x256_d0 : S32x2x256.ReducesTo [0] S2x256
  h_S_ : 0 < S_.numel
  slices_S2x256_S1x256_0_0 : S2x256.Slices ![0, 0] S1x256
  shapeCasts_S1x256_S256 : S1x256.ShapeCasts S256
  bcast_S_S256 : S_.BroadcastsInDim S256 (![] : Fin 0 → Fin S256.rank)
  slices_S2x256_S1x256_1_0 : S2x256.Slices ![1, 0] S1x256
  shapeCasts_S256_S1x256 : S256.ShapeCasts S1x256
  shapeCasts_S8192x512_S512x8192 : S8192x512.ShapeCasts S512x8192
  reducesTo_S32x2x128_S2x128_d0 : S32x2x128.ReducesTo [0] S2x128
  slices_S2x128_S1x128_0_0 : S2x128.Slices ![0, 0] S1x128
  shapeCasts_S1x128_S128 : S1x128.ShapeCasts S128
  bcast_S_S128 : S_.BroadcastsInDim S128 (![] : Fin 0 → Fin S128.rank)
  slices_S2x128_S1x128_1_0 : S2x128.Slices ![1, 0] S1x128
  shapeCasts_S128_S1x128 : S128.ShapeCasts S1x128
  shapeCasts_S512x8192_S32x16x16x512 : S512x8192.ShapeCasts S32x16x16x512
  transposes_S32x16x16x512_S32x512x16x16_0_3_1_2 : S32x16x16x512.Transposes [0, 3, 1, 2] S32x512x16x16
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S256 : S1024x256.Reduces [0] S256
  concatenates_S1x256_S1x256_S2x256_d0 : Shape.Concatenates [S1x256, S1x256] S2x256 0
  shapeCasts_S2x256_S1x2x256 : S2x256.ShapeCasts S1x2x256
  inb_S1x2x256_S1x2x256_0_0_0 : ∀ a, (![0, 0, 0] : Fin 3 → Nat) a + S1x2x256.size a ≤ S1x2x256.size a
  h_S1x2x256 : 0 < S1x2x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  reduces_S1024x128_S128 : S1024x128.Reduces [0] S128
  concatenates_S1x128_S1x128_S2x128_d0 : Shape.Concatenates [S1x128, S1x128] S2x128 0
  shapeCasts_S2x128_S1x2x128 : S2x128.ShapeCasts S1x2x128
  inb_S1x2x128_S1x2x128_0_0_0 : ∀ a, (![0, 0, 0] : Fin 3 → Nat) a + S1x2x128.size a ≤ S1x2x128.size a
  h_S1x2x128 : 0 < S1x2x128.numel
  shapeCasts_S1024x256_S32x32x256 : S1024x256.ShapeCasts S32x32x256
  shapeCasts_S32x32x256_S32x16x512 : S32x32x256.ShapeCasts S32x16x512
  slices_S32x16x512_o0_0_0_S32x16x256 : S32x16x512.Slices ![0, 0, 0] S32x16x256
  shapeCasts_S32x16x256_S16x2x16x256 : S32x16x256.ShapeCasts S16x2x16x256
  slices_S16x2x16x256_o0_0_0_0_S16x1x16x256 : S16x2x16x256.Slices ![0, 0, 0, 0] S16x1x16x256
  shapeCasts_S16x1x16x256_S16x16x256 : S16x1x16x256.ShapeCasts S16x16x256
  shapeCasts_S16x16x256_S256x256 : S16x16x256.ShapeCasts S256x256
  inb_S256x512_S256x512_0_0 : ∀ a, (![0, 0] : Fin 2 → Nat) a + S256x512.size a ≤ S256x512.size a
  h_S256x512 : 0 < S256x512.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S34x34x128_S1x34x128_0_0_0 : ∀ a, (![0, 0, 0] : Fin 3 → Nat) a + S1x34x128.size a ≤ S34x34x128.size a
  h_S1x34x128 : 0 < S1x34x128.numel
  shapeCasts_S1x34x128_S1x34x128 : S1x34x128.ShapeCasts S1x34x128
  inb_S34x34x128_S1x34x128_33_0_0 : ∀ a, (![33, 0, 0] : Fin 3 → Nat) a + S1x34x128.size a ≤ S34x34x128.size a
  inb_S34x34x128_S34x1x128_0_0_0 : ∀ a, (![0, 0, 0] : Fin 3 → Nat) a + S34x1x128.size a ≤ S34x34x128.size a
  h_S34x1x128 : 0 < S34x1x128.numel
  shapeCasts_S34x1x128_S34x1x128 : S34x1x128.ShapeCasts S34x1x128
  inb_S34x34x128_S34x1x128_0_33_0 : ∀ a, (![0, 33, 0] : Fin 3 → Nat) a + S34x1x128.size a ≤ S34x34x128.size a
  shapeCasts_S1024x128_S32x32x128 : S1024x128.ShapeCasts S32x32x128
  inb_S34x34x128_S32x32x128_1_1_0 : ∀ a, (![1, 1, 0] : Fin 3 → Nat) a + S32x32x128.size a ≤ S34x34x128.size a
  h_S32x32x128 : 0 < S32x32x128.numel
  shapeCasts_S32x32x128_S32x32x128 : S32x32x128.ShapeCasts S32x32x128
  inb_S34x34x128_S32x32x128_0_0_0 : ∀ a, (![0, 0, 0] : Fin 3 → Nat) a + S32x32x128.size a ≤ S34x34x128.size a
  shapeCasts_S32x32x128_S32x16x256 : S32x32x128.ShapeCasts S32x16x256
  slices_S32x16x256_o0_0_0_S32x16x128 : S32x16x256.Slices ![0, 0, 0] S32x16x128
  shapeCasts_S32x16x128_S16x2x16x128 : S32x16x128.ShapeCasts S16x2x16x128
  slices_S16x2x16x128_o0_0_0_0_S16x1x16x128 : S16x2x16x128.Slices ![0, 0, 0, 0] S16x1x16x128
  shapeCasts_S16x1x16x128_S16x16x128 : S16x1x16x128.ShapeCasts S16x16x128
  shapeCasts_S16x16x128_S256x128 : S16x16x128.ShapeCasts S256x128
  inb_S34x34x128_S32x32x128_0_1_0 : ∀ a, (![0, 1, 0] : Fin 3 → Nat) a + S32x32x128.size a ≤ S34x34x128.size a
  inb_S34x34x128_S32x32x128_0_2_0 : ∀ a, (![0, 2, 0] : Fin 3 → Nat) a + S32x32x128.size a ≤ S34x34x128.size a
  inb_S34x34x128_S32x32x128_1_0_0 : ∀ a, (![1, 0, 0] : Fin 3 → Nat) a + S32x32x128.size a ≤ S34x34x128.size a
  inb_S34x34x128_S32x32x128_1_2_0 : ∀ a, (![1, 2, 0] : Fin 3 → Nat) a + S32x32x128.size a ≤ S34x34x128.size a
  inb_S34x34x128_S32x32x128_2_0_0 : ∀ a, (![2, 0, 0] : Fin 3 → Nat) a + S32x32x128.size a ≤ S34x34x128.size a
  inb_S34x34x128_S32x32x128_2_1_0 : ∀ a, (![2, 1, 0] : Fin 3 → Nat) a + S32x32x128.size a ≤ S34x34x128.size a
  inb_S34x34x128_S32x32x128_2_2_0 : ∀ a, (![2, 2, 0] : Fin 3 → Nat) a + S32x32x128.size a ≤ S34x34x128.size a
  concatenates_S256x128_S256x128_S256x128_S256x128_S256x128_S256x128_S256x128_S256x128_S256x128_S256x1152_d1 : Shape.Concatenates [S256x128, S256x128, S256x128, S256x128, S256x128, S256x128, S256x128, S256x128, S256x128] S256x1152 1
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  reduces_S256x128_S128 : S256x128.Reduces [0] S128
  inb_S128x512_S128x512_0_0 : ∀ a, (![0, 0] : Fin 2 → Nat) a + S128x512.size a ≤ S128x512.size a
  h_S128x512 : 0 < S128x512.numel
  shapeCasts_S1024x512_S64x8192 : S1024x512.ShapeCasts S64x8192
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  dot_S1024x256_S256x128_S1024x128_1_0_0_1_n_n_wf : DotDims.WF S1024x256 S256x128 S1024x128 [1] [0] [0] [1] [] []
  dot_S256x256_S256x512_S256x512_1_0_0_1_n_n_wf : DotDims.WF S256x256 S256x512 S256x512 [1] [0] [0] [1] [] []
  dot_S256x1152_S1152x128_S256x128_1_0_0_1_n_n_wf : DotDims.WF S256x1152 S1152x128 S256x128 [1] [0] [0] [1] [] []
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x256.size a ≤ S32x2x256.size a
  hwx0_1 : ∀ i : grid0.Coords, EltTy.bits .f32 = 32 ∨ (Rect.block (s := S32x2x256) S1x2x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S32768x256.size a
  hwx1_0 : ∀ i : grid1.Coords, EltTy.bits .f32 = 32 ∨ (Rect.block (s := S32768x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .f32 = 32 ∨ (Rect.block (s := S256x512) S256x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S32768x128.size a
  hwx1_5 : ∀ i : grid1.Coords, EltTy.bits .f32 = 32 ∨ (Rect.block (s := S32768x128) S1024x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x512.size a ≤ S8192x512.size a
  hwx1_6 : ∀ i : grid1.Coords, EltTy.bits .f32 = 32 ∨ (Rect.block (s := S8192x512) S256x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2x128.size a ≤ S32x2x128.size a
  hwx1_7 : ∀ i : grid1.Coords, EltTy.bits .f32 = 32 ∨ (Rect.block (s := S32x2x128) S1x2x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S32768x128.size a
  hwx2_0 : ∀ i : grid2.Coords, EltTy.bits .f32 = 32 ∨ (Rect.block (s := S32768x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1152x128.size a ≤ S1152x128.size a
  hwx2_3 : ∀ i : grid2.Coords, EltTy.bits .f32 = 32 ∨ (Rect.block (s := S1152x128) S1152x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S8192x128.size a
  hwx2_4 : ∀ i : grid2.Coords, EltTy.bits .f32 = 32 ∨ (Rect.block (s := S8192x128) S256x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2x128.size a ≤ S32x2x128.size a
  hwx2_5 : ∀ i : grid2.Coords, EltTy.bits .f32 = 32 ∨ (Rect.block (s := S32x2x128) S1x2x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S8192x128.size a
  hwx3_0 : ∀ i : grid3.Coords, EltTy.bits .f32 = 32 ∨ (Rect.block (s := S8192x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x8192.size a ≤ S512x8192.size a
  hwx3_1 : ∀ i : grid3.Coords, EltTy.bits .f32 = 32 ∨ (Rect.block (s := S512x8192) S64x8192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x512.size a ≤ S128x512.size a
  hwx3_4 : ∀ i : grid3.Coords, EltTy.bits .f32 = 32 ∨ (Rect.block (s := S128x512) S128x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S64x8192.size a ≤ S512x8192.size a
  hwx3_5 : ∀ i : grid3.Coords, EltTy.bits .f32 = 32 ∨ (Rect.block (s := S512x8192) S64x8192.size (cc3_transform_5 i) (hinb3_5 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x1152_S1152x128_S256x128_1_0_0_1_n_n : DotDims S256x1152 S1152x128 S256x128 where
  lhsContracting := [1]
  rhsContracting := [0]
  lhsNonContracting := [0]
  rhsNonContracting := [1]
  lhsBatch := []
  rhsBatch := []
  wf := dot_S256x1152_S1152x128_S256x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_call0_v1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S1x2x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_call0_v1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v23) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v24) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v25_0) S1024x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v25_1) S256x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_call0_v25_2) S1x2x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_call0_v25_0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v2) S1152x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v48_0) S256x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_call0_v48_1) S1x2x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_call0_v48_0) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v26) S64x8192.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v69) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v70) S64x8192.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== Proof.K.R0.lean ====
/-
  Region 0: the per-image statistics pass. At grid point n the body reads image n's block of the
  input array and writes, into row n of the [32, 2, 256] result, the per-channel sum and the per-channel sum of
  squares of that block. Stated at a parameter V, the core's buffer contents when the region is entered.
-/
import proofs.«130251_g2000005708365749_pallasbulk_1193_2_alg».proof.Proof.Gen.Kernel.Launch
import proofs.«130251_g2000005708365749_pallasbulk_1193_2_alg».proof.Proof.Gen.Kernel.Skeleton
import proofs.«130251_g2000005708365749_pallasbulk_1193_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over V's arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole result row. -/
abbrev r0_in : Rect S256x1024 := Rect.unit (s := S256x1024) ![0, 0] S256x1024.size inb_S256x1024_S256x1024_0_0
abbrev r0_out : Rect S1x2x256 := Rect.unit (s := S1x2x256) ![0, 0, 0] S1x2x256.size inb_S1x2x256_S1x2x256_0_0_0

/-- What the body leaves in the result row: its one store, the statistics of the block it loaded. -/
def out0_1 (x0 : Vec F S256x1024 .f32) : Vec F S1x2x256 .f32 :=
  View.canon [⟨r0_out, k0_pay1 (View.ld x0 r0_in)⟩]

/-- That store covers the row. -/
theorem cover0_1 (p0 : Vec F S1x2x256 .f32) (y : S1x2x256.Idx) :
    ∃ pc ∈ ([⟨r0_out, p0⟩] : List (View.Piece (Elt F) S1x2x256 .f32)), y ∈ pc.1.set :=
  View.cover_of_tiled [⟨r0_out, p0⟩] S1x2x256.size (by rfl) y

set_option maxHeartbeats 1000000 in
/-- The body on whole staging memrefs: the input's contents stay, the result row ends at out0_1 of them. -/
theorem sound_kernel0 (c : Dev nD) (E : Set ℕ) (i : grid0.Coords) (arg0 : Memref sig .tc .vmem S256x1024 .f32) (harg0 : arg0.IsWhole) (arg1 : Memref sig .tc .vmem S1x2x256 .f32) (harg1 : arg1.IsWhole)
    (x0 : Vec F S256x1024 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__stats_cm_kernel i arg0 harg0 arg1 harg1) K := by
  simp only [cc0__stats_cm_kernel_eq_skeleton]; unfold cc0__stats_cm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.R1.lean ====
/- Region 1 of @main (the second pallas_call, pipeline 1), at a parameter `V`: the TensorCore's buffer contents
   when the region is entered. The kernel reads five input blocks — an activation block x, a scale row, a shift row
   and two weight matrices — and writes three output blocks: h1 = bf16(relu(xᵀ·scale + shift) · w1), the column sums
   and column sums of squares of the f32 product (the statistics block), and the shortcut product of a strided
   row selection of the same activations with the second weight matrix. Every load and every store is of a whole
   staging buffer, so each output buffer after the body is one piece: the store's payload over the input blocks.
   This module states what each window's buffer holds after the body (`out1_W`), proves the body's triple by symbolic
   execution of its skeleton, packages the pipeline's proof data `dat1` and proves the body obligation at every
   grid point. It is generic in the float interpretation. -/
import proofs.«130251_g2000005708365749_pallasbulk_1193_2_alg».proof.Proof.Gen.Kernel.Launch
import proofs.«130251_g2000005708365749_pallasbulk_1193_2_alg».proof.Proof.Gen.Kernel.Skeleton
import proofs.«130251_g2000005708365749_pallasbulk_1193_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle tiles a buffer of these extents recurses once per coordinate of the long axes
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the block rectangle of the point read off the window's array at its
    entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every grid point its current staging buffer holds the window's block, whether the point fetches
    it or not, for any proof data whose array is the entry contents (`hA`) and whose body leaves the block where it is
    (`hafter`). Where the window is not fetched its block index is the previous point's, so the block kept is the block due. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: at every grid point its current staging buffer holds the window's block, whether the point fetches
    it or not, for any proof data whose array is the entry contents (`hA`) and whose body leaves the block where it is
    (`hafter`). Where the window is not fetched its block index is the previous point's, so the block kept is the block due. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: at every grid point its current staging buffer holds the window's block, whether the point fetches
    it or not, for any proof data whose array is the entry contents (`hA`) and whose body leaves the block where it is
    (`hafter`). Where the window is not fetched its block index is the previous point's, so the block kept is the block due. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3: at every grid point its current staging buffer holds the window's block, whether the point fetches
    it or not, for any proof data whose array is the entry contents (`hA`) and whose body leaves the block where it is
    (`hafter`). Where the window is not fetched its block index is the previous point's, so the block kept is the block due. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4: at every grid point its current staging buffer holds the window's block, whether the point fetches
    it or not, for any proof data whose array is the entry contents (`hA`) and whose body leaves the block where it is
    (`hafter`). Where the window is not fetched its block index is the previous point's, so the block kept is the block due. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole staging buffer -/

abbrev r1_0 : Rect S256x1024 := Rect.unit (s := S256x1024) ![0, 0] S256x1024.size inb_S256x1024_S256x1024_0_0
abbrev r1_1 : Rect S1x256 := Rect.unit (s := S1x256) ![0, 0] S1x256.size inb_S1x256_S1x256_0_0
abbrev r1_2 : Rect S256x128 := Rect.unit (s := S256x128) ![0, 0] S256x128.size inb_S256x128_S256x128_0_0
abbrev r1_3 : Rect S1x2x128 := Rect.unit (s := S1x2x128) ![0, 0, 0] S1x2x128.size inb_S1x2x128_S1x2x128_0_0_0
abbrev r1_4 : Rect S1024x128 := Rect.unit (s := S1024x128) ![0, 0] S1024x128.size inb_S1024x128_S1024x128_0_0
abbrev r1_5 : Rect S256x512 := Rect.unit (s := S256x512) ![0, 0] S256x512.size inb_S256x512_S256x512_0_0

/-! ## What the body leaves in each output window's buffer -/

/-- Window 5 (h1) after the body: the one store's payload, the bf16 rounding of the product of the normalised,
    rectified, transposed activations with the first weight matrix. -/
def out1_5 (x0 : Vec F S256x1024 .f32) (x1 : Vec F S1x256 .f32) (x2 : Vec F S1x256 .f32) (x3 : Vec F S256x128 .bf16) (x4 : Vec F S256x512 .bf16) : Vec F S1024x128 .bf16 :=
  View.canon [⟨r1_4, k1_pay5 (View.ld x0 r1_0) (View.ld x1 r1_1) (View.ld x2 r1_1) (View.ld x3 r1_2)⟩]

/-- Window 6 (the shortcut) after the body: the bf16 rounding of the product of the selected activation rows with
    the second weight matrix. -/
def out1_6 (x0 : Vec F S256x1024 .f32) (x1 : Vec F S1x256 .f32) (x2 : Vec F S1x256 .f32) (x3 : Vec F S256x128 .bf16) (x4 : Vec F S256x512 .bf16) : Vec F S256x512 .bf16 :=
  View.canon [⟨r1_5, k1_pay1 (k1_pay6 (View.ld x0 r1_0) (View.ld x1 r1_1) (View.ld x2 r1_1) (View.ld x4 r1_5))⟩]

/-- Window 7 (the statistics) after the body: the column sums of the f32 product and of its square, stacked. -/
def out1_7 (x0 : Vec F S256x1024 .f32) (x1 : Vec F S1x256 .f32) (x2 : Vec F S1x256 .f32) (x3 : Vec F S256x128 .bf16) (x4 : Vec F S256x512 .bf16) : Vec F S1x2x128 .f32 :=
  View.canon [⟨r1_3, k1_pay4 (View.ld x0 r1_0) (View.ld x1 r1_1) (View.ld x2 r1_1) (View.ld x3 r1_2)⟩]

/-- One whole-buffer rectangle tiles the buffer, so every index lies in it. -/
theorem cover1_5 (p0 : Vec F S1024x128 .bf16) (y : S1024x128.Idx) :
    ∃ pc ∈ ([⟨r1_4, p0⟩] : List (View.Piece (Elt F) S1024x128 .bf16)), y ∈ pc.1.set :=
  View.cover_of_tiled [⟨r1_4, p0⟩] S1024x128.size (by rfl) y
theorem cover1_6 (p0 : Vec F S256x512 .bf16) (y : S256x512.Idx) :
    ∃ pc ∈ ([⟨r1_5, p0⟩] : List (View.Piece (Elt F) S256x512 .bf16)), y ∈ pc.1.set :=
  View.cover_of_tiled [⟨r1_5, p0⟩] S256x512.size (by rfl) y
theorem cover1_7 (p0 : Vec F S1x2x128 .f32) (y : S1x2x128.Idx) :
    ∃ pc ∈ ([⟨r1_3, p0⟩] : List (View.Piece (Elt F) S1x2x128 .f32)), y ∈ pc.1.set :=
  View.cover_of_tiled [⟨r1_3, p0⟩] S1x2x128.size (by rfl) y

/-! ## The body's triple -/

set_option maxHeartbeats 1000000 in
/-- The body on whole staging memrefs — the five inputs' holding `x0 … x4`, the three outputs' holding anything — runs
    to a state where the inputs' hold what they held and each output's holds `out1_W` of the inputs. The printed body
    and its part are their skeletons of loads and stores, which are stepped one by one; a buffer written by one
    whole-buffer store reads back as that store's payload. -/
theorem sound_kernel1 (c : Dev nD) (E : Set ℕ) (i : grid1.Coords) (arg1 : Memref sig .tc .vmem S256x1024 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .bf16) (harg4 : arg4.IsWhole) (arg5 : Memref sig .tc .vmem S256x512 .bf16) (harg5 : arg5.IsWhole) (arg6 : Memref sig .tc .vmem S1024x128 .bf16) (harg6 : arg6.IsWhole) (arg7 : Memref sig .tc .vmem S256x512 .bf16) (harg7 : arg7.IsWhole) (arg8 : Memref sig .tc .vmem S1x2x128 .f32) (harg8 : arg8.IsWhole)
    (x0 : Vec F S256x1024 .f32) (x1 : Vec F S1x256 .f32) (x2 : Vec F S1x256 .f32) (x3 : Vec F S256x128 .bf16) (x4 : Vec F S256x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4) ∗ owns (c : Thread nD τ) arg8 fullShare (out1_7 x0 x1 x2 x3 x4)) -∗ K ⟨⟩))
      ⊢ wp frame (wpE (defs₀ (F := F)) Variants.none c none) E (cc1__body i arg1 harg1 arg2 harg2 arg3 harg3 arg4 harg4 arg5 harg5 arg6 harg6 arg7 harg7 arg8 harg8) K := by
  simp only [cc1__body_eq_skeleton]; unfold cc1__body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover1_5 _)
  isplitl [H6]
  · iexists _; isplitr
    swap; · iexact H6
    ipureintro
    try dsimp only
    exact View.read_writes_eq_canon _ _ _ (cover1_6 _)
  iexists _; isplitr
  swap; · iexact H7
  ipureintro
  try dsimp only
  exact View.read_writes_eq_canon _ _ _ (cover1_7 _)

/-! ## The pipeline's proof data -/

/-- The proof data of pipeline 1 on core `c`: the arrays at the entry contents; after the body at point `t` each
    input's buffer still at its block and each output's at `out1_W` of the five input blocks; as invariant the scoped
    rest of the core and its generator register, which the body does not touch; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and the eight current staging
    buffers, each at what the pipeline has put in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns: the same, with each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies at those blocks; the
    invariant and the debts are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point: the product over the eight windows written out. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.R2.lean ====
import proofs.«130251_g2000005708365749_pallasbulk_1193_2_alg».proof.Proof.Gen.Kernel.Launch
import proofs.«130251_g2000005708365749_pallasbulk_1193_2_alg».proof.Proof.Gen.Kernel.Skeleton
import proofs.«130251_g2000005708365749_pallasbulk_1193_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

/-! # Region 2 of @main (custom_call 2, pipeline 2), at the entry contents `V`

The third pallas_call convolves a normalised, rectified activation with a 3×3 kernel. At every grid point the body
(i) rebuilds a zero-padded copy of the 32×32×128 activation tile in a 34×34×128 scratch buffer, (ii) reads the nine
shifted 32×32×128 windows of the padded tile, subsamples each to 16×16 and lays them side by side as a 256×1152
matrix, (iii) multiplies by the 1152×128 weights, and (iv) stores the product rounded and its column sums and column
sums of squares. The scratch buffer is rewritten completely before it is read, so what the body leaves in the two
output windows is a function of the four input blocks alone. -/

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of the window's array, as the region finds it (`V`), that the
    window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether the pipeline fetched it there
    or not: window 0's index moves with the point and it is fetched everywhere; windows 1, 2, 3 have a constant index
    map, are fetched at the first point only, and afterwards still hold the same block because the body leaves an
    input's buffer as it found it. Stated for ANY proof data whose array is `V`'s and whose body keeps the block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The four inputs are loaded whole, the two outputs stored whole. -/
abbrev r2_x0 : Rect S1024x128 := Rect.unit (s := S1024x128) ![0, 0] S1024x128.size inb_S1024x128_S1024x128_0_0
abbrev r2_x1 : Rect S1x128 := Rect.unit (s := S1x128) ![0, 0] S1x128.size inb_S1x128_S1x128_0_0
abbrev r2_x3 : Rect S1152x128 := Rect.unit (s := S1152x128) ![0, 0] S1152x128.size inb_S1152x128_S1152x128_0_0
abbrev r2_o4 : Rect S256x128 := Rect.unit (s := S256x128) ![0, 0] S256x128.size inb_S256x128_S256x128_0_0
abbrev r2_o5 : Rect S1x2x128 := Rect.unit (s := S1x2x128) ![0, 0, 0] S1x2x128.size inb_S1x2x128_S1x2x128_0_0_0

/-- The padded tile's five slices: its first and last row, its first and last column, and the 32×32 interior. -/
abbrev r2_top : Rect S34x34x128 := Rect.unit (s := S34x34x128) ![0, 0, 0] S1x34x128.size inb_S34x34x128_S1x34x128_0_0_0
abbrev r2_bot : Rect S34x34x128 := Rect.unit (s := S34x34x128) ![33, 0, 0] S1x34x128.size inb_S34x34x128_S1x34x128_33_0_0
abbrev r2_left : Rect S34x34x128 := Rect.unit (s := S34x34x128) ![0, 0, 0] S34x1x128.size inb_S34x34x128_S34x1x128_0_0_0
abbrev r2_right : Rect S34x34x128 := Rect.unit (s := S34x34x128) ![0, 33, 0] S34x1x128.size inb_S34x34x128_S34x1x128_0_33_0
abbrev r2_mid : Rect S34x34x128 := Rect.unit (s := S34x34x128) ![1, 1, 0] S32x32x128.size inb_S34x34x128_S32x32x128_1_1_0

/-- The nine 32×32×128 windows of the padded tile a 3×3 stencil reads: `r2_t⟨dy⟩⟨dx⟩` starts at row `dy`, column `dx`. -/
abbrev r2_t00 : Rect S34x34x128 := Rect.unit (s := S34x34x128) ![0, 0, 0] S32x32x128.size inb_S34x34x128_S32x32x128_0_0_0
abbrev r2_t01 : Rect S34x34x128 := Rect.unit (s := S34x34x128) ![0, 1, 0] S32x32x128.size inb_S34x34x128_S32x32x128_0_1_0
abbrev r2_t02 : Rect S34x34x128 := Rect.unit (s := S34x34x128) ![0, 2, 0] S32x32x128.size inb_S34x34x128_S32x32x128_0_2_0
abbrev r2_t10 : Rect S34x34x128 := Rect.unit (s := S34x34x128) ![1, 0, 0] S32x32x128.size inb_S34x34x128_S32x32x128_1_0_0
abbrev r2_t11 : Rect S34x34x128 := Rect.unit (s := S34x34x128) ![1, 1, 0] S32x32x128.size inb_S34x34x128_S32x32x128_1_1_0
abbrev r2_t12 : Rect S34x34x128 := Rect.unit (s := S34x34x128) ![1, 2, 0] S32x32x128.size inb_S34x34x128_S32x32x128_1_2_0
abbrev r2_t20 : Rect S34x34x128 := Rect.unit (s := S34x34x128) ![2, 0, 0] S32x32x128.size inb_S34x34x128_S32x32x128_2_0_0
abbrev r2_t21 : Rect S34x34x128 := Rect.unit (s := S34x34x128) ![2, 1, 0] S32x32x128.size inb_S34x34x128_S32x32x128_2_1_0
abbrev r2_t22 : Rect S34x34x128 := Rect.unit (s := S34x34x128) ![2, 2, 0] S32x32x128.size inb_S34x34x128_S32x32x128_2_2_0

/-! ## What the body leaves in each output window's buffer -/

/-- The activation tile: the input block scaled and shifted per channel, rectified, rounded to bf16 and read as
    32 rows of 32 pixels. -/
def act2 (x0 : Vec F S1024x128 .bf16) (x1 : Vec F S1x128 .f32) (x2 : Vec F S1x128 .f32) : Vec F S32x32x128 .bf16 :=
  k2_pay8 (k2_pay7 (View.ld x0 r2_x0) (View.ld x1 r2_x1) (View.ld x2 r2_x1))

/-- The padded tile: what the scratch buffer holds once the body has stored its two border rows, its two border
    columns (all zero) and the interior `a` — the five slice stores, LAST FIRST. It does not mention what the scratch
    held before: the five slices cover it. -/
def pad2 (a : Vec F S32x32x128 .bf16) : Vec F S34x34x128 .bf16 :=
  View.canon [⟨r2_mid, a⟩, ⟨r2_right, k2_pay6 (F := F)⟩, ⟨r2_left, k2_pay5 (F := F)⟩, ⟨r2_bot, k2_pay4 (F := F)⟩, ⟨r2_top, k2_pay3 (F := F)⟩]

/-- The product stored in window 4: the nine windows of the padded tile `p`, subsampled, side by side, times the
    weights `w`, rounded to bf16. -/
def conv2_4 (p : Vec F S34x34x128 .bf16) (w : Vec F S1152x128 .bf16) : Vec F S256x128 .bf16 :=
  k2_pay17 (k2_pay9 (View.ld p r2_t00)) (k2_pay10 (View.ld p r2_t01)) (k2_pay11 (View.ld p r2_t02)) (k2_pay12 (View.ld p r2_t10)) (k2_pay13 (View.ld p r2_t11)) (k2_pay14 (View.ld p r2_t12)) (View.ld p r2_t20) (View.ld p r2_t21) (View.ld p r2_t22) w

/-- The statistics stored in window 5: the product's column sums and column sums of squares. -/
def conv2_5 (p : Vec F S34x34x128 .bf16) (w : Vec F S1152x128 .bf16) : Vec F S1x2x128 .f32 :=
  k2_pay16 (k2_pay9 (View.ld p r2_t00)) (k2_pay10 (View.ld p r2_t01)) (k2_pay11 (View.ld p r2_t02)) (k2_pay12 (View.ld p r2_t10)) (k2_pay13 (View.ld p r2_t11)) (k2_pay14 (View.ld p r2_t12)) (View.ld p r2_t20) (View.ld p r2_t21) (View.ld p r2_t22) w

/-- Window 4's staging buffer after the body, from the input windows' blocks: its one store, of the whole block. -/
def out2_4 (x0 : Vec F S1024x128 .bf16) (x1 : Vec F S1x128 .f32) (x2 : Vec F S1x128 .f32) (x3 : Vec F S1152x128 .bf16) : Vec F S256x128 .bf16 :=
  View.canon [⟨r2_o4, conv2_4 (pad2 (act2 x0 x1 x2)) (View.ld x3 r2_x3)⟩]

/-- Window 5's staging buffer after the body, from the input windows' blocks: its one store, of the whole block. -/
def out2_5 (x0 : Vec F S1024x128 .bf16) (x1 : Vec F S1x128 .f32) (x2 : Vec F S1x128 .f32) (x3 : Vec F S1152x128 .bf16) : Vec F S1x2x128 .f32 :=
  View.canon [⟨r2_o5, conv2_5 (pad2 (act2 x0 x1 x2)) (View.ld x3 r2_x3)⟩]

/-- Each output's one store is of its whole block, so it covers it. -/
theorem cover2_4 (p0 : Vec F S256x128 .bf16) (y : S256x128.Idx) :
    ∃ pc ∈ ([⟨r2_o4, p0⟩] : List (View.Piece (Elt F) S256x128 .bf16)), y ∈ pc.1.set :=
  View.cover_of_tiled [⟨r2_o4, p0⟩] S256x128.size (by rfl) y
theorem cover2_5 (p0 : Vec F S1x2x128 .f32) (y : S1x2x128.Idx) :
    ∃ pc ∈ ([⟨r2_o5, p0⟩] : List (View.Piece (Elt F) S1x2x128 .f32)), y ∈ pc.1.set :=
  View.cover_of_tiled [⟨r2_o5, p0⟩] S1x2x128.size (by rfl) y

/-! ## The padded tile

Three of the five stores into the scratch buffer write bf16 rows that are only part of their 32-bit words, so the
machine performs each as a load of the enclosing words followed by a store of them with the new rows blended in. Such
a read-modify-write leaves the buffer exactly as a store of the new rows alone would: the other rows are written back
unchanged. -/

section ReadModifyWrite

variable {sig' : RefSig} {κ' : Kind} {sp' : Space} {s : Shape} {e : EltTy} {Val : EltTy → Type}

/-- Storing, through the unit-stride rectangle at `offW` of sizes `sizeW`, what the buffer holds there with the block at
    `start` of sizes `sizeN` replaced by `u`, leaves what storing `u` through the rectangle at `offW + start` of sizes
    `sizeN` leaves. Inside the small rectangle both write `u`; in the rest of the large one the first writes back what
    it read; outside both write nothing. -/
theorem writes_cons_updateSlice (v : View sig' κ' sp' s e) (f : v.ty.Contents Val) (L : List (View.Piece Val s e))
    (offW sizeW : Fin s.rank → ℕ) (inbW : ∀ a, offW a + sizeW a ≤ s.size a)
    (start sizeN : Fin s.rank → ℕ) (hs : (⟨s.rank, sizeW⟩ : Shape).Slices start ⟨s.rank, sizeN⟩)
    (offN : Fin s.rank → ℕ) (hoff : ∀ a, offN a = offW a + start a) (inbN : ∀ a, offN a + sizeN a ≤ s.size a)
    (u : (⟨s.rank, sizeN⟩ : Shape).Idx → Val e) :
    v.writes Val f ((⟨Rect.unit offW sizeW inbW,
        updateSlice (v.readAt Val (Rect.unit offW sizeW inbW).toLoadRect (v.writes Val f L)) u start hs⟩ : View.Piece Val s e) :: L)
      = v.writes Val f ((⟨Rect.unit offN sizeN inbN, u⟩ : View.Piece Val s e) :: L) := by
  have hfit : ∀ a, start a + sizeN a ≤ sizeW a := fun a => by
    have := hs.2 a; simpa [Fin.cast_eq_self] using this
  refine View.contents_ext v (fun y => ?_) (fun i hi => ?_)
  · rw [View.read_writes_cons_unit v f inbW _ L y rfl, View.read_writes_cons_unit v f inbN u L y rfl]
    by_cases hN : ∀ a, offN a ≤ (y a).val ∧ (y a).val < offN a + sizeN a
    · have hW : ∀ a, offW a ≤ (y a).val ∧ (y a).val < offW a + sizeW a := fun a => by
        have h1 := hN a; have h2 := hoff a; have h3 := hfit a; omega
      rw [dif_pos hW, dif_pos hN]
      unfold updateSlice
      rw [dif_pos (fun a => by
        have h1 := hN a; have h2 := hoff a
        simp only [Rect.unitLocal_val, Fin.cast_eq_self]
        show start a ≤ (y a).val - offW a ∧ (y a).val - offW a < start a + sizeN a
        omega)]
      refine congrArg u (funext fun b => Fin.ext ?_)
      have h1 := hN b; have h2 := hoff b
      show (y b).val - offW b - start b = (y b).val - offN b
      omega
    · rw [dif_neg hN]
      by_cases hW : ∀ a, offW a ≤ (y a).val ∧ (y a).val < offW a + sizeW a
      · rw [dif_pos hW]
        unfold updateSlice
        rw [dif_neg (fun hall => hN fun a => by
          have h1 := hall a; have h2 := hoff a; have h3 := hW a
          simp only [Rect.unitLocal_val, Fin.cast_eq_self] at h1
          have h1' : start a ≤ (y a).val - offW a ∧ (y a).val - offW a < start a + sizeN a := h1
          omega)]
        rw [View.readAt_apply]
        refine congrArg (v.read Val (v.writes Val f L)) (funext fun a => Fin.ext ?_)
        have h3 := hW a
        show offW a + 1 * ((y a).val - offW a) = (y a).val
        omega
      · rw [dif_neg hW]
  · rw [View.writes_apply_of_forall_ne v f _ hi, View.writes_apply_of_forall_ne v f _ hi]

end ReadModifyWrite

/-- The scratch buffer's writes as the machine performs them, LAST FIRST, over what the buffer `f` held through view `v`:
    the two border rows stored outright; then the first column, the last column and the interior `a`, each blended
    into the wider rectangle of whole words that holds it (columns 0–1, columns 32–33, rows 1–32 at every column),
    read from the buffer as the stores before it left it. -/
def padW2 : List (View.Piece (Elt F) S34x34x128 .bf16) :=
  [⟨r2_bot, k2_pay4 (F := F)⟩, ⟨r2_top, k2_pay3 (F := F)⟩]
def padW3 {sig' : RefSig} {κ' : Kind} {sp' : Space} (v : View sig' κ' sp' S34x34x128 .bf16) (f : v.ty.Contents (Elt F)) :
    List (View.Piece (Elt F) S34x34x128 .bf16) :=
  ⟨Rect.unit (s := S34x34x128) ![0, 0, 0] S34x2x128.size inb_S34x34x128_S34x2x128_0_0_0,
    updateSlice (v.readAt (Elt F) (Rect.unit (s := S34x34x128) ![0, 0, 0] S34x2x128.size inb_S34x34x128_S34x2x128_0_0_0).toLoadRect
      (v.writes (Elt F) f (padW2 (F := F)))) (k2_pay5 (F := F)) ![0, 0, 0] slices_S34x2x128_S34x1x128_0_0_0⟩ :: padW2
def padW4 {sig' : RefSig} {κ' : Kind} {sp' : Space} (v : View sig' κ' sp' S34x34x128 .bf16) (f : v.ty.Contents (Elt F)) :
    List (View.Piece (Elt F) S34x34x128 .bf16) :=
  ⟨Rect.unit (s := S34x34x128) ![0, 32, 0] S34x2x128.size inb_S34x34x128_S34x2x128_0_32_0,
    updateSlice (v.readAt (Elt F) (Rect.unit (s := S34x34x128) ![0, 32, 0] S34x2x128.size inb_S34x34x128_S34x2x128_0_32_0).toLoadRect
      (v.writes (Elt F) f (padW3 v f))) (k2_pay6 (F := F)) ![0, 1, 0] slices_S34x2x128_S34x1x128_0_1_0⟩ :: padW3 v f
def padW5 {sig' : RefSig} {κ' : Kind} {sp' : Space} (v : View sig' κ' sp' S34x34x128 .bf16) (f : v.ty.Contents (Elt F))
    (a : Vec F S32x32x128 .bf16) : List (View.Piece (Elt F) S34x34x128 .bf16) :=
  ⟨Rect.unit (s := S34x34x128) ![1, 0, 0] S32x34x128.size inb_S34x34x128_S32x34x128_1_0_0,
    updateSlice (v.readAt (Elt F) (Rect.unit (s := S34x34x128) ![1, 0, 0] S32x34x128.size inb_S34x34x128_S32x34x128_1_0_0).toLoadRect
      (v.writes (Elt F) f (padW4 v f))) a ![0, 1, 0] slices_S32x34x128_S32x32x128_0_1_0⟩ :: padW4 v f

/-- The five slice stores of `pad2`, LAST FIRST. -/
def padN (a : Vec F S32x32x128 .bf16) : List (View.Piece (Elt F) S34x34x128 .bf16) :=
  [⟨r2_mid, a⟩, ⟨r2_right, k2_pay6 (F := F)⟩, ⟨r2_left, k2_pay5 (F := F)⟩, ⟨r2_bot, k2_pay4 (F := F)⟩, ⟨r2_top, k2_pay3 (F := F)⟩]

theorem pad2_eq_canon (a : Vec F S32x32x128 .bf16) : pad2 a = View.canon (padN a) := rfl

/-- The buffer after the five stores as performed is the buffer after the five slice stores: each blended store is
    the store of its slice alone. -/
theorem writes_padW5 {sig' : RefSig} {κ' : Kind} {sp' : Space} (v : View sig' κ' sp' S34x34x128 .bf16) (f : v.ty.Contents (Elt F))
    (a : Vec F S32x32x128 .bf16) : v.writes (Elt F) f (padW5 v f a) = v.writes (Elt F) f (padN a) := by
  have e3 : v.writes (Elt F) f (padW3 v f) = v.writes (Elt F) f (⟨r2_left, k2_pay5 (F := F)⟩ :: padW2) :=
    writes_cons_updateSlice v f padW2 ![0, 0, 0] S34x2x128.size inb_S34x34x128_S34x2x128_0_0_0 ![0, 0, 0] S34x1x128.size
      slices_S34x2x128_S34x1x128_0_0_0 ![0, 0, 0] (by decide) inb_S34x34x128_S34x1x128_0_0_0 (k2_pay5 (F := F))
  have e4 : v.writes (Elt F) f (padW4 v f) = v.writes (Elt F) f (⟨r2_right, k2_pay6 (F := F)⟩ :: padW3 v f) :=
    writes_cons_updateSlice v f (padW3 v f) ![0, 32, 0] S34x2x128.size inb_S34x34x128_S34x2x128_0_32_0 ![0, 1, 0] S34x1x128.size
      slices_S34x2x128_S34x1x128_0_1_0 ![0, 33, 0] (by decide) inb_S34x34x128_S34x1x128_0_33_0 (k2_pay6 (F := F))
  have e5 : v.writes (Elt F) f (padW5 v f a) = v.writes (Elt F) f (⟨r2_mid, a⟩ :: padW4 v f) :=
    writes_cons_updateSlice v f (padW4 v f) ![1, 0, 0] S32x34x128.size inb_S34x34x128_S32x34x128_1_0_0 ![0, 1, 0] S32x32x128.size
      slices_S32x34x128_S32x32x128_0_1_0 ![1, 1, 0] (by decide) inb_S34x34x128_S32x32x128_1_1_0 a
  rw [e5, View.writes_cons, e4, View.writes_cons, e3]
  rfl

/-- Every index of the padded tile lies in one of the five slices: in the first or last row, else in the first or
    last column, else in the interior. -/
theorem cover_padN (a : Vec F S32x32x128 .bf16) (y : S34x34x128.Idx) : ∃ p ∈ padN a, y ∈ p.1.set := by
  have h0 : (y 0).val < 34 := (y 0).isLt
  have h1 : (y 1).val < 34 := (y 1).isLt
  have h2 : (y 2).val < 128 := (y 2).isLt
  by_cases ht : (y 0).val = 0
  · refine ⟨⟨r2_top, k2_pay3 (F := F)⟩, List.mem_cons_of_mem _ (List.mem_cons_of_mem _ (List.mem_cons_of_mem _ (List.mem_cons_of_mem _ List.mem_cons_self))), ?_⟩
    rw [Rect.mem_set_unit]; intro b
    match b with
    | ⟨0, _⟩ => show 0 ≤ (y 0).val ∧ (y 0).val < 0 + 1; omega
    | ⟨1, _⟩ => show 0 ≤ (y 1).val ∧ (y 1).val < 0 + 34; omega
    | ⟨2, _⟩ => show 0 ≤ (y 2).val ∧ (y 2).val < 0 + 128; omega
  by_cases hb : (y 0).val = 33
  · refine ⟨⟨r2_bot, k2_pay4 (F := F)⟩, List.mem_cons_of_mem _ (List.mem_cons_of_mem _ (List.mem_cons_of_mem _ List.mem_cons_self)), ?_⟩
    rw [Rect.mem_set_unit]; intro b
    match b with
    | ⟨0, _⟩ => show 33 ≤ (y 0).val ∧ (y 0).val < 33 + 1; omega
    | ⟨1, _⟩ => show 0 ≤ (y 1).val ∧ (y 1).val < 0 + 34; omega
    | ⟨2, _⟩ => show 0 ≤ (y 2).val ∧ (y 2).val < 0 + 128; omega
  by_cases hl : (y 1).val = 0
  · refine ⟨⟨r2_left, k2_pay5 (F := F)⟩, List.mem_cons_of_mem _ (List.mem_cons_of_mem _ List.mem_cons_self), ?_⟩
    rw [Rect.mem_set_unit]; intro b
    match b with
    | ⟨0, _⟩ => show 0 ≤ (y 0).val ∧ (y 0).val < 0 + 34; omega
    | ⟨1, _⟩ => show 0 ≤ (y 1).val ∧ (y 1).val < 0 + 1; omega
    | ⟨2, _⟩ => show 0 ≤ (y 2).val ∧ (y 2).val < 0 + 128; omega
  by_cases hr : (y 1).val = 33
  · refine ⟨⟨r2_right, k2_pay6 (F := F)⟩, List.mem_cons_of_mem _ List.mem_cons_self, ?_⟩
    rw [Rect.mem_set_unit]; intro b
    match b with
    | ⟨0, _⟩ => show 0 ≤ (y 0).val ∧ (y 0).val < 0 + 34; omega
    | ⟨1, _⟩ => show 33 ≤ (y 1).val ∧ (y 1).val < 33 + 1; omega
    | ⟨2, _⟩ => show 0 ≤ (y 2).val ∧ (y 2).val < 0 + 128; omega
  · refine ⟨⟨r2_mid, a⟩, List.mem_cons_self, ?_⟩
    rw [Rect.mem_set_unit]; intro b
    match b with
    | ⟨0, _⟩ => show 1 ≤ (y 0).val ∧ (y 0).val < 1 + 32; omega
    | ⟨1, _⟩ => show 1 ≤ (y 1).val ∧ (y 1).val < 1 + 32; omega
    | ⟨2, _⟩ => show 0 ≤ (y 2).val ∧ (y 2).val < 0 + 128; omega

/-- So the scratch buffer after the five stores as performed reads as the padded tile, whatever it held before. -/
theorem read_writes_padW5 {sig' : RefSig} {κ' : Kind} {sp' : Space} (v : View sig' κ' sp' S34x34x128 .bf16) (f : v.ty.Contents (Elt F))
    (a : Vec F S32x32x128 .bf16) : v.read (Elt F) (v.writes (Elt F) f (padW5 v f a)) = pad2 a := by
  rw [writes_padW5, pad2_eq_canon]
  exact View.read_writes_eq_canon v f (padN a) (cover_padN a)

/-- The rectangles of the stores as performed cover the buffer too: the border rows and rows 1–32. -/
theorem cover_padW5 {sig' : RefSig} {κ' : Kind} {sp' : Space} (v : View sig' κ' sp' S34x34x128 .bf16) (f : v.ty.Contents (Elt F))
    (a : Vec F S32x32x128 .bf16) (y : S34x34x128.Idx) : ∃ p ∈ padW5 v f a, y ∈ p.1.set := by
  have h0 : (y 0).val < 34 := (y 0).isLt
  have h1 : (y 1).val < 34 := (y 1).isLt
  have h2 : (y 2).val < 128 := (y 2).isLt
  by_cases ht : (y 0).val = 0
  · refine ⟨⟨r2_top, k2_pay3 (F := F)⟩, List.mem_cons_of_mem _ (List.mem_cons_of_mem _ (List.mem_cons_of_mem _ (List.mem_cons_of_mem _ List.mem_cons_self))), ?_⟩
    rw [Rect.mem_set_unit]; intro b
    match b with
    | ⟨0, _⟩ => show 0 ≤ (y 0).val ∧ (y 0).val < 0 + 1; omega
    | ⟨1, _⟩ => show 0 ≤ (y 1).val ∧ (y 1).val < 0 + 34; omega
    | ⟨2, _⟩ => show 0 ≤ (y 2).val ∧ (y 2).val < 0 + 128; omega
  by_cases hb : (y 0).val = 33
  · refine ⟨⟨r2_bot, k2_pay4 (F := F)⟩, List.mem_cons_of_mem _ (List.mem_cons_of_mem _ (List.mem_cons_of_mem _ List.mem_cons_self)), ?_⟩
    rw [Rect.mem_set_unit]; intro b
    match b with
    | ⟨0, _⟩ => show 33 ≤ (y 0).val ∧ (y 0).val < 33 + 1; omega
    | ⟨1, _⟩ => show 0 ≤ (y 1).val ∧ (y 1).val < 0 + 34; omega
    | ⟨2, _⟩ => show 0 ≤ (y 2).val ∧ (y 2).val < 0 + 128; omega
  · refine ⟨_, List.mem_cons_self, ?_⟩
    rw [Rect.mem_set_unit]; intro b
    match b with
    | ⟨0, _⟩ => show 1 ≤ (y 0).val ∧ (y 0).val < 1 + 32; omega
    | ⟨1, _⟩ => show 0 ≤ (y 1).val ∧ (y 1).val < 0 + 34; omega
    | ⟨2, _⟩ => show 0 ≤ (y 2).val ∧ (y 2).val < 0 + 128; omega

/-- A load of a rectangle of the scratch buffer after the five stores as performed reads the padded tile there: the
    stores cover the buffer, so the load does not see what it held before. -/
theorem readCov_padW5 {sig' : RefSig} {κ' : Kind} {sp' : Space} (v : View sig' κ' sp' S34x34x128 .bf16) (f : v.ty.Contents (Elt F))
    (a : Vec F S32x32x128 .bf16) (r : Rect S34x34x128) :
    v.readCov (padW5 v f a) r.toLoadRect = View.ld (pad2 a) r := by
  rw [← View.readAt_writes_of_cover v f (padW5 v f a) r.toLoadRect (fun j => cover_padW5 v f a _)]
  funext j
  rw [View.readAt_apply, read_writes_padW5]

/-! ## The body's triple -/

set_option maxHeartbeats 1000000 in
/-- The kernel body on whole staging memrefs and the whole scratch buffer — the inputs' at read contents `xW`, the
    outputs' and the scratch at anything — runs to the continuation holding the inputs' as they were, each output's at
    `out2_W` of the inputs', and the scratch at something. -/
theorem sound_kernel2 (c : Dev nD) (E : Set ℕ) (i : grid2.Coords) (arg1 : Memref sig .tc .vmem S1024x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S1152x128 .bf16) (harg4 : arg4.IsWhole) (arg5 : Memref sig .tc .vmem S256x128 .bf16) (harg5 : arg5.IsWhole) (arg6 : Memref sig .tc .vmem S1x2x128 .f32) (harg6 : arg6.IsWhole) (arg7 : Memref sig .tc .vmem S34x34x128 .bf16) (harg7 : arg7.IsWhole)
    (x0 : Vec F S1024x128 .bf16) (x1 : Vec F S1x128 .f32) (x2 : Vec F S1x128 .f32) (x3 : Vec F S1152x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)
            ∗ owns (c : Thread nD τ) arg6 fullShare (out2_5 x0 x1 x2 x3) ∗ (∃ d, owns (c : Thread nD τ) arg7 fullShare d)) -∗ K ⟨⟩))
      ⊢ wp frame (wpE (defs₀ (F := F)) Variants.none c none) E (cc2__body i arg1 harg1 arg2 harg2 arg3 harg3 arg4 harg4 arg5 harg5 arg6 harg6 arg7 harg7) K := by
  simp only [cc2__body_eq_skeleton]; unfold cc2__body_skel
  simp only [k2_part3_eq_skeleton]; unfold k2_part3_skel
  simp only [k2_part1_eq_skeleton, k2_part2_eq_skeleton]; unfold k2_part1_skel k2_part2_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  -- the nine windows the body loads from the scratch buffer, each a window of the padded activation tile
  have ev32 : sound_kernel2.sl.v32 c arg1 arg2 arg3 arg7 f1 f2 f3 f7
      = View.ld (pad2 (act2 (arg1.view.read (Elt F) f1) (arg2.view.read (Elt F) f2) (arg3.view.read (Elt F) f3))) r2_t00 :=
    readCov_padW5 arg7.view f7 _ r2_t00
  have ev39 : sound_kernel2.sl.v39 c arg1 arg2 arg3 arg7 f1 f2 f3 f7
      = View.ld (pad2 (act2 (arg1.view.read (Elt F) f1) (arg2.view.read (Elt F) f2) (arg3.view.read (Elt F) f3))) r2_t01 :=
    readCov_padW5 arg7.view f7 _ r2_t01
  have ev46 : sound_kernel2.sl.v46 c arg1 arg2 arg3 arg7 f1 f2 f3 f7
      = View.ld (pad2 (act2 (arg1.view.read (Elt F) f1) (arg2.view.read (Elt F) f2) (arg3.view.read (Elt F) f3))) r2_t02 :=
    readCov_padW5 arg7.view f7 _ r2_t02
  have ev53 : sound_kernel2.sl.v53 c arg1 arg2 arg3 arg7 f1 f2 f3 f7
      = View.ld (pad2 (act2 (arg1.view.read (Elt F) f1) (arg2.view.read (Elt F) f2) (arg3.view.read (Elt F) f3))) r2_t10 :=
    readCov_padW5 arg7.view f7 _ r2_t10
  have ev60 : sound_kernel2.sl.v60 c arg1 arg2 arg3 arg7 f1 f2 f3 f7
      = View.ld (pad2 (act2 (arg1.view.read (Elt F) f1) (arg2.view.read (Elt F) f2) (arg3.view.read (Elt F) f3))) r2_t11 :=
    readCov_padW5 arg7.view f7 _ r2_t11
  have ev67 : sound_kernel2.sl.v67 c arg1 arg2 arg3 arg7 f1 f2 f3 f7
      = View.ld (pad2 (act2 (arg1.view.read (Elt F) f1) (arg2.view.read (Elt F) f2) (arg3.view.read (Elt F) f3))) r2_t12 :=
    readCov_padW5 arg7.view f7 _ r2_t12
  have ev74 : sound_kernel2.sl.v74 c arg1 arg2 arg3 arg7 f1 f2 f3 f7
      = View.ld (pad2 (act2 (arg1.view.read (Elt F) f1) (arg2.view.read (Elt F) f2) (arg3.view.read (Elt F) f3))) r2_t20 :=
    readCov_padW5 arg7.view f7 _ r2_t20
  have ev81 : sound_kernel2.sl.v81 c arg1 arg2 arg3 arg7 f1 f2 f3 f7
      = View.ld (pad2 (act2 (arg1.view.read (Elt F) f1) (arg2.view.read (Elt F) f2) (arg3.view.read (Elt F) f3))) r2_t21 :=
    readCov_padW5 arg7.view f7 _ r2_t21
  have ev88 : sound_kernel2.sl.v88 c arg1 arg2 arg3 arg7 f1 f2 f3 f7
      = View.ld (pad2 (act2 (arg1.view.read (Elt F) f1) (arg2.view.read (Elt F) f2) (arg3.view.read (Elt F) f3))) r2_t22 :=
    readCov_padW5 arg7.view f7 _ r2_t22
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover2_4 _)).trans ?_
    dsimp only
    rw [ev32, ev39, ev46, ev53, ev60, ev67, ev74, ev81, ev88]
    rfl
  isplitl [H6]
  · iexists _; isplitr
    swap; · iexact H6
    ipureintro
    refine (View.read_writes_eq_canon _ _ _ (cover2_5 _)).trans ?_
    dsimp only
    rw [ev32, ev39, ev46, ev53, ev60, ev67, ev74, ev81, ev88]
    rfl
  iexists _, _; isplitr
  swap; · iexact H7
  ipureintro; rfl

/-! ## The pipeline's proof data -/

/-- The proof data of pipeline 2 on core `c`: the arrays as the region finds them; after the body at point `t` each
    input's buffer at its block and each output's at `out2_W` of the four input blocks; the invariant is the scoped
    rest (the scratch buffer among it, at anything) and the generator register, handed on unchanged; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`: the invariant, the core's debts, and every window's current staging
    buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, the scratch buffer is taken out of the scoped rest
    at whatever it holds and put back at whatever the body leaves, so `sound_kernel2` applies; the rest of the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  rw [show (dat2 V c).Φ t.castSucc = Pipeline.ΦA (Val := Elt F) (U := UR sig nD τ) spec2 c from rfl]
  unfold Pipeline.ΦA
  -- the scratch buffer, whole at some contents, beside the rest of the scoped buffers
  rw [scopedRest2_split,
    show (iprop(∃ f : Buf (Elt F) ((c : Thread nD τ).loc cc2_scratch0), ((c : Thread nD τ).loc cc2_scratch0) ↦{fullShare} f) : sProp 𝕄)
      = iprop(∃ f, owns (c : Thread nD τ) (Memref.whole cc2_scratch0) fullShare f) from by simp only [owns_whole]]
  iintro ⟨⟨⟨⟨%fs, HS⟩, HR⟩, Hg⟩, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexists fs; iexact HS
  iintro ⟨H0, H1, H2, H3, H4, H5, ⟨%ds, HS⟩⟩
  isplitl [HS HR Hg]
  · isplitl [HS HR]
    · isplitl [HS]
      · iexists ds; iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame
-- ==== Proof.K.R3.lean ====
/-
  Region 3 of @main (the fourth pallas_call, pipeline 3) of `Kernel`, at a parameter `V`: the contents of the
  TensorCore's buffers when the region is entered.

  The body of this region reads five input blocks — an activation block `h`, a shortcut block `s`, a scale row
  `a`, a shift row `b` and a weight matrix `w` — and stores ONE value into its output block: the transpose of
  `relu(h · a + b) ⬝ w + s` (the affine map and the rectifier taken elementwise in the wide format, the product
  rounded to the narrow one before the matrix product). Nothing is carried from one grid point to the next and the
  single store covers the whole output block, so what the body leaves in the output block is a closed function
  of the five input blocks at the point: `out3_5`. This file states that function, proves the body's triple
  against it (`sound_kernel3`), packages the proof data of the pipeline (`dat3`) and discharges the library's
  body obligation at every grid point (`body_obligation3`).
-/
import proofs.«130251_g2000005708365749_pallasbulk_1193_2_alg».proof.Proof.Gen.Kernel.Launch
import proofs.«130251_g2000005708365749_pallasbulk_1193_2_alg».proof.Proof.Gen.Kernel.Skeleton
import proofs.«130251_g2000005708365749_pallasbulk_1193_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of these extents lies in its buffer recurses once per coordinate of the long axis
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the TensorCore's buffers hold when region 3 is entered: every statement below is made at this parameter
variable (V : (c : Dev nD) → (b : Ref sig .tc) → Buf (Elt F) ((c : Thread nD τ).loc b))

/-! ## The blocks of the windows -/

/-- The block of window `w` at grid point `t`: the window's rectangle at that point, read off the window's array
    as it stands at the region's entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is the whole of its block -/

abbrev r3_0 : Rect S256x128 := Rect.unit (s := S256x128) ![0, 0] S256x128.size inb_S256x128_S256x128_0_0
abbrev r3_1 : Rect S256x512 := Rect.unit (s := S256x512) ![0, 0] S256x512.size inb_S256x512_S256x512_0_0
abbrev r3_2 : Rect S1x128 := Rect.unit (s := S1x128) ![0, 0] S1x128.size inb_S1x128_S1x128_0_0
abbrev r3_3 : Rect S1x128 := Rect.unit (s := S1x128) ![0, 0] S1x128.size inb_S1x128_S1x128_0_0
abbrev r3_4 : Rect S128x512 := Rect.unit (s := S128x512) ![0, 0] S128x512.size inb_S128x512_S128x512_0_0
abbrev r3_5 : Rect S512x256 := Rect.unit (s := S512x256) ![0, 0] S512x256.size inb_S512x256_S512x256_0_0

/-! ## The output block after the body -/

/-- What the body leaves in the output window's staging buffer, as a function of the five input blocks
    (`x0` activations, `x1` shortcut, `x2` scale row, `x3` shift row, `x4` weights): the contents a single
    write of the store's value through the whole-block rectangle leaves. The value is the body's one payload,
    read at what the loads see of the input blocks. -/
def out3_5 (x0 : Vec F S256x128 .bf16) (x1 : Vec F S256x512 .bf16) (x2 : Vec F S1x128 .f32) (x3 : Vec F S1x128 .f32) (x4 : Vec F S128x512 .bf16) : Vec F S512x256 .f32 :=
  View.canon [⟨r3_5, k3_pay1 (View.ld x0 r3_0) (View.ld x2 r3_2) (View.ld x3 r3_3) (View.ld x4 r3_4) (View.ld x1 r3_1)⟩]

/-- The one store is of the whole block, so every index of the block lies in its rectangle: one block of the
    block's own extents tiles the shape, which evaluation checks. -/
theorem cover3_5 (p0 : Vec F S512x256 .f32) (y : S512x256.Idx) :
    ∃ pc ∈ ([⟨r3_5, p0⟩] : List (View.Piece (Elt F) S512x256 .f32)), y ∈ pc.1.set :=
  View.cover_of_tiled [⟨r3_5, p0⟩] S512x256.size (by rfl) y

/-! ## The triple of the body -/

set_option maxHeartbeats 1000000 in
/-- The body on whole staging memrefs. Given the five inputs' memrefs at read contents `x0 … x4` and the
    output's memref at any contents, it runs to a continuation that is handed the inputs' memrefs unchanged and
    the output's at `out3_5 x0 x1 x2 x3 x4`. The printed function equals its skeleton of memory operations over
    the payload; symbolic execution runs the six loads and the store; the stored contents, read back through the
    memref's view, are the canonical contents of the write list because the store covers the block. -/
theorem sound_kernel3 (c : Dev nD) (E : Set ℕ) (i : grid3.Coords)
    (arg1 : Memref sig .tc .vmem S256x128 .bf16) (harg1 : arg1.IsWhole) (arg2 : Memref sig .tc .vmem S256x512 .bf16) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S128x512 .bf16) (harg5 : arg5.IsWhole) (arg6 : Memref sig .tc .vmem S512x256 .f32) (harg6 : arg6.IsWhole)
    (x0 : Vec F S256x128 .bf16) (x1 : Vec F S256x512 .bf16) (x2 : Vec F S1x128 .f32) (x3 : Vec F S1x128 .f32) (x4 : Vec F S128x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__stage3_kernel i arg1 harg1 arg2 harg2 arg3 harg3 arg4 harg4 arg5 harg5 arg6 harg6) K := by
  simp only [cc3__stage3_kernel_eq_skeleton]; unfold cc3__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The proof data of the pipeline -/

/-- The proof data of pipeline 3 on core `c`. The arrays are the region-entry contents. After the body at point
    `t` every input's staging buffer still holds its block and the output's holds `out3_5` of the five input
    blocks at `t`. The invariant is the one of bodies that touch nothing but their windows (the scoped rest and the
    generator register pass through); nothing is owed; every share is full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The arrays of the proof data are the region-entry contents: a projection of the definition, so `V` itself is
    never unfolded. -/
theorem A_eq3 (c : Dev nD) (w : Fin cfg3.W) : (dat3 V c).A w = V c (Pipeline.arrRef spec3 w) := by
  dsimp only [dat3]

/-- What the body leaves, window by window: the `match` of the definition reduced at each literal index. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Every input's current staging buffer holds its block at every point, whether the pipeline fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a generic point -/

/-- The resources the body is called with at point `t`: the invariant, the core's debts, and per window its
    current staging memref at what the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- The resources it returns: the same invariant and debts one point later, and per window its staging memref at
    what the proof data say the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point `t`. The inputs' memrefs hold the blocks at `t`, so the body's triple applies at those
    blocks; the invariant and the debts do not depend on the point and pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation: the separating conjunction over the six windows written out, then the triple
    above at each point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.K.Run.lean ====
/-
  The run of the whole program: @main is five stretches of host operations with the four kernel regions between them.
  The buffers' contents at each boundary are a fold from the launch memory: a host stretch applies its operations, a
  region replaces its windows' arrays by what its write-backs leave. Every weakly fair execution terminates with every
  unscoped buffer at the last boundary's contents; the frame and the value statements are read off that.
-/
import proofs.«130251_g2000005708365749_pallasbulk_1193_2_alg».proof.Proof.K.R0
import proofs.«130251_g2000005708365749_pallasbulk_1193_2_alg».proof.Proof.K.R1
import proofs.«130251_g2000005708365749_pallasbulk_1193_2_alg».proof.Proof.K.R2
import proofs.«130251_g2000005708365749_pallasbulk_1193_2_alg».proof.Proof.K.R3
import proofs.«130251_g2000005708365749_pallasbulk_1193_2_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev T1 : (c : Dev nD) → (b : Ref sig .tc) → Buf (Elt F) ((c : Thread nD τ).loc b) := fun c b => W1 m ρ c b

/-- Region 0's exit: its arrays at what the write-backs leave, every other buffer as entered. -/
def W2 (c : Dev nD) : Valuation τ sig (Elt F) :=
  Pipeline.withArrays spec0 c (W1 m ρ c) fun w => (dat0 (T1 m ρ) c).arrAt w cfg0.N
theorem W2_arr (c : Dev nD) (w : Fin cfg0.W) :
    W2 m ρ c (Proc.devRef .tc (Pipeline.arrRef spec0 w)) = (dat0 (T1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev T2 : (c : Dev nD) → (b : Ref sig .tc) → Buf (Elt F) ((c : Thread nD τ).loc b) := fun c b => W2 m ρ c b
theorem hF0 (c : Dev nD) (w : Fin cfg0.W) : (dat0 (T1 m ρ) c).arrAt w cfg0.N = T2 m ρ c (Pipeline.arrRef spec0 w) :=
  (W2_arr m ρ c w).symm
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (T1 m ρ) c).arrAt_in w hin _).trans (A_eq0 (T1 m ρ) c w))
theorem hrest0 (c : Dev nD) : ∀ b, b ∉ Finset.univ.image (Pipeline.arrRef spec0) → T2 m ρ c b = T1 m ρ c b :=
  fun b hb => W2_of_ne m ρ c b fun w e => hb (Finset.mem_image.mpr ⟨w, Finset.mem_univ _, e⟩)

/-- After the host stretch that follows region 0. -/
abbrev W3 : Dev nD → Valuation τ sig (Elt F) := fun c => StableHlo.after hostOps1 (W2 m ρ c)
abbrev T3 : (c : Dev nD) → (b : Ref sig .tc) → Buf (Elt F) ((c : Thread nD τ).loc b) := fun c b => W3 m ρ c b

/-- Region 1's exit: its arrays at what the write-backs leave, every other buffer as entered. -/
def W4 (c : Dev nD) : Valuation τ sig (Elt F) :=
  Pipeline.withArrays spec1 c (W3 m ρ c) fun w => (dat1 (T3 m ρ) c).arrAt w cfg1.N
theorem W4_arr (c : Dev nD) (w : Fin cfg1.W) :
    W4 m ρ c (Proc.devRef .tc (Pipeline.arrRef spec1 w)) = (dat1 (T3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev T4 : (c : Dev nD) → (b : Ref sig .tc) → Buf (Elt F) ((c : Thread nD τ).loc b) := fun c b => W4 m ρ c b
theorem hF1 (c : Dev nD) (w : Fin cfg1.W) : (dat1 (T3 m ρ) c).arrAt w cfg1.N = T4 m ρ c (Pipeline.arrRef spec1 w) :=
  (W4_arr m ρ c w).symm
/-- An input window's array leaves region 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (T3 m ρ) c).arrAt_in w hin _).trans (A_eq1 (T3 m ρ) c w))
theorem hrest1 (c : Dev nD) : ∀ b, b ∉ Finset.univ.image (Pipeline.arrRef spec1) → T4 m ρ c b = T3 m ρ c b :=
  fun b hb => W4_of_ne m ρ c b fun w e => hb (Finset.mem_image.mpr ⟨w, Finset.mem_univ _, e⟩)

/-- After the host stretch that follows region 1. -/
abbrev W5 : Dev nD → Valuation τ sig (Elt F) := fun c => StableHlo.after hostOps2 (W4 m ρ c)
abbrev T5 : (c : Dev nD) → (b : Ref sig .tc) → Buf (Elt F) ((c : Thread nD τ).loc b) := fun c b => W5 m ρ c b

/-- Region 2's exit: its arrays at what the write-backs leave, every other buffer as entered. -/
def W6 (c : Dev nD) : Valuation τ sig (Elt F) :=
  Pipeline.withArrays spec2 c (W5 m ρ c) fun w => (dat2 (T5 m ρ) c).arrAt w cfg2.N
theorem W6_arr (c : Dev nD) (w : Fin cfg2.W) :
    W6 m ρ c (Proc.devRef .tc (Pipeline.arrRef spec2 w)) = (dat2 (T5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev T6 : (c : Dev nD) → (b : Ref sig .tc) → Buf (Elt F) ((c : Thread nD τ).loc b) := fun c b => W6 m ρ c b
theorem hF2 (c : Dev nD) (w : Fin cfg2.W) : (dat2 (T5 m ρ) c).arrAt w cfg2.N = T6 m ρ c (Pipeline.arrRef spec2 w) :=
  (W6_arr m ρ c w).symm
/-- An input window's array leaves region 2 as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (T5 m ρ) c).arrAt_in w hin _).trans (A_eq2 (T5 m ρ) c w))
theorem hrest2 (c : Dev nD) : ∀ b, b ∉ Finset.univ.image (Pipeline.arrRef spec2) → T6 m ρ c b = T5 m ρ c b :=
  fun b hb => W6_of_ne m ρ c b fun w e => hb (Finset.mem_image.mpr ⟨w, Finset.mem_univ _, e⟩)

/-- After the host stretch that follows region 2. -/
abbrev W7 : Dev nD → Valuation τ sig (Elt F) := fun c => StableHlo.after hostOps3 (W6 m ρ c)
abbrev T7 : (c : Dev nD) → (b : Ref sig .tc) → Buf (Elt F) ((c : Thread nD τ).loc b) := fun c b => W7 m ρ c b

/-- Region 3's exit: its arrays at what the write-backs leave, every other buffer as entered. -/
def W8 (c : Dev nD) : Valuation τ sig (Elt F) :=
  Pipeline.withArrays spec3 c (W7 m ρ c) fun w => (dat3 (T7 m ρ) c).arrAt w cfg3.N
theorem W8_arr (c : Dev nD) (w : Fin cfg3.W) :
    W8 m ρ c (Proc.devRef .tc (Pipeline.arrRef spec3 w)) = (dat3 (T7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev T8 : (c : Dev nD) → (b : Ref sig .tc) → Buf (Elt F) ((c : Thread nD τ).loc b) := fun c b => W8 m ρ c b
theorem hF3 (c : Dev nD) (w : Fin cfg3.W) : (dat3 (T7 m ρ) c).arrAt w cfg3.N = T8 m ρ c (Pipeline.arrRef spec3 w) :=
  (W8_arr m ρ c w).symm
/-- An input window's array leaves region 3 as it entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (T7 m ρ) c).arrAt_in w hin _).trans (A_eq3 (T7 m ρ) c w))
theorem hrest3 (c : Dev nD) : ∀ b, b ∉ Finset.univ.image (Pipeline.arrRef spec3) → T8 m ρ c b = T7 m ρ c b :=
  fun b hb => W8_of_ne m ρ c b fun w e => hb (Finset.mem_image.mpr ⟨w, Finset.mem_univ _, e⟩)

/-- After the host stretch that follows region 3. -/
abbrev W9 : Dev nD → Valuation τ sig (Elt F) := fun c => StableHlo.after hostOps4 (W8 m ρ c)
abbrev T9 : (c : Dev nD) → (b : Ref sig .tc) → Buf (Elt F) ((c : Thread nD τ).loc b) := fun c b => W9 m ρ c b

/-! ## A buffer that no host operation writes and that every region leaves as entered ends as launched -/

theorem W9_of (c : Dev nD) (b : Ref sig .tc) (h0 : b ∉ hostOps0_W) (h1 : b ∉ hostOps1_W) (h2 : b ∉ hostOps2_W) (h3 : b ∉ hostOps3_W) (h4 : b ∉ hostOps4_W)
    (a0 : W2 m ρ c (Proc.devRef .tc b) = W1 m ρ c (Proc.devRef .tc b)) (a1 : W4 m ρ c (Proc.devRef .tc b) = W3 m ρ c (Proc.devRef .tc b))
    (a2 : W6 m ρ c (Proc.devRef .tc b) = W5 m ρ c (Proc.devRef .tc b)) (a3 : W8 m ρ c (Proc.devRef .tc b) = W7 m ρ c (Proc.devRef .tc b)) :
    W9 m ρ c (Proc.devRef .tc b) = m ((c : Thread nD τ).loc b) :=
  calc W9 m ρ c (Proc.devRef .tc b)
    _ = W8 m ρ c (Proc.devRef .tc b) := StableHlo.after_of_writes_sub hostOps4 _ hostOps4_writes h4
    _ = W7 m ρ c (Proc.devRef .tc b) := a3
    _ = W6 m ρ c (Proc.devRef .tc b) := StableHlo.after_of_writes_sub hostOps3 _ hostOps3_writes h3
    _ = W5 m ρ c (Proc.devRef .tc b) := a2
    _ = W4 m ρ c (Proc.devRef .tc b) := StableHlo.after_of_writes_sub hostOps2 _ hostOps2_writes h2
    _ = W3 m ρ c (Proc.devRef .tc b) := a1
    _ = W2 m ρ c (Proc.devRef .tc b) := StableHlo.after_of_writes_sub hostOps1 _ hostOps1_writes h1
    _ = W1 m ρ c (Proc.devRef .tc b) := a0
    _ = W0 m ρ c (Proc.devRef .tc b) := StableHlo.after_of_writes_sub hostOps0 _ hostOps0_writes h0
    _ = m ((c : Thread nD τ).loc b) := rfl

/-! ## The proof data family and the thread state -/

abbrev adm4 : (p : Fin 4) → (pcfgs (F := F) p).Adm := fun p => (cfgs p).toPCfg_adm
/-- Every pipeline's proof data at its region's entry contents. -/
def pdats : (p : Fin 4) → (c : Dev nD) → Dat τ (Elt F) Unit ℕ (UR sig nD τ) ℕ (Pipeline.pin (pcfgs (F := F)) adm4 p) c
  | ⟨0, _⟩ => fun c => dat0 (T1 m ρ) c
  | ⟨1, _⟩ => fun c => dat1 (T3 m ρ) c
  | ⟨2, _⟩ => fun c => dat2 (T5 m ρ) c
  | ⟨3, _⟩ => fun c => dat3 (T7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 as a segment: entered with every unscoped buffer at W1, left with them at W2. Its arrays are split out of
    the unscoped buffers and put back at their exit contents; the generator register goes into the kernel's invariant and
    comes back; nothing is owed; the kernel has no semaphore of its own. -/
def reg0 : Pipeline.RegionSeg (pcfgs (F := F)) adm4 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm4 (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm4 (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at W3, left with them at W4. Its arrays are split out of
    the unscoped buffers and put back at their exit contents; the generator register goes into the kernel's invariant and
    comes back; nothing is owed; the kernel has no semaphore of its own. -/
def reg1 : Pipeline.RegionSeg (pcfgs (F := F)) adm4 (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) adm4 (pdats m ρ) launch1.win launch1.arr_whole c
      ((pdats m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm4 (Ix := Unit) (Name := ℕ) (U := UR sig nD τ) (Lvl := ℕ)
      launch1.win launch1.arr_whole c (pdats m ρ) ((pdats m ρ 1 c).share_full fun _ => rfl)
      (T3 m ρ c) (T4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at W5, left with them at W6. Its arrays are split out of
    the unscoped buffers and put back at their exit contents; the generator register goes into the kernel's invariant and
    comes back; nothing is owed; the kernel has no semaphore of its own. -/
def reg2 : Pipeline.RegionSeg (pcfgs (F := F)) adm4 (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (T5 m ρ c)
  hentry c := by
    rw [Pipeline.ownSems0_none]
    have hsplit := Pipeline.arrays_of_unscopedBufs (p := 2) (pcfgs (F := F)) adm4 (pdats m ρ) launch2.win launch2.arr_whole c
      ((pdats m ρ 2 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm4 (Ix := Unit) (Name := ℕ) (U := UR sig nD τ) (Lvl := ℕ)
      launch2.win launch2.arr_whole c (pdats m ρ) ((pdats m ρ 2 c).share_full fun _ => rfl)
      (T5 m ρ c) (T6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at W7, left with them at W8. Its arrays are split out of
    the unscoped buffers and put back at their exit contents; the generator register goes into the kernel's invariant and
    comes back; nothing is owed; the kernel has no semaphore of its own. -/
def reg3 : Pipeline.RegionSeg (pcfgs (F := F)) adm4 (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (T7 m ρ c)
  hentry c := by
    rw [Pipeline.ownSems0_none]
    have hsplit := Pipeline.arrays_of_unscopedBufs (p := 3) (pcfgs (F := F)) adm4 (pdats m ρ) launch3.win launch3.arr_whole c
      ((pdats m ρ 3 c).share_full fun _ => rfl) (T7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm4 (Ix := Unit) (Name := ℕ) (U := UR sig nD τ) (Lvl := ℕ)
      launch3.win launch3.arr_whole c (pdats m ρ) ((pdats m ρ 3 c).share_full fun _ => rfl)
      (T7 m ρ c) (T8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsAll : List (Pipeline.Seg (pcfgs (F := F)) adm4 (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

set_option backward.isDefEq.respectTransparency.types false in
/-- Every weakly fair execution of @main from memory m with zero counters terminates, nothing faulting, with every
    unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm4 (pdats m ρ) () cellOf_inj emb₁ defs₀ 𝒱₀ L lv m ρ main (segsAll m ρ)
    (fun c Q => by
      rewrite [main_chain c, Pipeline.Seg.run_eq_chain,
        show (segsAll m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-! ## The arguments end as launched; the result is read off the last boundary -/

theorem W9_kept (c : Dev nD) (b : Ref sig .tc) (h0 : b ∉ hostOps0_W) (h1 : b ∉ hostOps1_W) (h2 : b ∉ hostOps2_W) (h3 : b ∉ hostOps3_W) (h4 : b ∉ hostOps4_W)
    (a0 : ∀ w, Pipeline.arrRef spec0 w ≠ b) (a1 : ∀ w, Pipeline.arrRef spec1 w ≠ b) (a2 : ∀ w, Pipeline.arrRef spec2 w ≠ b) (a3 : ∀ w, Pipeline.arrRef spec3 w ≠ b) :
    W9 m ρ c (Proc.devRef .tc b) = m ((c : Thread nD τ).loc b) :=
  W9_of m ρ c b h0 h1 h2 h3 h4 (W2_of_ne m ρ c b a0) (W4_of_ne m ρ c b a1) (W6_of_ne m ρ c b a2) (W8_of_ne m ρ c b a3)
theorem W9_main_arg0 (c : Dev nD) : W9 m ρ c (Proc.devRef .tc main_arg0) = m ((c : Thread nD τ).loc main_arg0) :=
  W9_kept m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_kept m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_kept m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_kept m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_kept m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_kept m ρ c main_arg5 (by decide) (by decide) (by decide) (by decide) (by decide) (by decide) (by decide) (by decide) (by decide)
theorem W9_main_arg6 (c : Dev nD) : W9 m ρ c (Proc.devRef .tc main_arg6) = m ((c : Thread nD τ).loc main_arg6) :=
  W9_kept m ρ c main_arg6 (by decide) (by decide) (by decide) (by decide) (by decide) (by decide) (by decide) (by decide) (by decide)
theorem W9_main_arg7 (c : Dev nD) : W9 m ρ c (Proc.devRef .tc main_arg7) = m ((c : Thread nD τ).loc main_arg7) :=
  W9_kept m ρ c main_arg7 (by decide) (by decide) (by decide) (by decide) (by decide) (by decide) (by decide) (by decide) (by decide)
theorem W9_main_arg8 (c : Dev nD) : W9 m ρ c (Proc.devRef .tc main_arg8) = m ((c : Thread nD τ).loc main_arg8) :=
  W9_kept m ρ c main_arg8 (by decide) (by decide) (by decide) (by decide) (by decide) (by decide) (by decide) (by decide) (by decide)
theorem W9_main_arg9 (c : Dev nD) : W9 m ρ c (Proc.devRef .tc main_arg9) = m ((c : Thread nD τ).loc main_arg9) :=
  W9_kept m ρ c main_arg9 (by decide) (by decide) (by decide) (by decide) (by decide) (by decide) (by decide) (by decide) (by decide)
theorem W9_main_arg10 (c : Dev nD) : W9 m ρ c (Proc.devRef .tc main_arg10) = m ((c : Thread nD τ).loc main_arg10) :=
  W9_kept m ρ c main_arg10 (by decide) (by decide) (by decide) (by decide) (by decide) (by decide) (by decide) (by decide) (by decide)
/-- The frame: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c)⟩) (run m ρ)

/-- The same run with the result named: the result buffer ends at the last boundary's contents. -/
theorem run_v0 : θ_run defs (onTc (τ := τ) (main (F := F))) ⟨m, fun _ => 0, ρ⟩ (fun r => ∀ c : Dev nD,
      r.2.mem ((c.tc : Thread nD τ).loc main_v0) = W9 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v0 (by decide)),
    (h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c)⟩) (run m ρ)

end Cert.Kernel.Frame

end
-- ==== Proof.KI.R0.lean ====
/-
  Region 0: the per-image statistics pass. At grid point n the body reads image n's block of the
  input array and writes, into row n of the [32, 2, 256] result, the per-channel sum and the per-channel sum of
  squares of that block. Stated at a parameter V, the core's buffer contents when the region is entered.
-/
import proofs.«130251_g2000005708365749_pallasbulk_1193_2_alg».proof.Proof.Gen.KernelIdeal.Launch
import proofs.«130251_g2000005708365749_pallasbulk_1193_2_alg».proof.Proof.Gen.KernelIdeal.Skeleton
import proofs.«130251_g2000005708365749_pallasbulk_1193_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over V's arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole result row. -/
abbrev r0_in : Rect S256x1024 := Rect.unit (s := S256x1024) ![0, 0] S256x1024.size inb_S256x1024_S256x1024_0_0
abbrev r0_out : Rect S1x2x256 := Rect.unit (s := S1x2x256) ![0, 0, 0] S1x2x256.size inb_S1x2x256_S1x2x256_0_0_0

/-- What the body leaves in the result row: its one store, the statistics of the block it loaded. -/
def out0_1 (x0 : Vec F S256x1024 .f32) : Vec F S1x2x256 .f32 :=
  View.canon [⟨r0_out, k0_pay1 (View.ld x0 r0_in)⟩]

/-- That store covers the row. -/
theorem cover0_1 (p0 : Vec F S1x2x256 .f32) (y : S1x2x256.Idx) :
    ∃ pc ∈ ([⟨r0_out, p0⟩] : List (View.Piece (Elt F) S1x2x256 .f32)), y ∈ pc.1.set :=
  View.cover_of_tiled [⟨r0_out, p0⟩] S1x2x256.size (by rfl) y

set_option maxHeartbeats 1000000 in
/-- The body on whole staging memrefs: the input's contents stay, the result row ends at out0_1 of them. -/
theorem sound_kernel0 (c : Dev nD) (E : Set ℕ) (i : grid0.Coords) (arg0 : Memref sig .tc .vmem S256x1024 .f32) (harg0 : arg0.IsWhole) (arg1 : Memref sig .tc .vmem S1x2x256 .f32) (harg1 : arg1.IsWhole)
    (x0 : Vec F S256x1024 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__stats_cm_kernel i arg0 harg0 arg1 harg1) K := by
  simp only [cc0__stats_cm_kernel_eq_skeleton]; unfold cc0__stats_cm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.R1.lean ====
/- Region 1 of @main (the second pallas_call, pipeline 1), at a parameter `V`: the TensorCore's buffer contents
   when the region is entered. The kernel reads five input blocks — an activation block x, a scale row, a shift row
   and two weight matrices — and writes three output blocks: h1 = bf16(relu(xᵀ·scale + shift) · w1), the column sums
   and column sums of squares of the f32 product (the statistics block), and the shortcut product of a strided
   row selection of the same activations with the second weight matrix. Every load and every store is of a whole
   staging buffer, so each output buffer after the body is one piece: the store's payload over the input blocks.
   This module states what each window's buffer holds after the body (`out1_W`), proves the body's triple by symbolic
   execution of its skeleton, packages the pipeline's proof data `dat1` and proves the body obligation at every
   grid point. It is generic in the float interpretation. -/
import proofs.«130251_g2000005708365749_pallasbulk_1193_2_alg».proof.Proof.Gen.KernelIdeal.Launch
import proofs.«130251_g2000005708365749_pallasbulk_1193_2_alg».proof.Proof.Gen.KernelIdeal.Skeleton
import proofs.«130251_g2000005708365749_pallasbulk_1193_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle tiles a buffer of these extents recurses once per coordinate of the long axes
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the block rectangle of the point read off the window's array at its
    entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every grid point its current staging buffer holds the window's block, whether the point fetches
    it or not, for any proof data whose array is the entry contents (`hA`) and whose body leaves the block where it is
    (`hafter`). Where the window is not fetched its block index is the previous point's, so the block kept is the block due. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: at every grid point its current staging buffer holds the window's block, whether the point fetches
    it or not, for any proof data whose array is the entry contents (`hA`) and whose body leaves the block where it is
    (`hafter`). Where the window is not fetched its block index is the previous point's, so the block kept is the block due. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: at every grid point its current staging buffer holds the window's block, whether the point fetches
    it or not, for any proof data whose array is the entry contents (`hA`) and whose body leaves the block where it is
    (`hafter`). Where the window is not fetched its block index is the previous point's, so the block kept is the block due. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3: at every grid point its current staging buffer holds the window's block, whether the point fetches
    it or not, for any proof data whose array is the entry contents (`hA`) and whose body leaves the block where it is
    (`hafter`). Where the window is not fetched its block index is the previous point's, so the block kept is the block due. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4: at every grid point its current staging buffer holds the window's block, whether the point fetches
    it or not, for any proof data whose array is the entry contents (`hA`) and whose body leaves the block where it is
    (`hafter`). Where the window is not fetched its block index is the previous point's, so the block kept is the block due. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole staging buffer -/

abbrev r1_0 : Rect S256x1024 := Rect.unit (s := S256x1024) ![0, 0] S256x1024.size inb_S256x1024_S256x1024_0_0
abbrev r1_1 : Rect S1x256 := Rect.unit (s := S1x256) ![0, 0] S1x256.size inb_S1x256_S1x256_0_0
abbrev r1_2 : Rect S256x128 := Rect.unit (s := S256x128) ![0, 0] S256x128.size inb_S256x128_S256x128_0_0
abbrev r1_3 : Rect S1x2x128 := Rect.unit (s := S1x2x128) ![0, 0, 0] S1x2x128.size inb_S1x2x128_S1x2x128_0_0_0
abbrev r1_4 : Rect S1024x128 := Rect.unit (s := S1024x128) ![0, 0] S1024x128.size inb_S1024x128_S1024x128_0_0
abbrev r1_5 : Rect S256x512 := Rect.unit (s := S256x512) ![0, 0] S256x512.size inb_S256x512_S256x512_0_0

/-! ## What the body leaves in each output window's buffer -/

/-- Window 5 (h1) after the body: the one store's payload, the bf16 rounding of the product of the normalised,
    rectified, transposed activations with the first weight matrix. -/
def out1_5 (x0 : Vec F S256x1024 .f32) (x1 : Vec F S1x256 .f32) (x2 : Vec F S1x256 .f32) (x3 : Vec F S256x128 .bf16) (x4 : Vec F S256x512 .bf16) : Vec F S1024x128 .bf16 :=
  View.canon [⟨r1_4, k1_pay5 (View.ld x0 r1_0) (View.ld x1 r1_1) (View.ld x2 r1_1) (View.ld x3 r1_2)⟩]

/-- Window 6 (the shortcut) after the body: the bf16 rounding of the product of the selected activation rows with
    the second weight matrix. -/
def out1_6 (x0 : Vec F S256x1024 .f32) (x1 : Vec F S1x256 .f32) (x2 : Vec F S1x256 .f32) (x3 : Vec F S256x128 .bf16) (x4 : Vec F S256x512 .bf16) : Vec F S256x512 .bf16 :=
  View.canon [⟨r1_5, k1_pay1 (k1_pay6 (View.ld x0 r1_0) (View.ld x1 r1_1) (View.ld x2 r1_1) (View.ld x4 r1_5))⟩]

/-- Window 7 (the statistics) after the body: the column sums of the f32 product and of its square, stacked. -/
def out1_7 (x0 : Vec F S256x1024 .f32) (x1 : Vec F S1x256 .f32) (x2 : Vec F S1x256 .f32) (x3 : Vec F S256x128 .bf16) (x4 : Vec F S256x512 .bf16) : Vec F S1x2x128 .f32 :=
  View.canon [⟨r1_3, k1_pay4 (View.ld x0 r1_0) (View.ld x1 r1_1) (View.ld x2 r1_1) (View.ld x3 r1_2)⟩]

/-- One whole-buffer rectangle tiles the buffer, so every index lies in it. -/
theorem cover1_5 (p0 : Vec F S1024x128 .bf16) (y : S1024x128.Idx) :
    ∃ pc ∈ ([⟨r1_4, p0⟩] : List (View.Piece (Elt F) S1024x128 .bf16)), y ∈ pc.1.set :=
  View.cover_of_tiled [⟨r1_4, p0⟩] S1024x128.size (by rfl) y
theorem cover1_6 (p0 : Vec F S256x512 .bf16) (y : S256x512.Idx) :
    ∃ pc ∈ ([⟨r1_5, p0⟩] : List (View.Piece (Elt F) S256x512 .bf16)), y ∈ pc.1.set :=
  View.cover_of_tiled [⟨r1_5, p0⟩] S256x512.size (by rfl) y
theorem cover1_7 (p0 : Vec F S1x2x128 .f32) (y : S1x2x128.Idx) :
    ∃ pc ∈ ([⟨r1_3, p0⟩] : List (View.Piece (Elt F) S1x2x128 .f32)), y ∈ pc.1.set :=
  View.cover_of_tiled [⟨r1_3, p0⟩] S1x2x128.size (by rfl) y

/-! ## The body's triple -/

set_option maxHeartbeats 1000000 in
/-- The body on whole staging memrefs — the five inputs' holding `x0 … x4`, the three outputs' holding anything — runs
    to a state where the inputs' hold what they held and each output's holds `out1_W` of the inputs. The printed body
    and its part are their skeletons of loads and stores, which are stepped one by one; a buffer written by one
    whole-buffer store reads back as that store's payload. -/
theorem sound_kernel1 (c : Dev nD) (E : Set ℕ) (i : grid1.Coords) (arg1 : Memref sig .tc .vmem S256x1024 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .bf16) (harg4 : arg4.IsWhole) (arg5 : Memref sig .tc .vmem S256x512 .bf16) (harg5 : arg5.IsWhole) (arg6 : Memref sig .tc .vmem S1024x128 .bf16) (harg6 : arg6.IsWhole) (arg7 : Memref sig .tc .vmem S256x512 .bf16) (harg7 : arg7.IsWhole) (arg8 : Memref sig .tc .vmem S1x2x128 .f32) (harg8 : arg8.IsWhole)
    (x0 : Vec F S256x1024 .f32) (x1 : Vec F S1x256 .f32) (x2 : Vec F S1x256 .f32) (x3 : Vec F S256x128 .bf16) (x4 : Vec F S256x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4) ∗ owns (c : Thread nD τ) arg8 fullShare (out1_7 x0 x1 x2 x3 x4)) -∗ K ⟨⟩))
      ⊢ wp frame (wpE (defs₀ (F := F)) Variants.none c none) E (cc1__body i arg1 harg1 arg2 harg2 arg3 harg3 arg4 harg4 arg5 harg5 arg6 harg6 arg7 harg7 arg8 harg8) K := by
  simp only [cc1__body_eq_skeleton]; unfold cc1__body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover1_5 _)
  isplitl [H6]
  · iexists _; isplitr
    swap; · iexact H6
    ipureintro
    try dsimp only
    exact View.read_writes_eq_canon _ _ _ (cover1_6 _)
  iexists _; isplitr
  swap; · iexact H7
  ipureintro
  try dsimp only
  exact View.read_writes_eq_canon _ _ _ (cover1_7 _)

/-! ## The pipeline's proof data -/

/-- The proof data of pipeline 1 on core `c`: the arrays at the entry contents; after the body at point `t` each
    input's buffer still at its block and each output's at `out1_W` of the five input blocks; as invariant the scoped
    rest of the core and its generator register, which the body does not touch; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and the eight current staging
    buffers, each at what the pipeline has put in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns: the same, with each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies at those blocks; the
    invariant and the debts are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point: the product over the eight windows written out. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.R2.lean ====
import proofs.«130251_g2000005708365749_pallasbulk_1193_2_alg».proof.Proof.Gen.KernelIdeal.Launch
import proofs.«130251_g2000005708365749_pallasbulk_1193_2_alg».proof.Proof.Gen.KernelIdeal.Skeleton
import proofs.«130251_g2000005708365749_pallasbulk_1193_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

/-! # Region 2 of @main (custom_call 2, pipeline 2), at the entry contents `V`

The third pallas_call convolves a normalised, rectified activation with a 3×3 kernel. At every grid point the body
(i) rebuilds a zero-padded copy of the 32×32×128 activation tile in a 34×34×128 scratch buffer, (ii) reads the nine
shifted 32×32×128 windows of the padded tile, subsamples each to 16×16 and lays them side by side as a 256×1152
matrix, (iii) multiplies by the 1152×128 weights, and (iv) stores the product rounded and its column sums and column
sums of squares. The scratch buffer is rewritten completely before it is read, so what the body leaves in the two
output windows is a function of the four input blocks alone. -/

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of the window's array, as the region finds it (`V`), that the
    window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether the pipeline fetched it there
    or not: window 0's index moves with the point and it is fetched everywhere; windows 1, 2, 3 have a constant index
    map, are fetched at the first point only, and afterwards still hold the same block because the body leaves an
    input's buffer as it found it. Stated for ANY proof data whose array is `V`'s and whose body keeps the block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The four inputs are loaded whole, the two outputs stored whole. -/
abbrev r2_x0 : Rect S1024x128 := Rect.unit (s := S1024x128) ![0, 0] S1024x128.size inb_S1024x128_S1024x128_0_0
abbrev r2_x1 : Rect S1x128 := Rect.unit (s := S1x128) ![0, 0] S1x128.size inb_S1x128_S1x128_0_0
abbrev r2_x3 : Rect S1152x128 := Rect.unit (s := S1152x128) ![0, 0] S1152x128.size inb_S1152x128_S1152x128_0_0
abbrev r2_o4 : Rect S256x128 := Rect.unit (s := S256x128) ![0, 0] S256x128.size inb_S256x128_S256x128_0_0
abbrev r2_o5 : Rect S1x2x128 := Rect.unit (s := S1x2x128) ![0, 0, 0] S1x2x128.size inb_S1x2x128_S1x2x128_0_0_0

/-- The padded tile's five slices: its first and last row, its first and last column, and the 32×32 interior. -/
abbrev r2_top : Rect S34x34x128 := Rect.unit (s := S34x34x128) ![0, 0, 0] S1x34x128.size inb_S34x34x128_S1x34x128_0_0_0
abbrev r2_bot : Rect S34x34x128 := Rect.unit (s := S34x34x128) ![33, 0, 0] S1x34x128.size inb_S34x34x128_S1x34x128_33_0_0
abbrev r2_left : Rect S34x34x128 := Rect.unit (s := S34x34x128) ![0, 0, 0] S34x1x128.size inb_S34x34x128_S34x1x128_0_0_0
abbrev r2_right : Rect S34x34x128 := Rect.unit (s := S34x34x128) ![0, 33, 0] S34x1x128.size inb_S34x34x128_S34x1x128_0_33_0
abbrev r2_mid : Rect S34x34x128 := Rect.unit (s := S34x34x128) ![1, 1, 0] S32x32x128.size inb_S34x34x128_S32x32x128_1_1_0

/-- The nine 32×32×128 windows of the padded tile a 3×3 stencil reads: `r2_t⟨dy⟩⟨dx⟩` starts at row `dy`, column `dx`. -/
abbrev r2_t00 : Rect S34x34x128 := Rect.unit (s := S34x34x128) ![0, 0, 0] S32x32x128.size inb_S34x34x128_S32x32x128_0_0_0
abbrev r2_t01 : Rect S34x34x128 := Rect.unit (s := S34x34x128) ![0, 1, 0] S32x32x128.size inb_S34x34x128_S32x32x128_0_1_0
abbrev r2_t02 : Rect S34x34x128 := Rect.unit (s := S34x34x128) ![0, 2, 0] S32x32x128.size inb_S34x34x128_S32x32x128_0_2_0
abbrev r2_t10 : Rect S34x34x128 := Rect.unit (s := S34x34x128) ![1, 0, 0] S32x32x128.size inb_S34x34x128_S32x32x128_1_0_0
abbrev r2_t11 : Rect S34x34x128 := Rect.unit (s := S34x34x128) ![1, 1, 0] S32x32x128.size inb_S34x34x128_S32x32x128_1_1_0
abbrev r2_t12 : Rect S34x34x128 := Rect.unit (s := S34x34x128) ![1, 2, 0] S32x32x128.size inb_S34x34x128_S32x32x128_1_2_0
abbrev r2_t20 : Rect S34x34x128 := Rect.unit (s := S34x34x128) ![2, 0, 0] S32x32x128.size inb_S34x34x128_S32x32x128_2_0_0
abbrev r2_t21 : Rect S34x34x128 := Rect.unit (s := S34x34x128) ![2, 1, 0] S32x32x128.size inb_S34x34x128_S32x32x128_2_1_0
abbrev r2_t22 : Rect S34x34x128 := Rect.unit (s := S34x34x128) ![2, 2, 0] S32x32x128.size inb_S34x34x128_S32x32x128_2_2_0

/-! ## What the body leaves in each output window's buffer -/

/-- The activation tile: the input block scaled and shifted per channel, rectified, rounded to bf16 and read as
    32 rows of 32 pixels. -/
def act2 (x0 : Vec F S1024x128 .bf16) (x1 : Vec F S1x128 .f32) (x2 : Vec F S1x128 .f32) : Vec F S32x32x128 .bf16 :=
  k2_pay8 (k2_pay7 (View.ld x0 r2_x0) (View.ld x1 r2_x1) (View.ld x2 r2_x1))

/-- The padded tile: what the scratch buffer holds once the body has stored its two border rows, its two border
    columns (all zero) and the interior `a` — the five slice stores, LAST FIRST. It does not mention what the scratch
    held before: the five slices cover it. -/
def pad2 (a : Vec F S32x32x128 .bf16) : Vec F S34x34x128 .bf16 :=
  View.canon [⟨r2_mid, a⟩, ⟨r2_right, k2_pay6 (F := F)⟩, ⟨r2_left, k2_pay5 (F := F)⟩, ⟨r2_bot, k2_pay4 (F := F)⟩, ⟨r2_top, k2_pay3 (F := F)⟩]

/-- The product stored in window 4: the nine windows of the padded tile `p`, subsampled, side by side, times the
    weights `w`, rounded to bf16. -/
def conv2_4 (p : Vec F S34x34x128 .bf16) (w : Vec F S1152x128 .bf16) : Vec F S256x128 .bf16 :=
  k2_pay17 (k2_pay9 (View.ld p r2_t00)) (k2_pay10 (View.ld p r2_t01)) (k2_pay11 (View.ld p r2_t02)) (k2_pay12 (View.ld p r2_t10)) (k2_pay13 (View.ld p r2_t11)) (k2_pay14 (View.ld p r2_t12)) (View.ld p r2_t20) (View.ld p r2_t21) (View.ld p r2_t22) w

/-- The statistics stored in window 5: the product's column sums and column sums of squares. -/
def conv2_5 (p : Vec F S34x34x128 .bf16) (w : Vec F S1152x128 .bf16) : Vec F S1x2x128 .f32 :=
  k2_pay16 (k2_pay9 (View.ld p r2_t00)) (k2_pay10 (View.ld p r2_t01)) (k2_pay11 (View.ld p r2_t02)) (k2_pay12 (View.ld p r2_t10)) (k2_pay13 (View.ld p r2_t11)) (k2_pay14 (View.ld p r2_t12)) (View.ld p r2_t20) (View.ld p r2_t21) (View.ld p r2_t22) w

/-- Window 4's staging buffer after the body, from the input windows' blocks: its one store, of the whole block. -/
def out2_4 (x0 : Vec F S1024x128 .bf16) (x1 : Vec F S1x128 .f32) (x2 : Vec F S1x128 .f32) (x3 : Vec F S1152x128 .bf16) : Vec F S256x128 .bf16 :=
  View.canon [⟨r2_o4, conv2_4 (pad2 (act2 x0 x1 x2)) (View.ld x3 r2_x3)⟩]

/-- Window 5's staging buffer after the body, from the input windows' blocks: its one store, of the whole block. -/
def out2_5 (x0 : Vec F S1024x128 .bf16) (x1 : Vec F S1x128 .f32) (x2 : Vec F S1x128 .f32) (x3 : Vec F S1152x128 .bf16) : Vec F S1x2x128 .f32 :=
  View.canon [⟨r2_o5, conv2_5 (pad2 (act2 x0 x1 x2)) (View.ld x3 r2_x3)⟩]

/-- Each output's one store is of its whole block, so it covers it. -/
theorem cover2_4 (p0 : Vec F S256x128 .bf16) (y : S256x128.Idx) :
    ∃ pc ∈ ([⟨r2_o4, p0⟩] : List (View.Piece (Elt F) S256x128 .bf16)), y ∈ pc.1.set :=
  View.cover_of_tiled [⟨r2_o4, p0⟩] S256x128.size (by rfl) y
theorem cover2_5 (p0 : Vec F S1x2x128 .f32) (y : S1x2x128.Idx) :
    ∃ pc ∈ ([⟨r2_o5, p0⟩] : List (View.Piece (Elt F) S1x2x128 .f32)), y ∈ pc.1.set :=
  View.cover_of_tiled [⟨r2_o5, p0⟩] S1x2x128.size (by rfl) y

/-! ## The padded tile

Three of the five stores into the scratch buffer write bf16 rows that are only part of their 32-bit words, so the
machine performs each as a load of the enclosing words followed by a store of them with the new rows blended in. Such
a read-modify-write leaves the buffer exactly as a store of the new rows alone would: the other rows are written back
unchanged. -/

section ReadModifyWrite

variable {sig' : RefSig} {κ' : Kind} {sp' : Space} {s : Shape} {e : EltTy} {Val : EltTy → Type}

/-- Storing, through the unit-stride rectangle at `offW` of sizes `sizeW`, what the buffer holds there with the block at
    `start` of sizes `sizeN` replaced by `u`, leaves what storing `u` through the rectangle at `offW + start` of sizes
    `sizeN` leaves. Inside the small rectangle both write `u`; in the rest of the large one the first writes back what
    it read; outside both write nothing. -/
theorem writes_cons_updateSlice (v : View sig' κ' sp' s e) (f : v.ty.Contents Val) (L : List (View.Piece Val s e))
    (offW sizeW : Fin s.rank → ℕ) (inbW : ∀ a, offW a + sizeW a ≤ s.size a)
    (start sizeN : Fin s.rank → ℕ) (hs : (⟨s.rank, sizeW⟩ : Shape).Slices start ⟨s.rank, sizeN⟩)
    (offN : Fin s.rank → ℕ) (hoff : ∀ a, offN a = offW a + start a) (inbN : ∀ a, offN a + sizeN a ≤ s.size a)
    (u : (⟨s.rank, sizeN⟩ : Shape).Idx → Val e) :
    v.writes Val f ((⟨Rect.unit offW sizeW inbW,
        updateSlice (v.readAt Val (Rect.unit offW sizeW inbW).toLoadRect (v.writes Val f L)) u start hs⟩ : View.Piece Val s e) :: L)
      = v.writes Val f ((⟨Rect.unit offN sizeN inbN, u⟩ : View.Piece Val s e) :: L) := by
  have hfit : ∀ a, start a + sizeN a ≤ sizeW a := fun a => by
    have := hs.2 a; simpa [Fin.cast_eq_self] using this
  refine View.contents_ext v (fun y => ?_) (fun i hi => ?_)
  · rw [View.read_writes_cons_unit v f inbW _ L y rfl, View.read_writes_cons_unit v f inbN u L y rfl]
    by_cases hN : ∀ a, offN a ≤ (y a).val ∧ (y a).val < offN a + sizeN a
    · have hW : ∀ a, offW a ≤ (y a).val ∧ (y a).val < offW a + sizeW a := fun a => by
        have h1 := hN a; have h2 := hoff a; have h3 := hfit a; omega
      rw [dif_pos hW, dif_pos hN]
      unfold updateSlice
      rw [dif_pos (fun a => by
        have h1 := hN a; have h2 := hoff a
        simp only [Rect.unitLocal_val, Fin.cast_eq_self]
        show start a ≤ (y a).val - offW a ∧ (y a).val - offW a < start a + sizeN a
        omega)]
      refine congrArg u (funext fun b => Fin.ext ?_)
      have h1 := hN b; have h2 := hoff b
      show (y b).val - offW b - start b = (y b).val - offN b
      omega
    · rw [dif_neg hN]
      by_cases hW : ∀ a, offW a ≤ (y a).val ∧ (y a).val < offW a + sizeW a
      · rw [dif_pos hW]
        unfold updateSlice
        rw [dif_neg (fun hall => hN fun a => by
          have h1 := hall a; have h2 := hoff a; have h3 := hW a
          simp only [Rect.unitLocal_val, Fin.cast_eq_self] at h1
          have h1' : start a ≤ (y a).val - offW a ∧ (y a).val - offW a < start a + sizeN a := h1
          omega)]
        rw [View.readAt_apply]
        refine congrArg (v.read Val (v.writes Val f L)) (funext fun a => Fin.ext ?_)
        have h3 := hW a
        show offW a + 1 * ((y a).val - offW a) = (y a).val
        omega
      · rw [dif_neg hW]
  · rw [View.writes_apply_of_forall_ne v f _ hi, View.writes_apply_of_forall_ne v f _ hi]

end ReadModifyWrite

/-- The scratch buffer's writes as the machine performs them, LAST FIRST, over what the buffer `f` held through view `v`:
    the two border rows stored outright; then the first column, the last column and the interior `a`, each blended
    into the wider rectangle of whole words that holds it (columns 0–1, columns 32–33, rows 1–32 at every column),
    read from the buffer as the stores before it left it. -/
def padW2 : List (View.Piece (Elt F) S34x34x128 .bf16) :=
  [⟨r2_bot, k2_pay4 (F := F)⟩, ⟨r2_top, k2_pay3 (F := F)⟩]
def padW3 {sig' : RefSig} {κ' : Kind} {sp' : Space} (v : View sig' κ' sp' S34x34x128 .bf16) (f : v.ty.Contents (Elt F)) :
    List (View.Piece (Elt F) S34x34x128 .bf16) :=
  ⟨Rect.unit (s := S34x34x128) ![0, 0, 0] S34x2x128.size inb_S34x34x128_S34x2x128_0_0_0,
    updateSlice (v.readAt (Elt F) (Rect.unit (s := S34x34x128) ![0, 0, 0] S34x2x128.size inb_S34x34x128_S34x2x128_0_0_0).toLoadRect
      (v.writes (Elt F) f (padW2 (F := F)))) (k2_pay5 (F := F)) ![0, 0, 0] slices_S34x2x128_S34x1x128_0_0_0⟩ :: padW2
def padW4 {sig' : RefSig} {κ' : Kind} {sp' : Space} (v : View sig' κ' sp' S34x34x128 .bf16) (f : v.ty.Contents (Elt F)) :
    List (View.Piece (Elt F) S34x34x128 .bf16) :=
  ⟨Rect.unit (s := S34x34x128) ![0, 32, 0] S34x2x128.size inb_S34x34x128_S34x2x128_0_32_0,
    updateSlice (v.readAt (Elt F) (Rect.unit (s := S34x34x128) ![0, 32, 0] S34x2x128.size inb_S34x34x128_S34x2x128_0_32_0).toLoadRect
      (v.writes (Elt F) f (padW3 v f))) (k2_pay6 (F := F)) ![0, 1, 0] slices_S34x2x128_S34x1x128_0_1_0⟩ :: padW3 v f
def padW5 {sig' : RefSig} {κ' : Kind} {sp' : Space} (v : View sig' κ' sp' S34x34x128 .bf16) (f : v.ty.Contents (Elt F))
    (a : Vec F S32x32x128 .bf16) : List (View.Piece (Elt F) S34x34x128 .bf16) :=
  ⟨Rect.unit (s := S34x34x128) ![1, 0, 0] S32x34x128.size inb_S34x34x128_S32x34x128_1_0_0,
    updateSlice (v.readAt (Elt F) (Rect.unit (s := S34x34x128) ![1, 0, 0] S32x34x128.size inb_S34x34x128_S32x34x128_1_0_0).toLoadRect
      (v.writes (Elt F) f (padW4 v f))) a ![0, 1, 0] slices_S32x34x128_S32x32x128_0_1_0⟩ :: padW4 v f

/-- The five slice stores of `pad2`, LAST FIRST. -/
def padN (a : Vec F S32x32x128 .bf16) : List (View.Piece (Elt F) S34x34x128 .bf16) :=
  [⟨r2_mid, a⟩, ⟨r2_right, k2_pay6 (F := F)⟩, ⟨r2_left, k2_pay5 (F := F)⟩, ⟨r2_bot, k2_pay4 (F := F)⟩, ⟨r2_top, k2_pay3 (F := F)⟩]

theorem pad2_eq_canon (a : Vec F S32x32x128 .bf16) : pad2 a = View.canon (padN a) := rfl

/-- The buffer after the five stores as performed is the buffer after the five slice stores: each blended store is
    the store of its slice alone. -/
theorem writes_padW5 {sig' : RefSig} {κ' : Kind} {sp' : Space} (v : View sig' κ' sp' S34x34x128 .bf16) (f : v.ty.Contents (Elt F))
    (a : Vec F S32x32x128 .bf16) : v.writes (Elt F) f (padW5 v f a) = v.writes (Elt F) f (padN a) := by
  have e3 : v.writes (Elt F) f (padW3 v f) = v.writes (Elt F) f (⟨r2_left, k2_pay5 (F := F)⟩ :: padW2) :=
    writes_cons_updateSlice v f padW2 ![0, 0, 0] S34x2x128.size inb_S34x34x128_S34x2x128_0_0_0 ![0, 0, 0] S34x1x128.size
      slices_S34x2x128_S34x1x128_0_0_0 ![0, 0, 0] (by decide) inb_S34x34x128_S34x1x128_0_0_0 (k2_pay5 (F := F))
  have e4 : v.writes (Elt F) f (padW4 v f) = v.writes (Elt F) f (⟨r2_right, k2_pay6 (F := F)⟩ :: padW3 v f) :=
    writes_cons_updateSlice v f (padW3 v f) ![0, 32, 0] S34x2x128.size inb_S34x34x128_S34x2x128_0_32_0 ![0, 1, 0] S34x1x128.size
      slices_S34x2x128_S34x1x128_0_1_0 ![0, 33, 0] (by decide) inb_S34x34x128_S34x1x128_0_33_0 (k2_pay6 (F := F))
  have e5 : v.writes (Elt F) f (padW5 v f a) = v.writes (Elt F) f (⟨r2_mid, a⟩ :: padW4 v f) :=
    writes_cons_updateSlice v f (padW4 v f) ![1, 0, 0] S32x34x128.size inb_S34x34x128_S32x34x128_1_0_0 ![0, 1, 0] S32x32x128.size
      slices_S32x34x128_S32x32x128_0_1_0 ![1, 1, 0] (by decide) inb_S34x34x128_S32x32x128_1_1_0 a
  rw [e5, View.writes_cons, e4, View.writes_cons, e3]
  rfl

/-- Every index of the padded tile lies in one of the five slices: in the first or last row, else in the first or
    last column, else in the interior. -/
theorem cover_padN (a : Vec F S32x32x128 .bf16) (y : S34x34x128.Idx) : ∃ p ∈ padN a, y ∈ p.1.set := by
  have h0 : (y 0).val < 34 := (y 0).isLt
  have h1 : (y 1).val < 34 := (y 1).isLt
  have h2 : (y 2).val < 128 := (y 2).isLt
  by_cases ht : (y 0).val = 0
  · refine ⟨⟨r2_top, k2_pay3 (F := F)⟩, List.mem_cons_of_mem _ (List.mem_cons_of_mem _ (List.mem_cons_of_mem _ (List.mem_cons_of_mem _ List.mem_cons_self))), ?_⟩
    rw [Rect.mem_set_unit]; intro b
    match b with
    | ⟨0, _⟩ => show 0 ≤ (y 0).val ∧ (y 0).val < 0 + 1; omega
    | ⟨1, _⟩ => show 0 ≤ (y 1).val ∧ (y 1).val < 0 + 34; omega
    | ⟨2, _⟩ => show 0 ≤ (y 2).val ∧ (y 2).val < 0 + 128; omega
  by_cases hb : (y 0).val = 33
  · refine ⟨⟨r2_bot, k2_pay4 (F := F)⟩, List.mem_cons_of_mem _ (List.mem_cons_of_mem _ (List.mem_cons_of_mem _ List.mem_cons_self)), ?_⟩
    rw [Rect.mem_set_unit]; intro b
    match b with
    | ⟨0, _⟩ => show 33 ≤ (y 0).val ∧ (y 0).val < 33 + 1; omega
    | ⟨1, _⟩ => show 0 ≤ (y 1).val ∧ (y 1).val < 0 + 34; omega
    | ⟨2, _⟩ => show 0 ≤ (y 2).val ∧ (y 2).val < 0 + 128; omega
  by_cases hl : (y 1).val = 0
  · refine ⟨⟨r2_left, k2_pay5 (F := F)⟩, List.mem_cons_of_mem _ (List.mem_cons_of_mem _ List.mem_cons_self), ?_⟩
    rw [Rect.mem_set_unit]; intro b
    match b with
    | ⟨0, _⟩ => show 0 ≤ (y 0).val ∧ (y 0).val < 0 + 34; omega
    | ⟨1, _⟩ => show 0 ≤ (y 1).val ∧ (y 1).val < 0 + 1; omega
    | ⟨2, _⟩ => show 0 ≤ (y 2).val ∧ (y 2).val < 0 + 128; omega
  by_cases hr : (y 1).val = 33
  · refine ⟨⟨r2_right, k2_pay6 (F := F)⟩, List.mem_cons_of_mem _ List.mem_cons_self, ?_⟩
    rw [Rect.mem_set_unit]; intro b
    match b with
    | ⟨0, _⟩ => show 0 ≤ (y 0).val ∧ (y 0).val < 0 + 34; omega
    | ⟨1, _⟩ => show 33 ≤ (y 1).val ∧ (y 1).val < 33 + 1; omega
    | ⟨2, _⟩ => show 0 ≤ (y 2).val ∧ (y 2).val < 0 + 128; omega
  · refine ⟨⟨r2_mid, a⟩, List.mem_cons_self, ?_⟩
    rw [Rect.mem_set_unit]; intro b
    match b with
    | ⟨0, _⟩ => show 1 ≤ (y 0).val ∧ (y 0).val < 1 + 32; omega
    | ⟨1, _⟩ => show 1 ≤ (y 1).val ∧ (y 1).val < 1 + 32; omega
    | ⟨2, _⟩ => show 0 ≤ (y 2).val ∧ (y 2).val < 0 + 128; omega

/-- So the scratch buffer after the five stores as performed reads as the padded tile, whatever it held before. -/
theorem read_writes_padW5 {sig' : RefSig} {κ' : Kind} {sp' : Space} (v : View sig' κ' sp' S34x34x128 .bf16) (f : v.ty.Contents (Elt F))
    (a : Vec F S32x32x128 .bf16) : v.read (Elt F) (v.writes (Elt F) f (padW5 v f a)) = pad2 a := by
  rw [writes_padW5, pad2_eq_canon]
  exact View.read_writes_eq_canon v f (padN a) (cover_padN a)

/-- The rectangles of the stores as performed cover the buffer too: the border rows and rows 1–32. -/
theorem cover_padW5 {sig' : RefSig} {κ' : Kind} {sp' : Space} (v : View sig' κ' sp' S34x34x128 .bf16) (f : v.ty.Contents (Elt F))
    (a : Vec F S32x32x128 .bf16) (y : S34x34x128.Idx) : ∃ p ∈ padW5 v f a, y ∈ p.1.set := by
  have h0 : (y 0).val < 34 := (y 0).isLt
  have h1 : (y 1).val < 34 := (y 1).isLt
  have h2 : (y 2).val < 128 := (y 2).isLt
  by_cases ht : (y 0).val = 0
  · refine ⟨⟨r2_top, k2_pay3 (F := F)⟩, List.mem_cons_of_mem _ (List.mem_cons_of_mem _ (List.mem_cons_of_mem _ (List.mem_cons_of_mem _ List.mem_cons_self))), ?_⟩
    rw [Rect.mem_set_unit]; intro b
    match b with
    | ⟨0, _⟩ => show 0 ≤ (y 0).val ∧ (y 0).val < 0 + 1; omega
    | ⟨1, _⟩ => show 0 ≤ (y 1).val ∧ (y 1).val < 0 + 34; omega
    | ⟨2, _⟩ => show 0 ≤ (y 2).val ∧ (y 2).val < 0 + 128; omega
  by_cases hb : (y 0).val = 33
  · refine ⟨⟨r2_bot, k2_pay4 (F := F)⟩, List.mem_cons_of_mem _ (List.mem_cons_of_mem _ (List.mem_cons_of_mem _ List.mem_cons_self)), ?_⟩
    rw [Rect.mem_set_unit]; intro b
    match b with
    | ⟨0, _⟩ => show 33 ≤ (y 0).val ∧ (y 0).val < 33 + 1; omega
    | ⟨1, _⟩ => show 0 ≤ (y 1).val ∧ (y 1).val < 0 + 34; omega
    | ⟨2, _⟩ => show 0 ≤ (y 2).val ∧ (y 2).val < 0 + 128; omega
  · refine ⟨_, List.mem_cons_self, ?_⟩
    rw [Rect.mem_set_unit]; intro b
    match b with
    | ⟨0, _⟩ => show 1 ≤ (y 0).val ∧ (y 0).val < 1 + 32; omega
    | ⟨1, _⟩ => show 0 ≤ (y 1).val ∧ (y 1).val < 0 + 34; omega
    | ⟨2, _⟩ => show 0 ≤ (y 2).val ∧ (y 2).val < 0 + 128; omega

/-- A load of a rectangle of the scratch buffer after the five stores as performed reads the padded tile there: the
    stores cover the buffer, so the load does not see what it held before. -/
theorem readCov_padW5 {sig' : RefSig} {κ' : Kind} {sp' : Space} (v : View sig' κ' sp' S34x34x128 .bf16) (f : v.ty.Contents (Elt F))
    (a : Vec F S32x32x128 .bf16) (r : Rect S34x34x128) :
    v.readCov (padW5 v f a) r.toLoadRect = View.ld (pad2 a) r := by
  rw [← View.readAt_writes_of_cover v f (padW5 v f a) r.toLoadRect (fun j => cover_padW5 v f a _)]
  funext j
  rw [View.readAt_apply, read_writes_padW5]

/-! ## The body's triple -/

set_option maxHeartbeats 1000000 in
/-- The kernel body on whole staging memrefs and the whole scratch buffer — the inputs' at read contents `xW`, the
    outputs' and the scratch at anything — runs to the continuation holding the inputs' as they were, each output's at
    `out2_W` of the inputs', and the scratch at something. -/
theorem sound_kernel2 (c : Dev nD) (E : Set ℕ) (i : grid2.Coords) (arg1 : Memref sig .tc .vmem S1024x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S1152x128 .bf16) (harg4 : arg4.IsWhole) (arg5 : Memref sig .tc .vmem S256x128 .bf16) (harg5 : arg5.IsWhole) (arg6 : Memref sig .tc .vmem S1x2x128 .f32) (harg6 : arg6.IsWhole) (arg7 : Memref sig .tc .vmem S34x34x128 .bf16) (harg7 : arg7.IsWhole)
    (x0 : Vec F S1024x128 .bf16) (x1 : Vec F S1x128 .f32) (x2 : Vec F S1x128 .f32) (x3 : Vec F S1152x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)
            ∗ owns (c : Thread nD τ) arg6 fullShare (out2_5 x0 x1 x2 x3) ∗ (∃ d, owns (c : Thread nD τ) arg7 fullShare d)) -∗ K ⟨⟩))
      ⊢ wp frame (wpE (defs₀ (F := F)) Variants.none c none) E (cc2__body i arg1 harg1 arg2 harg2 arg3 harg3 arg4 harg4 arg5 harg5 arg6 harg6 arg7 harg7) K := by
  simp only [cc2__body_eq_skeleton]; unfold cc2__body_skel
  simp only [k2_part3_eq_skeleton]; unfold k2_part3_skel
  simp only [k2_part1_eq_skeleton, k2_part2_eq_skeleton]; unfold k2_part1_skel k2_part2_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  -- the nine windows the body loads from the scratch buffer, each a window of the padded activation tile
  have ev32 : sound_kernel2.sl.v32 c arg1 arg2 arg3 arg7 f1 f2 f3 f7
      = View.ld (pad2 (act2 (arg1.view.read (Elt F) f1) (arg2.view.read (Elt F) f2) (arg3.view.read (Elt F) f3))) r2_t00 :=
    readCov_padW5 arg7.view f7 _ r2_t00
  have ev39 : sound_kernel2.sl.v39 c arg1 arg2 arg3 arg7 f1 f2 f3 f7
      = View.ld (pad2 (act2 (arg1.view.read (Elt F) f1) (arg2.view.read (Elt F) f2) (arg3.view.read (Elt F) f3))) r2_t01 :=
    readCov_padW5 arg7.view f7 _ r2_t01
  have ev46 : sound_kernel2.sl.v46 c arg1 arg2 arg3 arg7 f1 f2 f3 f7
      = View.ld (pad2 (act2 (arg1.view.read (Elt F) f1) (arg2.view.read (Elt F) f2) (arg3.view.read (Elt F) f3))) r2_t02 :=
    readCov_padW5 arg7.view f7 _ r2_t02
  have ev53 : sound_kernel2.sl.v53 c arg1 arg2 arg3 arg7 f1 f2 f3 f7
      = View.ld (pad2 (act2 (arg1.view.read (Elt F) f1) (arg2.view.read (Elt F) f2) (arg3.view.read (Elt F) f3))) r2_t10 :=
    readCov_padW5 arg7.view f7 _ r2_t10
  have ev60 : sound_kernel2.sl.v60 c arg1 arg2 arg3 arg7 f1 f2 f3 f7
      = View.ld (pad2 (act2 (arg1.view.read (Elt F) f1) (arg2.view.read (Elt F) f2) (arg3.view.read (Elt F) f3))) r2_t11 :=
    readCov_padW5 arg7.view f7 _ r2_t11
  have ev67 : sound_kernel2.sl.v67 c arg1 arg2 arg3 arg7 f1 f2 f3 f7
      = View.ld (pad2 (act2 (arg1.view.read (Elt F) f1) (arg2.view.read (Elt F) f2) (arg3.view.read (Elt F) f3))) r2_t12 :=
    readCov_padW5 arg7.view f7 _ r2_t12
  have ev74 : sound_kernel2.sl.v74 c arg1 arg2 arg3 arg7 f1 f2 f3 f7
      = View.ld (pad2 (act2 (arg1.view.read (Elt F) f1) (arg2.view.read (Elt F) f2) (arg3.view.read (Elt F) f3))) r2_t20 :=
    readCov_padW5 arg7.view f7 _ r2_t20
  have ev81 : sound_kernel2.sl.v81 c arg1 arg2 arg3 arg7 f1 f2 f3 f7
      = View.ld (pad2 (act2 (arg1.view.read (Elt F) f1) (arg2.view.read (Elt F) f2) (arg3.view.read (Elt F) f3))) r2_t21 :=
    readCov_padW5 arg7.view f7 _ r2_t21
  have ev88 : sound_kernel2.sl.v88 c arg1 arg2 arg3 arg7 f1 f2 f3 f7
      = View.ld (pad2 (act2 (arg1.view.read (Elt F) f1) (arg2.view.read (Elt F) f2) (arg3.view.read (Elt F) f3))) r2_t22 :=
    readCov_padW5 arg7.view f7 _ r2_t22
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover2_4 _)).trans ?_
    dsimp only
    rw [ev32, ev39, ev46, ev53, ev60, ev67, ev74, ev81, ev88]
    rfl
  isplitl [H6]
  · iexists _; isplitr
    swap; · iexact H6
    ipureintro
    refine (View.read_writes_eq_canon _ _ _ (cover2_5 _)).trans ?_
    dsimp only
    rw [ev32, ev39, ev46, ev53, ev60, ev67, ev74, ev81, ev88]
    rfl
  iexists _, _; isplitr
  swap; · iexact H7
  ipureintro; rfl

/-! ## The pipeline's proof data -/

/-- The proof data of pipeline 2 on core `c`: the arrays as the region finds them; after the body at point `t` each
    input's buffer at its block and each output's at `out2_W` of the four input blocks; the invariant is the scoped
    rest (the scratch buffer among it, at anything) and the generator register, handed on unchanged; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`: the invariant, the core's debts, and every window's current staging
    buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, the scratch buffer is taken out of the scoped rest
    at whatever it holds and put back at whatever the body leaves, so `sound_kernel2` applies; the rest of the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  rw [show (dat2 V c).Φ t.castSucc = Pipeline.ΦA (Val := Elt F) (U := UR sig nD τ) spec2 c from rfl]
  unfold Pipeline.ΦA
  -- the scratch buffer, whole at some contents, beside the rest of the scoped buffers
  rw [scopedRest2_split,
    show (iprop(∃ f : Buf (Elt F) ((c : Thread nD τ).loc cc2_scratch0), ((c : Thread nD τ).loc cc2_scratch0) ↦{fullShare} f) : sProp 𝕄)
      = iprop(∃ f, owns (c : Thread nD τ) (Memref.whole cc2_scratch0) fullShare f) from by simp only [owns_whole]]
  iintro ⟨⟨⟨⟨%fs, HS⟩, HR⟩, Hg⟩, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexists fs; iexact HS
  iintro ⟨H0, H1, H2, H3, H4, H5, ⟨%ds, HS⟩⟩
  isplitl [HS HR Hg]
  · isplitl [HS HR]
    · isplitl [HS]
      · iexists ds; iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame
-- ==== Proof.KI.R3.lean ====
/-
  Region 3 of @main (the fourth pallas_call, pipeline 3) of `KernelIdeal`, at a parameter `V`: the contents of the
  TensorCore's buffers when the region is entered.

  The body of this region reads five input blocks — an activation block `h`, a shortcut block `s`, a scale row
  `a`, a shift row `b` and a weight matrix `w` — and stores ONE value into its output block: the transpose of
  `relu(h · a + b) ⬝ w + s` (the affine map and the rectifier taken elementwise in the wide format, the product
  rounded to the narrow one before the matrix product). Nothing is carried from one grid point to the next and the
  single store covers the whole output block, so what the body leaves in the output block is a closed function
  of the five input blocks at the point: `out3_5`. This file states that function, proves the body's triple
  against it (`sound_kernel3`), packages the proof data of the pipeline (`dat3`) and discharges the library's
  body obligation at every grid point (`body_obligation3`).
-/
import proofs.«130251_g2000005708365749_pallasbulk_1193_2_alg».proof.Proof.Gen.KernelIdeal.Launch
import proofs.«130251_g2000005708365749_pallasbulk_1193_2_alg».proof.Proof.Gen.KernelIdeal.Skeleton
import proofs.«130251_g2000005708365749_pallasbulk_1193_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of these extents lies in its buffer recurses once per coordinate of the long axis
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the TensorCore's buffers hold when region 3 is entered: every statement below is made at this parameter
variable (V : (c : Dev nD) → (b : Ref sig .tc) → Buf (Elt F) ((c : Thread nD τ).loc b))

/-! ## The blocks of the windows -/

/-- The block of window `w` at grid point `t`: the window's rectangle at that point, read off the window's array
    as it stands at the region's entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is the whole of its block -/

abbrev r3_0 : Rect S256x128 := Rect.unit (s := S256x128) ![0, 0] S256x128.size inb_S256x128_S256x128_0_0
abbrev r3_1 : Rect S256x512 := Rect.unit (s := S256x512) ![0, 0] S256x512.size inb_S256x512_S256x512_0_0
abbrev r3_2 : Rect S1x128 := Rect.unit (s := S1x128) ![0, 0] S1x128.size inb_S1x128_S1x128_0_0
abbrev r3_3 : Rect S1x128 := Rect.unit (s := S1x128) ![0, 0] S1x128.size inb_S1x128_S1x128_0_0
abbrev r3_4 : Rect S128x512 := Rect.unit (s := S128x512) ![0, 0] S128x512.size inb_S128x512_S128x512_0_0
abbrev r3_5 : Rect S512x256 := Rect.unit (s := S512x256) ![0, 0] S512x256.size inb_S512x256_S512x256_0_0

/-! ## The output block after the body -/

/-- What the body leaves in the output window's staging buffer, as a function of the five input blocks
    (`x0` activations, `x1` shortcut, `x2` scale row, `x3` shift row, `x4` weights): the contents a single
    write of the store's value through the whole-block rectangle leaves. The value is the body's one payload,
    read at what the loads see of the input blocks. -/
def out3_5 (x0 : Vec F S256x128 .bf16) (x1 : Vec F S256x512 .bf16) (x2 : Vec F S1x128 .f32) (x3 : Vec F S1x128 .f32) (x4 : Vec F S128x512 .bf16) : Vec F S512x256 .f32 :=
  View.canon [⟨r3_5, k3_pay1 (View.ld x0 r3_0) (View.ld x2 r3_2) (View.ld x3 r3_3) (View.ld x4 r3_4) (View.ld x1 r3_1)⟩]

/-- The one store is of the whole block, so every index of the block lies in its rectangle: one block of the
    block's own extents tiles the shape, which evaluation checks. -/
theorem cover3_5 (p0 : Vec F S512x256 .f32) (y : S512x256.Idx) :
    ∃ pc ∈ ([⟨r3_5, p0⟩] : List (View.Piece (Elt F) S512x256 .f32)), y ∈ pc.1.set :=
  View.cover_of_tiled [⟨r3_5, p0⟩] S512x256.size (by rfl) y

/-! ## The triple of the body -/

set_option maxHeartbeats 1000000 in
/-- The body on whole staging memrefs. Given the five inputs' memrefs at read contents `x0 … x4` and the
    output's memref at any contents, it runs to a continuation that is handed the inputs' memrefs unchanged and
    the output's at `out3_5 x0 x1 x2 x3 x4`. The printed function equals its skeleton of memory operations over
    the payload; symbolic execution runs the six loads and the store; the stored contents, read back through the
    memref's view, are the canonical contents of the write list because the store covers the block. -/
theorem sound_kernel3 (c : Dev nD) (E : Set ℕ) (i : grid3.Coords)
    (arg1 : Memref sig .tc .vmem S256x128 .bf16) (harg1 : arg1.IsWhole) (arg2 : Memref sig .tc .vmem S256x512 .bf16) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S128x512 .bf16) (harg5 : arg5.IsWhole) (arg6 : Memref sig .tc .vmem S512x256 .f32) (harg6 : arg6.IsWhole)
    (x0 : Vec F S256x128 .bf16) (x1 : Vec F S256x512 .bf16) (x2 : Vec F S1x128 .f32) (x3 : Vec F S1x128 .f32) (x4 : Vec F S128x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__stage3_kernel i arg1 harg1 arg2 harg2 arg3 harg3 arg4 harg4 arg5 harg5 arg6 harg6) K := by
  simp only [cc3__stage3_kernel_eq_skeleton]; unfold cc3__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The proof data of the pipeline -/

/-- The proof data of pipeline 3 on core `c`. The arrays are the region-entry contents. After the body at point
    `t` every input's staging buffer still holds its block and the output's holds `out3_5` of the five input
    blocks at `t`. The invariant is the one of bodies that touch nothing but their windows (the scoped rest and the
    generator register pass through); nothing is owed; every share is full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The arrays of the proof data are the region-entry contents: a projection of the definition, so `V` itself is
    never unfolded. -/
theorem A_eq3 (c : Dev nD) (w : Fin cfg3.W) : (dat3 V c).A w = V c (Pipeline.arrRef spec3 w) := by
  dsimp only [dat3]

/-- What the body leaves, window by window: the `match` of the definition reduced at each literal index. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Every input's current staging buffer holds its block at every point, whether the pipeline fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a generic point -/

/-- The resources the body is called with at point `t`: the invariant, the core's debts, and per window its
    current staging memref at what the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- The resources it returns: the same invariant and debts one point later, and per window its staging memref at
    what the proof data say the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point `t`. The inputs' memrefs hold the blocks at `t`, so the body's triple applies at those
    blocks; the invariant and the debts do not depend on the point and pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation: the separating conjunction over the six windows written out, then the triple
    above at each point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KI.Run.lean ====
/-
  The run of the whole program: @main is five stretches of host operations with the four kernel regions between them.
  The buffers' contents at each boundary are a fold from the launch memory: a host stretch applies its operations, a
  region replaces its windows' arrays by what its write-backs leave. Every weakly fair execution terminates with every
  unscoped buffer at the last boundary's contents; the frame and the value statements are read off that.
-/
import proofs.«130251_g2000005708365749_pallasbulk_1193_2_alg».proof.Proof.KI.R0
import proofs.«130251_g2000005708365749_pallasbulk_1193_2_alg».proof.Proof.KI.R1
import proofs.«130251_g2000005708365749_pallasbulk_1193_2_alg».proof.Proof.KI.R2
import proofs.«130251_g2000005708365749_pallasbulk_1193_2_alg».proof.Proof.KI.R3
import proofs.«130251_g2000005708365749_pallasbulk_1193_2_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev T1 : (c : Dev nD) → (b : Ref sig .tc) → Buf (Elt F) ((c : Thread nD τ).loc b) := fun c b => W1 m ρ c b

/-- Region 0's exit: its arrays at what the write-backs leave, every other buffer as entered. -/
def W2 (c : Dev nD) : Valuation τ sig (Elt F) :=
  Pipeline.withArrays spec0 c (W1 m ρ c) fun w => (dat0 (T1 m ρ) c).arrAt w cfg0.N
theorem W2_arr (c : Dev nD) (w : Fin cfg0.W) :
    W2 m ρ c (Proc.devRef .tc (Pipeline.arrRef spec0 w)) = (dat0 (T1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev T2 : (c : Dev nD) → (b : Ref sig .tc) → Buf (Elt F) ((c : Thread nD τ).loc b) := fun c b => W2 m ρ c b
theorem hF0 (c : Dev nD) (w : Fin cfg0.W) : (dat0 (T1 m ρ) c).arrAt w cfg0.N = T2 m ρ c (Pipeline.arrRef spec0 w) :=
  (W2_arr m ρ c w).symm
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (T1 m ρ) c).arrAt_in w hin _).trans (A_eq0 (T1 m ρ) c w))
theorem hrest0 (c : Dev nD) : ∀ b, b ∉ Finset.univ.image (Pipeline.arrRef spec0) → T2 m ρ c b = T1 m ρ c b :=
  fun b hb => W2_of_ne m ρ c b fun w e => hb (Finset.mem_image.mpr ⟨w, Finset.mem_univ _, e⟩)

/-- After the host stretch that follows region 0. -/
abbrev W3 : Dev nD → Valuation τ sig (Elt F) := fun c => StableHlo.after hostOps1 (W2 m ρ c)
abbrev T3 : (c : Dev nD) → (b : Ref sig .tc) → Buf (Elt F) ((c : Thread nD τ).loc b) := fun c b => W3 m ρ c b

/-- Region 1's exit: its arrays at what the write-backs leave, every other buffer as entered. -/
def W4 (c : Dev nD) : Valuation τ sig (Elt F) :=
  Pipeline.withArrays spec1 c (W3 m ρ c) fun w => (dat1 (T3 m ρ) c).arrAt w cfg1.N
theorem W4_arr (c : Dev nD) (w : Fin cfg1.W) :
    W4 m ρ c (Proc.devRef .tc (Pipeline.arrRef spec1 w)) = (dat1 (T3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev T4 : (c : Dev nD) → (b : Ref sig .tc) → Buf (Elt F) ((c : Thread nD τ).loc b) := fun c b => W4 m ρ c b
theorem hF1 (c : Dev nD) (w : Fin cfg1.W) : (dat1 (T3 m ρ) c).arrAt w cfg1.N = T4 m ρ c (Pipeline.arrRef spec1 w) :=
  (W4_arr m ρ c w).symm
/-- An input window's array leaves region 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (T3 m ρ) c).arrAt_in w hin _).trans (A_eq1 (T3 m ρ) c w))
theorem hrest1 (c : Dev nD) : ∀ b, b ∉ Finset.univ.image (Pipeline.arrRef spec1) → T4 m ρ c b = T3 m ρ c b :=
  fun b hb => W4_of_ne m ρ c b fun w e => hb (Finset.mem_image.mpr ⟨w, Finset.mem_univ _, e⟩)

/-- After the host stretch that follows region 1. -/
abbrev W5 : Dev nD → Valuation τ sig (Elt F) := fun c => StableHlo.after hostOps2 (W4 m ρ c)
abbrev T5 : (c : Dev nD) → (b : Ref sig .tc) → Buf (Elt F) ((c : Thread nD τ).loc b) := fun c b => W5 m ρ c b

/-- Region 2's exit: its arrays at what the write-backs leave, every other buffer as entered. -/
def W6 (c : Dev nD) : Valuation τ sig (Elt F) :=
  Pipeline.withArrays spec2 c (W5 m ρ c) fun w => (dat2 (T5 m ρ) c).arrAt w cfg2.N
theorem W6_arr (c : Dev nD) (w : Fin cfg2.W) :
    W6 m ρ c (Proc.devRef .tc (Pipeline.arrRef spec2 w)) = (dat2 (T5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev T6 : (c : Dev nD) → (b : Ref sig .tc) → Buf (Elt F) ((c : Thread nD τ).loc b) := fun c b => W6 m ρ c b
theorem hF2 (c : Dev nD) (w : Fin cfg2.W) : (dat2 (T5 m ρ) c).arrAt w cfg2.N = T6 m ρ c (Pipeline.arrRef spec2 w) :=
  (W6_arr m ρ c w).symm
/-- An input window's array leaves region 2 as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (T5 m ρ) c).arrAt_in w hin _).trans (A_eq2 (T5 m ρ) c w))
theorem hrest2 (c : Dev nD) : ∀ b, b ∉ Finset.univ.image (Pipeline.arrRef spec2) → T6 m ρ c b = T5 m ρ c b :=
  fun b hb => W6_of_ne m ρ c b fun w e => hb (Finset.mem_image.mpr ⟨w, Finset.mem_univ _, e⟩)

/-- After the host stretch that follows region 2. -/
abbrev W7 : Dev nD → Valuation τ sig (Elt F) := fun c => StableHlo.after hostOps3 (W6 m ρ c)
abbrev T7 : (c : Dev nD) → (b : Ref sig .tc) → Buf (Elt F) ((c : Thread nD τ).loc b) := fun c b => W7 m ρ c b

/-- Region 3's exit: its arrays at what the write-backs leave, every other buffer as entered. -/
def W8 (c : Dev nD) : Valuation τ sig (Elt F) :=
  Pipeline.withArrays spec3 c (W7 m ρ c) fun w => (dat3 (T7 m ρ) c).arrAt w cfg3.N
theorem W8_arr (c : Dev nD) (w : Fin cfg3.W) :
    W8 m ρ c (Proc.devRef .tc (Pipeline.arrRef spec3 w)) = (dat3 (T7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev T8 : (c : Dev nD) → (b : Ref sig .tc) → Buf (Elt F) ((c : Thread nD τ).loc b) := fun c b => W8 m ρ c b
theorem hF3 (c : Dev nD) (w : Fin cfg3.W) : (dat3 (T7 m ρ) c).arrAt w cfg3.N = T8 m ρ c (Pipeline.arrRef spec3 w) :=
  (W8_arr m ρ c w).symm
/-- An input window's array leaves region 3 as it entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (T7 m ρ) c).arrAt_in w hin _).trans (A_eq3 (T7 m ρ) c w))
theorem hrest3 (c : Dev nD) : ∀ b, b ∉ Finset.univ.image (Pipeline.arrRef spec3) → T8 m ρ c b = T7 m ρ c b :=
  fun b hb => W8_of_ne m ρ c b fun w e => hb (Finset.mem_image.mpr ⟨w, Finset.mem_univ _, e⟩)

/-- After the host stretch that follows region 3. -/
abbrev W9 : Dev nD → Valuation τ sig (Elt F) := fun c => StableHlo.after hostOps4 (W8 m ρ c)
abbrev T9 : (c : Dev nD) → (b : Ref sig .tc) → Buf (Elt F) ((c : Thread nD τ).loc b) := fun c b => W9 m ρ c b

/-! ## A buffer that no host operation writes and that every region leaves as entered ends as launched -/

theorem W9_of (c : Dev nD) (b : Ref sig .tc) (h0 : b ∉ hostOps0_W) (h1 : b ∉ hostOps1_W) (h2 : b ∉ hostOps2_W) (h3 : b ∉ hostOps3_W) (h4 : b ∉ hostOps4_W)
    (a0 : W2 m ρ c (Proc.devRef .tc b) = W1 m ρ c (Proc.devRef .tc b)) (a1 : W4 m ρ c (Proc.devRef .tc b) = W3 m ρ c (Proc.devRef .tc b))
    (a2 : W6 m ρ c (Proc.devRef .tc b) = W5 m ρ c (Proc.devRef .tc b)) (a3 : W8 m ρ c (Proc.devRef .tc b) = W7 m ρ c (Proc.devRef .tc b)) :
    W9 m ρ c (Proc.devRef .tc b) = m ((c : Thread nD τ).loc b) :=
  calc W9 m ρ c (Proc.devRef .tc b)
    _ = W8 m ρ c (Proc.devRef .tc b) := StableHlo.after_of_writes_sub hostOps4 _ hostOps4_writes h4
    _ = W7 m ρ c (Proc.devRef .tc b) := a3
    _ = W6 m ρ c (Proc.devRef .tc b) := StableHlo.after_of_writes_sub hostOps3 _ hostOps3_writes h3
    _ = W5 m ρ c (Proc.devRef .tc b) := a2
    _ = W4 m ρ c (Proc.devRef .tc b) := StableHlo.after_of_writes_sub hostOps2 _ hostOps2_writes h2
    _ = W3 m ρ c (Proc.devRef .tc b) := a1
    _ = W2 m ρ c (Proc.devRef .tc b) := StableHlo.after_of_writes_sub hostOps1 _ hostOps1_writes h1
    _ = W1 m ρ c (Proc.devRef .tc b) := a0
    _ = W0 m ρ c (Proc.devRef .tc b) := StableHlo.after_of_writes_sub hostOps0 _ hostOps0_writes h0
    _ = m ((c : Thread nD τ).loc b) := rfl

/-! ## The proof data family and the thread state -/

abbrev adm4 : (p : Fin 4) → (pcfgs (F := F) p).Adm := fun p => (cfgs p).toPCfg_adm
/-- Every pipeline's proof data at its region's entry contents. -/
def pdats : (p : Fin 4) → (c : Dev nD) → Dat τ (Elt F) Unit ℕ (UR sig nD τ) ℕ (Pipeline.pin (pcfgs (F := F)) adm4 p) c
  | ⟨0, _⟩ => fun c => dat0 (T1 m ρ) c
  | ⟨1, _⟩ => fun c => dat1 (T3 m ρ) c
  | ⟨2, _⟩ => fun c => dat2 (T5 m ρ) c
  | ⟨3, _⟩ => fun c => dat3 (T7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 as a segment: entered with every unscoped buffer at W1, left with them at W2. Its arrays are split out of
    the unscoped buffers and put back at their exit contents; the generator register goes into the kernel's invariant and
    comes back; nothing is owed; the kernel has no semaphore of its own. -/
def reg0 : Pipeline.RegionSeg (pcfgs (F := F)) adm4 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm4 (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm4 (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at W3, left with them at W4. Its arrays are split out of
    the unscoped buffers and put back at their exit contents; the generator register goes into the kernel's invariant and
    comes back; nothing is owed; the kernel has no semaphore of its own. -/
def reg1 : Pipeline.RegionSeg (pcfgs (F := F)) adm4 (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) adm4 (pdats m ρ) launch1.win launch1.arr_whole c
      ((pdats m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm4 (Ix := Unit) (Name := ℕ) (U := UR sig nD τ) (Lvl := ℕ)
      launch1.win launch1.arr_whole c (pdats m ρ) ((pdats m ρ 1 c).share_full fun _ => rfl)
      (T3 m ρ c) (T4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at W5, left with them at W6. Its arrays are split out of
    the unscoped buffers and put back at their exit contents; the generator register goes into the kernel's invariant and
    comes back; nothing is owed; the kernel has no semaphore of its own. -/
def reg2 : Pipeline.RegionSeg (pcfgs (F := F)) adm4 (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (T5 m ρ c)
  hentry c := by
    rw [Pipeline.ownSems0_none]
    have hsplit := Pipeline.arrays_of_unscopedBufs (p := 2) (pcfgs (F := F)) adm4 (pdats m ρ) launch2.win launch2.arr_whole c
      ((pdats m ρ 2 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm4 (Ix := Unit) (Name := ℕ) (U := UR sig nD τ) (Lvl := ℕ)
      launch2.win launch2.arr_whole c (pdats m ρ) ((pdats m ρ 2 c).share_full fun _ => rfl)
      (T5 m ρ c) (T6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at W7, left with them at W8. Its arrays are split out of
    the unscoped buffers and put back at their exit contents; the generator register goes into the kernel's invariant and
    comes back; nothing is owed; the kernel has no semaphore of its own. -/
def reg3 : Pipeline.RegionSeg (pcfgs (F := F)) adm4 (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (T7 m ρ c)
  hentry c := by
    rw [Pipeline.ownSems0_none]
    have hsplit := Pipeline.arrays_of_unscopedBufs (p := 3) (pcfgs (F := F)) adm4 (pdats m ρ) launch3.win launch3.arr_whole c
      ((pdats m ρ 3 c).share_full fun _ => rfl) (T7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm4 (Ix := Unit) (Name := ℕ) (U := UR sig nD τ) (Lvl := ℕ)
      launch3.win launch3.arr_whole c (pdats m ρ) ((pdats m ρ 3 c).share_full fun _ => rfl)
      (T7 m ρ c) (T8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsAll : List (Pipeline.Seg (pcfgs (F := F)) adm4 (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

set_option backward.isDefEq.respectTransparency.types false in
/-- Every weakly fair execution of @main from memory m with zero counters terminates, nothing faulting, with every
    unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm4 (pdats m ρ) () cellOf_inj emb₁ defs₀ 𝒱₀ L lv m ρ main (segsAll m ρ)
    (fun c Q => by
      rewrite [main_chain c, Pipeline.Seg.run_eq_chain,
        show (segsAll m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-! ## The arguments end as launched; the result is read off the last boundary -/

theorem W9_kept (c : Dev nD) (b : Ref sig .tc) (h0 : b ∉ hostOps0_W) (h1 : b ∉ hostOps1_W) (h2 : b ∉ hostOps2_W) (h3 : b ∉ hostOps3_W) (h4 : b ∉ hostOps4_W)
    (a0 : ∀ w, Pipeline.arrRef spec0 w ≠ b) (a1 : ∀ w, Pipeline.arrRef spec1 w ≠ b) (a2 : ∀ w, Pipeline.arrRef spec2 w ≠ b) (a3 : ∀ w, Pipeline.arrRef spec3 w ≠ b) :
    W9 m ρ c (Proc.devRef .tc b) = m ((c : Thread nD τ).loc b) :=
  W9_of m ρ c b h0 h1 h2 h3 h4 (W2_of_ne m ρ c b a0) (W4_of_ne m ρ c b a1) (W6_of_ne m ρ c b a2) (W8_of_ne m ρ c b a3)
theorem W9_main_arg0 (c : Dev nD) : W9 m ρ c (Proc.devRef .tc main_arg0) = m ((c : Thread nD τ).loc main_arg0) :=
  W9_kept m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_kept m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_kept m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_kept m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_kept m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_kept m ρ c main_arg5 (by decide) (by decide) (by decide) (by decide) (by decide) (by decide) (by decide) (by decide) (by decide)
theorem W9_main_arg6 (c : Dev nD) : W9 m ρ c (Proc.devRef .tc main_arg6) = m ((c : Thread nD τ).loc main_arg6) :=
  W9_kept m ρ c main_arg6 (by decide) (by decide) (by decide) (by decide) (by decide) (by decide) (by decide) (by decide) (by decide)
theorem W9_main_arg7 (c : Dev nD) : W9 m ρ c (Proc.devRef .tc main_arg7) = m ((c : Thread nD τ).loc main_arg7) :=
  W9_kept m ρ c main_arg7 (by decide) (by decide) (by decide) (by decide) (by decide) (by decide) (by decide) (by decide) (by decide)
theorem W9_main_arg8 (c : Dev nD) : W9 m ρ c (Proc.devRef .tc main_arg8) = m ((c : Thread nD τ).loc main_arg8) :=
  W9_kept m ρ c main_arg8 (by decide) (by decide) (by decide) (by decide) (by decide) (by decide) (by decide) (by decide) (by decide)
theorem W9_main_arg9 (c : Dev nD) : W9 m ρ c (Proc.devRef .tc main_arg9) = m ((c : Thread nD τ).loc main_arg9) :=
  W9_kept m ρ c main_arg9 (by decide) (by decide) (by decide) (by decide) (by decide) (by decide) (by decide) (by decide) (by decide)
theorem W9_main_arg10 (c : Dev nD) : W9 m ρ c (Proc.devRef .tc main_arg10) = m ((c : Thread nD τ).loc main_arg10) :=
  W9_kept m ρ c main_arg10 (by decide) (by decide) (by decide) (by decide) (by decide) (by decide) (by decide) (by decide) (by decide)
/-- The frame: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c)⟩) (run m ρ)

/-- The same run with the result named: the result buffer ends at the last boundary's contents. -/
theorem run_v0 : θ_run defs (onTc (τ := τ) (main (F := F))) ⟨m, fun _ => 0, ρ⟩ (fun r => ∀ c : Dev nD,
      r.2.mem ((c.tc : Thread nD τ).loc main_v0) = W9 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v0 (by decide)),
    (h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c)⟩) (run m ρ)

end Cert.KernelIdeal.Frame

end
-- ==== Proof.RI.R0.lean ====
/-
  Region 0: the per-image statistics pass. At grid point n the body reads image n's block of the
  input array and writes, into row n of the [32, 2, 256] result, the per-channel sum and the per-channel sum of
  squares of that block. Stated at a parameter V, the core's buffer contents when the region is entered.
-/
import proofs.«130251_g2000005708365749_pallasbulk_1193_2_alg».proof.Proof.Gen.ReferenceIdeal.Launch
import proofs.«130251_g2000005708365749_pallasbulk_1193_2_alg».proof.Proof.Gen.ReferenceIdeal.Skeleton
import proofs.«130251_g2000005708365749_pallasbulk_1193_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over V's arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole result row. -/
abbrev r0_in : Rect S1024x256 := Rect.unit (s := S1024x256) ![0, 0] S1024x256.size inb_S1024x256_S1024x256_0_0
abbrev r0_out : Rect S1x2x256 := Rect.unit (s := S1x2x256) ![0, 0, 0] S1x2x256.size inb_S1x2x256_S1x2x256_0_0_0

/-- What the body leaves in the result row: its one store, the statistics of the block it loaded. -/
def out0_1 (x0 : Vec F S1024x256 .f32) : Vec F S1x2x256 .f32 :=
  View.canon [⟨r0_out, k0_pay1 (View.ld x0 r0_in)⟩]

/-- That store covers the row. -/
theorem cover0_1 (p0 : Vec F S1x2x256 .f32) (y : S1x2x256.Idx) :
    ∃ pc ∈ ([⟨r0_out, p0⟩] : List (View.Piece (Elt F) S1x2x256 .f32)), y ∈ pc.1.set :=
  View.cover_of_tiled [⟨r0_out, p0⟩] S1x2x256.size (by rfl) y

set_option maxHeartbeats 1000000 in
/-- The body on whole staging memrefs: the input's contents stay, the result row ends at out0_1 of them. -/
theorem sound_kernel0 (c : Dev nD) (E : Set ℕ) (i : grid0.Coords) (arg0 : Memref sig .tc .vmem S1024x256 .f32) (harg0 : arg0.IsWhole) (arg1 : Memref sig .tc .vmem S1x2x256 .f32) (harg1 : arg1.IsWhole)
    (x0 : Vec F S1024x256 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__stats_kernel i arg0 harg0 arg1 harg1) K := by
  simp only [cc0__stats_kernel_eq_skeleton]; unfold cc0__stats_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.ReferenceIdeal.Frame

end
-- ==== Proof.RI.R1.lean ====
/- Region 1 of @main (the second pallas_call, pipeline 1), at a parameter `V`: the TensorCore's buffer contents
   when the region is entered. The kernel reads five input blocks — an activation block x, a scale row, a shift row
   and two weight matrices, all f32 — and writes three output blocks: h1 = relu(x·scale + shift) · w1, the column sums
   and column sums of squares of that product (the statistics block), and the shortcut product of a strided row
   selection of the same activations with the second weight matrix. Every load and every store is of a whole
   staging buffer, so each output buffer after the body is one piece: the store's payload over the input blocks.
   This module states what each window's buffer holds after the body (`out1_W`), proves the body's triple by symbolic
   execution of its skeleton, packages the pipeline's proof data `dat1` and proves the body obligation at every
   grid point. It is generic in the float interpretation. -/
import proofs.«130251_g2000005708365749_pallasbulk_1193_2_alg».proof.Proof.Gen.ReferenceIdeal.Launch
import proofs.«130251_g2000005708365749_pallasbulk_1193_2_alg».proof.Proof.Gen.ReferenceIdeal.Skeleton
import proofs.«130251_g2000005708365749_pallasbulk_1193_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle tiles a buffer of these extents recurses once per coordinate of the long axes
set_option maxRecDepth 16384

noncomputable section

namespace Cert.ReferenceIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the block rectangle of the point read off the window's array at its
    entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every grid point its current staging buffer holds the window's block, whether the point fetches
    it or not, for any proof data whose array is the entry contents (`hA`) and whose body leaves the block where it is
    (`hafter`). Where the window is not fetched its block index is the previous point's, so the block kept is the block due. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: at every grid point its current staging buffer holds the window's block, whether the point fetches
    it or not, for any proof data whose array is the entry contents (`hA`) and whose body leaves the block where it is
    (`hafter`). Where the window is not fetched its block index is the previous point's, so the block kept is the block due. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: at every grid point its current staging buffer holds the window's block, whether the point fetches
    it or not, for any proof data whose array is the entry contents (`hA`) and whose body leaves the block where it is
    (`hafter`). Where the window is not fetched its block index is the previous point's, so the block kept is the block due. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3: at every grid point its current staging buffer holds the window's block, whether the point fetches
    it or not, for any proof data whose array is the entry contents (`hA`) and whose body leaves the block where it is
    (`hafter`). Where the window is not fetched its block index is the previous point's, so the block kept is the block due. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4: at every grid point its current staging buffer holds the window's block, whether the point fetches
    it or not, for any proof data whose array is the entry contents (`hA`) and whose body leaves the block where it is
    (`hafter`). Where the window is not fetched its block index is the previous point's, so the block kept is the block due. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole staging buffer -/

abbrev r1_0 : Rect S1024x256 := Rect.unit (s := S1024x256) ![0, 0] S1024x256.size inb_S1024x256_S1024x256_0_0
abbrev r1_1 : Rect S1x256 := Rect.unit (s := S1x256) ![0, 0] S1x256.size inb_S1x256_S1x256_0_0
abbrev r1_2 : Rect S256x128 := Rect.unit (s := S256x128) ![0, 0] S256x128.size inb_S256x128_S256x128_0_0
abbrev r1_3 : Rect S1x2x128 := Rect.unit (s := S1x2x128) ![0, 0, 0] S1x2x128.size inb_S1x2x128_S1x2x128_0_0_0
abbrev r1_4 : Rect S1024x128 := Rect.unit (s := S1024x128) ![0, 0] S1024x128.size inb_S1024x128_S1024x128_0_0
abbrev r1_5 : Rect S256x512 := Rect.unit (s := S256x512) ![0, 0] S256x512.size inb_S256x512_S256x512_0_0

/-! ## What the body leaves in each output window's buffer -/

/-- Window 5 (h1) after the body: the one store's payload, the product of the normalised, rectified
    activations with the first weight matrix. -/
def out1_5 (x0 : Vec F S1024x256 .f32) (x1 : Vec F S1x256 .f32) (x2 : Vec F S1x256 .f32) (x3 : Vec F S256x128 .f32) (x4 : Vec F S256x512 .f32) : Vec F S1024x128 .f32 :=
  View.canon [⟨r1_4, k1_pay2 (View.ld x0 r1_0) (View.ld x1 r1_1) (View.ld x2 r1_1) (View.ld x3 r1_2)⟩]

/-- Window 6 (the shortcut) after the body: the product of the selected activation rows with the second weight
    matrix. -/
def out1_6 (x0 : Vec F S1024x256 .f32) (x1 : Vec F S1x256 .f32) (x2 : Vec F S1x256 .f32) (x3 : Vec F S256x128 .f32) (x4 : Vec F S256x512 .f32) : Vec F S256x512 .f32 :=
  View.canon [⟨r1_5, k1_pay4 (View.ld x0 r1_0) (View.ld x1 r1_1) (View.ld x2 r1_1) (View.ld x4 r1_5)⟩]

/-- Window 7 (the statistics) after the body: the column sums of the product and of its square, stacked. -/
def out1_7 (x0 : Vec F S1024x256 .f32) (x1 : Vec F S1x256 .f32) (x2 : Vec F S1x256 .f32) (x3 : Vec F S256x128 .f32) (x4 : Vec F S256x512 .f32) : Vec F S1x2x128 .f32 :=
  View.canon [⟨r1_3, k1_pay3 (View.ld x0 r1_0) (View.ld x1 r1_1) (View.ld x2 r1_1) (View.ld x3 r1_2)⟩]

/-- One whole-buffer rectangle tiles the buffer, so every index lies in it. -/
theorem cover1_5 (p0 : Vec F S1024x128 .f32) (y : S1024x128.Idx) :
    ∃ pc ∈ ([⟨r1_4, p0⟩] : List (View.Piece (Elt F) S1024x128 .f32)), y ∈ pc.1.set :=
  View.cover_of_tiled [⟨r1_4, p0⟩] S1024x128.size (by rfl) y
theorem cover1_6 (p0 : Vec F S256x512 .f32) (y : S256x512.Idx) :
    ∃ pc ∈ ([⟨r1_5, p0⟩] : List (View.Piece (Elt F) S256x512 .f32)), y ∈ pc.1.set :=
  View.cover_of_tiled [⟨r1_5, p0⟩] S256x512.size (by rfl) y
theorem cover1_7 (p0 : Vec F S1x2x128 .f32) (y : S1x2x128.Idx) :
    ∃ pc ∈ ([⟨r1_3, p0⟩] : List (View.Piece (Elt F) S1x2x128 .f32)), y ∈ pc.1.set :=
  View.cover_of_tiled [⟨r1_3, p0⟩] S1x2x128.size (by rfl) y

/-! ## The body's triple -/

set_option maxHeartbeats 1000000 in
/-- The body on whole staging memrefs — the five inputs' holding `x0 … x4`, the three outputs' holding anything — runs
    to a state where the inputs' hold what they held and each output's holds `out1_W` of the inputs. The printed
    body is its skeleton of loads and stores, which are stepped one by one; a buffer written by one whole-buffer store
    reads back as that store's payload. -/
theorem sound_kernel1 (c : Dev nD) (E : Set ℕ) (i : grid1.Coords) (arg1 : Memref sig .tc .vmem S1024x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S256x512 .f32) (harg5 : arg5.IsWhole) (arg6 : Memref sig .tc .vmem S1024x128 .f32) (harg6 : arg6.IsWhole) (arg7 : Memref sig .tc .vmem S256x512 .f32) (harg7 : arg7.IsWhole) (arg8 : Memref sig .tc .vmem S1x2x128 .f32) (harg8 : arg8.IsWhole)
    (x0 : Vec F S1024x256 .f32) (x1 : Vec F S1x256 .f32) (x2 : Vec F S1x256 .f32) (x3 : Vec F S256x128 .f32) (x4 : Vec F S256x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4) ∗ owns (c : Thread nD τ) arg8 fullShare (out1_7 x0 x1 x2 x3 x4)) -∗ K ⟨⟩))
      ⊢ wp frame (wpE (defs₀ (F := F)) Variants.none c none) E (cc1__stage1_body i arg1 harg1 arg2 harg2 arg3 harg3 arg4 harg4 arg5 harg5 arg6 harg6 arg7 harg7 arg8 harg8) K := by
  simp only [cc1__stage1_body_eq_skeleton]; unfold cc1__stage1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of pipeline 1 on core `c`: the arrays at the entry contents; after the body at point `t` each
    input's buffer still at its block and each output's at `out1_W` of the five input blocks; as invariant the scoped
    rest of the core and its generator register, which the body does not touch; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and the eight current staging
    buffers, each at what the pipeline has put in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns: the same, with each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies at those blocks; the
    invariant and the debts are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point: the product over the eight windows written out. -/
theorem body_obligation1 (c : Dev nD) : BodyObligation (dat1 (F := F) V c) (defs₀ (F := F)) Variants.none () Set.univ := fun t => by
  rw [bigSep_W1, bigSep_W1]
  exact sound_body1 V c t

end Cert.ReferenceIdeal.Frame

end
-- ==== Proof.RI.R2.lean ====
import proofs.«130251_g2000005708365749_pallasbulk_1193_2_alg».proof.Proof.Gen.ReferenceIdeal.Launch
import proofs.«130251_g2000005708365749_pallasbulk_1193_2_alg».proof.Proof.Gen.ReferenceIdeal.Skeleton
import proofs.«130251_g2000005708365749_pallasbulk_1193_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (custom_call 2, pipeline 2), at the entry contents `V`

The third pallas_call convolves a normalised, rectified activation with a 3×3 kernel. At every grid point the body
(i) rebuilds a zero-padded copy of the 32×32×128 activation tile in a 34×34×128 scratch buffer, (ii) reads the nine
shifted 32×32×128 windows of the padded tile, subsamples each to 16×16 and lays them side by side as a 256×1152
matrix, (iii) multiplies by the 1152×128 weights, and (iv) stores the product and its column sums and column
sums of squares. The scratch buffer is rewritten completely before it is read, so what the body leaves in the two
output windows is a function of the four input blocks alone. -/

set_option maxRecDepth 16384

noncomputable section

namespace Cert.ReferenceIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of the window's array, as the region finds it (`V`), that the
    window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether the pipeline fetched it there
    or not: window 0's index moves with the point and it is fetched everywhere; windows 1, 2, 3 have a constant index
    map, are fetched at the first point only, and afterwards still hold the same block because the body leaves an
    input's buffer as it found it. Stated for ANY proof data whose array is `V`'s and whose body keeps the block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The four inputs are loaded whole, the two outputs stored whole. -/
abbrev r2_x0 : Rect S1024x128 := Rect.unit (s := S1024x128) ![0, 0] S1024x128.size inb_S1024x128_S1024x128_0_0
abbrev r2_x1 : Rect S1x128 := Rect.unit (s := S1x128) ![0, 0] S1x128.size inb_S1x128_S1x128_0_0
abbrev r2_x3 : Rect S1152x128 := Rect.unit (s := S1152x128) ![0, 0] S1152x128.size inb_S1152x128_S1152x128_0_0
abbrev r2_o4 : Rect S256x128 := Rect.unit (s := S256x128) ![0, 0] S256x128.size inb_S256x128_S256x128_0_0
abbrev r2_o5 : Rect S1x2x128 := Rect.unit (s := S1x2x128) ![0, 0, 0] S1x2x128.size inb_S1x2x128_S1x2x128_0_0_0

/-- The padded tile's five slices: its first and last row, its first and last column, and the 32×32 interior. -/
abbrev r2_top : Rect S34x34x128 := Rect.unit (s := S34x34x128) ![0, 0, 0] S1x34x128.size inb_S34x34x128_S1x34x128_0_0_0
abbrev r2_bot : Rect S34x34x128 := Rect.unit (s := S34x34x128) ![33, 0, 0] S1x34x128.size inb_S34x34x128_S1x34x128_33_0_0
abbrev r2_left : Rect S34x34x128 := Rect.unit (s := S34x34x128) ![0, 0, 0] S34x1x128.size inb_S34x34x128_S34x1x128_0_0_0
abbrev r2_right : Rect S34x34x128 := Rect.unit (s := S34x34x128) ![0, 33, 0] S34x1x128.size inb_S34x34x128_S34x1x128_0_33_0
abbrev r2_mid : Rect S34x34x128 := Rect.unit (s := S34x34x128) ![1, 1, 0] S32x32x128.size inb_S34x34x128_S32x32x128_1_1_0

/-- The nine 32×32×128 windows of the padded tile a 3×3 stencil reads: `r2_t⟨dy⟩⟨dx⟩` starts at row `dy`, column `dx`. -/
abbrev r2_t00 : Rect S34x34x128 := Rect.unit (s := S34x34x128) ![0, 0, 0] S32x32x128.size inb_S34x34x128_S32x32x128_0_0_0
abbrev r2_t01 : Rect S34x34x128 := Rect.unit (s := S34x34x128) ![0, 1, 0] S32x32x128.size inb_S34x34x128_S32x32x128_0_1_0
abbrev r2_t02 : Rect S34x34x128 := Rect.unit (s := S34x34x128) ![0, 2, 0] S32x32x128.size inb_S34x34x128_S32x32x128_0_2_0
abbrev r2_t10 : Rect S34x34x128 := Rect.unit (s := S34x34x128) ![1, 0, 0] S32x32x128.size inb_S34x34x128_S32x32x128_1_0_0
abbrev r2_t11 : Rect S34x34x128 := Rect.unit (s := S34x34x128) ![1, 1, 0] S32x32x128.size inb_S34x34x128_S32x32x128_1_1_0
abbrev r2_t12 : Rect S34x34x128 := Rect.unit (s := S34x34x128) ![1, 2, 0] S32x32x128.size inb_S34x34x128_S32x32x128_1_2_0
abbrev r2_t20 : Rect S34x34x128 := Rect.unit (s := S34x34x128) ![2, 0, 0] S32x32x128.size inb_S34x34x128_S32x32x128_2_0_0
abbrev r2_t21 : Rect S34x34x128 := Rect.unit (s := S34x34x128) ![2, 1, 0] S32x32x128.size inb_S34x34x128_S32x32x128_2_1_0
abbrev r2_t22 : Rect S34x34x128 := Rect.unit (s := S34x34x128) ![2, 2, 0] S32x32x128.size inb_S34x34x128_S32x32x128_2_2_0

/-! ## What the body leaves in each output window's buffer -/

/-- The activation tile: the input block scaled and shifted per channel, rectified, and read as 32 rows of 32 pixels. -/
def act2 (x0 : Vec F S1024x128 .f32) (x1 : Vec F S1x128 .f32) (x2 : Vec F S1x128 .f32) : Vec F S32x32x128 .f32 :=
  k2_pay9 (View.ld x0 r2_x0) (View.ld x1 r2_x1) (View.ld x2 r2_x1)

/-- The padded tile: what the scratch buffer holds once the body has stored its two border rows, its two border
    columns (all zero) and the interior `a` — the five slice stores, LAST FIRST. It does not mention what the scratch
    held before: the five slices cover it. -/
def pad2 (a : Vec F S32x32x128 .f32) : Vec F S34x34x128 .f32 :=
  View.canon [⟨r2_mid, a⟩, ⟨r2_right, k2_pay8 (F := F)⟩, ⟨r2_left, k2_pay7 (F := F)⟩, ⟨r2_bot, k2_pay6 (F := F)⟩, ⟨r2_top, k2_pay5 (F := F)⟩]

/-- The product stored in window 4: the nine windows of the padded tile `p`, subsampled, side by side, times the
    weights `w`. -/
def conv2_4 (p : Vec F S34x34x128 .f32) (w : Vec F S1152x128 .f32) : Vec F S256x128 .f32 :=
  k2_pay1 (k2_pay10 (View.ld p r2_t00)) (k2_pay11 (View.ld p r2_t01)) (k2_pay12 (View.ld p r2_t02)) (k2_pay13 (View.ld p r2_t10)) (k2_pay14 (View.ld p r2_t11)) (k2_pay15 (View.ld p r2_t12)) (View.ld p r2_t20) (View.ld p r2_t21) (View.ld p r2_t22) w

/-- The statistics stored in window 5: the product's column sums and column sums of squares. -/
def conv2_5 (p : Vec F S34x34x128 .f32) (w : Vec F S1152x128 .f32) : Vec F S1x2x128 .f32 :=
  k2_pay2 (k2_pay10 (View.ld p r2_t00)) (k2_pay11 (View.ld p r2_t01)) (k2_pay12 (View.ld p r2_t02)) (k2_pay13 (View.ld p r2_t10)) (k2_pay14 (View.ld p r2_t11)) (k2_pay15 (View.ld p r2_t12)) (View.ld p r2_t20) (View.ld p r2_t21) (View.ld p r2_t22) w

/-- Window 4's staging buffer after the body, from the input windows' blocks: its one store, of the whole block. -/
def out2_4 (x0 : Vec F S1024x128 .f32) (x1 : Vec F S1x128 .f32) (x2 : Vec F S1x128 .f32) (x3 : Vec F S1152x128 .f32) : Vec F S256x128 .f32 :=
  View.canon [⟨r2_o4, conv2_4 (pad2 (act2 x0 x1 x2)) (View.ld x3 r2_x3)⟩]

/-- Window 5's staging buffer after the body, from the input windows' blocks: its one store, of the whole block. -/
def out2_5 (x0 : Vec F S1024x128 .f32) (x1 : Vec F S1x128 .f32) (x2 : Vec F S1x128 .f32) (x3 : Vec F S1152x128 .f32) : Vec F S1x2x128 .f32 :=
  View.canon [⟨r2_o5, conv2_5 (pad2 (act2 x0 x1 x2)) (View.ld x3 r2_x3)⟩]

/-- Each output's one store is of its whole block, so it covers it. -/
theorem cover2_4 (p0 : Vec F S256x128 .f32) (y : S256x128.Idx) :
    ∃ pc ∈ ([⟨r2_o4, p0⟩] : List (View.Piece (Elt F) S256x128 .f32)), y ∈ pc.1.set :=
  View.cover_of_tiled [⟨r2_o4, p0⟩] S256x128.size (by rfl) y
theorem cover2_5 (p0 : Vec F S1x2x128 .f32) (y : S1x2x128.Idx) :
    ∃ pc ∈ ([⟨r2_o5, p0⟩] : List (View.Piece (Elt F) S1x2x128 .f32)), y ∈ pc.1.set :=
  View.cover_of_tiled [⟨r2_o5, p0⟩] S1x2x128.size (by rfl) y

/-! ## The body's triple -/

set_option maxHeartbeats 1000000 in
/-- The kernel body on whole staging memrefs and the whole scratch buffer — the inputs' at read contents `xW`, the
    outputs' and the scratch at anything — runs to the continuation holding the inputs' as they were, each output's at
    `out2_W` of the inputs', and the scratch at something. -/
theorem sound_kernel2 (c : Dev nD) (E : Set ℕ) (i : grid2.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1152x128 .f32) (harg4 : arg4.IsWhole) (arg5 : Memref sig .tc .vmem S256x128 .f32) (harg5 : arg5.IsWhole) (arg6 : Memref sig .tc .vmem S1x2x128 .f32) (harg6 : arg6.IsWhole) (arg7 : Memref sig .tc .vmem S34x34x128 .f32) (harg7 : arg7.IsWhole)
    (x0 : Vec F S1024x128 .f32) (x1 : Vec F S1x128 .f32) (x2 : Vec F S1x128 .f32) (x3 : Vec F S1152x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)
            ∗ owns (c : Thread nD τ) arg6 fullShare (out2_5 x0 x1 x2 x3) ∗ (∃ d, owns (c : Thread nD τ) arg7 fullShare d)) -∗ K ⟨⟩))
      ⊢ wp frame (wpE (defs₀ (F := F)) Variants.none c none) E (cc2__stage2_body i arg1 harg1 arg2 harg2 arg3 harg3 arg4 harg4 arg5 harg5 arg6 harg6 arg7 harg7) K := by
  simp only [cc2__stage2_body_eq_skeleton]; unfold cc2__stage2_body_skel
  simp only [k2_part1_eq_skeleton, k2_part2_eq_skeleton]; unfold k2_part1_skel k2_part2_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  -- the nine windows the body loads from the scratch buffer, each a window of the padded activation tile: the five
  -- slice stores before them are what `pad2` lists
  have ev30 : sound_kernel2.sl.v30 c arg1 arg2 arg3 arg7 f1 f2 f3
      = View.ld (pad2 (act2 (arg1.view.read (Elt F) f1) (arg2.view.read (Elt F) f2) (arg3.view.read (Elt F) f3))) r2_t00 :=
    View.readCov_eq_canon' arg7.view _ _
  have ev37 : sound_kernel2.sl.v37 c arg1 arg2 arg3 arg7 f1 f2 f3
      = View.ld (pad2 (act2 (arg1.view.read (Elt F) f1) (arg2.view.read (Elt F) f2) (arg3.view.read (Elt F) f3))) r2_t01 :=
    View.readCov_eq_canon' arg7.view _ _
  have ev44 : sound_kernel2.sl.v44 c arg1 arg2 arg3 arg7 f1 f2 f3
      = View.ld (pad2 (act2 (arg1.view.read (Elt F) f1) (arg2.view.read (Elt F) f2) (arg3.view.read (Elt F) f3))) r2_t02 :=
    View.readCov_eq_canon' arg7.view _ _
  have ev51 : sound_kernel2.sl.v51 c arg1 arg2 arg3 arg7 f1 f2 f3
      = View.ld (pad2 (act2 (arg1.view.read (Elt F) f1) (arg2.view.read (Elt F) f2) (arg3.view.read (Elt F) f3))) r2_t10 :=
    View.readCov_eq_canon' arg7.view _ _
  have ev58 : sound_kernel2.sl.v58 c arg1 arg2 arg3 arg7 f1 f2 f3
      = View.ld (pad2 (act2 (arg1.view.read (Elt F) f1) (arg2.view.read (Elt F) f2) (arg3.view.read (Elt F) f3))) r2_t11 :=
    View.readCov_eq_canon' arg7.view _ _
  have ev65 : sound_kernel2.sl.v65 c arg1 arg2 arg3 arg7 f1 f2 f3
      = View.ld (pad2 (act2 (arg1.view.read (Elt F) f1) (arg2.view.read (Elt F) f2) (arg3.view.read (Elt F) f3))) r2_t12 :=
    View.readCov_eq_canon' arg7.view _ _
  have ev72 : sound_kernel2.sl.v72 c arg1 arg2 arg3 arg7 f1 f2 f3
      = View.ld (pad2 (act2 (arg1.view.read (Elt F) f1) (arg2.view.read (Elt F) f2) (arg3.view.read (Elt F) f3))) r2_t20 :=
    View.readCov_eq_canon' arg7.view _ _
  have ev79 : sound_kernel2.sl.v79 c arg1 arg2 arg3 arg7 f1 f2 f3
      = View.ld (pad2 (act2 (arg1.view.read (Elt F) f1) (arg2.view.read (Elt F) f2) (arg3.view.read (Elt F) f3))) r2_t21 :=
    View.readCov_eq_canon' arg7.view _ _
  have ev86 : sound_kernel2.sl.v86 c arg1 arg2 arg3 arg7 f1 f2 f3
      = View.ld (pad2 (act2 (arg1.view.read (Elt F) f1) (arg2.view.read (Elt F) f2) (arg3.view.read (Elt F) f3))) r2_t22 :=
    View.readCov_eq_canon' arg7.view _ _
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover2_4 _)).trans ?_
    dsimp only
    rw [ev30, ev37, ev44, ev51, ev58, ev65, ev72, ev79, ev86]
    rfl
  isplitl [H6]
  · iexists _; isplitr
    swap; · iexact H6
    ipureintro
    refine (View.read_writes_eq_canon _ _ _ (cover2_5 _)).trans ?_
    dsimp only
    rw [ev30, ev37, ev44, ev51, ev58, ev65, ev72, ev79, ev86]
    rfl
  iexists _, _; isplitr
  swap; · iexact H7
  ipureintro; rfl

/-! ## The pipeline's proof data -/

/-- The proof data of pipeline 2 on core `c`: the arrays as the region finds them; after the body at point `t` each
    input's buffer at its block and each output's at `out2_W` of the four input blocks; the invariant is the scoped
    rest (the scratch buffer among it, at anything) and the generator register, handed on unchanged; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`: the invariant, the core's debts, and every window's current staging
    buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, the scratch buffer is taken out of the scoped rest
    at whatever it holds and put back at whatever the body leaves, so `sound_kernel2` applies; the rest of the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  rw [show (dat2 V c).Φ t.castSucc = Pipeline.ΦA (Val := Elt F) (U := UR sig nD τ) spec2 c from rfl]
  unfold Pipeline.ΦA
  -- the scratch buffer, whole at some contents, beside the rest of the scoped buffers
  rw [scopedRest2_split,
    show (iprop(∃ f : Buf (Elt F) ((c : Thread nD τ).loc cc2_scratch0), ((c : Thread nD τ).loc cc2_scratch0) ↦{fullShare} f) : sProp 𝕄)
      = iprop(∃ f, owns (c : Thread nD τ) (Memref.whole cc2_scratch0) fullShare f) from by simp only [owns_whole]]
  iintro ⟨⟨⟨⟨%fs, HS⟩, HR⟩, Hg⟩, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexists fs; iexact HS
  iintro ⟨H0, H1, H2, H3, H4, H5, ⟨%ds, HS⟩⟩
  isplitl [HS HR Hg]
  · isplitl [HS HR]
    · isplitl [HS]
      · iexists ds; iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.ReferenceIdeal.Frame
-- ==== Proof.RI.R3.lean ====
/-
  Region 3 of @main (the fourth pallas_call, pipeline 3) of `ReferenceIdeal`, at a parameter `V`: the contents of the
  TensorCore's buffers when the region is entered.

  The body of this region reads five input blocks — an activation block `h`, a shortcut block `s`, a scale row
  `a`, a shift row `b` and a weight matrix `w`, all in the wide format — and stores ONE value into its output
  block: `relu(h · a + b) ⬝ w`, its 1024 × 512 entries re-read in row-major order as 64 × 8192, plus `s` (the
  affine map, the rectifier and the sum taken elementwise). Nothing is carried from one grid point to the next and the
  single store covers the whole output block, so what the body leaves in the output block is a closed function
  of the five input blocks at the point: `out3_5`. This file states that function, proves the body's triple
  against it (`sound_kernel3`), packages the proof data of the pipeline (`dat3`) and discharges the library's
  body obligation at every grid point (`body_obligation3`).
-/
import proofs.«130251_g2000005708365749_pallasbulk_1193_2_alg».proof.Proof.Gen.ReferenceIdeal.Launch
import proofs.«130251_g2000005708365749_pallasbulk_1193_2_alg».proof.Proof.Gen.ReferenceIdeal.Skeleton
import proofs.«130251_g2000005708365749_pallasbulk_1193_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of these extents lies in its buffer recurses once per coordinate of the long axis
set_option maxRecDepth 16384

noncomputable section

namespace Cert.ReferenceIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

-- what the TensorCore's buffers hold when region 3 is entered: every statement below is made at this parameter
variable (V : (c : Dev nD) → (b : Ref sig .tc) → Buf (Elt F) ((c : Thread nD τ).loc b))

/-! ## The blocks of the windows -/

/-- The block of window `w` at grid point `t`: the window's rectangle at that point, read off the window's array
    as it stands at the region's entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: whatever proof data `dat` has the region-entry array (`hA`) and a body leaving the block
    where it is (`hafter`), the current staging buffer holds the window's block at every point. Where the pipeline
    fetched at the point this is the fetch; where it did not, the block index is the previous point's, and so is
    the block. The window is not clipped and has no idle point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is the whole of its block -/

abbrev r3_0 : Rect S1024x128 := Rect.unit (s := S1024x128) ![0, 0] S1024x128.size inb_S1024x128_S1024x128_0_0
abbrev r3_1 : Rect S64x8192 := Rect.unit (s := S64x8192) ![0, 0] S64x8192.size inb_S64x8192_S64x8192_0_0
abbrev r3_2 : Rect S1x128 := Rect.unit (s := S1x128) ![0, 0] S1x128.size inb_S1x128_S1x128_0_0
abbrev r3_3 : Rect S1x128 := Rect.unit (s := S1x128) ![0, 0] S1x128.size inb_S1x128_S1x128_0_0
abbrev r3_4 : Rect S128x512 := Rect.unit (s := S128x512) ![0, 0] S128x512.size inb_S128x512_S128x512_0_0
abbrev r3_5 : Rect S64x8192 := Rect.unit (s := S64x8192) ![0, 0] S64x8192.size inb_S64x8192_S64x8192_0_0

/-! ## The output block after the body -/

/-- What the body leaves in the output window's staging buffer, as a function of the five input blocks
    (`x0` activations, `x1` shortcut, `x2` scale row, `x3` shift row, `x4` weights): the contents a single
    write of the store's value through the whole-block rectangle leaves. The value is the body's one payload,
    read at what the loads see of the input blocks. -/
def out3_5 (x0 : Vec F S1024x128 .f32) (x1 : Vec F S64x8192 .f32) (x2 : Vec F S1x128 .f32) (x3 : Vec F S1x128 .f32) (x4 : Vec F S128x512 .f32) : Vec F S64x8192 .f32 :=
  View.canon [⟨r3_5, k3_pay1 (View.ld x0 r3_0) (View.ld x2 r3_2) (View.ld x3 r3_3) (View.ld x4 r3_4) (View.ld x1 r3_1)⟩]

/-- The one store is of the whole block, so every index of the block lies in its rectangle: one block of the
    block's own extents tiles the shape, which evaluation checks. -/
theorem cover3_5 (p0 : Vec F S64x8192 .f32) (y : S64x8192.Idx) :
    ∃ pc ∈ ([⟨r3_5, p0⟩] : List (View.Piece (Elt F) S64x8192 .f32)), y ∈ pc.1.set :=
  View.cover_of_tiled [⟨r3_5, p0⟩] S64x8192.size (by rfl) y

/-! ## The triple of the body -/

set_option maxHeartbeats 1000000 in
/-- The body on whole staging memrefs. Given the five inputs' memrefs at read contents `x0 … x4` and the
    output's memref at any contents, it runs to a continuation that is handed the inputs' memrefs unchanged and
    the output's at `out3_5 x0 x1 x2 x3 x4`. The printed function equals its skeleton of memory operations over
    the payload; symbolic execution runs the six loads and the store; the stored contents, read back through the
    memref's view, are the canonical contents of the write list because the store covers the block. -/
theorem sound_kernel3 (c : Dev nD) (E : Set ℕ) (i : grid3.Coords)
    (arg1 : Memref sig .tc .vmem S1024x128 .f32) (harg1 : arg1.IsWhole) (arg2 : Memref sig .tc .vmem S64x8192 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S128x512 .f32) (harg5 : arg5.IsWhole) (arg6 : Memref sig .tc .vmem S64x8192 .f32) (harg6 : arg6.IsWhole)
    (x0 : Vec F S1024x128 .f32) (x1 : Vec F S64x8192 .f32) (x2 : Vec F S1x128 .f32) (x3 : Vec F S1x128 .f32) (x4 : Vec F S128x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__stage3_body i arg1 harg1 arg2 harg2 arg3 harg3 arg4 harg4 arg5 harg5 arg6 harg6) K := by
  simp only [cc3__stage3_body_eq_skeleton]; unfold cc3__stage3_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The proof data of the pipeline -/

/-- The proof data of pipeline 3 on core `c`. The arrays are the region-entry contents. After the body at point
    `t` every input's staging buffer still holds its block and the output's holds `out3_5` of the five input
    blocks at `t`. The invariant is the one of bodies that touch nothing but their windows (the scoped rest and the
    generator register pass through); nothing is owed; every share is full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The arrays of the proof data are the region-entry contents: a projection of the definition, so `V` itself is
    never unfolded. -/
theorem A_eq3 (c : Dev nD) (w : Fin cfg3.W) : (dat3 V c).A w = V c (Pipeline.arrRef spec3 w) := by
  dsimp only [dat3]

/-- What the body leaves, window by window: the `match` of the definition reduced at each literal index. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Every input's current staging buffer holds its block at every point, whether the pipeline fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a generic point -/

/-- The resources the body is called with at point `t`: the invariant, the core's debts, and per window its
    current staging memref at what the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- The resources it returns: the same invariant and debts one point later, and per window its staging memref at
    what the proof data say the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point `t`. The inputs' memrefs hold the blocks at `t`, so the body's triple applies at those
    blocks; the invariant and the debts do not depend on the point and pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation: the separating conjunction over the six windows written out, then the triple
    above at each point. -/
theorem body_obligation3 (c : Dev nD) : BodyObligation (dat3 (F := F) V c) (defs₀ (F := F)) Variants.none () Set.univ := fun t => by
  rw [bigSep_W3, bigSep_W3]
  exact sound_body3 V c t

end Cert.ReferenceIdeal.Frame

end
-- ==== Proof.RI.Run.lean ====
/-
  The run of the whole program: @main is five stretches of host operations with the four kernel regions between them.
  The buffers' contents at each boundary are a fold from the launch memory: a host stretch applies its operations, a
  region replaces its windows' arrays by what its write-backs leave. Every weakly fair execution terminates with every
  unscoped buffer at the last boundary's contents; the frame and the value statements are read off that.
-/
import proofs.«130251_g2000005708365749_pallasbulk_1193_2_alg».proof.Proof.RI.R0
import proofs.«130251_g2000005708365749_pallasbulk_1193_2_alg».proof.Proof.RI.R1
import proofs.«130251_g2000005708365749_pallasbulk_1193_2_alg».proof.Proof.RI.R2
import proofs.«130251_g2000005708365749_pallasbulk_1193_2_alg».proof.Proof.RI.R3
import proofs.«130251_g2000005708365749_pallasbulk_1193_2_alg».proof.Proof.Gen.ReferenceIdeal.Regions

set_option maxRecDepth 16384

noncomputable section

namespace Cert.ReferenceIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev T1 : (c : Dev nD) → (b : Ref sig .tc) → Buf (Elt F) ((c : Thread nD τ).loc b) := fun c b => W1 m ρ c b

/-- Region 0's exit: its arrays at what the write-backs leave, every other buffer as entered. -/
def W2 (c : Dev nD) : Valuation τ sig (Elt F) :=
  Pipeline.withArrays spec0 c (W1 m ρ c) fun w => (dat0 (T1 m ρ) c).arrAt w cfg0.N
theorem W2_arr (c : Dev nD) (w : Fin cfg0.W) :
    W2 m ρ c (Proc.devRef .tc (Pipeline.arrRef spec0 w)) = (dat0 (T1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev T2 : (c : Dev nD) → (b : Ref sig .tc) → Buf (Elt F) ((c : Thread nD τ).loc b) := fun c b => W2 m ρ c b
theorem hF0 (c : Dev nD) (w : Fin cfg0.W) : (dat0 (T1 m ρ) c).arrAt w cfg0.N = T2 m ρ c (Pipeline.arrRef spec0 w) :=
  (W2_arr m ρ c w).symm
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (T1 m ρ) c).arrAt_in w hin _).trans (A_eq0 (T1 m ρ) c w))
theorem hrest0 (c : Dev nD) : ∀ b, b ∉ Finset.univ.image (Pipeline.arrRef spec0) → T2 m ρ c b = T1 m ρ c b :=
  fun b hb => W2_of_ne m ρ c b fun w e => hb (Finset.mem_image.mpr ⟨w, Finset.mem_univ _, e⟩)

/-- After the host stretch that follows region 0. -/
abbrev W3 : Dev nD → Valuation τ sig (Elt F) := fun c => StableHlo.after hostOps1 (W2 m ρ c)
abbrev T3 : (c : Dev nD) → (b : Ref sig .tc) → Buf (Elt F) ((c : Thread nD τ).loc b) := fun c b => W3 m ρ c b

/-- Region 1's exit: its arrays at what the write-backs leave, every other buffer as entered. -/
def W4 (c : Dev nD) : Valuation τ sig (Elt F) :=
  Pipeline.withArrays spec1 c (W3 m ρ c) fun w => (dat1 (T3 m ρ) c).arrAt w cfg1.N
theorem W4_arr (c : Dev nD) (w : Fin cfg1.W) :
    W4 m ρ c (Proc.devRef .tc (Pipeline.arrRef spec1 w)) = (dat1 (T3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev T4 : (c : Dev nD) → (b : Ref sig .tc) → Buf (Elt F) ((c : Thread nD τ).loc b) := fun c b => W4 m ρ c b
theorem hF1 (c : Dev nD) (w : Fin cfg1.W) : (dat1 (T3 m ρ) c).arrAt w cfg1.N = T4 m ρ c (Pipeline.arrRef spec1 w) :=
  (W4_arr m ρ c w).symm
/-- An input window's array leaves region 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (T3 m ρ) c).arrAt_in w hin _).trans (A_eq1 (T3 m ρ) c w))
theorem hrest1 (c : Dev nD) : ∀ b, b ∉ Finset.univ.image (Pipeline.arrRef spec1) → T4 m ρ c b = T3 m ρ c b :=
  fun b hb => W4_of_ne m ρ c b fun w e => hb (Finset.mem_image.mpr ⟨w, Finset.mem_univ _, e⟩)

/-- After the host stretch that follows region 1. -/
abbrev W5 : Dev nD → Valuation τ sig (Elt F) := fun c => StableHlo.after hostOps2 (W4 m ρ c)
abbrev T5 : (c : Dev nD) → (b : Ref sig .tc) → Buf (Elt F) ((c : Thread nD τ).loc b) := fun c b => W5 m ρ c b

/-- Region 2's exit: its arrays at what the write-backs leave, every other buffer as entered. -/
def W6 (c : Dev nD) : Valuation τ sig (Elt F) :=
  Pipeline.withArrays spec2 c (W5 m ρ c) fun w => (dat2 (T5 m ρ) c).arrAt w cfg2.N
theorem W6_arr (c : Dev nD) (w : Fin cfg2.W) :
    W6 m ρ c (Proc.devRef .tc (Pipeline.arrRef spec2 w)) = (dat2 (T5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev T6 : (c : Dev nD) → (b : Ref sig .tc) → Buf (Elt F) ((c : Thread nD τ).loc b) := fun c b => W6 m ρ c b
theorem hF2 (c : Dev nD) (w : Fin cfg2.W) : (dat2 (T5 m ρ) c).arrAt w cfg2.N = T6 m ρ c (Pipeline.arrRef spec2 w) :=
  (W6_arr m ρ c w).symm
/-- An input window's array leaves region 2 as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (T5 m ρ) c).arrAt_in w hin _).trans (A_eq2 (T5 m ρ) c w))
theorem hrest2 (c : Dev nD) : ∀ b, b ∉ Finset.univ.image (Pipeline.arrRef spec2) → T6 m ρ c b = T5 m ρ c b :=
  fun b hb => W6_of_ne m ρ c b fun w e => hb (Finset.mem_image.mpr ⟨w, Finset.mem_univ _, e⟩)

/-- After the host stretch that follows region 2. -/
abbrev W7 : Dev nD → Valuation τ sig (Elt F) := fun c => StableHlo.after hostOps3 (W6 m ρ c)
abbrev T7 : (c : Dev nD) → (b : Ref sig .tc) → Buf (Elt F) ((c : Thread nD τ).loc b) := fun c b => W7 m ρ c b

/-- Region 3's exit: its arrays at what the write-backs leave, every other buffer as entered. -/
def W8 (c : Dev nD) : Valuation τ sig (Elt F) :=
  Pipeline.withArrays spec3 c (W7 m ρ c) fun w => (dat3 (T7 m ρ) c).arrAt w cfg3.N
theorem W8_arr (c : Dev nD) (w : Fin cfg3.W) :
    W8 m ρ c (Proc.devRef .tc (Pipeline.arrRef spec3 w)) = (dat3 (T7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev T8 : (c : Dev nD) → (b : Ref sig .tc) → Buf (Elt F) ((c : Thread nD τ).loc b) := fun c b => W8 m ρ c b
theorem hF3 (c : Dev nD) (w : Fin cfg3.W) : (dat3 (T7 m ρ) c).arrAt w cfg3.N = T8 m ρ c (Pipeline.arrRef spec3 w) :=
  (W8_arr m ρ c w).symm
/-- An input window's array leaves region 3 as it entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (T7 m ρ) c).arrAt_in w hin _).trans (A_eq3 (T7 m ρ) c w))
theorem hrest3 (c : Dev nD) : ∀ b, b ∉ Finset.univ.image (Pipeline.arrRef spec3) → T8 m ρ c b = T7 m ρ c b :=
  fun b hb => W8_of_ne m ρ c b fun w e => hb (Finset.mem_image.mpr ⟨w, Finset.mem_univ _, e⟩)

/-- After the host stretch that follows region 3. -/
abbrev W9 : Dev nD → Valuation τ sig (Elt F) := fun c => StableHlo.after hostOps4 (W8 m ρ c)
abbrev T9 : (c : Dev nD) → (b : Ref sig .tc) → Buf (Elt F) ((c : Thread nD τ).loc b) := fun c b => W9 m ρ c b

/-! ## A buffer that no host operation writes and that every region leaves as entered ends as launched -/

theorem W9_of (c : Dev nD) (b : Ref sig .tc) (h0 : b ∉ hostOps0_W) (h1 : b ∉ hostOps1_W) (h2 : b ∉ hostOps2_W) (h3 : b ∉ hostOps3_W) (h4 : b ∉ hostOps4_W)
    (a0 : W2 m ρ c (Proc.devRef .tc b) = W1 m ρ c (Proc.devRef .tc b)) (a1 : W4 m ρ c (Proc.devRef .tc b) = W3 m ρ c (Proc.devRef .tc b))
    (a2 : W6 m ρ c (Proc.devRef .tc b) = W5 m ρ c (Proc.devRef .tc b)) (a3 : W8 m ρ c (Proc.devRef .tc b) = W7 m ρ c (Proc.devRef .tc b)) :
    W9 m ρ c (Proc.devRef .tc b) = m ((c : Thread nD τ).loc b) :=
  calc W9 m ρ c (Proc.devRef .tc b)
    _ = W8 m ρ c (Proc.devRef .tc b) := StableHlo.after_of_writes_sub hostOps4 _ hostOps4_writes h4
    _ = W7 m ρ c (Proc.devRef .tc b) := a3
    _ = W6 m ρ c (Proc.devRef .tc b) := StableHlo.after_of_writes_sub hostOps3 _ hostOps3_writes h3
    _ = W5 m ρ c (Proc.devRef .tc b) := a2
    _ = W4 m ρ c (Proc.devRef .tc b) := StableHlo.after_of_writes_sub hostOps2 _ hostOps2_writes h2
    _ = W3 m ρ c (Proc.devRef .tc b) := a1
    _ = W2 m ρ c (Proc.devRef .tc b) := StableHlo.after_of_writes_sub hostOps1 _ hostOps1_writes h1
    _ = W1 m ρ c (Proc.devRef .tc b) := a0
    _ = W0 m ρ c (Proc.devRef .tc b) := StableHlo.after_of_writes_sub hostOps0 _ hostOps0_writes h0
    _ = m ((c : Thread nD τ).loc b) := rfl

/-! ## The proof data family and the thread state -/

abbrev adm4 : (p : Fin 4) → (pcfgs (F := F) p).Adm := fun p => (cfgs p).toPCfg_adm
/-- Every pipeline's proof data at its region's entry contents. -/
def pdats : (p : Fin 4) → (c : Dev nD) → Dat τ (Elt F) Unit ℕ (UR sig nD τ) ℕ (Pipeline.pin (pcfgs (F := F)) adm4 p) c
  | ⟨0, _⟩ => fun c => dat0 (T1 m ρ) c
  | ⟨1, _⟩ => fun c => dat1 (T3 m ρ) c
  | ⟨2, _⟩ => fun c => dat2 (T5 m ρ) c
  | ⟨3, _⟩ => fun c => dat3 (T7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 as a segment: entered with every unscoped buffer at W1, left with them at W2. Its arrays are split out of
    the unscoped buffers and put back at their exit contents; the generator register goes into the kernel's invariant and
    comes back; nothing is owed; the kernel has no semaphore of its own. -/
def reg0 : Pipeline.RegionSeg (pcfgs (F := F)) adm4 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm4 (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm4 (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at W3, left with them at W4. Its arrays are split out of
    the unscoped buffers and put back at their exit contents; the generator register goes into the kernel's invariant and
    comes back; nothing is owed; the kernel has no semaphore of its own. -/
def reg1 : Pipeline.RegionSeg (pcfgs (F := F)) adm4 (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) adm4 (pdats m ρ) launch1.win launch1.arr_whole c
      ((pdats m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm4 (Ix := Unit) (Name := ℕ) (U := UR sig nD τ) (Lvl := ℕ)
      launch1.win launch1.arr_whole c (pdats m ρ) ((pdats m ρ 1 c).share_full fun _ => rfl)
      (T3 m ρ c) (T4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at W5, left with them at W6. Its arrays are split out of
    the unscoped buffers and put back at their exit contents; the generator register goes into the kernel's invariant and
    comes back; nothing is owed; the kernel has no semaphore of its own. -/
def reg2 : Pipeline.RegionSeg (pcfgs (F := F)) adm4 (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (T5 m ρ c)
  hentry c := by
    rw [Pipeline.ownSems0_none]
    have hsplit := Pipeline.arrays_of_unscopedBufs (p := 2) (pcfgs (F := F)) adm4 (pdats m ρ) launch2.win launch2.arr_whole c
      ((pdats m ρ 2 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm4 (Ix := Unit) (Name := ℕ) (U := UR sig nD τ) (Lvl := ℕ)
      launch2.win launch2.arr_whole c (pdats m ρ) ((pdats m ρ 2 c).share_full fun _ => rfl)
      (T5 m ρ c) (T6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at W7, left with them at W8. Its arrays are split out of
    the unscoped buffers and put back at their exit contents; the generator register goes into the kernel's invariant and
    comes back; nothing is owed; the kernel has no semaphore of its own. -/
def reg3 : Pipeline.RegionSeg (pcfgs (F := F)) adm4 (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (T7 m ρ c)
  hentry c := by
    rw [Pipeline.ownSems0_none]
    have hsplit := Pipeline.arrays_of_unscopedBufs (p := 3) (pcfgs (F := F)) adm4 (pdats m ρ) launch3.win launch3.arr_whole c
      ((pdats m ρ 3 c).share_full fun _ => rfl) (T7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm4 (Ix := Unit) (Name := ℕ) (U := UR sig nD τ) (Lvl := ℕ)
      launch3.win launch3.arr_whole c (pdats m ρ) ((pdats m ρ 3 c).share_full fun _ => rfl)
      (T7 m ρ c) (T8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsAll : List (Pipeline.Seg (pcfgs (F := F)) adm4 (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

set_option backward.isDefEq.respectTransparency.types false in
/-- Every weakly fair execution of @main from memory m with zero counters terminates, nothing faulting, with every
    unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm4 (pdats m ρ) () cellOf_inj emb₁ defs₀ 𝒱₀ L lv m ρ main (segsAll m ρ)
    (fun c Q => by
      rewrite [main_chain c, Pipeline.Seg.run_eq_chain,
        show (segsAll m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-! ## The arguments end as launched; the result is read off the last boundary -/

theorem W9_kept (c : Dev nD) (b : Ref sig .tc) (h0 : b ∉ hostOps0_W) (h1 : b ∉ hostOps1_W) (h2 : b ∉ hostOps2_W) (h3 : b ∉ hostOps3_W) (h4 : b ∉ hostOps4_W)
    (a0 : ∀ w, Pipeline.arrRef spec0 w ≠ b) (a1 : ∀ w, Pipeline.arrRef spec1 w ≠ b) (a2 : ∀ w, Pipeline.arrRef spec2 w ≠ b) (a3 : ∀ w, Pipeline.arrRef spec3 w ≠ b) :
    W9 m ρ c (Proc.devRef .tc b) = m ((c : Thread nD τ).loc b) :=
  W9_of m ρ c b h0 h1 h2 h3 h4 (W2_of_ne m ρ c b a0) (W4_of_ne m ρ c b a1) (W6_of_ne m ρ c b a2) (W8_of_ne m ρ c b a3)
theorem W9_main_arg0 (c : Dev nD) : W9 m ρ c (Proc.devRef .tc main_arg0) = m ((c : Thread nD τ).loc main_arg0) :=
  W9_kept m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_kept m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_kept m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_kept m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_kept m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_kept m ρ c main_arg5 (by decide) (by decide) (by decide) (by decide) (by decide) (by decide) (by decide) (by decide) (by decide)
theorem W9_main_arg6 (c : Dev nD) : W9 m ρ c (Proc.devRef .tc main_arg6) = m ((c : Thread nD τ).loc main_arg6) :=
  W9_kept m ρ c main_arg6 (by decide) (by decide) (by decide) (by decide) (by decide) (by decide) (by decide) (by decide) (by decide)
/-- This argument is itself an input window's array of region 1: the region leaves it as entered. -/
theorem W9_main_arg7 (c : Dev nD) : W9 m ρ c (Proc.devRef .tc main_arg7) = m ((c : Thread nD τ).loc main_arg7) :=
  W9_of m ρ c main_arg7 (by decide) (by decide) (by decide) (by decide) (by decide) (W2_of_ne m ρ c main_arg7 (by decide)) (W4_in m ρ c 3 rfl) (W6_of_ne m ρ c main_arg7 (by decide)) (W8_of_ne m ρ c main_arg7 (by decide))
theorem W9_main_arg8 (c : Dev nD) : W9 m ρ c (Proc.devRef .tc main_arg8) = m ((c : Thread nD τ).loc main_arg8) :=
  W9_kept m ρ c main_arg8 (by decide) (by decide) (by decide) (by decide) (by decide) (by decide) (by decide) (by decide) (by decide)
/-- This argument is itself an input window's array of region 3: the region leaves it as entered. -/
theorem W9_main_arg9 (c : Dev nD) : W9 m ρ c (Proc.devRef .tc main_arg9) = m ((c : Thread nD τ).loc main_arg9) :=
  W9_of m ρ c main_arg9 (by decide) (by decide) (by decide) (by decide) (by decide) (W2_of_ne m ρ c main_arg9 (by decide)) (W4_of_ne m ρ c main_arg9 (by decide)) (W6_of_ne m ρ c main_arg9 (by decide)) (W8_in m ρ c 4 rfl)
/-- This argument is itself an input window's array of region 1: the region leaves it as entered. -/
theorem W9_main_arg10 (c : Dev nD) : W9 m ρ c (Proc.devRef .tc main_arg10) = m ((c : Thread nD τ).loc main_arg10) :=
  W9_of m ρ c main_arg10 (by decide) (by decide) (by decide) (by decide) (by decide) (W2_of_ne m ρ c main_arg10 (by decide)) (W4_in m ρ c 4 rfl) (W6_of_ne m ρ c main_arg10 (by decide)) (W8_of_ne m ρ c main_arg10 (by decide))
/-- The frame: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c)⟩) (run m ρ)

/-- The same run with the result named: the result buffer ends at the last boundary's contents. -/
theorem run_v0 : θ_run defs (onTc (τ := τ) (main (F := F))) ⟨m, fun _ => 0, ρ⟩ (fun r => ∀ c : Dev nD,
      r.2.mem ((c.tc : Thread nD τ).loc main_v0) = W9 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v0 (by decide)),
    (h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c)⟩) (run m ρ)

end Cert.ReferenceIdeal.Frame

end
-- ==== Proof.Bridge.HostBN.lean ====
/-
  The batch-normalisation fold that the host computes between two kernel regions, at the exact (extended-real)
  instance, as one pair of functions per channel count.

  A region leaves, per image, the partial statistics `[Σ x ; Σ x²]` of its output as an array [32, 2, n] (32 images,
  two moments, n channels). The host adds the 32 rows, divides by the number N of positions per channel (given as the
  float word of N: `0x47000000` is 32768, `0x46000000` is 8192) to get the mean μ and the mean square, forms the
  biased variance `max(E[x²] − μ², 0)`, and folds the affine parameters γ, β of the normalisation into one scale
  row and one shift row:

      scale = γ / √(var + ε),        shift = β − μ · scale,        ε the float word `0x3727C5AC`.

  The definitions below are written as exactly the composition of array operations the host performs, in the order it
  performs them (sum, slice, reshape, broadcast of the count, divide, …), so that a program's read-back of the two rows
  is one of these functions by unfolding alone. Nothing else should ever unfold them: both programs compute the same
  fold of their own statistics, and the comparison of the two programs passes through these names unopened.
-/
import proofs.«130251_g2000005708365749_pallasbulk_1193_2_alg».proof.KernelIdeal
import Idealize.ShloMosaic.PureOps.Ideal
import Idealize.ShloMosaic.Lib.IdealHost

noncomputable section

namespace Cert.Bridge

open Idealize.ShloMosaic
open Cert.KernelIdeal (S_ S32x2x256 S2x256 S1x256 S256 S32x2x128 S2x128 S1x128 S128)

/-! ## 256 channels -/

/-- The two moment sums: the 32 partial rows `[Σ x ; Σ x²]` added up, from zero. -/
def bnSums256 (st : FVec Ideal S32x2x256 .f32) : FVec Ideal S2x256 .f32 :=
  Host.reduceAdd st (constant (F := Ideal) S_ .f32 0x00000000#32)
    (by decide : S32x2x256.ReducesTo [0] S2x256) (by decide : 0 < S_.numel)

/-- The mean per channel: row 0 of the sums, as a vector, divided by the count. -/
def bnMean256 (st : FVec Ideal S32x2x256 .f32) : FVec Ideal S256 .f32 :=
  Host.divf
    (shapeCast S256 (extractStridedSlice S1x256 ![0, 0] (bnSums256 st) (by decide : S2x256.Slices ![0, 0] S1x256)) (by decide : S1x256.ShapeCasts S256))
    (broadcastInDim S256 ![] (by decide : S_.BroadcastsInDim S256 (![] : Fin 0 → Fin S256.rank)) (constant (F := Ideal) S_ .f32 0x47000000#32))

/-- The mean of the squares per channel: row 1 of the sums, as a vector, divided by the count. -/
def bnMeanSq256 (st : FVec Ideal S32x2x256 .f32) : FVec Ideal S256 .f32 :=
  Host.divf
    (shapeCast S256 (extractStridedSlice S1x256 ![1, 0] (bnSums256 st) (by decide : S2x256.Slices ![1, 0] S1x256)) (by decide : S1x256.ShapeCasts S256))
    (broadcastInDim S256 ![] (by decide : S_.BroadcastsInDim S256 (![] : Fin 0 → Fin S256.rank)) (constant (F := Ideal) S_ .f32 0x47000000#32))

/-- The reciprocal standard deviation per channel: `1 / √(max(E[x²] − E[x]², 0) + ε)`, `ε` the word `0x3727C5AC`. -/
def bnInvStd256 (st : FVec Ideal S32x2x256 .f32) : FVec Ideal S256 .f32 :=
  Host.rsqrt
    (addf
      (maximumf (subf (bnMeanSq256 st) (mulf (bnMean256 st) (bnMean256 st)))
        (broadcastInDim S256 ![] (by decide : S_.BroadcastsInDim S256 (![] : Fin 0 → Fin S256.rank)) (constant (F := Ideal) S_ .f32 0x00000000#32)))
      (broadcastInDim S256 ![] (by decide : S_.BroadcastsInDim S256 (![] : Fin 0 → Fin S256.rank)) (constant (F := Ideal) S_ .f32 0x3727C5AC#32)))

/-- The scale per channel as a vector: `γ / σ`. -/
def bnScaleVec256 (st : FVec Ideal S32x2x256 .f32) (g : FVec Ideal S256 .f32) : FVec Ideal S256 .f32 :=
  mulf g (bnInvStd256 st)

/-- The scale row `[1, 256]`: `γ / σ`. -/
def bnScale256 (st : FVec Ideal S32x2x256 .f32) (g : FVec Ideal S256 .f32) : FVec Ideal S1x256 .f32 :=
  shapeCast S1x256 (bnScaleVec256 st g) (by decide : S256.ShapeCasts S1x256)

/-- The shift row `[1, 256]`: `β − μ · γ / σ`. -/
def bnShift256 (st : FVec Ideal S32x2x256 .f32) (g b : FVec Ideal S256 .f32) : FVec Ideal S1x256 .f32 :=
  shapeCast S1x256 (subf b (mulf (bnMean256 st) (bnScaleVec256 st g))) (by decide : S256.ShapeCasts S1x256)

/-! ## 128 channels (the count word a parameter) -/

/-- The two moment sums: the 32 partial rows `[Σ x ; Σ x²]` added up, from zero. -/
def bnSums128 (st : FVec Ideal S32x2x128 .f32) : FVec Ideal S2x128 .f32 :=
  Host.reduceAdd st (constant (F := Ideal) S_ .f32 0x00000000#32)
    (by decide : S32x2x128.ReducesTo [0] S2x128) (by decide : 0 < S_.numel)

/-- The mean per channel: row 0 of the sums, as a vector, divided by the count. -/
def bnMean128 (cnt : BitVec 32) (st : FVec Ideal S32x2x128 .f32) : FVec Ideal S128 .f32 :=
  Host.divf
    (shapeCast S128 (extractStridedSlice S1x128 ![0, 0] (bnSums128 st) (by decide : S2x128.Slices ![0, 0] S1x128)) (by decide : S1x128.ShapeCasts S128))
    (broadcastInDim S128 ![] (by decide : S_.BroadcastsInDim S128 (![] : Fin 0 → Fin S128.rank)) (constant (F := Ideal) S_ .f32 cnt))

/-- The mean of the squares per channel: row 1 of the sums, as a vector, divided by the count. -/
def bnMeanSq128 (cnt : BitVec 32) (st : FVec Ideal S32x2x128 .f32) : FVec Ideal S128 .f32 :=
  Host.divf
    (shapeCast S128 (extractStridedSlice S1x128 ![1, 0] (bnSums128 st) (by decide : S2x128.Slices ![1, 0] S1x128)) (by decide : S1x128.ShapeCasts S128))
    (broadcastInDim S128 ![] (by decide : S_.BroadcastsInDim S128 (![] : Fin 0 → Fin S128.rank)) (constant (F := Ideal) S_ .f32 cnt))

/-- The reciprocal standard deviation per channel: `1 / √(max(E[x²] − E[x]², 0) + ε)`, `ε` the word `0x3727C5AC`. -/
def bnInvStd128 (cnt : BitVec 32) (st : FVec Ideal S32x2x128 .f32) : FVec Ideal S128 .f32 :=
  Host.rsqrt
    (addf
      (maximumf (subf (bnMeanSq128 cnt st) (mulf (bnMean128 cnt st) (bnMean128 cnt st)))
        (broadcastInDim S128 ![] (by decide : S_.BroadcastsInDim S128 (![] : Fin 0 → Fin S128.rank)) (constant (F := Ideal) S_ .f32 0x00000000#32)))
      (broadcastInDim S128 ![] (by decide : S_.BroadcastsInDim S128 (![] : Fin 0 → Fin S128.rank)) (constant (F := Ideal) S_ .f32 0x3727C5AC#32)))

/-- The scale per channel as a vector: `γ / σ`. -/
def bnScaleVec128 (cnt : BitVec 32) (st : FVec Ideal S32x2x128 .f32) (g : FVec Ideal S128 .f32) : FVec Ideal S128 .f32 :=
  mulf g (bnInvStd128 cnt st)

/-- The scale row `[1, 128]`: `γ / σ`. -/
def bnScale128 (cnt : BitVec 32) (st : FVec Ideal S32x2x128 .f32) (g : FVec Ideal S128 .f32) : FVec Ideal S1x128 .f32 :=
  shapeCast S1x128 (bnScaleVec128 cnt st g) (by decide : S128.ShapeCasts S1x128)

/-- The shift row `[1, 128]`: `β − μ · γ / σ`. -/
def bnShift128 (cnt : BitVec 32) (st : FVec Ideal S32x2x128 .f32) (g b : FVec Ideal S128 .f32) : FVec Ideal S1x128 .f32 :=
  shapeCast S1x128 (subf b (mulf (bnMean128 cnt st) (bnScaleVec128 cnt st g))) (by decide : S128.ShapeCasts S1x128)

end Cert.Bridge

end
-- ==== Proof.KI.Host.lean ====
/-
  What the host stretches of the kernel's program write, read back at the exact (extended-real) instance.

  Between the regions the host only re-lays arrays and folds statistics. The first stretch re-reads the input
  [32, 256, 32, 32] as [8192, 1024] and narrows the four weight matrices (the 3 × 3 one also re-read as
  [1152, 128]). Each of the next three stretches turns a region's partial statistics and the affine parameters of a
  normalisation into its scale and shift rows (the fold named in the bridge). The last stretch re-reads the final
  [16384, 256] slab as the result [32, 512, 16, 16]. Every statement is first made for arbitrary contents entering the
  stretch and then instantiated at the contents the run has at that boundary.
-/
import proofs.«130251_g2000005708365749_pallasbulk_1193_2_alg».proof.Proof.KI.Run
import proofs.«130251_g2000005708365749_pallasbulk_1193_2_alg».proof.Proof.Bridge.HostBN
import Idealize.ShloMosaic.PureOps.Ideal
import Idealize.ShloMosaic.Lib.IdealHost

set_option maxRecDepth 16384

noncomputable section

namespace Cert.KernelIdeal.Frame

open Idealize.ShloMosaic Idealize.ShloMosaic.TcCoe Idealize.ShloMosaic.Tactic
open Idealize.SL Idealize.SL.Sem
open Cert.KernelIdeal Cert.KernelIdeal.Gen
open Cert.Bridge

/-! ## The stretches, from arbitrary contents -/

/-! ### Stretch 0: the input re-read and the weights narrowed -/

theorem hostOps0_v0 (X : Valuation τ sig (Elt Ideal)) :
    (StableHlo.after (hostOps0 (F := Ideal)) X (Proc.devRef .tc main_call0_v0) : S8192x1024.Idx → EReal)
      = shapeCast S8192x1024 (X (Proc.devRef .tc main_arg0) : FVec Ideal S32x256x32x32 .f32) shapeCasts_S32x256x32x32_S8192x1024 := by
  after_results; rfl
theorem hostOps0_v1 (X : Valuation τ sig (Elt Ideal)) :
    (StableHlo.after (hostOps0 (F := Ideal)) X (Proc.devRef .tc main_call0_v1) : S256x128.Idx → EReal)
      = (truncf (F := Ideal) (s := S256x128) (φ := .f32) .bf16 (X (Proc.devRef .tc main_arg7)) bitsLt_bf16_f32 : S256x128.Idx → EReal) := by
  after_results; rfl
theorem hostOps0_v2 (X : Valuation τ sig (Elt Ideal)) :
    (StableHlo.after (hostOps0 (F := Ideal)) X (Proc.devRef .tc main_call0_v2) : S3x3x128x128.Idx → EReal)
      = (truncf (F := Ideal) (s := S3x3x128x128) (φ := .f32) .bf16 (X (Proc.devRef .tc main_arg8)) bitsLt_bf16_f32 : S3x3x128x128.Idx → EReal) := by
  after_results; rfl
theorem hostOps0_v3 (X : Valuation τ sig (Elt Ideal)) :
    (StableHlo.after (hostOps0 (F := Ideal)) X (Proc.devRef .tc main_call0_v3) : S1152x128.Idx → EReal)
      = (shapeCast S1152x128 (truncf (F := Ideal) (s := S3x3x128x128) (φ := .f32) .bf16 (X (Proc.devRef .tc main_arg8)) bitsLt_bf16_f32)
          shapeCasts_S3x3x128x128_S1152x128 : S1152x128.Idx → EReal) := by
  after_results; rfl
theorem hostOps0_v4 (X : Valuation τ sig (Elt Ideal)) :
    (StableHlo.after (hostOps0 (F := Ideal)) X (Proc.devRef .tc main_call0_v4) : S128x512.Idx → EReal)
      = (truncf (F := Ideal) (s := S128x512) (φ := .f32) .bf16 (X (Proc.devRef .tc main_arg9)) bitsLt_bf16_f32 : S128x512.Idx → EReal) := by
  after_results; rfl
theorem hostOps0_v5 (X : Valuation τ sig (Elt Ideal)) :
    (StableHlo.after (hostOps0 (F := Ideal)) X (Proc.devRef .tc main_call0_v5) : S256x512.Idx → EReal)
      = (truncf (F := Ideal) (s := S256x512) (φ := .f32) .bf16 (X (Proc.devRef .tc main_arg10)) bitsLt_bf16_f32 : S256x512.Idx → EReal) := by
  after_results; rfl

/-! ### Stretch 1: the fold of the statistics `main_call0_v6` with `main_arg1`, `main_arg2` into the rows `main_call0_v26`, `main_call0_v27` -/

set_option maxHeartbeats 1000000 in
/-- From any contents `X`, the stretch leaves in `main_call0_v26` the scale row of `X`'s statistics and `γ`. -/
theorem hostOps1_scale (X : Valuation τ sig (Elt Ideal)) :
    (StableHlo.after (hostOps1 (F := Ideal)) X (Proc.devRef .tc main_call0_v26) : S1x256.Idx → EReal)
      = bnScale256 (X (Proc.devRef .tc main_call0_v6)) (X (Proc.devRef .tc main_arg1)) := by
  after_results_simp
  rfl

set_option maxHeartbeats 1000000 in
/-- and in `main_call0_v27` the shift row of `X`'s statistics, `γ` and `β`. -/
theorem hostOps1_shift (X : Valuation τ sig (Elt Ideal)) :
    (StableHlo.after (hostOps1 (F := Ideal)) X (Proc.devRef .tc main_call0_v27) : S1x256.Idx → EReal)
      = bnShift256 (X (Proc.devRef .tc main_call0_v6)) (X (Proc.devRef .tc main_arg1)) (X (Proc.devRef .tc main_arg2)) := by
  after_results_simp
  rfl

/-! ### Stretch 2: the fold of the statistics `main_call0_v28_2` with `main_arg3`, `main_arg4` into the rows `main_call0_v48`, `main_call0_v49` -/

set_option maxHeartbeats 1000000 in
/-- From any contents `X`, the stretch leaves in `main_call0_v48` the scale row of `X`'s statistics and `γ`. -/
theorem hostOps2_scale (X : Valuation τ sig (Elt Ideal)) :
    (StableHlo.after (hostOps2 (F := Ideal)) X (Proc.devRef .tc main_call0_v48) : S1x128.Idx → EReal)
      = bnScale128 0x47000000#32 (X (Proc.devRef .tc main_call0_v28_2)) (X (Proc.devRef .tc main_arg3)) := by
  after_results_simp
  rfl

set_option maxHeartbeats 1000000 in
/-- and in `main_call0_v49` the shift row of `X`'s statistics, `γ` and `β`. -/
theorem hostOps2_shift (X : Valuation τ sig (Elt Ideal)) :
    (StableHlo.after (hostOps2 (F := Ideal)) X (Proc.devRef .tc main_call0_v49) : S1x128.Idx → EReal)
      = bnShift128 0x47000000#32 (X (Proc.devRef .tc main_call0_v28_2)) (X (Proc.devRef .tc main_arg3)) (X (Proc.devRef .tc main_arg4)) := by
  after_results_simp
  rfl

/-! ### Stretch 3: the fold of the statistics `main_call0_v50_1` with `main_arg5`, `main_arg6` into the rows `main_call0_v70`, `main_call0_v71` -/

set_option maxHeartbeats 1000000 in
/-- From any contents `X`, the stretch leaves in `main_call0_v70` the scale row of `X`'s statistics and `γ`. -/
theorem hostOps3_scale (X : Valuation τ sig (Elt Ideal)) :
    (StableHlo.after (hostOps3 (F := Ideal)) X (Proc.devRef .tc main_call0_v70) : S1x128.Idx → EReal)
      = bnScale128 0x46000000#32 (X (Proc.devRef .tc main_call0_v50_1)) (X (Proc.devRef .tc main_arg5)) := by
  after_results_simp
  rfl

set_option maxHeartbeats 1000000 in
/-- and in `main_call0_v71` the shift row of `X`'s statistics, `γ` and `β`. -/
theorem hostOps3_shift (X : Valuation τ sig (Elt Ideal)) :
    (StableHlo.after (hostOps3 (F := Ideal)) X (Proc.devRef .tc main_call0_v71) : S1x128.Idx → EReal)
      = bnShift128 0x46000000#32 (X (Proc.devRef .tc main_call0_v50_1)) (X (Proc.devRef .tc main_arg5)) (X (Proc.devRef .tc main_arg6)) := by
  after_results_simp
  rfl

/-! ### Stretch 4: the final slab re-read as the result -/

theorem hostOps4_v0 (X : Valuation τ sig (Elt Ideal)) :
    (StableHlo.after (hostOps4 (F := Ideal)) X (Proc.devRef .tc main_v0) : S32x512x16x16.Idx → EReal)
      = shapeCast S32x512x16x16 (X (Proc.devRef .tc main_call0_v72) : FVec Ideal S16384x256 .f32) shapeCasts_S16384x256_S32x512x16x16 := by
  after_results; rfl

/-! ## The same at the run's boundary contents -/

variable (m : (ℓ : Loc nD τ sig) → Buf (Elt Ideal) ℓ) (ρ : Dev nD → PrngReg)

theorem W1_v0 (c : Dev nD) :
    (W1 m ρ c (Proc.devRef .tc main_call0_v0) : S8192x1024.Idx → EReal)
      = shapeCast S8192x1024 (W0 m ρ c (Proc.devRef .tc main_arg0) : FVec Ideal S32x256x32x32 .f32) shapeCasts_S32x256x32x32_S8192x1024 :=
  hostOps0_v0 (W0 m ρ c)
theorem W1_v1 (c : Dev nD) :
    (W1 m ρ c (Proc.devRef .tc main_call0_v1) : S256x128.Idx → EReal)
      = (truncf (F := Ideal) (s := S256x128) (φ := .f32) .bf16 (W0 m ρ c (Proc.devRef .tc main_arg7)) bitsLt_bf16_f32 : S256x128.Idx → EReal) :=
  hostOps0_v1 (W0 m ρ c)
theorem W1_v2 (c : Dev nD) :
    (W1 m ρ c (Proc.devRef .tc main_call0_v2) : S3x3x128x128.Idx → EReal)
      = (truncf (F := Ideal) (s := S3x3x128x128) (φ := .f32) .bf16 (W0 m ρ c (Proc.devRef .tc main_arg8)) bitsLt_bf16_f32 : S3x3x128x128.Idx → EReal) :=
  hostOps0_v2 (W0 m ρ c)
theorem W1_v3 (c : Dev nD) :
    (W1 m ρ c (Proc.devRef .tc main_call0_v3) : S1152x128.Idx → EReal)
      = (shapeCast S1152x128 (truncf (F := Ideal) (s := S3x3x128x128) (φ := .f32) .bf16 (W0 m ρ c (Proc.devRef .tc main_arg8)) bitsLt_bf16_f32)
          shapeCasts_S3x3x128x128_S1152x128 : S1152x128.Idx → EReal) :=
  hostOps0_v3 (W0 m ρ c)
theorem W1_v4 (c : Dev nD) :
    (W1 m ρ c (Proc.devRef .tc main_call0_v4) : S128x512.Idx → EReal)
      = (truncf (F := Ideal) (s := S128x512) (φ := .f32) .bf16 (W0 m ρ c (Proc.devRef .tc main_arg9)) bitsLt_bf16_f32 : S128x512.Idx → EReal) :=
  hostOps0_v4 (W0 m ρ c)
theorem W1_v5 (c : Dev nD) :
    (W1 m ρ c (Proc.devRef .tc main_call0_v5) : S256x512.Idx → EReal)
      = (truncf (F := Ideal) (s := S256x512) (φ := .f32) .bf16 (W0 m ρ c (Proc.devRef .tc main_arg10)) bitsLt_bf16_f32 : S256x512.Idx → EReal) :=
  hostOps0_v5 (W0 m ρ c)

theorem W3_v26 (c : Dev nD) :
    (W3 m ρ c (Proc.devRef .tc main_call0_v26) : S1x256.Idx → EReal)
      = bnScale256 (W2 m ρ c (Proc.devRef .tc main_call0_v6)) (W2 m ρ c (Proc.devRef .tc main_arg1)) :=
  hostOps1_scale (W2 m ρ c)
theorem W3_v27 (c : Dev nD) :
    (W3 m ρ c (Proc.devRef .tc main_call0_v27) : S1x256.Idx → EReal)
      = bnShift256 (W2 m ρ c (Proc.devRef .tc main_call0_v6)) (W2 m ρ c (Proc.devRef .tc main_arg1)) (W2 m ρ c (Proc.devRef .tc main_arg2)) :=
  hostOps1_shift (W2 m ρ c)

theorem W5_v48 (c : Dev nD) :
    (W5 m ρ c (Proc.devRef .tc main_call0_v48) : S1x128.Idx → EReal)
      = bnScale128 0x47000000#32 (W4 m ρ c (Proc.devRef .tc main_call0_v28_2)) (W4 m ρ c (Proc.devRef .tc main_arg3)) :=
  hostOps2_scale (W4 m ρ c)
theorem W5_v49 (c : Dev nD) :
    (W5 m ρ c (Proc.devRef .tc main_call0_v49) : S1x128.Idx → EReal)
      = bnShift128 0x47000000#32 (W4 m ρ c (Proc.devRef .tc main_call0_v28_2)) (W4 m ρ c (Proc.devRef .tc main_arg3)) (W4 m ρ c (Proc.devRef .tc main_arg4)) :=
  hostOps2_shift (W4 m ρ c)

theorem W7_v70 (c : Dev nD) :
    (W7 m ρ c (Proc.devRef .tc main_call0_v70) : S1x128.Idx → EReal)
      = bnScale128 0x46000000#32 (W6 m ρ c (Proc.devRef .tc main_call0_v50_1)) (W6 m ρ c (Proc.devRef .tc main_arg5)) :=
  hostOps3_scale (W6 m ρ c)
theorem W7_v71 (c : Dev nD) :
    (W7 m ρ c (Proc.devRef .tc main_call0_v71) : S1x128.Idx → EReal)
      = bnShift128 0x46000000#32 (W6 m ρ c (Proc.devRef .tc main_call0_v50_1)) (W6 m ρ c (Proc.devRef .tc main_arg5)) (W6 m ρ c (Proc.devRef .tc main_arg6)) :=
  hostOps3_shift (W6 m ρ c)

theorem W9_v0 (c : Dev nD) :
    (W9 m ρ c (Proc.devRef .tc main_v0) : S32x512x16x16.Idx → EReal)
      = shapeCast S32x512x16x16 (W8 m ρ c (Proc.devRef .tc main_call0_v72) : FVec Ideal S16384x256 .f32) shapeCasts_S16384x256_S32x512x16x16 :=
  hostOps4_v0 (W8 m ρ c)

end Cert.KernelIdeal.Frame

end
-- ==== Proof.KI.V0.lean ====
/-
  Region 0's result array in closed form. Row n of the [32, 2, 256] statistics array is what grid point n wrote: the
  statistics of image n's rows of the input array. The blocks of the result tile it, one per point.
-/
import proofs.«130251_g2000005708365749_pallasbulk_1193_2_alg».proof.Proof.KI.R0
import Idealize.ShloMosaic.Lib.Pipeline.Value
import Idealize.ShloMosaic.Lib.ValueIdx

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem lt32_0 (t : Fin cfg0.N) : t.val < 32 := by
  have h := t.isLt; have e : cfg0.N = 32 := N_0; omega

/-- Image n's 256 rows of the channel-major [8192, 1024] array. -/
def rows0 (A : S8192x1024.Idx → Elt F .f32) (n : Fin 32) : Vec F S256x1024 .f32 :=
  fun y => A (ix2 ⟨n.val * 256 + (y 0).val, by have := idx2_lt0 y; omega⟩ ⟨(y 1).val, idx2_lt1 y⟩)

/-- The statistics array as one function of the input array. -/
def G0_1 (A : S8192x1024.Idx → Elt F .f32) : S32x2x256.Idx → Elt F .f32 :=
  fun i => out0_1 (rows0 A ⟨(i 0).val, (i 0).isLt⟩) (ix3 ⟨0, by omega⟩ ⟨(i 1).val, (i 1).isLt⟩ ⟨(i 2).val, (i 2).isLt⟩)

/-- The printed index maps over the grid: point t reads image t's rows and writes row t. -/
theorem idx_facts0 : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- Where an element of the input block at point t sits in the array. -/
theorem emb0_0 (t : Fin cfg0.N) (y : S256x1024.Idx) : ((cfg0.win 0).blk t).view.emb y
      = ix2 ⟨t.val * 256 + (y 0).val, by have hy0 : (y 0).val < 256 := (y 0).isLt; have ht := lt32_0 t; omega⟩ ⟨(y 1).val, (y 1).isLt⟩ := by
  obtain ⟨e0, e1, -, -, -⟩ := idx_facts0 t
  funext a; apply Fin.ext
  match a with
  | ⟨0, _⟩ => show win0_0.index t (0 : Fin 2) * 256 + 1 * (y 0).val = t.val * 256 + (y 0).val; omega
  | ⟨1, _⟩ => show win0_0.index t (1 : Fin 2) * 1024 + 1 * (y 1).val = (y 1).val; omega

/-- Where an element of the result row at point t sits in the array. -/
theorem emb0_1 (t : Fin cfg0.N) (j : S1x2x256.Idx) : ((cfg0.win 1).blk t).view.emb j
      = ix3 ⟨t.val, lt32_0 t⟩ ⟨(j 1).val, (j 1).isLt⟩ ⟨(j 2).val, (j 2).isLt⟩ := by
  obtain ⟨-, -, e2, e3, e4⟩ := idx_facts0 t
  have hj0 : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 2 + 1 * (j 1).val = (j 1).val; omega
  | ⟨2, _⟩ => show win0_1.index t (2 : Fin 3) * 256 + 1 * (j 2).val = (j 2).val; omega

/-- The input block at point t, element by element. -/
theorem iblk0_0_apply (c : Dev nD) (t : Fin cfg0.N) (y : S256x1024.Idx) :
    iblk0 V c 0 t y = rows0 (V c main_call0_v0) ⟨t.val, lt32_0 t⟩ y :=
  (show iblk0 V c 0 t y = V c main_call0_v0 (((cfg0.win 0).blk t).view.emb y) from rfl).trans
    (congrArg (V c main_call0_v0) (emb0_0 t y))

/-- The input block at point t is image t's rows. -/
theorem iblk0_0_eq (c : Dev nD) (t : Fin cfg0.N) : iblk0 V c 0 t = rows0 (V c main_call0_v0) ⟨t.val, lt32_0 t⟩ :=
  funext fun y => iblk0_0_apply V c t y

/-- An index of a result row whose first coordinate is the only possible one. -/
theorem row_idx (j : S1x2x256.Idx) : j = ix3 ⟨0, by omega⟩ ⟨(j 1).val, (j 1).isLt⟩ ⟨(j 2).val, (j 2).isLt⟩ := by
  have hj0 : (j 0).val < 1 := (j 0).isLt
  funext a
  match a with
  | ⟨0, _⟩ => exact Fin.ext (by show (j 0).val = 0; omega)
  | ⟨1, _⟩ => rfl
  | ⟨2, _⟩ => rfl

/-- Block t of any [32, 2, 256] array, read at j, is the array at row t. -/
theorem read0_1 (G : S32x2x256.Idx → Elt F .f32) (t : Fin cfg0.N) (j : S1x2x256.Idx) :
    ((cfg0.win 1).blk t).view.read (Elt F) G j = G (ix3 ⟨t.val, lt32_0 t⟩ ⟨(j 1).val, (j 1).isLt⟩ ⟨(j 2).val, (j 2).isLt⟩) :=
  (show ((cfg0.win 1).blk t).view.read (Elt F) G j = G (((cfg0.win 1).blk t).view.emb j) from rfl).trans
    (congrArg G (emb0_1 t j))

/-- G0_1 at row n. -/
theorem G0_1_apply (A : S8192x1024.Idx → Elt F .f32) (n : Fin 32) (a : Fin 2) (b : Fin 256) :
    G0_1 A (ix3 n a b) = out0_1 (rows0 A n) (ix3 ⟨0, by omega⟩ a b) := by
  unfold G0_1
  exact congrArg₂ out0_1 (congrArg (rows0 A) (Fin.ext rfl)) (by funext d; match d with | ⟨0,_⟩ => rfl | ⟨1,_⟩ => rfl | ⟨2,_⟩ => rfl)

/-- Block t of G0_1 of an array, read at j: the statistics of image t's rows at j. -/
theorem G0_1_blk (A : S8192x1024.Idx → Elt F .f32) (t : Fin cfg0.N) (j : S1x2x256.Idx) :
    ((cfg0.win 1).blk t).view.read (Elt F) (G0_1 A) j = out0_1 (rows0 A ⟨t.val, lt32_0 t⟩) j :=
  (read0_1 (G0_1 A) t j).trans ((G0_1_apply A ⟨t.val, lt32_0 t⟩ ⟨(j 1).val, (j 1).isLt⟩ ⟨(j 2).val, (j 2).isLt⟩).trans
    (congrArg (out0_1 (rows0 A ⟨t.val, lt32_0 t⟩)) (row_idx j).symm))

/-- What point t writes back is block t of G0_1 of the input array. -/
theorem flushed0_1_eq (c : Dev nD) (t : Fin cfg0.N) :
    (dat0 V c).flushed 1 t = ((cfg0.win 1).blk t).view.read (Elt F) (G0_1 (V c main_call0_v0)) := by
  show (cfg0.win 1).cut (grid0.coords t) ((dat0 V c).after 1 t) = _
  rw [after0_1, iblk0_0_eq]
  funext (j : S1x2x256.Idx)
  exact (G0_1_blk (V c main_call0_v0) t j).symm

/-- An index of the array is in point t's block iff each coordinate is in the block's range on its axis. -/
theorem mem_blk0_1 (t : Fin cfg0.N) (i : S32x2x256.Idx) :
    i ∈ ((cfg0.win 1).blk t).view.set ↔ ∀ a : Fin 3, win0_1.index t a * S1x2x256.size a ≤ (i a).val ∧ (i a).val < win0_1.index t a * S1x2x256.size a + S1x2x256.size a := by
  show i ∈ ((View.whole main_call0_v6).slice (win0_1.rect t)).set ↔ _
  rw [View.set_slice_whole, Rect.mem_set_unit]
  exact Iff.rfl

/-- Every row of the result is some point's block: row n is point n's. -/
theorem covered0_1 (i : S32x2x256.Idx) :
    ∃ t : Fin cfg0.N, (cfg0.win 1).flush t = true ∧ i ∈ ((cfg0.win 1).blk t).view.set := by
  have hi0 : (i 0).val < 32 := (i 0).isLt
  have hi1 : (i 1).val < 2 := (i 1).isLt
  have hi2 : (i 2).val < 256 := (i 2).isLt
  have hN : cfg0.N = 32 := N_0
  refine ⟨⟨(i 0).val, by omega⟩, flush0_1 _, ?_⟩
  obtain ⟨-, -, e2, e3, e4⟩ := idx_facts0 ⟨(i 0).val, by omega⟩
  rw [mem_blk0_1]
  intro a
  match a with
  | ⟨0, _⟩ => show win0_1.index _ (0 : Fin 3) * 1 ≤ (i 0).val ∧ (i 0).val < win0_1.index _ (0 : Fin 3) * 1 + 1; rw [e2]; show (i 0).val * 1 ≤ (i 0).val ∧ (i 0).val < (i 0).val * 1 + 1; omega
  | ⟨1, _⟩ => show win0_1.index _ (1 : Fin 3) * 2 ≤ (i 1).val ∧ (i 1).val < win0_1.index _ (1 : Fin 3) * 2 + 2; rw [e3]; omega
  | ⟨2, _⟩ => show win0_1.index _ (2 : Fin 3) * 256 ≤ (i 2).val ∧ (i 2).val < win0_1.index _ (2 : Fin 3) * 256 + 256; rw [e4]; omega

/-- The statistics array after the run, as one function of the input array as the region finds it. -/
theorem final0_1 (c : Dev nD) : (dat0 V c).arrAt 1 cfg0.N = G0_1 (V c main_call0_v0) :=
  (dat0 V c).arrAt_eq_of_cover 1 _ (fun t _ => flushed0_1_eq V c t) covered0_1

theorem hz2 : (![0, 0] : Fin 2 → Nat) = fun _ => 0 := funext fun a => by fin_cases a <;> rfl
theorem hz3 : (![0, 0, 0] : Fin 3 → Nat) = fun _ => 0 := funext fun a => by fin_cases a <;> rfl

/-- The result row is the payload of the whole loaded block. -/
theorem out0_1_eq (x0 : Vec F S256x1024 .f32) : out0_1 x0 = k0_pay1 x0 := by
  unfold out0_1
  rw [View.canon_unit_zero hz3, View.ld_unit_zero hz2]

end Cert.KernelIdeal.Frame

end
-- ==== Proof.KI.V1.lean ====
/-
  Region 1's three result arrays in closed form. Grid point n reads image n's 256 rows of the channel-major
  [8192, 1024] array together with the scale row, the shift row and the two weight matrices (the same at every
  point), and writes rows n·1024 … n·1024 + 1023 of the [32768, 128] array, rows n·256 … n·256 + 255 of the
  [8192, 512] array and row n of the [32, 2, 128] statistics array. The blocks of each result tile it, one per
  point, so each result array is one function of the five input arrays.
-/
import proofs.«130251_g2000005708365749_pallasbulk_1193_2_alg».proof.Proof.KI.R1
import proofs.«130251_g2000005708365749_pallasbulk_1193_2_alg».proof.Proof.KI.V0
import Idealize.ShloMosaic.Lib.Pipeline.Value
import Idealize.ShloMosaic.Lib.ValueIdx

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem lt32_1 (t : Fin cfg1.N) : t.val < 32 := by
  have h := t.isLt; have e : cfg1.N = 32 := N_1; omega

/-! ## The result arrays as functions of the input arrays -/

/-- The [32768, 128] result: row i is row (i mod 1024) of what the point (i div 1024) writes. -/
def G1_5 (A0 : S8192x1024.Idx → Elt F .f32) (A1 A2 : S1x256.Idx → Elt F .f32) (A3 : S256x128.Idx → Elt F .bf16)
    (A4 : S256x512.Idx → Elt F .bf16) : S32768x128.Idx → Elt F .bf16 :=
  fun i => out1_5 (rows0 A0 ⟨(i 0).val / 1024, by have h : (i 0).val < 32768 := (i 0).isLt; omega⟩) A1 A2 A3 A4
    (ix2 ⟨(i 0).val % 1024, by omega⟩ ⟨(i 1).val, (i 1).isLt⟩)

/-- The [8192, 512] result: row i is row (i mod 256) of what the point (i div 256) writes. -/
def G1_6 (A0 : S8192x1024.Idx → Elt F .f32) (A1 A2 : S1x256.Idx → Elt F .f32) (A3 : S256x128.Idx → Elt F .bf16)
    (A4 : S256x512.Idx → Elt F .bf16) : S8192x512.Idx → Elt F .bf16 :=
  fun i => out1_6 (rows0 A0 ⟨(i 0).val / 256, by have h : (i 0).val < 8192 := (i 0).isLt; omega⟩) A1 A2 A3 A4
    (ix2 ⟨(i 0).val % 256, by omega⟩ ⟨(i 1).val, (i 1).isLt⟩)

/-- The [32, 2, 128] statistics: row n is what point n writes. -/
def G1_7 (A0 : S8192x1024.Idx → Elt F .f32) (A1 A2 : S1x256.Idx → Elt F .f32) (A3 : S256x128.Idx → Elt F .bf16)
    (A4 : S256x512.Idx → Elt F .bf16) : S32x2x128.Idx → Elt F .f32 :=
  fun i => out1_7 (rows0 A0 ⟨(i 0).val, (i 0).isLt⟩) A1 A2 A3 A4
    (ix3 ⟨0, by omega⟩ ⟨(i 1).val, (i 1).isLt⟩ ⟨(i 2).val, (i 2).isLt⟩)

/-! ## The printed index maps over the grid -/

/-- Point t reads image t's rows of the activation array … -/
theorem idx_facts1_0 : ∀ t : Fin cfg1.N, win1_0.index t (0 : Fin 2) = t.val ∧ win1_0.index t (1 : Fin 2) = 0 :=
  (by decide +kernel : ∀ t : Fin grid1.N, _)
/-- … the whole scale row, shift row and weight matrices, whatever the point … -/
theorem idx_facts1_1 : ∀ t : Fin cfg1.N, win1_1.index t (0 : Fin 2) = 0 ∧ win1_1.index t (1 : Fin 2) = 0 :=
  (by decide +kernel : ∀ t : Fin grid1.N, _)
theorem idx_facts1_2 : ∀ t : Fin cfg1.N, win1_2.index t (0 : Fin 2) = 0 ∧ win1_2.index t (1 : Fin 2) = 0 :=
  (by decide +kernel : ∀ t : Fin grid1.N, _)
theorem idx_facts1_3 : ∀ t : Fin cfg1.N, win1_3.index t (0 : Fin 2) = 0 ∧ win1_3.index t (1 : Fin 2) = 0 :=
  (by decide +kernel : ∀ t : Fin grid1.N, _)
theorem idx_facts1_4 : ∀ t : Fin cfg1.N, win1_4.index t (0 : Fin 2) = 0 ∧ win1_4.index t (1 : Fin 2) = 0 :=
  (by decide +kernel : ∀ t : Fin grid1.N, _)
/-- … and writes row block t of each matrix result and row t of the statistics. -/
theorem idx_facts1_5 : ∀ t : Fin cfg1.N, win1_5.index t (0 : Fin 2) = t.val ∧ win1_5.index t (1 : Fin 2) = 0 :=
  (by decide +kernel : ∀ t : Fin grid1.N, _)
theorem idx_facts1_6 : ∀ t : Fin cfg1.N, win1_6.index t (0 : Fin 2) = t.val ∧ win1_6.index t (1 : Fin 2) = 0 :=
  (by decide +kernel : ∀ t : Fin grid1.N, _)
theorem idx_facts1_7 : ∀ t : Fin cfg1.N, win1_7.index t (0 : Fin 3) = t.val ∧ win1_7.index t (1 : Fin 3) = 0
    ∧ win1_7.index t (2 : Fin 3) = 0 :=
  (by decide +kernel : ∀ t : Fin grid1.N, _)

/-- The printed index maps of all eight windows at a point. -/
theorem idx_facts1 (t : Fin cfg1.N) :
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 3) = t.val ∧ win1_7.index t (1 : Fin 3) = 0 ∧ win1_7.index t (2 : Fin 3) = 0) :=
  ⟨idx_facts1_0 t, idx_facts1_1 t, idx_facts1_2 t, idx_facts1_3 t, idx_facts1_4 t, idx_facts1_5 t, idx_facts1_6 t, idx_facts1_7 t⟩

/-! ## The input blocks -/

/-- Where an element of the activation block at point t sits in the array. -/
theorem emb1_0 (t : Fin cfg1.N) (y : S256x1024.Idx) : ((cfg1.win 0).blk t).view.emb y
      = ix2 ⟨t.val * 256 + (y 0).val, by have hy0 : (y 0).val < 256 := (y 0).isLt; have ht := lt32_1 t; omega⟩ ⟨(y 1).val, (y 1).isLt⟩ := by
  obtain ⟨e0, e1⟩ := idx_facts1_0 t
  funext a; apply Fin.ext
  match a with
  | ⟨0, _⟩ => show win1_0.index t (0 : Fin 2) * 256 + 1 * (y 0).val = t.val * 256 + (y 0).val; omega
  | ⟨1, _⟩ => show win1_0.index t (1 : Fin 2) * 1024 + 1 * (y 1).val = (y 1).val; omega

/-- The scale row's block is the whole row … -/
theorem emb1_1 (t : Fin cfg1.N) (y : S1x256.Idx) : ((cfg1.win 1).blk t).view.emb y = y := by
  obtain ⟨e0, e1⟩ := idx_facts1_1 t
  funext a; apply Fin.ext
  match a with
  | ⟨0, _⟩ => show win1_1.index t (0 : Fin 2) * 1 + 1 * (y 0).val = (y 0).val; omega
  | ⟨1, _⟩ => show win1_1.index t (1 : Fin 2) * 256 + 1 * (y 1).val = (y 1).val; omega

/-- … and so are the shift row's … -/
theorem emb1_2 (t : Fin cfg1.N) (y : S1x256.Idx) : ((cfg1.win 2).blk t).view.emb y = y := by
  obtain ⟨e0, e1⟩ := idx_facts1_2 t
  funext a; apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- … the first weight matrix's … -/
theorem emb1_3 (t : Fin cfg1.N) (y : S256x128.Idx) : ((cfg1.win 3).blk t).view.emb y = y := by
  obtain ⟨e0, e1⟩ := idx_facts1_3 t
  funext a; apply Fin.ext
  match a with
  | ⟨0, _⟩ => show win1_3.index t (0 : Fin 2) * 256 + 1 * (y 0).val = (y 0).val; omega
  | ⟨1, _⟩ => show win1_3.index t (1 : Fin 2) * 128 + 1 * (y 1).val = (y 1).val; omega

/-- … and the second weight matrix's. -/
theorem emb1_4 (t : Fin cfg1.N) (y : S256x512.Idx) : ((cfg1.win 4).blk t).view.emb y = y := by
  obtain ⟨e0, e1⟩ := idx_facts1_4 t
  funext a; apply Fin.ext
  match a with
  | ⟨0, _⟩ => show win1_4.index t (0 : Fin 2) * 256 + 1 * (y 0).val = (y 0).val; omega
  | ⟨1, _⟩ => show win1_4.index t (1 : Fin 2) * 512 + 1 * (y 1).val = (y 1).val; omega

/-- The activation block at point t is image t's rows. -/
theorem iblk1_0_eq (c : Dev nD) (t : Fin cfg1.N) : iblk1 V c 0 t = rows0 (V c main_call0_v0) ⟨t.val, lt32_1 t⟩ :=
  funext fun (y : S256x1024.Idx) =>
    (show iblk1 V c 0 t y = V c main_call0_v0 (((cfg1.win 0).blk t).view.emb y) from rfl).trans
      (congrArg (V c main_call0_v0) (emb1_0 t y))

/-- The scale block at any point is the scale row. -/
theorem iblk1_1_eq (c : Dev nD) (t : Fin cfg1.N) : iblk1 V c 1 t = V c main_call0_v26 :=
  funext fun (y : S1x256.Idx) =>
    (show iblk1 V c 1 t y = V c main_call0_v26 (((cfg1.win 1).blk t).view.emb y) from rfl).trans
      (congrArg (V c main_call0_v26) (emb1_1 t y))

/-- The shift block at any point is the shift row. -/
theorem iblk1_2_eq (c : Dev nD) (t : Fin cfg1.N) : iblk1 V c 2 t = V c main_call0_v27 :=
  funext fun (y : S1x256.Idx) =>
    (show iblk1 V c 2 t y = V c main_call0_v27 (((cfg1.win 2).blk t).view.emb y) from rfl).trans
      (congrArg (V c main_call0_v27) (emb1_2 t y))

/-- The first weight block at any point is the first weight matrix. -/
theorem iblk1_3_eq (c : Dev nD) (t : Fin cfg1.N) : iblk1 V c 3 t = V c main_call0_v1 :=
  funext fun (y : S256x128.Idx) =>
    (show iblk1 V c 3 t y = V c main_call0_v1 (((cfg1.win 3).blk t).view.emb y) from rfl).trans
      (congrArg (V c main_call0_v1) (emb1_3 t y))

/-- The second weight block at any point is the second weight matrix. -/
theorem iblk1_4_eq (c : Dev nD) (t : Fin cfg1.N) : iblk1 V c 4 t = V c main_call0_v5 :=
  funext fun (y : S256x512.Idx) =>
    (show iblk1 V c 4 t y = V c main_call0_v5 (((cfg1.win 4).blk t).view.emb y) from rfl).trans
      (congrArg (V c main_call0_v5) (emb1_4 t y))

/-! ## The [32768, 128] result -/

/-- Where an element of the block written at point t sits in the array. -/
theorem emb1_5 (t : Fin cfg1.N) (j : S1024x128.Idx) : ((cfg1.win 5).blk t).view.emb j
      = ix2 ⟨t.val * 1024 + (j 0).val, by have hj0 : (j 0).val < 1024 := (j 0).isLt; have ht := lt32_1 t; omega⟩ ⟨(j 1).val, (j 1).isLt⟩ := by
  obtain ⟨e0, e1⟩ := idx_facts1_5 t
  funext a; apply Fin.ext
  match a with
  | ⟨0, _⟩ => show win1_5.index t (0 : Fin 2) * 1024 + 1 * (j 0).val = t.val * 1024 + (j 0).val; omega
  | ⟨1, _⟩ => show win1_5.index t (1 : Fin 2) * 128 + 1 * (j 1).val = (j 1).val; omega

/-- Block t of any [32768, 128] array, read at j, is the array at row t·1024 + j₀. -/
theorem read1_5 (G : S32768x128.Idx → Elt F .bf16) (t : Fin cfg1.N) (j : S1024x128.Idx) :
    ((cfg1.win 5).blk t).view.read (Elt F) G j
      = G (ix2 ⟨t.val * 1024 + (j 0).val, by have hj0 : (j 0).val < 1024 := (j 0).isLt; have ht := lt32_1 t; omega⟩ ⟨(j 1).val, (j 1).isLt⟩) :=
  (show ((cfg1.win 5).blk t).view.read (Elt F) G j = G (((cfg1.win 5).blk t).view.emb j) from rfl).trans
    (congrArg G (emb1_5 t j))

/-- G1_5 at row n·1024 + p. -/
theorem G1_5_apply (A0 : S8192x1024.Idx → Elt F .f32) (A1 A2 : S1x256.Idx → Elt F .f32) (A3 : S256x128.Idx → Elt F .bf16)
    (A4 : S256x512.Idx → Elt F .bf16) (n : Fin 32) (p : Fin 1024) (q : Fin 128) :
    G1_5 A0 A1 A2 A3 A4 (ix2 ⟨n.val * 1024 + p.val, by omega⟩ q) = out1_5 (rows0 A0 n) A1 A2 A3 A4 (ix2 p q) := by
  unfold G1_5
  have e1 : (⟨(n.val * 1024 + p.val) / 1024, by omega⟩ : Fin 32) = n := Fin.ext (by show (n.val * 1024 + p.val) / 1024 = n.val; omega)
  have e2 : (⟨(n.val * 1024 + p.val) % 1024, by omega⟩ : Fin 1024) = p := Fin.ext (by show (n.val * 1024 + p.val) % 1024 = p.val; omega)
  exact congrArg₂ (fun (a : Fin 32) (b : Fin 1024) => out1_5 (rows0 A0 a) A1 A2 A3 A4 (ix2 b q)) e1 e2

/-- Block t of G1_5 of the arrays, read at j: what point t writes at j. -/
theorem G1_5_blk (A0 : S8192x1024.Idx → Elt F .f32) (A1 A2 : S1x256.Idx → Elt F .f32) (A3 : S256x128.Idx → Elt F .bf16)
    (A4 : S256x512.Idx → Elt F .bf16) (t : Fin cfg1.N) (j : S1024x128.Idx) :
    ((cfg1.win 5).blk t).view.read (Elt F) (G1_5 A0 A1 A2 A3 A4) j = out1_5 (rows0 A0 ⟨t.val, lt32_1 t⟩) A1 A2 A3 A4 j :=
  (read1_5 (G1_5 A0 A1 A2 A3 A4) t j).trans
    ((G1_5_apply A0 A1 A2 A3 A4 ⟨t.val, lt32_1 t⟩ ⟨(j 0).val, (j 0).isLt⟩ ⟨(j 1).val, (j 1).isLt⟩).trans
      (congrArg (out1_5 (rows0 A0 ⟨t.val, lt32_1 t⟩) A1 A2 A3 A4) (eq_ix2 j).symm))

/-- What point t writes back is block t of G1_5 of the input arrays. -/
theorem flushed1_5_eq (c : Dev nD) (t : Fin cfg1.N) :
    (dat1 V c).flushed 5 t = ((cfg1.win 5).blk t).view.read (Elt F)
      (G1_5 (V c main_call0_v0) (V c main_call0_v26) (V c main_call0_v27) (V c main_call0_v1) (V c main_call0_v5)) := by
  show (cfg1.win 5).cut (grid1.coords t) ((dat1 V c).after 5 t) = _
  rw [after1_5, iblk1_0_eq, iblk1_1_eq, iblk1_2_eq, iblk1_3_eq, iblk1_4_eq]
  funext (j : S1024x128.Idx)
  exact (G1_5_blk (V c main_call0_v0) (V c main_call0_v26) (V c main_call0_v27) (V c main_call0_v1) (V c main_call0_v5) t j).symm

/-- An index of the array is in point t's block iff each coordinate is in the block's range on its axis. -/
theorem mem_blk1_5 (t : Fin cfg1.N) (i : S32768x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_call0_v28_0).slice (win1_5.rect t)).set ↔ _
  rw [View.set_slice_whole, Rect.mem_set_unit]
  exact Iff.rfl

/-- Every row of the result is in some point's block: row i is in point (i div 1024)'s. -/
theorem covered1_5 (i : S32768x128.Idx) :
    ∃ t : Fin cfg1.N, (cfg1.win 5).flush t = true ∧ i ∈ ((cfg1.win 5).blk t).view.set := by
  have hi0 : (i 0).val < 32768 := (i 0).isLt
  have hi1 : (i 1).val < 128 := (i 1).isLt
  have hN : cfg1.N = 32 := N_1
  refine ⟨⟨(i 0).val / 1024, by omega⟩, flush1_5 _, ?_⟩
  obtain ⟨e0, e1⟩ := idx_facts1_5 ⟨(i 0).val / 1024, by omega⟩
  rw [mem_blk1_5]
  intro a
  match a with
  | ⟨0, _⟩ => show win1_5.index _ (0 : Fin 2) * 1024 ≤ (i 0).val ∧ (i 0).val < win1_5.index _ (0 : Fin 2) * 1024 + 1024; rw [e0]; show (i 0).val / 1024 * 1024 ≤ (i 0).val ∧ (i 0).val < (i 0).val / 1024 * 1024 + 1024; omega
  | ⟨1, _⟩ => show win1_5.index _ (1 : Fin 2) * 128 ≤ (i 1).val ∧ (i 1).val < win1_5.index _ (1 : Fin 2) * 128 + 128; rw [e1]; omega

/-- The [32768, 128] array after the run, as one function of the input arrays as the region finds them. -/
theorem final1_5 (c : Dev nD) : (dat1 V c).arrAt 5 cfg1.N
    = G1_5 (V c main_call0_v0) (V c main_call0_v26) (V c main_call0_v27) (V c main_call0_v1) (V c main_call0_v5) :=
  (dat1 V c).arrAt_eq_of_cover 5 _ (fun t _ => flushed1_5_eq V c t) covered1_5

/-! ## The [8192, 512] result -/

/-- Where an element of the block written at point t sits in the array. -/
theorem emb1_6 (t : Fin cfg1.N) (j : S256x512.Idx) : ((cfg1.win 6).blk t).view.emb j
      = ix2 ⟨t.val * 256 + (j 0).val, by have hj0 : (j 0).val < 256 := (j 0).isLt; have ht := lt32_1 t; omega⟩ ⟨(j 1).val, (j 1).isLt⟩ := by
  obtain ⟨e0, e1⟩ := idx_facts1_6 t
  funext a; apply Fin.ext
  match a with
  | ⟨0, _⟩ => show win1_6.index t (0 : Fin 2) * 256 + 1 * (j 0).val = t.val * 256 + (j 0).val; omega
  | ⟨1, _⟩ => show win1_6.index t (1 : Fin 2) * 512 + 1 * (j 1).val = (j 1).val; omega

/-- Block t of any [8192, 512] array, read at j, is the array at row t·256 + j₀. -/
theorem read1_6 (G : S8192x512.Idx → Elt F .bf16) (t : Fin cfg1.N) (j : S256x512.Idx) :
    ((cfg1.win 6).blk t).view.read (Elt F) G j
      = G (ix2 ⟨t.val * 256 + (j 0).val, by have hj0 : (j 0).val < 256 := (j 0).isLt; have ht := lt32_1 t; omega⟩ ⟨(j 1).val, (j 1).isLt⟩) :=
  (show ((cfg1.win 6).blk t).view.read (Elt F) G j = G (((cfg1.win 6).blk t).view.emb j) from rfl).trans
    (congrArg G (emb1_6 t j))

/-- G1_6 at row n·256 + p. -/
theorem G1_6_apply (A0 : S8192x1024.Idx → Elt F .f32) (A1 A2 : S1x256.Idx → Elt F .f32) (A3 : S256x128.Idx → Elt F .bf16)
    (A4 : S256x512.Idx → Elt F .bf16) (n : Fin 32) (p : Fin 256) (q : Fin 512) :
    G1_6 A0 A1 A2 A3 A4 (ix2 ⟨n.val * 256 + p.val, by omega⟩ q) = out1_6 (rows0 A0 n) A1 A2 A3 A4 (ix2 p q) := by
  unfold G1_6
  have e1 : (⟨(n.val * 256 + p.val) / 256, by omega⟩ : Fin 32) = n := Fin.ext (by show (n.val * 256 + p.val) / 256 = n.val; omega)
  have e2 : (⟨(n.val * 256 + p.val) % 256, by omega⟩ : Fin 256) = p := Fin.ext (by show (n.val * 256 + p.val) % 256 = p.val; omega)
  exact congrArg₂ (fun (a : Fin 32) (b : Fin 256) => out1_6 (rows0 A0 a) A1 A2 A3 A4 (ix2 b q)) e1 e2

/-- Block t of G1_6 of the arrays, read at j: what point t writes at j. -/
theorem G1_6_blk (A0 : S8192x1024.Idx → Elt F .f32) (A1 A2 : S1x256.Idx → Elt F .f32) (A3 : S256x128.Idx → Elt F .bf16)
    (A4 : S256x512.Idx → Elt F .bf16) (t : Fin cfg1.N) (j : S256x512.Idx) :
    ((cfg1.win 6).blk t).view.read (Elt F) (G1_6 A0 A1 A2 A3 A4) j = out1_6 (rows0 A0 ⟨t.val, lt32_1 t⟩) A1 A2 A3 A4 j :=
  (read1_6 (G1_6 A0 A1 A2 A3 A4) t j).trans
    ((G1_6_apply A0 A1 A2 A3 A4 ⟨t.val, lt32_1 t⟩ ⟨(j 0).val, (j 0).isLt⟩ ⟨(j 1).val, (j 1).isLt⟩).trans
      (congrArg (out1_6 (rows0 A0 ⟨t.val, lt32_1 t⟩) A1 A2 A3 A4) (eq_ix2 j).symm))

/-- What point t writes back is block t of G1_6 of the input arrays. -/
theorem flushed1_6_eq (c : Dev nD) (t : Fin cfg1.N) :
    (dat1 V c).flushed 6 t = ((cfg1.win 6).blk t).view.read (Elt F)
      (G1_6 (V c main_call0_v0) (V c main_call0_v26) (V c main_call0_v27) (V c main_call0_v1) (V c main_call0_v5)) := by
  show (cfg1.win 6).cut (grid1.coords t) ((dat1 V c).after 6 t) = _
  rw [after1_6, iblk1_0_eq, iblk1_1_eq, iblk1_2_eq, iblk1_3_eq, iblk1_4_eq]
  funext (j : S256x512.Idx)
  exact (G1_6_blk (V c main_call0_v0) (V c main_call0_v26) (V c main_call0_v27) (V c main_call0_v1) (V c main_call0_v5) t j).symm

/-- An index of the array is in point t's block iff each coordinate is in the block's range on its axis. -/
theorem mem_blk1_6 (t : Fin cfg1.N) (i : S8192x512.Idx) :
    i ∈ ((cfg1.win 6).blk t).view.set ↔ ∀ a : Fin 2, win1_6.index t a * S256x512.size a ≤ (i a).val ∧ (i a).val < win1_6.index t a * S256x512.size a + S256x512.size a := by
  show i ∈ ((View.whole main_call0_v28_1).slice (win1_6.rect t)).set ↔ _
  rw [View.set_slice_whole, Rect.mem_set_unit]
  exact Iff.rfl

/-- Every row of the result is in some point's block: row i is in point (i div 256)'s. -/
theorem covered1_6 (i : S8192x512.Idx) :
    ∃ t : Fin cfg1.N, (cfg1.win 6).flush t = true ∧ i ∈ ((cfg1.win 6).blk t).view.set := by
  have hi0 : (i 0).val < 8192 := (i 0).isLt
  have hi1 : (i 1).val < 512 := (i 1).isLt
  have hN : cfg1.N = 32 := N_1
  refine ⟨⟨(i 0).val / 256, by omega⟩, flush1_6 _, ?_⟩
  obtain ⟨e0, e1⟩ := idx_facts1_6 ⟨(i 0).val / 256, by omega⟩
  rw [mem_blk1_6]
  intro a
  match a with
  | ⟨0, _⟩ => show win1_6.index _ (0 : Fin 2) * 256 ≤ (i 0).val ∧ (i 0).val < win1_6.index _ (0 : Fin 2) * 256 + 256; rw [e0]; show (i 0).val / 256 * 256 ≤ (i 0).val ∧ (i 0).val < (i 0).val / 256 * 256 + 256; omega
  | ⟨1, _⟩ => show win1_6.index _ (1 : Fin 2) * 512 ≤ (i 1).val ∧ (i 1).val < win1_6.index _ (1 : Fin 2) * 512 + 512; rw [e1]; omega

/-- The [8192, 512] array after the run, as one function of the input arrays as the region finds them. -/
theorem final1_6 (c : Dev nD) : (dat1 V c).arrAt 6 cfg1.N
    = G1_6 (V c main_call0_v0) (V c main_call0_v26) (V c main_call0_v27) (V c main_call0_v1) (V c main_call0_v5) :=
  (dat1 V c).arrAt_eq_of_cover 6 _ (fun t _ => flushed1_6_eq V c t) covered1_6

/-! ## The [32, 2, 128] statistics -/

/-- Where an element of the row written at point t sits in the array. -/
theorem emb1_7 (t : Fin cfg1.N) (j : S1x2x128.Idx) : ((cfg1.win 7).blk t).view.emb j
      = ix3 ⟨t.val, lt32_1 t⟩ ⟨(j 1).val, (j 1).isLt⟩ ⟨(j 2).val, (j 2).isLt⟩ := by
  obtain ⟨e0, e1, e2⟩ := idx_facts1_7 t
  have hj0 : (j 0).val < 1 := (j 0).isLt
  funext a; apply Fin.ext
  match a with
  | ⟨0, _⟩ => show win1_7.index t (0 : Fin 3) * 1 + 1 * (j 0).val = t.val; omega
  | ⟨1, _⟩ => show win1_7.index t (1 : Fin 3) * 2 + 1 * (j 1).val = (j 1).val; omega
  | ⟨2, _⟩ => show win1_7.index t (2 : Fin 3) * 128 + 1 * (j 2).val = (j 2).val; omega

/-- An index of a statistics row whose first coordinate is the only possible one. -/
theorem row_idx1 (j : S1x2x128.Idx) : j = ix3 ⟨0, by omega⟩ ⟨(j 1).val, (j 1).isLt⟩ ⟨(j 2).val, (j 2).isLt⟩ := by
  have hj0 : (j 0).val < 1 := (j 0).isLt
  funext a
  match a with
  | ⟨0, _⟩ => exact Fin.ext (by show (j 0).val = 0; omega)
  | ⟨1, _⟩ => rfl
  | ⟨2, _⟩ => rfl

/-- Block t of any [32, 2, 128] array, read at j, is the array at row t. -/
theorem read1_7 (G : S32x2x128.Idx → Elt F .f32) (t : Fin cfg1.N) (j : S1x2x128.Idx) :
    ((cfg1.win 7).blk t).view.read (Elt F) G j = G (ix3 ⟨t.val, lt32_1 t⟩ ⟨(j 1).val, (j 1).isLt⟩ ⟨(j 2).val, (j 2).isLt⟩) :=
  (show ((cfg1.win 7).blk t).view.read (Elt F) G j = G (((cfg1.win 7).blk t).view.emb j) from rfl).trans
    (congrArg G (emb1_7 t j))

/-- G1_7 at row n. -/
theorem G1_7_apply (A0 : S8192x1024.Idx → Elt F .f32) (A1 A2 : S1x256.Idx → Elt F .f32) (A3 : S256x128.Idx → Elt F .bf16)
    (A4 : S256x512.Idx → Elt F .bf16) (n : Fin 32) (a : Fin 2) (b : Fin 128) :
    G1_7 A0 A1 A2 A3 A4 (ix3 n a b) = out1_7 (rows0 A0 n) A1 A2 A3 A4 (ix3 ⟨0, by omega⟩ a b) := by
  unfold G1_7
  exact congrArg₂ (fun (r : Vec F S256x1024 .f32) (k : S1x2x128.Idx) => out1_7 r A1 A2 A3 A4 k)
    (congrArg (rows0 A0) (Fin.ext rfl)) (by funext d; match d with | ⟨0,_⟩ => rfl | ⟨1,_⟩ => rfl | ⟨2,_⟩ => rfl)

/-- Block t of G1_7 of the arrays, read at j: the statistics point t writes at j. -/
theorem G1_7_blk (A0 : S8192x1024.Idx → Elt F .f32) (A1 A2 : S1x256.Idx → Elt F .f32) (A3 : S256x128.Idx → Elt F .bf16)
    (A4 : S256x512.Idx → Elt F .bf16) (t : Fin cfg1.N) (j : S1x2x128.Idx) :
    ((cfg1.win 7).blk t).view.read (Elt F) (G1_7 A0 A1 A2 A3 A4) j = out1_7 (rows0 A0 ⟨t.val, lt32_1 t⟩) A1 A2 A3 A4 j :=
  (read1_7 (G1_7 A0 A1 A2 A3 A4) t j).trans
    ((G1_7_apply A0 A1 A2 A3 A4 ⟨t.val, lt32_1 t⟩ ⟨(j 1).val, (j 1).isLt⟩ ⟨(j 2).val, (j 2).isLt⟩).trans
      (congrArg (out1_7 (rows0 A0 ⟨t.val, lt32_1 t⟩) A1 A2 A3 A4) (row_idx1 j).symm))

/-- What point t writes back is block t of G1_7 of the input arrays. -/
theorem flushed1_7_eq (c : Dev nD) (t : Fin cfg1.N) :
    (dat1 V c).flushed 7 t = ((cfg1.win 7).blk t).view.read (Elt F)
      (G1_7 (V c main_call0_v0) (V c main_call0_v26) (V c main_call0_v27) (V c main_call0_v1) (V c main_call0_v5)) := by
  show (cfg1.win 7).cut (grid1.coords t) ((dat1 V c).after 7 t) = _
  rw [after1_7, iblk1_0_eq, iblk1_1_eq, iblk1_2_eq, iblk1_3_eq, iblk1_4_eq]
  funext (j : S1x2x128.Idx)
  exact (G1_7_blk (V c main_call0_v0) (V c main_call0_v26) (V c main_call0_v27) (V c main_call0_v1) (V c main_call0_v5) t j).symm

/-- An index of the array is in point t's block iff each coordinate is in the block's range on its axis. -/
theorem mem_blk1_7 (t : Fin cfg1.N) (i : S32x2x128.Idx) :
    i ∈ ((cfg1.win 7).blk t).view.set ↔ ∀ a : Fin 3, win1_7.index t a * S1x2x128.size a ≤ (i a).val ∧ (i a).val < win1_7.index t a * S1x2x128.size a + S1x2x128.size a := by
  show i ∈ ((View.whole main_call0_v28_2).slice (win1_7.rect t)).set ↔ _
  rw [View.set_slice_whole, Rect.mem_set_unit]
  exact Iff.rfl

/-- Every row of the statistics is some point's block: row n is point n's. -/
theorem covered1_7 (i : S32x2x128.Idx) :
    ∃ t : Fin cfg1.N, (cfg1.win 7).flush t = true ∧ i ∈ ((cfg1.win 7).blk t).view.set := by
  have hi0 : (i 0).val < 32 := (i 0).isLt
  have hi1 : (i 1).val < 2 := (i 1).isLt
  have hi2 : (i 2).val < 128 := (i 2).isLt
  have hN : cfg1.N = 32 := N_1
  refine ⟨⟨(i 0).val, by omega⟩, flush1_7 _, ?_⟩
  obtain ⟨e0, e1, e2⟩ := idx_facts1_7 ⟨(i 0).val, by omega⟩
  rw [mem_blk1_7]
  intro a
  match a with
  | ⟨0, _⟩ => show win1_7.index _ (0 : Fin 3) * 1 ≤ (i 0).val ∧ (i 0).val < win1_7.index _ (0 : Fin 3) * 1 + 1; rw [e0]; show (i 0).val * 1 ≤ (i 0).val ∧ (i 0).val < (i 0).val * 1 + 1; omega
  | ⟨1, _⟩ => show win1_7.index _ (1 : Fin 3) * 2 ≤ (i 1).val ∧ (i 1).val < win1_7.index _ (1 : Fin 3) * 2 + 2; rw [e1]; omega
  | ⟨2, _⟩ => show win1_7.index _ (2 : Fin 3) * 128 ≤ (i 2).val ∧ (i 2).val < win1_7.index _ (2 : Fin 3) * 128 + 128; rw [e2]; omega

/-- The statistics array after the run, as one function of the input arrays as the region finds them. -/
theorem final1_7 (c : Dev nD) : (dat1 V c).arrAt 7 cfg1.N
    = G1_7 (V c main_call0_v0) (V c main_call0_v26) (V c main_call0_v27) (V c main_call0_v1) (V c main_call0_v5) :=
  (dat1 V c).arrAt_eq_of_cover 7 _ (fun t _ => flushed1_7_eq V c t) covered1_7

/-! ## What each result block holds, as the payload of the five loaded blocks -/

/-- The [1024, 128] block is the narrowed product of the rectified activations with the first weight matrix. -/
theorem out1_5_eq (x0 : Vec F S256x1024 .f32) (x1 : Vec F S1x256 .f32) (x2 : Vec F S1x256 .f32) (x3 : Vec F S256x128 .bf16)
    (x4 : Vec F S256x512 .bf16) : out1_5 x0 x1 x2 x3 x4 = k1_pay5 x0 x1 x2 x3 := by
  unfold out1_5
  rw [View.canon_unit_zero hz2, View.ld_unit_zero hz2, View.ld_unit_zero hz2, View.ld_unit_zero hz2, View.ld_unit_zero hz2]

/-- The [256, 512] block is the narrowed product of the selected activation rows with the second weight matrix. -/
theorem out1_6_eq (x0 : Vec F S256x1024 .f32) (x1 : Vec F S1x256 .f32) (x2 : Vec F S1x256 .f32) (x3 : Vec F S256x128 .bf16)
    (x4 : Vec F S256x512 .bf16) : out1_6 x0 x1 x2 x3 x4 = k1_pay1 (k1_pay6 x0 x1 x2 x4) := by
  unfold out1_6
  rw [View.canon_unit_zero hz2, View.ld_unit_zero hz2, View.ld_unit_zero hz2, View.ld_unit_zero hz2, View.ld_unit_zero hz2]

/-- The statistics row is the stacked column sums of the product and of its square. -/
theorem out1_7_eq (x0 : Vec F S256x1024 .f32) (x1 : Vec F S1x256 .f32) (x2 : Vec F S1x256 .f32) (x3 : Vec F S256x128 .bf16)
    (x4 : Vec F S256x512 .bf16) : out1_7 x0 x1 x2 x3 x4 = k1_pay4 x0 x1 x2 x3 := by
  unfold out1_7
  rw [View.canon_unit_zero hz3, View.ld_unit_zero hz2, View.ld_unit_zero hz2, View.ld_unit_zero hz2, View.ld_unit_zero hz2]

end Cert.KernelIdeal.Frame

end
-- ==== Proof.KI.V2.lean ====
/-
  Region 2's two result arrays in closed form. Grid point n (one image) reads rows 1024·n … 1024·n + 1023 of the
  [32768, 128] activation array, the whole scale row, shift row and weight matrix, and writes rows
  256·n … 256·n + 255 of the [8192, 128] convolution array and row n of the [32, 2, 128] statistics array. So row i of
  the convolution array is row i mod 256 of what the body makes of image i / 256's rows, and row n of the statistics
  array is what the body makes of image n's rows. The blocks of each result tile it, one per point.
-/
import proofs.«130251_g2000005708365749_pallasbulk_1193_2_alg».proof.Proof.KI.R2
import Idealize.ShloMosaic.Lib.Pipeline.Value
import Idealize.ShloMosaic.Lib.ValueIdx

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem lt32_2 (t : Fin cfg2.N) : t.val < 32 := by
  have h := t.isLt; have e : cfg2.N = 32 := N_2; omega

/-- Image n's 1024 rows of the [32768, 128] activation array. -/
def rows2 (A : S32768x128.Idx → Elt F .bf16) (n : Fin 32) : Vec F S1024x128 .bf16 :=
  fun y => A (ix2 ⟨n.val * 1024 + (y 0).val, by have := idx2_lt0 y; omega⟩ ⟨(y 1).val, idx2_lt1 y⟩)

/-- The convolution array as one function of the region's four input arrays. -/
def G2_4 (A0 : S32768x128.Idx → Elt F .bf16) (A1 A2 : S1x128.Idx → Elt F .f32) (A3 : S1152x128.Idx → Elt F .bf16) :
    S8192x128.Idx → Elt F .bf16 :=
  fun i => out2_4 (rows2 A0 ⟨(i 0).val / 256, by have := idx2_lt0 i; omega⟩) A1 A2 A3
    (ix2 ⟨(i 0).val % 256, Nat.mod_lt _ (by decide)⟩ ⟨(i 1).val, (i 1).isLt⟩)

/-- The statistics array as one function of the region's four input arrays. -/
def G2_5 (A0 : S32768x128.Idx → Elt F .bf16) (A1 A2 : S1x128.Idx → Elt F .f32) (A3 : S1152x128.Idx → Elt F .bf16) :
    S32x2x128.Idx → Elt F .f32 :=
  fun i => out2_5 (rows2 A0 ⟨(i 0).val, (i 0).isLt⟩) A1 A2 A3 (ix3 ⟨0, by omega⟩ ⟨(i 1).val, (i 1).isLt⟩ ⟨(i 2).val, (i 2).isLt⟩)

/-- The printed index maps over the grid: point t reads image t's rows and the one block of each of the scale row,
    the shift row and the weights, and writes block t of the convolution array and row t of the statistics. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

/-! ## Where a block element sits in its array -/

/-- An element of the activation block at point t sits 1024·t rows down. -/
theorem emb2_0 (t : Fin cfg2.N) (y : S1024x128.Idx) : ((cfg2.win 0).blk t).view.emb y
      = ix2 ⟨t.val * 1024 + (y 0).val, by have hy0 : (y 0).val < 1024 := (y 0).isLt; have ht := lt32_2 t; omega⟩ ⟨(y 1).val, (y 1).isLt⟩ := by
  obtain ⟨e0, e1, -⟩ := idx_facts2 t
  funext a; apply Fin.ext
  match a with
  | ⟨0, _⟩ => show win2_0.index t (0 : Fin 2) * 1024 + 1 * (y 0).val = t.val * 1024 + (y 0).val; omega
  | ⟨1, _⟩ => show win2_0.index t (1 : Fin 2) * 128 + 1 * (y 1).val = (y 1).val; omega

/-- The scale row's one block is the whole row. -/
theorem emb2_1 (t : Fin cfg2.N) (y : S1x128.Idx) : ((cfg2.win 1).blk t).view.emb y = y := by
  obtain ⟨-, -, e0, e1, -⟩ := idx_facts2 t
  funext a; apply Fin.ext
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The shift row's one block is the whole row. -/
theorem emb2_2 (t : Fin cfg2.N) (y : S1x128.Idx) : ((cfg2.win 2).blk t).view.emb y = y := by
  obtain ⟨-, -, -, -, e0, e1, -⟩ := idx_facts2 t
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The weights' one block is the whole matrix. -/
theorem emb2_3 (t : Fin cfg2.N) (y : S1152x128.Idx) : ((cfg2.win 3).blk t).view.emb y = y := by
  obtain ⟨-, -, -, -, -, -, e0, e1, -⟩ := idx_facts2 t
  funext a; apply Fin.ext
  match a with
  | ⟨0, _⟩ => show win2_3.index t (0 : Fin 2) * 1152 + 1 * (y 0).val = (y 0).val; omega
  | ⟨1, _⟩ => show win2_3.index t (1 : Fin 2) * 128 + 1 * (y 1).val = (y 1).val; omega

/-- An element of the convolution block at point t sits 256·t rows down. -/
theorem emb2_4 (t : Fin cfg2.N) (y : S256x128.Idx) : ((cfg2.win 4).blk t).view.emb y
      = ix2 ⟨t.val * 256 + (y 0).val, by have hy0 : (y 0).val < 256 := (y 0).isLt; have ht := lt32_2 t; omega⟩ ⟨(y 1).val, (y 1).isLt⟩ := by
  obtain ⟨-, -, -, -, -, -, -, -, e0, e1, -⟩ := idx_facts2 t
  funext a; apply Fin.ext
  match a with
  | ⟨0, _⟩ => show win2_4.index t (0 : Fin 2) * 256 + 1 * (y 0).val = t.val * 256 + (y 0).val; omega
  | ⟨1, _⟩ => show win2_4.index t (1 : Fin 2) * 128 + 1 * (y 1).val = (y 1).val; omega

/-- An element of the statistics row at point t sits in row t. -/
theorem emb2_5 (t : Fin cfg2.N) (j : S1x2x128.Idx) : ((cfg2.win 5).blk t).view.emb j
      = ix3 ⟨t.val, lt32_2 t⟩ ⟨(j 1).val, (j 1).isLt⟩ ⟨(j 2).val, (j 2).isLt⟩ := by
  obtain ⟨-, -, -, -, -, -, -, -, -, -, e2, e3, e4⟩ := idx_facts2 t
  have hj0 : (j 0).val < 1 := (j 0).isLt
  funext a; apply Fin.ext
  match a with
  | ⟨0, _⟩ => show win2_5.index t (0 : Fin 3) * 1 + 1 * (j 0).val = t.val; omega
  | ⟨1, _⟩ => show win2_5.index t (1 : Fin 3) * 2 + 1 * (j 1).val = (j 1).val; omega
  | ⟨2, _⟩ => show win2_5.index t (2 : Fin 3) * 128 + 1 * (j 2).val = (j 2).val; omega

/-! ## The input blocks at a point -/

/-- The activation block at point t is image t's rows. -/
theorem iblk2_0_eq (c : Dev nD) (t : Fin cfg2.N) :
    (iblk2 V c 0 t : Vec F S1024x128 .bf16) = rows2 (V c main_call0_v28_0) ⟨t.val, lt32_2 t⟩ :=
  funext fun (y : S1024x128.Idx) =>
    (show iblk2 V c 0 t y = V c main_call0_v28_0 (((cfg2.win 0).blk t).view.emb y) from rfl).trans
      (congrArg (V c main_call0_v28_0) (emb2_0 t y))

/-- The scale block at every point is the scale row. -/
theorem iblk2_1_eq (c : Dev nD) (t : Fin cfg2.N) :
    (iblk2 V c 1 t : Vec F S1x128 .f32) = (V c main_call0_v48 : Vec F S1x128 .f32) :=
  funext fun (y : S1x128.Idx) =>
    (show iblk2 V c 1 t y = V c main_call0_v48 (((cfg2.win 1).blk t).view.emb y) from rfl).trans
      (congrArg (V c main_call0_v48) (emb2_1 t y))

/-- The shift block at every point is the shift row. -/
theorem iblk2_2_eq (c : Dev nD) (t : Fin cfg2.N) :
    (iblk2 V c 2 t : Vec F S1x128 .f32) = (V c main_call0_v49 : Vec F S1x128 .f32) :=
  funext fun (y : S1x128.Idx) =>
    (show iblk2 V c 2 t y = V c main_call0_v49 (((cfg2.win 2).blk t).view.emb y) from rfl).trans
      (congrArg (V c main_call0_v49) (emb2_2 t y))

/-- The weight block at every point is the weight matrix. -/
theorem iblk2_3_eq (c : Dev nD) (t : Fin cfg2.N) :
    (iblk2 V c 3 t : Vec F S1152x128 .bf16) = (V c main_call0_v3 : Vec F S1152x128 .bf16) :=
  funext fun (y : S1152x128.Idx) =>
    (show iblk2 V c 3 t y = V c main_call0_v3 (((cfg2.win 3).blk t).view.emb y) from rfl).trans
      (congrArg (V c main_call0_v3) (emb2_3 t y))

/-! ## The convolution array -/

/-- Block t of any [8192, 128] array, read at j, is the array 256·t rows down. -/
theorem read2_4 (G : S8192x128.Idx → Elt F .bf16) (t : Fin cfg2.N) (j : S256x128.Idx) :
    ((cfg2.win 4).blk t).view.read (Elt F) G j
      = G (ix2 ⟨t.val * 256 + (j 0).val, by have hj0 : (j 0).val < 256 := (j 0).isLt; have ht := lt32_2 t; omega⟩ ⟨(j 1).val, (j 1).isLt⟩) :=
  (show ((cfg2.win 4).blk t).view.read (Elt F) G j = G (((cfg2.win 4).blk t).view.emb j) from rfl).trans
    (congrArg G (emb2_4 t j))

/-- G2_4 at row a of image n. -/
theorem G2_4_apply (A0 : S32768x128.Idx → Elt F .bf16) (A1 A2 : S1x128.Idx → Elt F .f32) (A3 : S1152x128.Idx → Elt F .bf16)
    (n : Fin 32) (a : Fin 256) (b : Fin 128) :
    G2_4 A0 A1 A2 A3 (ix2 ⟨n.val * 256 + a.val, by have := n.isLt; have := a.isLt; omega⟩ b) = out2_4 (rows2 A0 n) A1 A2 A3 (ix2 a b) := by
  have hn := n.isLt; have ha := a.isLt
  unfold G2_4
  exact congrArg₂ (fun (r : Fin 32) (j : S256x128.Idx) => out2_4 (rows2 A0 r) A1 A2 A3 j)
    (Fin.ext (show (n.val * 256 + a.val) / 256 = n.val by omega))
    (by funext d; match d with
      | ⟨0, _⟩ => exact Fin.ext (show (n.val * 256 + a.val) % 256 = a.val by omega)
      | ⟨1, _⟩ => rfl)

/-- Block t of G2_4 of four arrays, read at j: what the body makes of image t's rows, at j. -/
theorem G2_4_blk (A0 : S32768x128.Idx → Elt F .bf16) (A1 A2 : S1x128.Idx → Elt F .f32) (A3 : S1152x128.Idx → Elt F .bf16)
    (t : Fin cfg2.N) (j : S256x128.Idx) :
    ((cfg2.win 4).blk t).view.read (Elt F) (G2_4 A0 A1 A2 A3) j = out2_4 (rows2 A0 ⟨t.val, lt32_2 t⟩) A1 A2 A3 j :=
  (read2_4 (G2_4 A0 A1 A2 A3) t j).trans ((G2_4_apply A0 A1 A2 A3 ⟨t.val, lt32_2 t⟩ ⟨(j 0).val, (j 0).isLt⟩ ⟨(j 1).val, (j 1).isLt⟩).trans
    (congrArg (out2_4 (rows2 A0 ⟨t.val, lt32_2 t⟩) A1 A2 A3) (eq_ix2 j).symm))

/-- What point t writes back to the convolution array is block t of G2_4 of the input arrays. -/
theorem flushed2_4_eq (c : Dev nD) (t : Fin cfg2.N) :
    (dat2 V c).flushed 4 t = ((cfg2.win 4).blk t).view.read (Elt F)
      (G2_4 (V c main_call0_v28_0) (V c main_call0_v48) (V c main_call0_v49) (V c main_call0_v3)) := by
  show (cfg2.win 4).cut (grid2.coords t) ((dat2 V c).after 4 t) = _
  rw [after2_4, iblk2_0_eq, iblk2_1_eq, iblk2_2_eq, iblk2_3_eq]
  funext (j : S256x128.Idx)
  exact (G2_4_blk (V c main_call0_v28_0) (V c main_call0_v48) (V c main_call0_v49) (V c main_call0_v3) t j).symm

/-- An index of the convolution array is in point t's block iff each coordinate is in the block's range on its axis. -/
theorem mem_blk2_4 (t : Fin cfg2.N) (i : S8192x128.Idx) :
    i ∈ ((cfg2.win 4).blk t).view.set ↔ ∀ a : Fin 2, win2_4.index t a * S256x128.size a ≤ (i a).val ∧ (i a).val < win2_4.index t a * S256x128.size a + S256x128.size a := by
  show i ∈ ((View.whole main_call0_v50_0).slice (win2_4.rect t)).set ↔ _
  rw [View.set_slice_whole, Rect.mem_set_unit]
  exact Iff.rfl

/-- Every row of the convolution array is in some point's block: row i is in point i / 256's. -/
theorem covered2_4 (i : S8192x128.Idx) :
    ∃ t : Fin cfg2.N, (cfg2.win 4).flush t = true ∧ i ∈ ((cfg2.win 4).blk t).view.set := by
  have hi0 : (i 0).val < 8192 := (i 0).isLt
  have hi1 : (i 1).val < 128 := (i 1).isLt
  have hN : cfg2.N = 32 := N_2
  refine ⟨⟨(i 0).val / 256, by omega⟩, flush2_4 _, ?_⟩
  obtain ⟨-, -, -, -, -, -, -, -, e0, e1, -⟩ := idx_facts2 ⟨(i 0).val / 256, by omega⟩
  rw [mem_blk2_4]
  intro a
  match a with
  | ⟨0, _⟩ => show win2_4.index _ (0 : Fin 2) * 256 ≤ (i 0).val ∧ (i 0).val < win2_4.index _ (0 : Fin 2) * 256 + 256; rw [e0]; show (i 0).val / 256 * 256 ≤ (i 0).val ∧ (i 0).val < (i 0).val / 256 * 256 + 256; omega
  | ⟨1, _⟩ => show win2_4.index _ (1 : Fin 2) * 128 ≤ (i 1).val ∧ (i 1).val < win2_4.index _ (1 : Fin 2) * 128 + 128; rw [e1]; omega

/-- The convolution array after the run, as one function of the input arrays as the region finds them. -/
theorem final2_4 (c : Dev nD) : (dat2 V c).arrAt 4 cfg2.N
    = G2_4 (V c main_call0_v28_0) (V c main_call0_v48) (V c main_call0_v49) (V c main_call0_v3) :=
  (dat2 V c).arrAt_eq_of_cover 4 _ (fun t _ => flushed2_4_eq V c t) covered2_4

/-! ## The statistics array -/

/-- An index of a statistics row whose first coordinate is the only possible one. -/
theorem row_idx2_5 (j : S1x2x128.Idx) : j = ix3 ⟨0, by omega⟩ ⟨(j 1).val, (j 1).isLt⟩ ⟨(j 2).val, (j 2).isLt⟩ := by
  have hj0 : (j 0).val < 1 := (j 0).isLt
  funext a
  match a with
  | ⟨0, _⟩ => exact Fin.ext (by show (j 0).val = 0; omega)
  | ⟨1, _⟩ => rfl
  | ⟨2, _⟩ => rfl

/-- Block t of any [32, 2, 128] array, read at j, is the array at row t. -/
theorem read2_5 (G : S32x2x128.Idx → Elt F .f32) (t : Fin cfg2.N) (j : S1x2x128.Idx) :
    ((cfg2.win 5).blk t).view.read (Elt F) G j = G (ix3 ⟨t.val, lt32_2 t⟩ ⟨(j 1).val, (j 1).isLt⟩ ⟨(j 2).val, (j 2).isLt⟩) :=
  (show ((cfg2.win 5).blk t).view.read (Elt F) G j = G (((cfg2.win 5).blk t).view.emb j) from rfl).trans
    (congrArg G (emb2_5 t j))

/-- G2_5 at row n. -/
theorem G2_5_apply (A0 : S32768x128.Idx → Elt F .bf16) (A1 A2 : S1x128.Idx → Elt F .f32) (A3 : S1152x128.Idx → Elt F .bf16)
    (n : Fin 32) (a : Fin 2) (b : Fin 128) :
    G2_5 A0 A1 A2 A3 (ix3 n a b) = out2_5 (rows2 A0 n) A1 A2 A3 (ix3 ⟨0, by omega⟩ a b) := by
  unfold G2_5
  exact congrArg₂ (fun (r : Fin 32) (j : S1x2x128.Idx) => out2_5 (rows2 A0 r) A1 A2 A3 j) (Fin.ext rfl)
    (by funext d; match d with | ⟨0, _⟩ => rfl | ⟨1, _⟩ => rfl | ⟨2, _⟩ => rfl)

/-- Block t of G2_5 of four arrays, read at j: the statistics the body makes of image t's rows, at j. -/
theorem G2_5_blk (A0 : S32768x128.Idx → Elt F .bf16) (A1 A2 : S1x128.Idx → Elt F .f32) (A3 : S1152x128.Idx → Elt F .bf16)
    (t : Fin cfg2.N) (j : S1x2x128.Idx) :
    ((cfg2.win 5).blk t).view.read (Elt F) (G2_5 A0 A1 A2 A3) j = out2_5 (rows2 A0 ⟨t.val, lt32_2 t⟩) A1 A2 A3 j :=
  (read2_5 (G2_5 A0 A1 A2 A3) t j).trans ((G2_5_apply A0 A1 A2 A3 ⟨t.val, lt32_2 t⟩ ⟨(j 1).val, (j 1).isLt⟩ ⟨(j 2).val, (j 2).isLt⟩).trans
    (congrArg (out2_5 (rows2 A0 ⟨t.val, lt32_2 t⟩) A1 A2 A3) (row_idx2_5 j).symm))

/-- What point t writes back to the statistics array is block t of G2_5 of the input arrays. -/
theorem flushed2_5_eq (c : Dev nD) (t : Fin cfg2.N) :
    (dat2 V c).flushed 5 t = ((cfg2.win 5).blk t).view.read (Elt F)
      (G2_5 (V c main_call0_v28_0) (V c main_call0_v48) (V c main_call0_v49) (V c main_call0_v3)) := by
  show (cfg2.win 5).cut (grid2.coords t) ((dat2 V c).after 5 t) = _
  rw [after2_5, iblk2_0_eq, iblk2_1_eq, iblk2_2_eq, iblk2_3_eq]
  funext (j : S1x2x128.Idx)
  exact (G2_5_blk (V c main_call0_v28_0) (V c main_call0_v48) (V c main_call0_v49) (V c main_call0_v3) t j).symm

/-- An index of the statistics array is in point t's block iff each coordinate is in the block's range on its axis. -/
theorem mem_blk2_5 (t : Fin cfg2.N) (i : S32x2x128.Idx) :
    i ∈ ((cfg2.win 5).blk t).view.set ↔ ∀ a : Fin 3, win2_5.index t a * S1x2x128.size a ≤ (i a).val ∧ (i a).val < win2_5.index t a * S1x2x128.size a + S1x2x128.size a := by
  show i ∈ ((View.whole main_call0_v50_1).slice (win2_5.rect t)).set ↔ _
  rw [View.set_slice_whole, Rect.mem_set_unit]
  exact Iff.rfl

/-- Every row of the statistics array is some point's block: row n is point n's. -/
theorem covered2_5 (i : S32x2x128.Idx) :
    ∃ t : Fin cfg2.N, (cfg2.win 5).flush t = true ∧ i ∈ ((cfg2.win 5).blk t).view.set := by
  have hi0 : (i 0).val < 32 := (i 0).isLt
  have hi1 : (i 1).val < 2 := (i 1).isLt
  have hi2 : (i 2).val < 128 := (i 2).isLt
  have hN : cfg2.N = 32 := N_2
  refine ⟨⟨(i 0).val, by omega⟩, flush2_5 _, ?_⟩
  obtain ⟨-, -, -, -, -, -, -, -, -, -, e2, e3, e4⟩ := idx_facts2 ⟨(i 0).val, by omega⟩
  rw [mem_blk2_5]
  intro a
  match a with
  | ⟨0, _⟩ => show win2_5.index _ (0 : Fin 3) * 1 ≤ (i 0).val ∧ (i 0).val < win2_5.index _ (0 : Fin 3) * 1 + 1; rw [e2]; show (i 0).val * 1 ≤ (i 0).val ∧ (i 0).val < (i 0).val * 1 + 1; omega
  | ⟨1, _⟩ => show win2_5.index _ (1 : Fin 3) * 2 ≤ (i 1).val ∧ (i 1).val < win2_5.index _ (1 : Fin 3) * 2 + 2; rw [e3]; omega
  | ⟨2, _⟩ => show win2_5.index _ (2 : Fin 3) * 128 ≤ (i 2).val ∧ (i 2).val < win2_5.index _ (2 : Fin 3) * 128 + 128; rw [e4]; omega

/-- The statistics array after the run, as one function of the input arrays as the region finds them. -/
theorem final2_5 (c : Dev nD) : (dat2 V c).arrAt 5 cfg2.N
    = G2_5 (V c main_call0_v28_0) (V c main_call0_v48) (V c main_call0_v49) (V c main_call0_v3) :=
  (dat2 V c).arrAt_eq_of_cover 5 _ (fun t _ => flushed2_5_eq V c t) covered2_5

end Cert.KernelIdeal.Frame

end
-- ==== Proof.Bridge.SpecOut.lean ====
/-
  The result of the last pass and its layout, as ONE closed formula of the arrays the pass reads.

  The pass takes the previous pass's activations `h` (one row of 128 channels per pixel, 8192 = 32·16·16 pixels
  in image-major, row-major order), normalises each channel with a scale row and a shift row, rectifies, multiplies
  by a 128 × 512 weight matrix and adds the shortcut row of the same pixel:

      out[n, co, ho, wo] = (∑ k, max (h[r, k] · sc[0, k] + sh[0, k]) 0 · w[k, co]) + s[r, co],   r = 256·n + 16·ho + wo.

  Both programs compute this; they differ only in how they cut the 8192 pixel rows into blocks and in the shape
  of the array their blocks are written back to. This file states the formula (`out`), the two whole-array
  functions the programs' write-backs assemble (`arrCM`: 512 output channels of an image as rows, its 256 pixels
  as columns; `arrSlab`: sixteen pixels' 512 channels side by side in a row of 8192), and proves that the host's
  final relayout of either array is `out`. Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-- The rectified, normalised activations of pixel row `r` times column `co` of the weights: a sum over the 128
    input channels. The row count `R` is a parameter, so the same term reads a block of rows and the whole array. -/
def act {R : Nat} (h : (⟨2, ![R, 128]⟩ : Shape).Idx → EReal) (sc sh : (⟨2, ![1, 128]⟩ : Shape).Idx → EReal)
    (w : (⟨2, ![128, 512]⟩ : Shape).Idx → EReal) (r : Fin R) (co : Fin 512) : EReal :=
  ∑ k : Fin 128, max (h (ix2 r k) * sc (ix2 (0 : Fin 1) k) + sh (ix2 (0 : Fin 1) k)) 0 * w (ix2 k co)

/-- If a block of rows `hb` is rows `off, off + 1, …` of `h`, the term on the block at row `r` is the term on
    `h` at row `off + r`. -/
theorem act_rows {R R' : Nat} (hb : (⟨2, ![R', 128]⟩ : Shape).Idx → EReal) (h : (⟨2, ![R, 128]⟩ : Shape).Idx → EReal)
    (sc sh : (⟨2, ![1, 128]⟩ : Shape).Idx → EReal) (w : (⟨2, ![128, 512]⟩ : Shape).Idx → EReal)
    (r : Fin R') (r' : Fin R) (co : Fin 512) (hrow : ∀ k : Fin 128, hb (ix2 r k) = h (ix2 r' k)) :
    act hb sc sh w r co = act h sc sh w r' co := by
  unfold act
  exact Finset.sum_congr rfl fun k _ => by rw [hrow k]

/-- The pixel row of image `n` at height `ho` and width `wo`. -/
def row (n : Fin 32) (ho wo : Fin 16) : Fin 8192 := ⟨n.val * 256 + ho.val * 16 + wo.val, by omega⟩

/-- The formula at explicit coordinates. -/
def outAt (h2 : (⟨2, ![8192, 128]⟩ : Shape).Idx → EReal) (scut : (⟨2, ![8192, 512]⟩ : Shape).Idx → EReal)
    (sc sh : (⟨2, ![1, 128]⟩ : Shape).Idx → EReal) (w3 : (⟨2, ![128, 512]⟩ : Shape).Idx → EReal)
    (n : Fin 32) (co : Fin 512) (ho wo : Fin 16) : EReal :=
  act h2 sc sh w3 (row n ho wo) co + scut (ix2 (row n ho wo) co)

/-- THE RESULT: the [32, 512, 16, 16] array of the formula. -/
def out (h2 : (⟨2, ![8192, 128]⟩ : Shape).Idx → EReal) (scut : (⟨2, ![8192, 512]⟩ : Shape).Idx → EReal)
    (sc sh : (⟨2, ![1, 128]⟩ : Shape).Idx → EReal) (w3 : (⟨2, ![128, 512]⟩ : Shape).Idx → EReal) :
    (⟨4, ![32, 512, 16, 16]⟩ : Shape).Idx → EReal :=
  fun j => outAt h2 scut sc sh w3 (j 0) (j 1) (j 2) (j 3)

theorem out_ix4 (h2 : (⟨2, ![8192, 128]⟩ : Shape).Idx → EReal) (scut : (⟨2, ![8192, 512]⟩ : Shape).Idx → EReal)
    (sc sh : (⟨2, ![1, 128]⟩ : Shape).Idx → EReal) (w3 : (⟨2, ![128, 512]⟩ : Shape).Idx → EReal)
    (n : Fin 32) (co : Fin 512) (ho wo : Fin 16) :
    out h2 scut sc sh w3 (ix4 n co ho wo) = outAt h2 scut sc sh w3 n co ho wo := rfl

/-! ## Channel-major: 512 channel rows per image, 256 pixel columns -/

/-- The array whose row `512·n + co` holds, at column `q`, the formula's value for channel `co` of pixel
    `256·n + q`. -/
def arrCM (h2 : (⟨2, ![8192, 128]⟩ : Shape).Idx → EReal) (scut : (⟨2, ![8192, 512]⟩ : Shape).Idx → EReal)
    (sc sh : (⟨2, ![1, 128]⟩ : Shape).Idx → EReal) (w3 : (⟨2, ![128, 512]⟩ : Shape).Idx → EReal) :
    (⟨2, ![16384, 256]⟩ : Shape).Idx → EReal :=
  fun i =>
    let r : Fin 8192 := ⟨(i 0).val / 512 * 256 + (i 1).val, by have := idx2_lt0 i; have := idx2_lt1 i; omega⟩
    let co : Fin 512 := ⟨(i 0).val % 512, Nat.mod_lt _ (by decide)⟩
    act h2 sc sh w3 r co + scut (ix2 r co)

/-- Read in row-major order as [32, 512, 16, 16], the channel-major array is the result: position
    `(512·n + co)·256 + 16·ho + wo` on both sides. -/
theorem shapeCast_arrCM (h2 : (⟨2, ![8192, 128]⟩ : Shape).Idx → EReal) (scut : (⟨2, ![8192, 512]⟩ : Shape).Idx → EReal)
    (sc sh : (⟨2, ![1, 128]⟩ : Shape).Idx → EReal) (w3 : (⟨2, ![128, 512]⟩ : Shape).Idx → EReal)
    (hc : (⟨2, ![16384, 256]⟩ : Shape).ShapeCasts ⟨4, ![32, 512, 16, 16]⟩) :
    shapeCast ⟨4, ![32, 512, 16, 16]⟩ (arrCM h2 scut sc sh w3) hc = out h2 scut sc sh w3 := by
  funext j
  obtain ⟨n, co, ho, wo, rfl⟩ : ∃ (n : Fin 32) (co : Fin 512) (ho wo : Fin 16), j = ix4 n co ho wo :=
    ⟨j 0, j 1, j 2, j 3, eq_ix4 j⟩
  have hn := n.isLt; have hco := co.isLt; have hho := ho.isLt; have hwo := wo.isLt
  refine (shapeCast_apply _ hc (ix4 n co ho wo)
    (ix2 (⟨n.val * 512 + co.val, by omega⟩ : Fin 16384) (⟨ho.val * 16 + wo.val, by omega⟩ : Fin 256)) ?_).trans ?_
  · rw [Shape.rowMajor_val_two, Shape.rowMajor_val_four]
    show (n.val * 512 + co.val) * 256 + (ho.val * 16 + wo.val) = ((n.val * 512 + co.val) * 16 + ho.val) * 16 + wo.val
    omega
  · rw [out_ix4]
    unfold arrCM outAt
    have hr : (⟨(n.val * 512 + co.val) / 512 * 256 + (ho.val * 16 + wo.val), by omega⟩ : Fin 8192) = row n ho wo :=
      Fin.ext (by show (n.val * 512 + co.val) / 512 * 256 + (ho.val * 16 + wo.val) = n.val * 256 + ho.val * 16 + wo.val; omega)
    have hc' : (⟨(n.val * 512 + co.val) % 512, Nat.mod_lt _ (by decide)⟩ : Fin 512) = co :=
      Fin.ext (by show (n.val * 512 + co.val) % 512 = co.val; omega)
    show act h2 sc sh w3 ⟨(n.val * 512 + co.val) / 512 * 256 + (ho.val * 16 + wo.val), _⟩ ⟨(n.val * 512 + co.val) % 512, _⟩
        + scut (ix2 ⟨(n.val * 512 + co.val) / 512 * 256 + (ho.val * 16 + wo.val), _⟩ ⟨(n.val * 512 + co.val) % 512, _⟩) = _
    rw [hr, hc']

/-! ## Slabs: sixteen pixels' channels side by side -/

/-- The array whose row `P` holds, at column `q`, the formula's value for channel `q mod 512` of pixel
    `16·P + q / 512`: the [8192, 512] pixel-by-channel array read in row-major order as [512, 8192]. -/
def arrSlab (h2 : (⟨2, ![8192, 128]⟩ : Shape).Idx → EReal) (scut : (⟨2, ![8192, 512]⟩ : Shape).Idx → EReal)
    (sc sh : (⟨2, ![1, 128]⟩ : Shape).Idx → EReal) (w3 : (⟨2, ![128, 512]⟩ : Shape).Idx → EReal) :
    (⟨2, ![512, 8192]⟩ : Shape).Idx → EReal :=
  fun i =>
    let r : Fin 8192 := ⟨(i 0).val * 16 + (i 1).val / 512, by have := idx2_lt0 i; have := idx2_lt1 i; omega⟩
    let co : Fin 512 := ⟨(i 1).val % 512, Nat.mod_lt _ (by decide)⟩
    act h2 sc sh w3 r co + scut (ix2 r co)

/-- Read in row-major order as [32, 16, 16, 512] and then with the channel axis moved in front of the two pixel
    axes, the slab array is the result. -/
theorem transpose_shapeCast_arrSlab (h2 : (⟨2, ![8192, 128]⟩ : Shape).Idx → EReal) (scut : (⟨2, ![8192, 512]⟩ : Shape).Idx → EReal)
    (sc sh : (⟨2, ![1, 128]⟩ : Shape).Idx → EReal) (w3 : (⟨2, ![128, 512]⟩ : Shape).Idx → EReal)
    (hc : (⟨2, ![512, 8192]⟩ : Shape).ShapeCasts ⟨4, ![32, 16, 16, 512]⟩)
    (ht : (⟨4, ![32, 16, 16, 512]⟩ : Shape).Transposes [0, 3, 1, 2] ⟨4, ![32, 512, 16, 16]⟩) :
    transpose ⟨4, ![32, 512, 16, 16]⟩ [0, 3, 1, 2] (shapeCast ⟨4, ![32, 16, 16, 512]⟩ (arrSlab h2 scut sc sh w3) hc) ht
      = out h2 scut sc sh w3 := by
  funext j
  obtain ⟨n, co, ho, wo, rfl⟩ : ∃ (n : Fin 32) (co : Fin 512) (ho wo : Fin 16), j = ix4 n co ho wo :=
    ⟨j 0, j 1, j 2, j 3, eq_ix4 j⟩
  have hn := n.isLt; have hco := co.isLt; have hho := ho.isLt; have hwo := wo.isLt
  refine (transpose_apply _ _ ht (ix4 n co ho wo) (ix4 n ho wo co) (fun b => ?_)).trans ?_
  · match b with
    | ⟨0, _⟩ => rfl
    | ⟨1, _⟩ => rfl
    | ⟨2, _⟩ => rfl
    | ⟨3, _⟩ => rfl
  refine (shapeCast_apply _ hc (ix4 n ho wo co)
    (ix2 (⟨n.val * 16 + ho.val, by omega⟩ : Fin 512) (⟨wo.val * 512 + co.val, by omega⟩ : Fin 8192)) ?_).trans ?_
  · rw [Shape.rowMajor_val_two, Shape.rowMajor_val_four]
    show (n.val * 16 + ho.val) * 8192 + (wo.val * 512 + co.val) = ((n.val * 16 + ho.val) * 16 + wo.val) * 512 + co.val
    omega
  · rw [out_ix4]
    unfold arrSlab outAt
    have hr : (⟨(n.val * 16 + ho.val) * 16 + (wo.val * 512 + co.val) / 512, by omega⟩ : Fin 8192) = row n ho wo :=
      Fin.ext (by show (n.val * 16 + ho.val) * 16 + (wo.val * 512 + co.val) / 512 = n.val * 256 + ho.val * 16 + wo.val; omega)
    have hc' : (⟨(wo.val * 512 + co.val) % 512, Nat.mod_lt _ (by decide)⟩ : Fin 512) = co :=
      Fin.ext (by show (wo.val * 512 + co.val) % 512 = co.val; omega)
    show act h2 sc sh w3 ⟨(n.val * 16 + ho.val) * 16 + (wo.val * 512 + co.val) / 512, _⟩ ⟨(wo.val * 512 + co.val) % 512, _⟩
        + scut (ix2 ⟨(n.val * 16 + ho.val) * 16 + (wo.val * 512 + co.val) / 512, _⟩ ⟨(wo.val * 512 + co.val) % 512, _⟩) = _
    rw [hr, hc']

end Cert.Spec

end
-- ==== Proof.Bridge.OutKPay.lean ====
/-
  The last pass's kernel body of the channel-major program, read at one entry of what it stores.

  The body loads a 256 × 128 block of activations, a scale row, a shift row, the 128 × 512 weights and a
  256 × 512 block of shortcut values, and stores the TRANSPOSE of `relu(h · a + b) ⬝ w + s`: entry `(co, q)` of
  the stored 512 × 256 block is entry `(q, co)` of the sum, that is the contraction over the 128 channels of the
  rectified affine image of row `q` against column `co` of the weights, plus the shortcut of pixel `q`, channel
  `co`. At the exact values the changes of float format in the body are the identity and the matrix product
  into a zero accumulator is the plain sum.
-/
import proofs.«130251_g2000005708365749_pallasbulk_1193_2_alg».proof.Proof.Gen.KernelIdeal.Skeleton
import proofs.«130251_g2000005708365749_pallasbulk_1193_2_alg».proof.Proof.Bridge.SpecOut
import Idealize.ShloMosaic.Lib.Pipeline.Value
import Idealize.ShloMosaic.Lib.ValueIdx
import Idealize.ShloMosaic.PureOps.Ideal.Laws

noncomputable section

namespace Cert.KernelIdeal.Out

open Idealize.ShloMosaic Idealize.ShloMosaic.ValueIdx
open Cert.KernelIdeal Cert.KernelIdeal.Gen

/-- The dimension numbers of the body's matrix product: rows of the left operand against columns of the right. -/
abbrev D3 : DotDims S256x128 S128x512 S256x512 := dot_S256x128_S128x512_S256x512_1_0_0_1_n_n

/-- The left operand is read at the output's row … -/
theorem lhs3_0 (i : S256x512.Idx) (q : D3.contr.Idx) : (D3.lhsIdx i q 0).val = (i 0).val := by
  unfold DotDims.lhsIdx
  rw [dif_neg (show ¬(0 : Fin S256x128.rank) ∈ D3.lhsBatch by decide), dif_pos (show (0 : Fin S256x128.rank) ∈ D3.lhsNonContracting by decide)]
  rfl
/-- … and the contraction position; -/
theorem lhs3_1 (i : S256x512.Idx) (q : D3.contr.Idx) : (D3.lhsIdx i q 1).val = (q ⟨0, by decide⟩).val :=
  D3.lhsIdx_val_of_single rfl i q
/-- the right operand at the contraction position … -/
theorem rhs3_0 (i : S256x512.Idx) (q : D3.contr.Idx) : (D3.rhsIdx i q 0).val = (q ⟨0, by decide⟩).val :=
  D3.rhsIdx_val_of_single rfl i q
/-- … and the output's column. -/
theorem rhs3_1 (i : S256x512.Idx) (q : D3.contr.Idx) : (D3.rhsIdx i q 1).val = (i 1).val := by
  unfold DotDims.rhsIdx
  rw [dif_neg (show ¬(1 : Fin S128x512.rank) ∈ D3.rhsBatch by decide), dif_pos (show (1 : Fin S128x512.rank) ∈ D3.rhsNonContracting by decide)]
  rfl

/-- A row vector broadcast down 256 rows reads its one row. -/
theorem bcast_row (x : Vec Ideal S1x128 .f32) (q : Fin 256) (k : Fin 128) :
    broadcastTo S256x128 x broadcasts_S1x128_S256x128 (ix2 q k) = x (ix2 (0 : Fin 1) k) :=
  broadcastTo_apply x broadcasts_S1x128_S256x128 (ix2 q k) (ix2 (0 : Fin 1) k) fun a => by
    match a with
    | ⟨0, _⟩ => rfl
    | ⟨1, _⟩ => rfl

/-- THE STORED VALUE AT AN ENTRY: channel `co`, pixel `q` of the block. -/
theorem pay3_apply (x0 : Vec Ideal S256x128 .bf16) (x2 x3 : Vec Ideal S1x128 .f32) (x4 : Vec Ideal S128x512 .bf16)
    (x1 : Vec Ideal S256x512 .bf16) (co : Fin 512) (q : Fin 256) :
    k3_pay1 x0 x2 x3 x4 x1 (ix2 co q) = Cert.Spec.act x0 x2 x3 x4 q co + x1 (ix2 q co) := by
  unfold k3_pay1
  dsimp only
  simp only [shapeCast_self]
  refine (transpose_apply _ _ transposes_S256x512_p1_0_S512x256 (ix2 co q) (ix2 q co) (fun b => by
    match b with
    | ⟨0, _⟩ => rfl
    | ⟨1, _⟩ => rfl)).trans ?_
  refine congrArg (· + x1 (ix2 q co)) ?_
  refine (Ideal.matmul_constant_zero_apply (φ₁ := .bf16) (φ₂ := .bf16) D3 none _ x4 (ix2 q co)).trans ?_
  rw [← Equiv.sum_comp (contrEquiv1 D3 128 rfl rfl).symm]
  unfold Cert.Spec.act
  refine Finset.sum_congr rfl fun k _ => ?_
  have hk := contrEquiv1_symm_val D3 128 rfl rfl k
  have el : D3.lhsIdx (ix2 q co) ((contrEquiv1 D3 128 rfl rfl).symm k) = ix2 q k := funext fun a => Fin.ext (by
    match a with
    | ⟨0, _⟩ => exact lhs3_0 _ _
    | ⟨1, _⟩ => exact (lhs3_1 _ _).trans hk)
  have er : D3.rhsIdx (ix2 q co) ((contrEquiv1 D3 128 rfl rfl).symm k) = ix2 k co := funext fun a => Fin.ext (by
    match a with
    | ⟨0, _⟩ => exact (rhs3_0 _ _).trans hk
    | ⟨1, _⟩ => exact rhs3_1 _ _)
  rw [el, er]
  show max (x0 (ix2 q k) * broadcastTo S256x128 x2 broadcasts_S1x128_S256x128 (ix2 q k)
      + broadcastTo S256x128 x3 broadcasts_S1x128_S256x128 (ix2 q k)) (Ideal.ofBits .f32 0x00000000#32) * x4 (ix2 k co) = _
  rw [bcast_row, bcast_row, Ideal.ofBits_zero_f32]

end Cert.KernelIdeal.Out

end
-- ==== Proof.Bridge.OutK.lean ====
/-
  The last pass of the channel-major program, from its blocks to the array it leaves and to the result.

  Grid point `t` (one image) reads rows `256·t … 256·t + 255` of the activations and of the shortcut, the whole
  scale row, shift row and weights, and writes back rows `512·t … 512·t + 511` of a [16384, 256] array: row
  `512·t + co`, column `q` is the formula's value for channel `co` of pixel `256·t + q`. The 32 blocks tile the
  array (row `i` lies in block `i / 512`), so after the pass the array is the channel-major array of the
  specification, and the host's final change of shape to [32, 512, 16, 16] makes it the result.
-/
import proofs.«130251_g2000005708365749_pallasbulk_1193_2_alg».proof.Proof.KI.R3
import proofs.«130251_g2000005708365749_pallasbulk_1193_2_alg».proof.Proof.Bridge.SpecOut
import proofs.«130251_g2000005708365749_pallasbulk_1193_2_alg».proof.Proof.Bridge.OutKPay
import Idealize.ShloMosaic.Lib.Pipeline.Value

noncomputable section

namespace Cert.KernelIdeal.Out

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the 32 grid points: the activation, shortcut and output windows are at block
    `t` of their first axis, the scale, shift and weight windows always at their one block. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The activation block at point `t` is rows `256·t …` of the activations. -/
theorem blk3_0 (c : Dev nD) (t : Fin cfg3.N) (q : Fin 256) (k : Fin 128) (r : Fin 8192) (hr : r.val = t.val * 256 + q.val) :
    (iblk3 V c 0 t : Vec Ideal S256x128 .bf16) (ix2 q k) = (V c main_call0_v50_0 : S8192x128.Idx → EReal) (ix2 r k) := by
  obtain ⟨e0, e1, -⟩ := idx_facts3 t
  unfold iblk3
  rw [View.read_apply]
  show V c main_call0_v50_0 _ = V c main_call0_v50_0 _
  refine congrArg _ (funext fun a => Fin.ext ?_)
  match a with
  | ⟨0, _⟩ => show win3_0.index t (0 : Fin 2) * 256 + 1 * q.val = r.val; omega
  | ⟨1, _⟩ => show win3_0.index t (1 : Fin 2) * 128 + 1 * k.val = k.val; omega

/-- The shortcut block at point `t` is rows `256·t …` of the shortcut. -/
theorem blk3_1 (c : Dev nD) (t : Fin cfg3.N) (q : Fin 256) (co : Fin 512) (r : Fin 8192) (hr : r.val = t.val * 256 + q.val) :
    (iblk3 V c 1 t : Vec Ideal S256x512 .bf16) (ix2 q co) = (V c main_call0_v28_1 : S8192x512.Idx → EReal) (ix2 r co) := by
  obtain ⟨-, -, e0, e1, -⟩ := idx_facts3 t
  unfold iblk3
  rw [View.read_apply]
  show V c main_call0_v28_1 _ = V c main_call0_v28_1 _
  refine congrArg _ (funext fun a => Fin.ext ?_)
  match a with
  | ⟨0, _⟩ => show win3_1.index t (0 : Fin 2) * 256 + 1 * q.val = r.val; omega
  | ⟨1, _⟩ => show win3_1.index t (1 : Fin 2) * 512 + 1 * co.val = co.val; omega

/-- The scale row's one block is the scale row. -/
theorem blk3_2 (c : Dev nD) (t : Fin cfg3.N) :
    (iblk3 V c 2 t : Vec Ideal S1x128 .f32) = (V c main_call0_v70 : S1x128.Idx → EReal) := by
  obtain ⟨-, -, -, -, e0, e1, -⟩ := idx_facts3 t
  funext y
  unfold iblk3
  rw [View.read_apply]
  show V c main_call0_v70 _ = V c main_call0_v70 _
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The shift row's one block is the shift row. -/
theorem blk3_3 (c : Dev nD) (t : Fin cfg3.N) :
    (iblk3 V c 3 t : Vec Ideal S1x128 .f32) = (V c main_call0_v71 : S1x128.Idx → EReal) := by
  obtain ⟨-, -, -, -, -, -, e0, e1, -⟩ := idx_facts3 t
  funext y
  unfold iblk3
  rw [View.read_apply]
  show V c main_call0_v71 _ = V c main_call0_v71 _
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The weights' one block is the weights. -/
theorem blk3_4 (c : Dev nD) (t : Fin cfg3.N) :
    (iblk3 V c 4 t : Vec Ideal S128x512 .bf16) = (V c main_call0_v4 : S128x512.Idx → EReal) := by
  obtain ⟨-, -, -, -, -, -, -, -, e0, e1, -⟩ := idx_facts3 t
  funext y
  unfold iblk3
  rw [View.read_apply]
  show V c main_call0_v4 _ = V c main_call0_v4 _
  refine congrArg _ (funext fun a => Fin.ext ?_)
  match a with
  | ⟨0, _⟩ => show win3_4.index t (0 : Fin 2) * 128 + 1 * (y 0).val = (y 0).val; omega
  | ⟨1, _⟩ => show win3_4.index t (1 : Fin 2) * 512 + 1 * (y 1).val = (y 1).val; omega

/-- ONE ENTRY OF ONE BLOCK, over variables: if the five loaded blocks are image `n`'s rows of the activations and
    of the shortcut and the whole scale, shift and weight arrays, the stored value at block entry `j` is the
    channel-major array at the array index `i` that lies `512·n` rows further down. -/
theorem point3 (x0 : Vec Ideal S256x128 .bf16) (x1 : Vec Ideal S256x512 .bf16) (x2 x3 : Vec Ideal S1x128 .f32)
    (x4 : Vec Ideal S128x512 .bf16)
    (h2 : (⟨2, ![8192, 128]⟩ : Shape).Idx → EReal) (scut : (⟨2, ![8192, 512]⟩ : Shape).Idx → EReal)
    (n : Nat)
    (e0 : ∀ (q : Fin 256) (k : Fin 128) (r : Fin 8192), r.val = n * 256 + q.val → x0 (ix2 q k) = h2 (ix2 r k))
    (e1 : ∀ (q : Fin 256) (co : Fin 512) (r : Fin 8192), r.val = n * 256 + q.val → x1 (ix2 q co) = scut (ix2 r co))
    (j : S512x256.Idx) (i : S16384x256.Idx) (hi0 : (i 0).val = n * 512 + (j 0).val) (hi1 : (i 1).val = (j 1).val) :
    k3_pay1 x0 x2 x3 x4 x1 j = Cert.Spec.arrCM h2 scut x2 x3 x4 i := by
  obtain ⟨co, q, rfl⟩ : ∃ (co : Fin 512) (q : Fin 256), j = ix2 co q := ⟨j 0, j 1, eq_ix2 j⟩
  have hco := co.isLt; have hq := q.isLt
  have hi0lt : (i 0).val < 16384 := (i 0).isLt
  have hi1lt : (i 1).val < 256 := (i 1).isLt
  have hi0' : (i 0).val = n * 512 + co.val := hi0
  have hi1' : (i 1).val = q.val := hi1
  rw [pay3_apply]
  unfold Cert.Spec.arrCM
  dsimp only
  have hr : (i 0).val / 512 * 256 + (i 1).val = n * 256 + q.val := by omega
  have hc : (⟨(i 0).val % 512, Nat.mod_lt _ (by decide)⟩ : Fin 512) = co := Fin.ext (by show (i 0).val % 512 = co.val; omega)
  rw [hc, e1 q co ⟨(i 0).val / 512 * 256 + (i 1).val, by omega⟩ hr]
  exact congrArg (· + _) (Cert.Spec.act_rows x0 h2 x2 x3 x4 q _ co fun k => e0 q k _ hr)

/-- WHAT POINT `t` WRITES BACK is block `t` of the channel-major array of the region's input arrays. -/
theorem flushed3_eq (c : Dev nD) (t : Fin cfg3.N) :
    (dat3 V c).flushed 5 t = ((cfg3.win 5).blk t).view.read (Elt Ideal)
      (Cert.Spec.arrCM (V c main_call0_v50_0) (V c main_call0_v28_1) (V c main_call0_v70) (V c main_call0_v71) (V c main_call0_v4)) := by
  show (cfg3.win 5).cut (grid3.coords t) ((dat3 V c).after 5 t) = _
  rw [after3_5]
  unfold out3_5
  rw [View.canon_unit_zero hz3]
  simp only [View.ld_unit_zero (S := S256x128) hz3, View.ld_unit_zero (S := S256x512) hz3, View.ld_unit_zero (S := S1x128) hz3,
    View.ld_unit_zero (S := S128x512) hz3]
  rw [blk3_2, blk3_3, blk3_4]
  obtain ⟨-, -, -, -, -, -, -, -, -, -, e0, e1⟩ := idx_facts3 t
  funext j
  rw [View.read_apply]
  refine point3 _ _ _ _ _ _ _ t.val (fun q k r hr => blk3_0 V c t q k r hr) (fun q co r hr => blk3_1 V c t q co r hr) j _ ?_ ?_
  · show win3_5.index t (0 : Fin 2) * 512 + 1 * (j 0).val = t.val * 512 + (j 0).val; omega
  · show win3_5.index t (1 : Fin 2) * 256 + 1 * (j 1).val = (j 1).val; omega

/-- An index of the array is in point `t`'s block iff each coordinate is in the block's range on its axis. -/
theorem mem_blk3 (t : Fin cfg3.N) (i : S16384x256.Idx) :
    i ∈ ((cfg3.win 5).blk t).view.set ↔ ∀ a : Fin 2, win3_5.index t a * S512x256.size a ≤ (i a).val ∧ (i a).val < win3_5.index t a * S512x256.size a + S512x256.size a := by
  show i ∈ ((View.whole main_call0_v72).slice (win3_5.rect t)).set ↔ _
  rw [View.set_slice_whole, Rect.mem_set_unit]
  exact Iff.rfl

/-- Every index of the array is in some point's block: row `i` is in block `i / 512`. -/
theorem cover3 (i : S16384x256.Idx) : ∃ t : Fin cfg3.N, (cfg3.win 5).flush t = true ∧ i ∈ ((cfg3.win 5).blk t).view.set := by
  have hN : grid3.N = 32 := N_3
  have hi0 : (i 0).val < 16384 := (i 0).isLt
  have hi1 : (i 1).val < 256 := (i 1).isLt
  refine ⟨⟨(i 0).val / 512, by show (i 0).val / 512 < grid3.N; omega⟩, flush3_5 _, ?_⟩
  rw [mem_blk3]
  obtain ⟨-, -, -, -, -, -, -, -, -, -, e0, e1⟩ := idx_facts3 ⟨(i 0).val / 512, by show (i 0).val / 512 < grid3.N; omega⟩
  have e0' : win3_5.index ⟨(i 0).val / 512, by show (i 0).val / 512 < grid3.N; omega⟩ (0 : Fin 2) = (i 0).val / 512 := e0
  intro a
  match a with
  | ⟨0, _⟩ => show win3_5.index _ (0 : Fin 2) * 512 ≤ (i 0).val ∧ (i 0).val < win3_5.index _ (0 : Fin 2) * 512 + 512; omega
  | ⟨1, _⟩ => show win3_5.index _ (1 : Fin 2) * 256 ≤ (i 1).val ∧ (i 1).val < win3_5.index _ (1 : Fin 2) * 256 + 256; omega

/-- THE ARRAY after the pass is the channel-major array of the specification. -/
theorem final3 (c : Dev nD) : (dat3 V c).arrAt 5 cfg3.N
    = Cert.Spec.arrCM (V c main_call0_v50_0) (V c main_call0_v28_1) (V c main_call0_v70) (V c main_call0_v71) (V c main_call0_v4) :=
  (dat3 V c).arrAt_eq_of_cover 5 _ (fun t _ => flushed3_eq V c t) cover3

end Cert.KernelIdeal.Out

namespace Cert.KernelIdeal.Frame

open Idealize.ShloMosaic Idealize.ShloMosaic.TcCoe Idealize.SL.Sem
open Cert.KernelIdeal Cert.KernelIdeal.Gen

/-- THE RESULT: the host's final change of shape of the array the pass leaves is the formula of the region's five
    input arrays. -/
theorem out_eq (V : (c : Dev nD) → (b : Ref sig .tc) → Buf (Elt Ideal) ((c : Thread nD τ).loc b)) (c : Dev nD) :
    shapeCast S32x512x16x16 ((dat3 V c).arrAt 5 cfg3.N) shapeCasts_S16384x256_S32x512x16x16
      = Cert.Spec.out (V c main_call0_v50_0) (V c main_call0_v28_1) (V c main_call0_v70) (V c main_call0_v71) (V c main_call0_v4) := by
  rw [Cert.KernelIdeal.Out.final3]
  exact Cert.Spec.shapeCast_arrCM _ _ _ _ _ _

end Cert.KernelIdeal.Frame

end
-- ==== Proof.KI.Vals.lean ====
/-
  The contents of the kernel program's buffers at the boundaries of its run, at the exact (extended-real) instance, each
  as a function of the arguments: the input re-laid, the per-image statistics, the folded scale and shift rows, the
  activations of each pass.
-/
import proofs.«130251_g2000005708365749_pallasbulk_1193_2_alg».proof.Proof.KI.Run
import proofs.«130251_g2000005708365749_pallasbulk_1193_2_alg».proof.Proof.KI.Host
import proofs.«130251_g2000005708365749_pallasbulk_1193_2_alg».proof.Proof.KI.V0
import proofs.«130251_g2000005708365749_pallasbulk_1193_2_alg».proof.Proof.KI.V1
import proofs.«130251_g2000005708365749_pallasbulk_1193_2_alg».proof.Proof.KI.V2
import proofs.«130251_g2000005708365749_pallasbulk_1193_2_alg».proof.Proof.Bridge.OutK

set_option maxRecDepth 16384

noncomputable section

namespace Cert.KernelIdeal.Frame

open Idealize.ShloMosaic Idealize.ShloMosaic.TcCoe
open Idealize.SL Idealize.SL.Sem
open Cert.KernelIdeal Cert.KernelIdeal.Gen
open Cert.Bridge

variable (m : (ℓ : Loc nD τ sig) → Buf (Elt Ideal) ℓ) (ρ : Dev nD → PrngReg) (c : Dev nD)

/-! ## A buffer a stretch does not write keeps its contents through it -/

theorem W1_keep (b : Ref sig .tc) (h : b ∉ hostOps0_W) : W1 m ρ c (Proc.devRef .tc b) = W0 m ρ c (Proc.devRef .tc b) :=
  StableHlo.after_of_writes_sub hostOps0 _ hostOps0_writes h
theorem W3_keep (b : Ref sig .tc) (h : b ∉ hostOps1_W) : W3 m ρ c (Proc.devRef .tc b) = W2 m ρ c (Proc.devRef .tc b) :=
  StableHlo.after_of_writes_sub hostOps1 _ hostOps1_writes h
theorem W5_keep (b : Ref sig .tc) (h : b ∉ hostOps2_W) : W5 m ρ c (Proc.devRef .tc b) = W4 m ρ c (Proc.devRef .tc b) :=
  StableHlo.after_of_writes_sub hostOps2 _ hostOps2_writes h
theorem W7_keep (b : Ref sig .tc) (h : b ∉ hostOps3_W) : W7 m ρ c (Proc.devRef .tc b) = W6 m ρ c (Proc.devRef .tc b) :=
  StableHlo.after_of_writes_sub hostOps3 _ hostOps3_writes h

/-- An argument is still as launched when region 0 has run. -/
theorem W2_arg (b : Ref sig .tc) (h0 : b ∉ hostOps0_W) (a0 : ∀ w, Pipeline.arrRef spec0 w ≠ b) :
    W2 m ρ c (Proc.devRef .tc b) = m ((c : Thread nD τ).loc b) :=
  (W2_of_ne m ρ c b a0).trans (W1_keep m ρ c b h0)
/-- … when region 1 has run. -/
theorem W4_arg (b : Ref sig .tc) (h0 : b ∉ hostOps0_W) (h1 : b ∉ hostOps1_W) (a0 : ∀ w, Pipeline.arrRef spec0 w ≠ b) (a1 : ∀ w, Pipeline.arrRef spec1 w ≠ b) :
    W4 m ρ c (Proc.devRef .tc b) = m ((c : Thread nD τ).loc b) :=
  (W4_of_ne m ρ c b a1).trans ((W3_keep m ρ c b h1).trans (W2_arg m ρ c b h0 a0))
/-- … when region 2 has run. -/
theorem W6_arg (b : Ref sig .tc) (h0 : b ∉ hostOps0_W) (h1 : b ∉ hostOps1_W) (h2 : b ∉ hostOps2_W) (a0 : ∀ w, Pipeline.arrRef spec0 w ≠ b) (a1 : ∀ w, Pipeline.arrRef spec1 w ≠ b) (a2 : ∀ w, Pipeline.arrRef spec2 w ≠ b) :
    W6 m ρ c (Proc.devRef .tc b) = m ((c : Thread nD τ).loc b) :=
  (W6_of_ne m ρ c b a2).trans ((W5_keep m ρ c b h2).trans (W4_arg m ρ c b h0 h1 a0 a1))

/-! ## Pass 0 -/

/-- The input as pass 0 and pass 1 read it: x re-read as [8192, 1024]. -/
theorem val_x (hK : S32x256x32x32.ShapeCasts S8192x1024) :
    (W1 m ρ c (Proc.devRef .tc main_call0_v0) : S8192x1024.Idx → EReal)
      = shapeCast S8192x1024 (m ((c : Thread nD τ).loc main_arg0) : S32x256x32x32.Idx → EReal) hK :=
  W1_v0 m ρ c

/-- The statistics pass 0 leaves. -/
theorem val_st0 (hK : S32x256x32x32.ShapeCasts S8192x1024) :
    (W2 m ρ c (Proc.devRef .tc main_call0_v6) : S32x2x256.Idx → EReal)
      = G0_1 (F := Ideal) (shapeCast S8192x1024 (m ((c : Thread nD τ).loc main_arg0) : S32x256x32x32.Idx → EReal) hK) :=
  (W2_arr m ρ c 1).trans ((final0_1 (T1 m ρ) c).trans (congrArg (G0_1 (F := Ideal)) (val_x m ρ c hK)))

/-- The scale and shift rows of the first normalisation. -/
theorem val_sc1 :
    (W3 m ρ c (Proc.devRef .tc main_call0_v26) : S1x256.Idx → EReal)
      = bnScale256 (W2 m ρ c (Proc.devRef .tc main_call0_v6)) (m ((c : Thread nD τ).loc main_arg1)) :=
  (W3_v26 m ρ c).trans (congrArg (bnScale256 (W2 m ρ c (Proc.devRef .tc main_call0_v6))) (W2_arg m ρ c main_arg1 (by decide) (by decide)))
theorem val_sh1 :
    (W3 m ρ c (Proc.devRef .tc main_call0_v27) : S1x256.Idx → EReal)
      = bnShift256 (W2 m ρ c (Proc.devRef .tc main_call0_v6)) (m ((c : Thread nD τ).loc main_arg1)) (m ((c : Thread nD τ).loc main_arg2)) :=
  (W3_v27 m ρ c).trans (congrArg₂ (bnShift256 (W2 m ρ c (Proc.devRef .tc main_call0_v6))) (W2_arg m ρ c main_arg1 (by decide) (by decide)) (W2_arg m ρ c main_arg2 (by decide) (by decide)))

/-! ## The values by name -/

/-- x re-read as [8192, 1024]. -/
def xK : S8192x1024.Idx → EReal :=
  shapeCast S8192x1024 (m ((c : Thread nD τ).loc main_arg0) : S32x256x32x32.Idx → EReal) shapeCasts_S32x256x32x32_S8192x1024
/-- The per-image statistics of x. -/
def st0K : S32x2x256.Idx → EReal := G0_1 (F := Ideal) (xK m c)
/-- The first normalisation's scale and shift rows. -/
def sc1K : S1x256.Idx → EReal := bnScale256 (st0K m c) (m ((c : Thread nD τ).loc main_arg1))
def sh1K : S1x256.Idx → EReal := bnShift256 (st0K m c) (m ((c : Thread nD τ).loc main_arg1)) (m ((c : Thread nD τ).loc main_arg2))
/-- The weights as the regions read them. -/
def w1K : S256x128.Idx → EReal := truncf (F := Ideal) (s := S256x128) (φ := .f32) .bf16 (m ((c : Thread nD τ).loc main_arg7)) bitsLt_bf16_f32
def wscK : S256x512.Idx → EReal := truncf (F := Ideal) (s := S256x512) (φ := .f32) .bf16 (m ((c : Thread nD τ).loc main_arg10)) bitsLt_bf16_f32
def w2K : S1152x128.Idx → EReal :=
  shapeCast S1152x128 (truncf (F := Ideal) (s := S3x3x128x128) (φ := .f32) .bf16 (m ((c : Thread nD τ).loc main_arg8)) bitsLt_bf16_f32) shapeCasts_S3x3x128x128_S1152x128
def w3K : S128x512.Idx → EReal := truncf (F := Ideal) (s := S128x512) (φ := .f32) .bf16 (m ((c : Thread nD τ).loc main_arg9)) bitsLt_bf16_f32
/-- Pass 1's three results. -/
def h1K : S32768x128.Idx → EReal := G1_5 (F := Ideal) (xK m c) (sc1K m c) (sh1K m c) (w1K m c) (wscK m c)
def scutK : S8192x512.Idx → EReal := G1_6 (F := Ideal) (xK m c) (sc1K m c) (sh1K m c) (w1K m c) (wscK m c)
def st1K : S32x2x128.Idx → EReal := G1_7 (F := Ideal) (xK m c) (sc1K m c) (sh1K m c) (w1K m c) (wscK m c)
/-- The second normalisation's rows. -/
def sc2K : S1x128.Idx → EReal := bnScale128 0x47000000#32 (st1K m c) (m ((c : Thread nD τ).loc main_arg3))
def sh2K : S1x128.Idx → EReal := bnShift128 0x47000000#32 (st1K m c) (m ((c : Thread nD τ).loc main_arg3)) (m ((c : Thread nD τ).loc main_arg4))
/-- Pass 2's two results. -/
def h2K : S8192x128.Idx → EReal := G2_4 (F := Ideal) (h1K m c) (sc2K m c) (sh2K m c) (w2K m c)
def st2K : S32x2x128.Idx → EReal := G2_5 (F := Ideal) (h1K m c) (sc2K m c) (sh2K m c) (w2K m c)
/-- The third normalisation's rows. -/
def sc3K : S1x128.Idx → EReal := bnScale128 0x46000000#32 (st2K m c) (m ((c : Thread nD τ).loc main_arg5))
def sh3K : S1x128.Idx → EReal := bnShift128 0x46000000#32 (st2K m c) (m ((c : Thread nD τ).loc main_arg5)) (m ((c : Thread nD τ).loc main_arg6))
/-- The result. -/
def outK : S32x512x16x16.Idx → EReal := Cert.Spec.out (h2K m c) (scutK m c) (sc3K m c) (sh3K m c) (w3K m c)

/-! ## Region 1's inputs and results -/

theorem at3_x : (T3 m ρ c main_call0_v0 : S8192x1024.Idx → EReal) = xK m c :=
  (W3_keep m ρ c main_call0_v0 (by decide)).trans ((W2_in m ρ c 0 rfl).trans (W1_v0 m ρ c))
theorem at2_st0 : (W2 m ρ c (Proc.devRef .tc main_call0_v6) : S32x2x256.Idx → EReal) = st0K m c :=
  val_st0 m ρ c shapeCasts_S32x256x32x32_S8192x1024
theorem at3_sc : (T3 m ρ c main_call0_v26 : S1x256.Idx → EReal) = sc1K m c := by
  refine (val_sc1 m ρ c).trans ?_
  unfold sc1K
  rw [at2_st0 m ρ c]
theorem at3_sh : (T3 m ρ c main_call0_v27 : S1x256.Idx → EReal) = sh1K m c := by
  refine (val_sh1 m ρ c).trans ?_
  unfold sh1K
  rw [at2_st0 m ρ c]
theorem at3_w1 : (T3 m ρ c main_call0_v1 : S256x128.Idx → EReal) = w1K m c :=
  (W3_keep m ρ c main_call0_v1 (by decide)).trans ((W2_of_ne m ρ c main_call0_v1 (by decide)).trans (W1_v1 m ρ c))
theorem at3_wsc : (T3 m ρ c main_call0_v5 : S256x512.Idx → EReal) = wscK m c :=
  (W3_keep m ρ c main_call0_v5 (by decide)).trans ((W2_of_ne m ρ c main_call0_v5 (by decide)).trans (W1_v5 m ρ c))

theorem at4_h1 : (W4 m ρ c (Proc.devRef .tc main_call0_v28_0) : S32768x128.Idx → EReal) = h1K m c := by
  refine (W4_arr m ρ c 5).trans ((final1_5 (T3 m ρ) c).trans ?_)
  rw [at3_x m ρ c, at3_sc m ρ c, at3_sh m ρ c, at3_w1 m ρ c, at3_wsc m ρ c]; rfl
theorem at4_scut : (W4 m ρ c (Proc.devRef .tc main_call0_v28_1) : S8192x512.Idx → EReal) = scutK m c := by
  refine (W4_arr m ρ c 6).trans ((final1_6 (T3 m ρ) c).trans ?_)
  rw [at3_x m ρ c, at3_sc m ρ c, at3_sh m ρ c, at3_w1 m ρ c, at3_wsc m ρ c]; rfl
theorem at4_st1 : (W4 m ρ c (Proc.devRef .tc main_call0_v28_2) : S32x2x128.Idx → EReal) = st1K m c := by
  refine (W4_arr m ρ c 7).trans ((final1_7 (T3 m ρ) c).trans ?_)
  rw [at3_x m ρ c, at3_sc m ρ c, at3_sh m ρ c, at3_w1 m ρ c, at3_wsc m ρ c]; rfl

/-! ## Region 2's inputs and results -/

theorem at5_h1 : (T5 m ρ c main_call0_v28_0 : S32768x128.Idx → EReal) = h1K m c :=
  (W5_keep m ρ c main_call0_v28_0 (by decide)).trans (at4_h1 m ρ c)
theorem at5_sc : (T5 m ρ c main_call0_v48 : S1x128.Idx → EReal) = sc2K m c := by
  refine (W5_v48 m ρ c).trans ?_
  unfold sc2K
  rw [at4_st1 m ρ c, W4_arg m ρ c main_arg3 (by decide) (by decide) (by decide) (by decide)]
theorem at5_sh : (T5 m ρ c main_call0_v49 : S1x128.Idx → EReal) = sh2K m c := by
  refine (W5_v49 m ρ c).trans ?_
  unfold sh2K
  rw [at4_st1 m ρ c, W4_arg m ρ c main_arg3 (by decide) (by decide) (by decide) (by decide), W4_arg m ρ c main_arg4 (by decide) (by decide) (by decide) (by decide)]
theorem at5_w2 : (T5 m ρ c main_call0_v3 : S1152x128.Idx → EReal) = w2K m c :=
  (W5_keep m ρ c main_call0_v3 (by decide)).trans ((W4_of_ne m ρ c main_call0_v3 (by decide)).trans ((W3_keep m ρ c main_call0_v3 (by decide)).trans
    ((W2_of_ne m ρ c main_call0_v3 (by decide)).trans (W1_v3 m ρ c))))

theorem at6_h2 : (W6 m ρ c (Proc.devRef .tc main_call0_v50_0) : S8192x128.Idx → EReal) = h2K m c := by
  refine (W6_arr m ρ c 4).trans ((final2_4 (T5 m ρ) c).trans ?_)
  rw [at5_h1 m ρ c, at5_sc m ρ c, at5_sh m ρ c, at5_w2 m ρ c]; rfl
theorem at6_st2 : (W6 m ρ c (Proc.devRef .tc main_call0_v50_1) : S32x2x128.Idx → EReal) = st2K m c := by
  refine (W6_arr m ρ c 5).trans ((final2_5 (T5 m ρ) c).trans ?_)
  rw [at5_h1 m ρ c, at5_sc m ρ c, at5_sh m ρ c, at5_w2 m ρ c]; rfl

/-! ## Region 3's inputs and the result -/

theorem at7_h2 : (T7 m ρ c main_call0_v50_0 : S8192x128.Idx → EReal) = h2K m c :=
  (W7_keep m ρ c main_call0_v50_0 (by decide)).trans (at6_h2 m ρ c)
theorem at7_scut : (T7 m ρ c main_call0_v28_1 : S8192x512.Idx → EReal) = scutK m c :=
  (W7_keep m ρ c main_call0_v28_1 (by decide)).trans ((W6_of_ne m ρ c main_call0_v28_1 (by decide)).trans
    ((W5_keep m ρ c main_call0_v28_1 (by decide)).trans (at4_scut m ρ c)))
theorem at7_sc : (T7 m ρ c main_call0_v70 : S1x128.Idx → EReal) = sc3K m c := by
  refine (W7_v70 m ρ c).trans ?_
  unfold sc3K
  rw [at6_st2 m ρ c, W6_arg m ρ c main_arg5 (by decide) (by decide) (by decide) (by decide) (by decide) (by decide)]
theorem at7_sh : (T7 m ρ c main_call0_v71 : S1x128.Idx → EReal) = sh3K m c := by
  refine (W7_v71 m ρ c).trans ?_
  unfold sh3K
  rw [at6_st2 m ρ c, W6_arg m ρ c main_arg5 (by decide) (by decide) (by decide) (by decide) (by decide) (by decide),
    W6_arg m ρ c main_arg6 (by decide) (by decide) (by decide) (by decide) (by decide) (by decide)]
theorem at7_w3 : (T7 m ρ c main_call0_v4 : S128x512.Idx → EReal) = w3K m c :=
  (W7_keep m ρ c main_call0_v4 (by decide)).trans ((W6_of_ne m ρ c main_call0_v4 (by decide)).trans ((W5_keep m ρ c main_call0_v4 (by decide)).trans
    ((W4_of_ne m ρ c main_call0_v4 (by decide)).trans ((W3_keep m ρ c main_call0_v4 (by decide)).trans
      ((W2_of_ne m ρ c main_call0_v4 (by decide)).trans (W1_v4 m ρ c))))))

/-- THE RESULT of the kernel's program, as one function of its arguments. -/
theorem at9_out : (W9 m ρ c (Proc.devRef .tc main_v0) : S32x512x16x16.Idx → EReal) = outK m c := by
  refine (W9_v0 m ρ c).trans ?_
  rw [show (W8 m ρ c (Proc.devRef .tc main_call0_v72) : S16384x256.Idx → EReal) = (dat3 (T7 m ρ) c).arrAt 5 cfg3.N from W8_arr m ρ c 5]
  refine (out_eq (T7 m ρ) c).trans ?_
  unfold outK
  rw [at7_h2 m ρ c, at7_scut m ρ c, at7_sc m ρ c, at7_sh m ρ c, at7_w3 m ρ c]

end Cert.KernelIdeal.Frame

end
-- ==== Proof.RI.HostOps.lean ====
/-
  What each host stretch of the reference program writes, from arbitrary contents entering the stretch, at the exact
  (extended-real) instance.

  The first stretch moves the channel axis of the input [32, 256, 32, 32] last and re-reads it as one row per
  position, [32768, 256], and re-reads the 3 × 3 weights as [1152, 128]. Each of the next three stretches folds a
  region's partial statistics and the affine parameters of a normalisation into a scale row and a shift row (the fold
  named in the bridge); the third of the five also re-reads the shortcut [8192, 512] as [512, 8192]. The last stretch
  re-reads the final [512, 8192] slab as [32, 16, 16, 512] and moves the channel axis to second place.
-/
import proofs.«130251_g2000005708365749_pallasbulk_1193_2_alg».proof.Proof.Gen.ReferenceIdeal.Launch
import proofs.«130251_g2000005708365749_pallasbulk_1193_2_alg».proof.Proof.Bridge.HostBN
import Idealize.ShloMosaic.PureOps.Ideal
import Idealize.ShloMosaic.Lib.IdealHost

set_option maxRecDepth 16384

noncomputable section

namespace Cert.ReferenceIdeal.Frame

open Idealize.ShloMosaic Idealize.ShloMosaic.TcCoe Idealize.ShloMosaic.Tactic
open Idealize.SL Idealize.SL.Sem
open Cert.ReferenceIdeal Cert.ReferenceIdeal.Gen
open Cert.Bridge

/-! ## Stretch 0: the input transposed and re-read, the 3 × 3 weights re-read -/

theorem hostOps0_v0 (X : Valuation τ sig (Elt Ideal)) :
    (StableHlo.after (hostOps0 (F := Ideal)) X (Proc.devRef .tc main_call0_v0) : S32x32x32x256.Idx → EReal)
      = (transpose S32x32x32x256 [0, 2, 3, 1] (X (Proc.devRef .tc main_arg0) : FVec Ideal S32x256x32x32 .f32) transposes_S32x256x32x32_S32x32x32x256_0_2_3_1 : S32x32x32x256.Idx → EReal) := by
  after_results; rfl
theorem hostOps0_v1 (X : Valuation τ sig (Elt Ideal)) :
    (StableHlo.after (hostOps0 (F := Ideal)) X (Proc.devRef .tc main_call0_v1) : S32768x256.Idx → EReal)
      = (shapeCast S32768x256 (transpose S32x32x32x256 [0, 2, 3, 1] (X (Proc.devRef .tc main_arg0) : FVec Ideal S32x256x32x32 .f32) transposes_S32x256x32x32_S32x32x32x256_0_2_3_1)
          shapeCasts_S32x32x32x256_S32768x256 : S32768x256.Idx → EReal) := by
  after_results; rfl
theorem hostOps0_v2 (X : Valuation τ sig (Elt Ideal)) :
    (StableHlo.after (hostOps0 (F := Ideal)) X (Proc.devRef .tc main_call0_v2) : S1152x128.Idx → EReal)
      = (shapeCast S1152x128 (X (Proc.devRef .tc main_arg8) : FVec Ideal S3x3x128x128 .f32) shapeCasts_S3x3x128x128_S1152x128 : S1152x128.Idx → EReal) := by
  after_results; rfl

/-! ### Stretch 1: the fold of the statistics `main_call0_v3` with `main_arg1`, `main_arg2` into the rows `main_call0_v23`, `main_call0_v24` -/

set_option maxHeartbeats 1000000 in
/-- From any contents `X`, the stretch leaves in `main_call0_v23` the scale row of `X`'s statistics and `γ`. -/
theorem hostOps1_scale (X : Valuation τ sig (Elt Ideal)) :
    (StableHlo.after (hostOps1 (F := Ideal)) X (Proc.devRef .tc main_call0_v23) : S1x256.Idx → EReal)
      = bnScale256 (X (Proc.devRef .tc main_call0_v3)) (X (Proc.devRef .tc main_arg1)) := by
  after_results_simp
  rfl

set_option maxHeartbeats 1000000 in
/-- and in `main_call0_v24` the shift row of `X`'s statistics, `γ` and `β`. -/
theorem hostOps1_shift (X : Valuation τ sig (Elt Ideal)) :
    (StableHlo.after (hostOps1 (F := Ideal)) X (Proc.devRef .tc main_call0_v24) : S1x256.Idx → EReal)
      = bnShift256 (X (Proc.devRef .tc main_call0_v3)) (X (Proc.devRef .tc main_arg1)) (X (Proc.devRef .tc main_arg2)) := by
  after_results_simp
  rfl

/-! ## Stretch 2 also re-reads the shortcut -/

set_option maxHeartbeats 1000000 in
theorem hostOps2_v26 (X : Valuation τ sig (Elt Ideal)) :
    (StableHlo.after (hostOps2 (F := Ideal)) X (Proc.devRef .tc main_call0_v26) : S512x8192.Idx → EReal)
      = (shapeCast S512x8192 (X (Proc.devRef .tc main_call0_v25_1) : FVec Ideal S8192x512 .f32) shapeCasts_S8192x512_S512x8192 : S512x8192.Idx → EReal) := by
  after_results_simp; rfl

/-! ### Stretch 2: the fold of the statistics `main_call0_v25_2` with `main_arg3`, `main_arg4` into the rows `main_call0_v46`, `main_call0_v47` -/

set_option maxHeartbeats 1000000 in
/-- From any contents `X`, the stretch leaves in `main_call0_v46` the scale row of `X`'s statistics and `γ`. -/
theorem hostOps2_scale (X : Valuation τ sig (Elt Ideal)) :
    (StableHlo.after (hostOps2 (F := Ideal)) X (Proc.devRef .tc main_call0_v46) : S1x128.Idx → EReal)
      = bnScale128 0x47000000#32 (X (Proc.devRef .tc main_call0_v25_2)) (X (Proc.devRef .tc main_arg3)) := by
  after_results_simp
  rfl

set_option maxHeartbeats 1000000 in
/-- and in `main_call0_v47` the shift row of `X`'s statistics, `γ` and `β`. -/
theorem hostOps2_shift (X : Valuation τ sig (Elt Ideal)) :
    (StableHlo.after (hostOps2 (F := Ideal)) X (Proc.devRef .tc main_call0_v47) : S1x128.Idx → EReal)
      = bnShift128 0x47000000#32 (X (Proc.devRef .tc main_call0_v25_2)) (X (Proc.devRef .tc main_arg3)) (X (Proc.devRef .tc main_arg4)) := by
  after_results_simp
  rfl

/-! ### Stretch 3: the fold of the statistics `main_call0_v48_1` with `main_arg5`, `main_arg6` into the rows `main_call0_v68`, `main_call0_v69` -/

set_option maxHeartbeats 1000000 in
/-- From any contents `X`, the stretch leaves in `main_call0_v68` the scale row of `X`'s statistics and `γ`. -/
theorem hostOps3_scale (X : Valuation τ sig (Elt Ideal)) :
    (StableHlo.after (hostOps3 (F := Ideal)) X (Proc.devRef .tc main_call0_v68) : S1x128.Idx → EReal)
      = bnScale128 0x46000000#32 (X (Proc.devRef .tc main_call0_v48_1)) (X (Proc.devRef .tc main_arg5)) := by
  after_results_simp
  rfl

set_option maxHeartbeats 1000000 in
/-- and in `main_call0_v69` the shift row of `X`'s statistics, `γ` and `β`. -/
theorem hostOps3_shift (X : Valuation τ sig (Elt Ideal)) :
    (StableHlo.after (hostOps3 (F := Ideal)) X (Proc.devRef .tc main_call0_v69) : S1x128.Idx → EReal)
      = bnShift128 0x46000000#32 (X (Proc.devRef .tc main_call0_v48_1)) (X (Proc.devRef .tc main_arg5)) (X (Proc.devRef .tc main_arg6)) := by
  after_results_simp
  rfl

/-! ## Stretch 4: the final slab re-read and its channel axis moved -/

theorem hostOps4_v71 (X : Valuation τ sig (Elt Ideal)) :
    (StableHlo.after (hostOps4 (F := Ideal)) X (Proc.devRef .tc main_call0_v71) : S32x16x16x512.Idx → EReal)
      = (shapeCast S32x16x16x512 (X (Proc.devRef .tc main_call0_v70) : FVec Ideal S512x8192 .f32) shapeCasts_S512x8192_S32x16x16x512 : S32x16x16x512.Idx → EReal) := by
  after_results; rfl
theorem hostOps4_v0 (X : Valuation τ sig (Elt Ideal)) :
    (StableHlo.after (hostOps4 (F := Ideal)) X (Proc.devRef .tc main_v0) : S32x512x16x16.Idx → EReal)
      = (transpose S32x512x16x16 [0, 3, 1, 2]
          (shapeCast S32x16x16x512 (X (Proc.devRef .tc main_call0_v70) : FVec Ideal S512x8192 .f32) shapeCasts_S512x8192_S32x16x16x512)
          transposes_S32x16x16x512_S32x512x16x16_0_3_1_2 : S32x512x16x16.Idx → EReal) := by
  after_results; rfl

end Cert.ReferenceIdeal.Frame

end
-- ==== Proof.RI.Host.lean ====
/-
  What the host stretches of the reference program write, at the contents the run has at each boundary, at the exact
  (extended-real) instance: each statement is the stretch's own statement, made for arbitrary entering contents,
  taken at the boundary before the stretch.
-/
import proofs.«130251_g2000005708365749_pallasbulk_1193_2_alg».proof.Proof.RI.Run
import proofs.«130251_g2000005708365749_pallasbulk_1193_2_alg».proof.Proof.RI.HostOps

set_option maxRecDepth 16384

noncomputable section

namespace Cert.ReferenceIdeal.Frame

open Idealize.ShloMosaic Idealize.ShloMosaic.TcCoe
open Idealize.SL Idealize.SL.Sem
open Cert.ReferenceIdeal Cert.ReferenceIdeal.Gen
open Cert.Bridge

variable (m : (ℓ : Loc nD τ sig) → Buf (Elt Ideal) ℓ) (ρ : Dev nD → PrngReg)

/-! ## After stretch 0 -/

theorem W1_v0 (c : Dev nD) :
    (W1 m ρ c (Proc.devRef .tc main_call0_v0) : S32x32x32x256.Idx → EReal)
      = (transpose S32x32x32x256 [0, 2, 3, 1] (W0 m ρ c (Proc.devRef .tc main_arg0) : FVec Ideal S32x256x32x32 .f32) transposes_S32x256x32x32_S32x32x32x256_0_2_3_1 : S32x32x32x256.Idx → EReal) :=
  hostOps0_v0 (W0 m ρ c)
theorem W1_v1 (c : Dev nD) :
    (W1 m ρ c (Proc.devRef .tc main_call0_v1) : S32768x256.Idx → EReal)
      = (shapeCast S32768x256 (transpose S32x32x32x256 [0, 2, 3, 1] (W0 m ρ c (Proc.devRef .tc main_arg0) : FVec Ideal S32x256x32x32 .f32) transposes_S32x256x32x32_S32x32x32x256_0_2_3_1)
          shapeCasts_S32x32x32x256_S32768x256 : S32768x256.Idx → EReal) :=
  hostOps0_v1 (W0 m ρ c)
theorem W1_v2 (c : Dev nD) :
    (W1 m ρ c (Proc.devRef .tc main_call0_v2) : S1152x128.Idx → EReal)
      = (shapeCast S1152x128 (W0 m ρ c (Proc.devRef .tc main_arg8) : FVec Ideal S3x3x128x128 .f32) shapeCasts_S3x3x128x128_S1152x128 : S1152x128.Idx → EReal) :=
  hostOps0_v2 (W0 m ρ c)

/-! ## After stretches 1, 2 and 3 -/

theorem W3_v23 (c : Dev nD) :
    (W3 m ρ c (Proc.devRef .tc main_call0_v23) : S1x256.Idx → EReal)
      = bnScale256 (W2 m ρ c (Proc.devRef .tc main_call0_v3)) (W2 m ρ c (Proc.devRef .tc main_arg1)) :=
  hostOps1_scale (W2 m ρ c)
theorem W3_v24 (c : Dev nD) :
    (W3 m ρ c (Proc.devRef .tc main_call0_v24) : S1x256.Idx → EReal)
      = bnShift256 (W2 m ρ c (Proc.devRef .tc main_call0_v3)) (W2 m ρ c (Proc.devRef .tc main_arg1)) (W2 m ρ c (Proc.devRef .tc main_arg2)) :=
  hostOps1_shift (W2 m ρ c)

theorem W5_v26 (c : Dev nD) :
    (W5 m ρ c (Proc.devRef .tc main_call0_v26) : S512x8192.Idx → EReal)
      = (shapeCast S512x8192 (W4 m ρ c (Proc.devRef .tc main_call0_v25_1) : FVec Ideal S8192x512 .f32) shapeCasts_S8192x512_S512x8192 : S512x8192.Idx → EReal) :=
  hostOps2_v26 (W4 m ρ c)

theorem W5_v46 (c : Dev nD) :
    (W5 m ρ c (Proc.devRef .tc main_call0_v46) : S1x128.Idx → EReal)
      = bnScale128 0x47000000#32 (W4 m ρ c (Proc.devRef .tc main_call0_v25_2)) (W4 m ρ c (Proc.devRef .tc main_arg3)) :=
  hostOps2_scale (W4 m ρ c)
theorem W5_v47 (c : Dev nD) :
    (W5 m ρ c (Proc.devRef .tc main_call0_v47) : S1x128.Idx → EReal)
      = bnShift128 0x47000000#32 (W4 m ρ c (Proc.devRef .tc main_call0_v25_2)) (W4 m ρ c (Proc.devRef .tc main_arg3)) (W4 m ρ c (Proc.devRef .tc main_arg4)) :=
  hostOps2_shift (W4 m ρ c)

theorem W7_v68 (c : Dev nD) :
    (W7 m ρ c (Proc.devRef .tc main_call0_v68) : S1x128.Idx → EReal)
      = bnScale128 0x46000000#32 (W6 m ρ c (Proc.devRef .tc main_call0_v48_1)) (W6 m ρ c (Proc.devRef .tc main_arg5)) :=
  hostOps3_scale (W6 m ρ c)
theorem W7_v69 (c : Dev nD) :
    (W7 m ρ c (Proc.devRef .tc main_call0_v69) : S1x128.Idx → EReal)
      = bnShift128 0x46000000#32 (W6 m ρ c (Proc.devRef .tc main_call0_v48_1)) (W6 m ρ c (Proc.devRef .tc main_arg5)) (W6 m ρ c (Proc.devRef .tc main_arg6)) :=
  hostOps3_shift (W6 m ρ c)

/-! ## After stretch 4 -/

theorem W9_v71 (c : Dev nD) :
    (W9 m ρ c (Proc.devRef .tc main_call0_v71) : S32x16x16x512.Idx → EReal)
      = (shapeCast S32x16x16x512 (W8 m ρ c (Proc.devRef .tc main_call0_v70) : FVec Ideal S512x8192 .f32) shapeCasts_S512x8192_S32x16x16x512 : S32x16x16x512.Idx → EReal) :=
  hostOps4_v71 (W8 m ρ c)
theorem W9_v0 (c : Dev nD) :
    (W9 m ρ c (Proc.devRef .tc main_v0) : S32x512x16x16.Idx → EReal)
      = (transpose S32x512x16x16 [0, 3, 1, 2]
          (shapeCast S32x16x16x512 (W8 m ρ c (Proc.devRef .tc main_call0_v70) : FVec Ideal S512x8192 .f32) shapeCasts_S512x8192_S32x16x16x512)
          transposes_S32x16x16x512_S32x512x16x16_0_3_1_2 : S32x512x16x16.Idx → EReal) :=
  hostOps4_v0 (W8 m ρ c)

end Cert.ReferenceIdeal.Frame

end
-- ==== Proof.RI.V0.lean ====
/-
  Region 0's result array in closed form. Row n of the [32, 2, 256] statistics array is what grid point n wrote: the
  statistics of image n's rows of the input array. The blocks of the result tile it, one per point.
-/
import proofs.«130251_g2000005708365749_pallasbulk_1193_2_alg».proof.Proof.RI.R0
import Idealize.ShloMosaic.Lib.Pipeline.Value
import Idealize.ShloMosaic.Lib.ValueIdx

set_option maxRecDepth 16384

noncomputable section

namespace Cert.ReferenceIdeal.Frame

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable {F : FTy → Type} [FloatOps F]
variable (V : (c : Dev nD) → (b : Ref sig .tc) → Buf (Elt F) ((c : Thread nD τ).loc b))

theorem lt32_0 (t : Fin cfg0.N) : t.val < 32 := by
  have h := t.isLt; have e : cfg0.N = 32 := N_0; omega

/-- Image n's 1024 rows of the pixel-major [32768, 256] array. -/
def rows0 (A : S32768x256.Idx → Elt F .f32) (n : Fin 32) : Vec F S1024x256 .f32 :=
  fun y => A (ix2 ⟨n.val * 1024 + (y 0).val, by have := idx2_lt0 y; omega⟩ ⟨(y 1).val, idx2_lt1 y⟩)

/-- The statistics array as one function of the input array. -/
def G0_1 (A : S32768x256.Idx → Elt F .f32) : S32x2x256.Idx → Elt F .f32 :=
  fun i => out0_1 (rows0 A ⟨(i 0).val, (i 0).isLt⟩) (ix3 ⟨0, by omega⟩ ⟨(i 1).val, (i 1).isLt⟩ ⟨(i 2).val, (i 2).isLt⟩)

/-- The printed index maps over the grid: point t reads image t's rows and writes row t. -/
theorem idx_facts0 : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- Where an element of the input block at point t sits in the array. -/
theorem emb0_0 (t : Fin cfg0.N) (y : S1024x256.Idx) : ((cfg0.win 0).blk t).view.emb y
      = ix2 ⟨t.val * 1024 + (y 0).val, by have hy0 : (y 0).val < 1024 := (y 0).isLt; have ht := lt32_0 t; omega⟩ ⟨(y 1).val, (y 1).isLt⟩ := by
  obtain ⟨e0, e1, -, -, -⟩ := idx_facts0 t
  funext a; apply Fin.ext
  match a with
  | ⟨0, _⟩ => show win0_0.index t (0 : Fin 2) * 1024 + 1 * (y 0).val = t.val * 1024 + (y 0).val; omega
  | ⟨1, _⟩ => show win0_0.index t (1 : Fin 2) * 256 + 1 * (y 1).val = (y 1).val; omega

/-- Where an element of the result row at point t sits in the array. -/
theorem emb0_1 (t : Fin cfg0.N) (j : S1x2x256.Idx) : ((cfg0.win 1).blk t).view.emb j
      = ix3 ⟨t.val, lt32_0 t⟩ ⟨(j 1).val, (j 1).isLt⟩ ⟨(j 2).val, (j 2).isLt⟩ := by
  obtain ⟨-, -, e2, e3, e4⟩ := idx_facts0 t
  have hj0 : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 2 + 1 * (j 1).val = (j 1).val; omega
  | ⟨2, _⟩ => show win0_1.index t (2 : Fin 3) * 256 + 1 * (j 2).val = (j 2).val; omega

/-- The input block at point t, element by element. -/
theorem iblk0_0_apply (c : Dev nD) (t : Fin cfg0.N) (y : S1024x256.Idx) :
    iblk0 V c 0 t y = rows0 (V c main_call0_v1) ⟨t.val, lt32_0 t⟩ y :=
  (show iblk0 V c 0 t y = V c main_call0_v1 (((cfg0.win 0).blk t).view.emb y) from rfl).trans
    (congrArg (V c main_call0_v1) (emb0_0 t y))

/-- The input block at point t is image t's rows. -/
theorem iblk0_0_eq (c : Dev nD) (t : Fin cfg0.N) : iblk0 V c 0 t = rows0 (V c main_call0_v1) ⟨t.val, lt32_0 t⟩ :=
  funext fun y => iblk0_0_apply V c t y

/-- An index of a result row whose first coordinate is the only possible one. -/
theorem row_idx (j : S1x2x256.Idx) : j = ix3 ⟨0, by omega⟩ ⟨(j 1).val, (j 1).isLt⟩ ⟨(j 2).val, (j 2).isLt⟩ := by
  have hj0 : (j 0).val < 1 := (j 0).isLt
  funext a
  match a with
  | ⟨0, _⟩ => exact Fin.ext (by show (j 0).val = 0; omega)
  | ⟨1, _⟩ => rfl
  | ⟨2, _⟩ => rfl

/-- Block t of any [32, 2, 256] array, read at j, is the array at row t. -/
theorem read0_1 (G : S32x2x256.Idx → Elt F .f32) (t : Fin cfg0.N) (j : S1x2x256.Idx) :
    ((cfg0.win 1).blk t).view.read (Elt F) G j = G (ix3 ⟨t.val, lt32_0 t⟩ ⟨(j 1).val, (j 1).isLt⟩ ⟨(j 2).val, (j 2).isLt⟩) :=
  (show ((cfg0.win 1).blk t).view.read (Elt F) G j = G (((cfg0.win 1).blk t).view.emb j) from rfl).trans
    (congrArg G (emb0_1 t j))

/-- G0_1 at row n. -/
theorem G0_1_apply (A : S32768x256.Idx → Elt F .f32) (n : Fin 32) (a : Fin 2) (b : Fin 256) :
    G0_1 A (ix3 n a b) = out0_1 (rows0 A n) (ix3 ⟨0, by omega⟩ a b) := by
  unfold G0_1
  exact congrArg₂ out0_1 (congrArg (rows0 A) (Fin.ext rfl)) (by funext d; match d with | ⟨0,_⟩ => rfl | ⟨1,_⟩ => rfl | ⟨2,_⟩ => rfl)

/-- Block t of G0_1 of an array, read at j: the statistics of image t's rows at j. -/
theorem G0_1_blk (A : S32768x256.Idx → Elt F .f32) (t : Fin cfg0.N) (j : S1x2x256.Idx) :
    ((cfg0.win 1).blk t).view.read (Elt F) (G0_1 A) j = out0_1 (rows0 A ⟨t.val, lt32_0 t⟩) j :=
  (read0_1 (G0_1 A) t j).trans ((G0_1_apply A ⟨t.val, lt32_0 t⟩ ⟨(j 1).val, (j 1).isLt⟩ ⟨(j 2).val, (j 2).isLt⟩).trans
    (congrArg (out0_1 (rows0 A ⟨t.val, lt32_0 t⟩)) (row_idx j).symm))

/-- What point t writes back is block t of G0_1 of the input array. -/
theorem flushed0_1_eq (c : Dev nD) (t : Fin cfg0.N) :
    (dat0 V c).flushed 1 t = ((cfg0.win 1).blk t).view.read (Elt F) (G0_1 (V c main_call0_v1)) := by
  show (cfg0.win 1).cut (grid0.coords t) ((dat0 V c).after 1 t) = _
  rw [after0_1, iblk0_0_eq]
  funext (j : S1x2x256.Idx)
  exact (G0_1_blk (V c main_call0_v1) t j).symm

/-- An index of the array is in point t's block iff each coordinate is in the block's range on its axis. -/
theorem mem_blk0_1 (t : Fin cfg0.N) (i : S32x2x256.Idx) :
    i ∈ ((cfg0.win 1).blk t).view.set ↔ ∀ a : Fin 3, win0_1.index t a * S1x2x256.size a ≤ (i a).val ∧ (i a).val < win0_1.index t a * S1x2x256.size a + S1x2x256.size a := by
  show i ∈ ((View.whole main_call0_v3).slice (win0_1.rect t)).set ↔ _
  rw [View.set_slice_whole, Rect.mem_set_unit]
  exact Iff.rfl

/-- Every row of the result is some point's block: row n is point n's. -/
theorem covered0_1 (i : S32x2x256.Idx) :
    ∃ t : Fin cfg0.N, (cfg0.win 1).flush t = true ∧ i ∈ ((cfg0.win 1).blk t).view.set := by
  have hi0 : (i 0).val < 32 := (i 0).isLt
  have hi1 : (i 1).val < 2 := (i 1).isLt
  have hi2 : (i 2).val < 256 := (i 2).isLt
  have hN : cfg0.N = 32 := N_0
  refine ⟨⟨(i 0).val, by omega⟩, flush0_1 _, ?_⟩
  obtain ⟨-, -, e2, e3, e4⟩ := idx_facts0 ⟨(i 0).val, by omega⟩
  rw [mem_blk0_1]
  intro a
  match a with
  | ⟨0, _⟩ => show win0_1.index _ (0 : Fin 3) * 1 ≤ (i 0).val ∧ (i 0).val < win0_1.index _ (0 : Fin 3) * 1 + 1; rw [e2]; show (i 0).val * 1 ≤ (i 0).val ∧ (i 0).val < (i 0).val * 1 + 1; omega
  | ⟨1, _⟩ => show win0_1.index _ (1 : Fin 3) * 2 ≤ (i 1).val ∧ (i 1).val < win0_1.index _ (1 : Fin 3) * 2 + 2; rw [e3]; omega
  | ⟨2, _⟩ => show win0_1.index _ (2 : Fin 3) * 256 ≤ (i 2).val ∧ (i 2).val < win0_1.index _ (2 : Fin 3) * 256 + 256; rw [e4]; omega

/-- The statistics array after the run, as one function of the input array as the region finds it. -/
theorem final0_1 (c : Dev nD) : (dat0 V c).arrAt 1 cfg0.N = G0_1 (V c main_call0_v1) :=
  (dat0 V c).arrAt_eq_of_cover 1 _ (fun t _ => flushed0_1_eq V c t) covered0_1

theorem hz2 : (![0, 0] : Fin 2 → Nat) = fun _ => 0 := funext fun a => by fin_cases a <;> rfl
theorem hz3 : (![0, 0, 0] : Fin 3 → Nat) = fun _ => 0 := funext fun a => by fin_cases a <;> rfl

/-- The result row is the payload of the whole loaded block. -/
theorem out0_1_eq (x0 : Vec F S1024x256 .f32) : out0_1 x0 = k0_pay1 x0 := by
  unfold out0_1
  rw [View.canon_unit_zero hz3, View.ld_unit_zero hz2]

end Cert.ReferenceIdeal.Frame

end
-- ==== Proof.RI.V1.lean ====
/-
  Region 1's three result arrays in closed form. Grid point n reads image n's 1024 rows of the pixel-major
  [32768, 256] array together with the scale row, the shift row and the two weight matrices (the same at every
  point), and writes rows n·1024 … n·1024 + 1023 of the [32768, 128] array, rows n·256 … n·256 + 255 of the
  [8192, 512] array and row n of the [32, 2, 128] statistics array. The blocks of each result tile it, one per
  point, so each result array is one function of the five input arrays.
-/
import proofs.«130251_g2000005708365749_pallasbulk_1193_2_alg».proof.Proof.RI.R1
import proofs.«130251_g2000005708365749_pallasbulk_1193_2_alg».proof.Proof.RI.V0
import Idealize.ShloMosaic.Lib.Pipeline.Value
import Idealize.ShloMosaic.Lib.ValueIdx

set_option maxRecDepth 16384

noncomputable section

namespace Cert.ReferenceIdeal.Frame

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable {F : FTy → Type} [FloatOps F]
variable (V : (c : Dev nD) → (b : Ref sig .tc) → Buf (Elt F) ((c : Thread nD τ).loc b))

theorem lt32_1 (t : Fin cfg1.N) : t.val < 32 := by
  have h := t.isLt; have e : cfg1.N = 32 := N_1; omega

/-! ## The result arrays as functions of the input arrays -/

/-- The [32768, 128] result: row i is row (i mod 1024) of what the point (i div 1024) writes. -/
def G1_5 (A0 : S32768x256.Idx → Elt F .f32) (A1 A2 : S1x256.Idx → Elt F .f32) (A3 : S256x128.Idx → Elt F .f32)
    (A4 : S256x512.Idx → Elt F .f32) : S32768x128.Idx → Elt F .f32 :=
  fun i => out1_5 (rows0 A0 ⟨(i 0).val / 1024, by have h : (i 0).val < 32768 := (i 0).isLt; omega⟩) A1 A2 A3 A4
    (ix2 ⟨(i 0).val % 1024, by omega⟩ ⟨(i 1).val, (i 1).isLt⟩)

/-- The [8192, 512] result: row i is row (i mod 256) of what the point (i div 256) writes. -/
def G1_6 (A0 : S32768x256.Idx → Elt F .f32) (A1 A2 : S1x256.Idx → Elt F .f32) (A3 : S256x128.Idx → Elt F .f32)
    (A4 : S256x512.Idx → Elt F .f32) : S8192x512.Idx → Elt F .f32 :=
  fun i => out1_6 (rows0 A0 ⟨(i 0).val / 256, by have h : (i 0).val < 8192 := (i 0).isLt; omega⟩) A1 A2 A3 A4
    (ix2 ⟨(i 0).val % 256, by omega⟩ ⟨(i 1).val, (i 1).isLt⟩)

/-- The [32, 2, 128] statistics: row n is what point n writes. -/
def G1_7 (A0 : S32768x256.Idx → Elt F .f32) (A1 A2 : S1x256.Idx → Elt F .f32) (A3 : S256x128.Idx → Elt F .f32)
    (A4 : S256x512.Idx → Elt F .f32) : S32x2x128.Idx → Elt F .f32 :=
  fun i => out1_7 (rows0 A0 ⟨(i 0).val, (i 0).isLt⟩) A1 A2 A3 A4
    (ix3 ⟨0, by omega⟩ ⟨(i 1).val, (i 1).isLt⟩ ⟨(i 2).val, (i 2).isLt⟩)

/-! ## The printed index maps over the grid -/

/-- Point t reads image t's rows of the activation array … -/
theorem idx_facts1_0 : ∀ t : Fin cfg1.N, win1_0.index t (0 : Fin 2) = t.val ∧ win1_0.index t (1 : Fin 2) = 0 :=
  (by decide +kernel : ∀ t : Fin grid1.N, _)
/-- … the whole scale row, shift row and weight matrices, whatever the point … -/
theorem idx_facts1_1 : ∀ t : Fin cfg1.N, win1_1.index t (0 : Fin 2) = 0 ∧ win1_1.index t (1 : Fin 2) = 0 :=
  (by decide +kernel : ∀ t : Fin grid1.N, _)
theorem idx_facts1_2 : ∀ t : Fin cfg1.N, win1_2.index t (0 : Fin 2) = 0 ∧ win1_2.index t (1 : Fin 2) = 0 :=
  (by decide +kernel : ∀ t : Fin grid1.N, _)
theorem idx_facts1_3 : ∀ t : Fin cfg1.N, win1_3.index t (0 : Fin 2) = 0 ∧ win1_3.index t (1 : Fin 2) = 0 :=
  (by decide +kernel : ∀ t : Fin grid1.N, _)
theorem idx_facts1_4 : ∀ t : Fin cfg1.N, win1_4.index t (0 : Fin 2) = 0 ∧ win1_4.index t (1 : Fin 2) = 0 :=
  (by decide +kernel : ∀ t : Fin grid1.N, _)
/-- … and writes row block t of each matrix result and row t of the statistics. -/
theorem idx_facts1_5 : ∀ t : Fin cfg1.N, win1_5.index t (0 : Fin 2) = t.val ∧ win1_5.index t (1 : Fin 2) = 0 :=
  (by decide +kernel : ∀ t : Fin grid1.N, _)
theorem idx_facts1_6 : ∀ t : Fin cfg1.N, win1_6.index t (0 : Fin 2) = t.val ∧ win1_6.index t (1 : Fin 2) = 0 :=
  (by decide +kernel : ∀ t : Fin grid1.N, _)
theorem idx_facts1_7 : ∀ t : Fin cfg1.N, win1_7.index t (0 : Fin 3) = t.val ∧ win1_7.index t (1 : Fin 3) = 0
    ∧ win1_7.index t (2 : Fin 3) = 0 :=
  (by decide +kernel : ∀ t : Fin grid1.N, _)

/-- The printed index maps of all eight windows at a point. -/
theorem idx_facts1 (t : Fin cfg1.N) :
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 3) = t.val ∧ win1_7.index t (1 : Fin 3) = 0 ∧ win1_7.index t (2 : Fin 3) = 0) :=
  ⟨idx_facts1_0 t, idx_facts1_1 t, idx_facts1_2 t, idx_facts1_3 t, idx_facts1_4 t, idx_facts1_5 t, idx_facts1_6 t, idx_facts1_7 t⟩

/-! ## The input blocks -/

/-- Where an element of the activation block at point t sits in the array. -/
theorem emb1_0 (t : Fin cfg1.N) (y : S1024x256.Idx) : ((cfg1.win 0).blk t).view.emb y
      = ix2 ⟨t.val * 1024 + (y 0).val, by have hy0 : (y 0).val < 1024 := (y 0).isLt; have ht := lt32_1 t; omega⟩ ⟨(y 1).val, (y 1).isLt⟩ := by
  obtain ⟨e0, e1⟩ := idx_facts1_0 t
  funext a; apply Fin.ext
  match a with
  | ⟨0, _⟩ => show win1_0.index t (0 : Fin 2) * 1024 + 1 * (y 0).val = t.val * 1024 + (y 0).val; omega
  | ⟨1, _⟩ => show win1_0.index t (1 : Fin 2) * 256 + 1 * (y 1).val = (y 1).val; omega

/-- The scale row's block is the whole row … -/
theorem emb1_1 (t : Fin cfg1.N) (y : S1x256.Idx) : ((cfg1.win 1).blk t).view.emb y = y := by
  obtain ⟨e0, e1⟩ := idx_facts1_1 t
  funext a; apply Fin.ext
  match a with
  | ⟨0, _⟩ => show win1_1.index t (0 : Fin 2) * 1 + 1 * (y 0).val = (y 0).val; omega
  | ⟨1, _⟩ => show win1_1.index t (1 : Fin 2) * 256 + 1 * (y 1).val = (y 1).val; omega

/-- … and so are the shift row's … -/
theorem emb1_2 (t : Fin cfg1.N) (y : S1x256.Idx) : ((cfg1.win 2).blk t).view.emb y = y := by
  obtain ⟨e0, e1⟩ := idx_facts1_2 t
  funext a; apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- … the first weight matrix's … -/
theorem emb1_3 (t : Fin cfg1.N) (y : S256x128.Idx) : ((cfg1.win 3).blk t).view.emb y = y := by
  obtain ⟨e0, e1⟩ := idx_facts1_3 t
  funext a; apply Fin.ext
  match a with
  | ⟨0, _⟩ => show win1_3.index t (0 : Fin 2) * 256 + 1 * (y 0).val = (y 0).val; omega
  | ⟨1, _⟩ => show win1_3.index t (1 : Fin 2) * 128 + 1 * (y 1).val = (y 1).val; omega

/-- … and the second weight matrix's. -/
theorem emb1_4 (t : Fin cfg1.N) (y : S256x512.Idx) : ((cfg1.win 4).blk t).view.emb y = y := by
  obtain ⟨e0, e1⟩ := idx_facts1_4 t
  funext a; apply Fin.ext
  match a with
  | ⟨0, _⟩ => show win1_4.index t (0 : Fin 2) * 256 + 1 * (y 0).val = (y 0).val; omega
  | ⟨1, _⟩ => show win1_4.index t (1 : Fin 2) * 512 + 1 * (y 1).val = (y 1).val; omega

/-- The activation block at point t is image t's rows. -/
theorem iblk1_0_eq (c : Dev nD) (t : Fin cfg1.N) : iblk1 V c 0 t = rows0 (V c main_call0_v1) ⟨t.val, lt32_1 t⟩ :=
  funext fun (y : S1024x256.Idx) =>
    (show iblk1 V c 0 t y = V c main_call0_v1 (((cfg1.win 0).blk t).view.emb y) from rfl).trans
      (congrArg (V c main_call0_v1) (emb1_0 t y))

/-- The scale block at any point is the scale row. -/
theorem iblk1_1_eq (c : Dev nD) (t : Fin cfg1.N) : iblk1 V c 1 t = V c main_call0_v23 :=
  funext fun (y : S1x256.Idx) =>
    (show iblk1 V c 1 t y = V c main_call0_v23 (((cfg1.win 1).blk t).view.emb y) from rfl).trans
      (congrArg (V c main_call0_v23) (emb1_1 t y))

/-- The shift block at any point is the shift row. -/
theorem iblk1_2_eq (c : Dev nD) (t : Fin cfg1.N) : iblk1 V c 2 t = V c main_call0_v24 :=
  funext fun (y : S1x256.Idx) =>
    (show iblk1 V c 2 t y = V c main_call0_v24 (((cfg1.win 2).blk t).view.emb y) from rfl).trans
      (congrArg (V c main_call0_v24) (emb1_2 t y))

/-- The first weight block at any point is the first weight matrix. -/
theorem iblk1_3_eq (c : Dev nD) (t : Fin cfg1.N) : iblk1 V c 3 t = V c main_arg7 :=
  funext fun (y : S256x128.Idx) =>
    (show iblk1 V c 3 t y = V c main_arg7 (((cfg1.win 3).blk t).view.emb y) from rfl).trans
      (congrArg (V c main_arg7) (emb1_3 t y))

/-- The second weight block at any point is the second weight matrix. -/
theorem iblk1_4_eq (c : Dev nD) (t : Fin cfg1.N) : iblk1 V c 4 t = V c main_arg10 :=
  funext fun (y : S256x512.Idx) =>
    (show iblk1 V c 4 t y = V c main_arg10 (((cfg1.win 4).blk t).view.emb y) from rfl).trans
      (congrArg (V c main_arg10) (emb1_4 t y))

/-! ## The [32768, 128] result -/

/-- Where an element of the block written at point t sits in the array. -/
theorem emb1_5 (t : Fin cfg1.N) (j : S1024x128.Idx) : ((cfg1.win 5).blk t).view.emb j
      = ix2 ⟨t.val * 1024 + (j 0).val, by have hj0 : (j 0).val < 1024 := (j 0).isLt; have ht := lt32_1 t; omega⟩ ⟨(j 1).val, (j 1).isLt⟩ := by
  obtain ⟨e0, e1⟩ := idx_facts1_5 t
  funext a; apply Fin.ext
  match a with
  | ⟨0, _⟩ => show win1_5.index t (0 : Fin 2) * 1024 + 1 * (j 0).val = t.val * 1024 + (j 0).val; omega
  | ⟨1, _⟩ => show win1_5.index t (1 : Fin 2) * 128 + 1 * (j 1).val = (j 1).val; omega

/-- Block t of any [32768, 128] array, read at j, is the array at row t·1024 + j₀. -/
theorem read1_5 (G : S32768x128.Idx → Elt F .f32) (t : Fin cfg1.N) (j : S1024x128.Idx) :
    ((cfg1.win 5).blk t).view.read (Elt F) G j
      = G (ix2 ⟨t.val * 1024 + (j 0).val, by have hj0 : (j 0).val < 1024 := (j 0).isLt; have ht := lt32_1 t; omega⟩ ⟨(j 1).val, (j 1).isLt⟩) :=
  (show ((cfg1.win 5).blk t).view.read (Elt F) G j = G (((cfg1.win 5).blk t).view.emb j) from rfl).trans
    (congrArg G (emb1_5 t j))

/-- G1_5 at row n·1024 + p. -/
theorem G1_5_apply (A0 : S32768x256.Idx → Elt F .f32) (A1 A2 : S1x256.Idx → Elt F .f32) (A3 : S256x128.Idx → Elt F .f32)
    (A4 : S256x512.Idx → Elt F .f32) (n : Fin 32) (p : Fin 1024) (q : Fin 128) :
    G1_5 A0 A1 A2 A3 A4 (ix2 ⟨n.val * 1024 + p.val, by omega⟩ q) = out1_5 (rows0 A0 n) A1 A2 A3 A4 (ix2 p q) := by
  unfold G1_5
  have e1 : (⟨(n.val * 1024 + p.val) / 1024, by omega⟩ : Fin 32) = n := Fin.ext (by show (n.val * 1024 + p.val) / 1024 = n.val; omega)
  have e2 : (⟨(n.val * 1024 + p.val) % 1024, by omega⟩ : Fin 1024) = p := Fin.ext (by show (n.val * 1024 + p.val) % 1024 = p.val; omega)
  exact congrArg₂ (fun (a : Fin 32) (b : Fin 1024) => out1_5 (rows0 A0 a) A1 A2 A3 A4 (ix2 b q)) e1 e2

/-- Block t of G1_5 of the arrays, read at j: what point t writes at j. -/
theorem G1_5_blk (A0 : S32768x256.Idx → Elt F .f32) (A1 A2 : S1x256.Idx → Elt F .f32) (A3 : S256x128.Idx → Elt F .f32)
    (A4 : S256x512.Idx → Elt F .f32) (t : Fin cfg1.N) (j : S1024x128.Idx) :
    ((cfg1.win 5).blk t).view.read (Elt F) (G1_5 A0 A1 A2 A3 A4) j = out1_5 (rows0 A0 ⟨t.val, lt32_1 t⟩) A1 A2 A3 A4 j :=
  (read1_5 (G1_5 A0 A1 A2 A3 A4) t j).trans
    ((G1_5_apply A0 A1 A2 A3 A4 ⟨t.val, lt32_1 t⟩ ⟨(j 0).val, (j 0).isLt⟩ ⟨(j 1).val, (j 1).isLt⟩).trans
      (congrArg (out1_5 (rows0 A0 ⟨t.val, lt32_1 t⟩) A1 A2 A3 A4) (eq_ix2 j).symm))

/-- What point t writes back is block t of G1_5 of the input arrays. -/
theorem flushed1_5_eq (c : Dev nD) (t : Fin cfg1.N) :
    (dat1 V c).flushed 5 t = ((cfg1.win 5).blk t).view.read (Elt F)
      (G1_5 (V c main_call0_v1) (V c main_call0_v23) (V c main_call0_v24) (V c main_arg7) (V c main_arg10)) := by
  show (cfg1.win 5).cut (grid1.coords t) ((dat1 V c).after 5 t) = _
  rw [after1_5, iblk1_0_eq, iblk1_1_eq, iblk1_2_eq, iblk1_3_eq, iblk1_4_eq]
  funext (j : S1024x128.Idx)
  exact (G1_5_blk (V c main_call0_v1) (V c main_call0_v23) (V c main_call0_v24) (V c main_arg7) (V c main_arg10) t j).symm

/-- An index of the array is in point t's block iff each coordinate is in the block's range on its axis. -/
theorem mem_blk1_5 (t : Fin cfg1.N) (i : S32768x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_call0_v25_0).slice (win1_5.rect t)).set ↔ _
  rw [View.set_slice_whole, Rect.mem_set_unit]
  exact Iff.rfl

/-- Every row of the result is in some point's block: row i is in point (i div 1024)'s. -/
theorem covered1_5 (i : S32768x128.Idx) :
    ∃ t : Fin cfg1.N, (cfg1.win 5).flush t = true ∧ i ∈ ((cfg1.win 5).blk t).view.set := by
  have hi0 : (i 0).val < 32768 := (i 0).isLt
  have hi1 : (i 1).val < 128 := (i 1).isLt
  have hN : cfg1.N = 32 := N_1
  refine ⟨⟨(i 0).val / 1024, by omega⟩, flush1_5 _, ?_⟩
  obtain ⟨e0, e1⟩ := idx_facts1_5 ⟨(i 0).val / 1024, by omega⟩
  rw [mem_blk1_5]
  intro a
  match a with
  | ⟨0, _⟩ => show win1_5.index _ (0 : Fin 2) * 1024 ≤ (i 0).val ∧ (i 0).val < win1_5.index _ (0 : Fin 2) * 1024 + 1024; rw [e0]; show (i 0).val / 1024 * 1024 ≤ (i 0).val ∧ (i 0).val < (i 0).val / 1024 * 1024 + 1024; omega
  | ⟨1, _⟩ => show win1_5.index _ (1 : Fin 2) * 128 ≤ (i 1).val ∧ (i 1).val < win1_5.index _ (1 : Fin 2) * 128 + 128; rw [e1]; omega

/-- The [32768, 128] array after the run, as one function of the input arrays as the region finds them. -/
theorem final1_5 (c : Dev nD) : (dat1 V c).arrAt 5 cfg1.N
    = G1_5 (V c main_call0_v1) (V c main_call0_v23) (V c main_call0_v24) (V c main_arg7) (V c main_arg10) :=
  (dat1 V c).arrAt_eq_of_cover 5 _ (fun t _ => flushed1_5_eq V c t) covered1_5

/-! ## The [8192, 512] result -/

/-- Where an element of the block written at point t sits in the array. -/
theorem emb1_6 (t : Fin cfg1.N) (j : S256x512.Idx) : ((cfg1.win 6).blk t).view.emb j
      = ix2 ⟨t.val * 256 + (j 0).val, by have hj0 : (j 0).val < 256 := (j 0).isLt; have ht := lt32_1 t; omega⟩ ⟨(j 1).val, (j 1).isLt⟩ := by
  obtain ⟨e0, e1⟩ := idx_facts1_6 t
  funext a; apply Fin.ext
  match a with
  | ⟨0, _⟩ => show win1_6.index t (0 : Fin 2) * 256 + 1 * (j 0).val = t.val * 256 + (j 0).val; omega
  | ⟨1, _⟩ => show win1_6.index t (1 : Fin 2) * 512 + 1 * (j 1).val = (j 1).val; omega

/-- Block t of any [8192, 512] array, read at j, is the array at row t·256 + j₀. -/
theorem read1_6 (G : S8192x512.Idx → Elt F .f32) (t : Fin cfg1.N) (j : S256x512.Idx) :
    ((cfg1.win 6).blk t).view.read (Elt F) G j
      = G (ix2 ⟨t.val * 256 + (j 0).val, by have hj0 : (j 0).val < 256 := (j 0).isLt; have ht := lt32_1 t; omega⟩ ⟨(j 1).val, (j 1).isLt⟩) :=
  (show ((cfg1.win 6).blk t).view.read (Elt F) G j = G (((cfg1.win 6).blk t).view.emb j) from rfl).trans
    (congrArg G (emb1_6 t j))

/-- G1_6 at row n·256 + p. -/
theorem G1_6_apply (A0 : S32768x256.Idx → Elt F .f32) (A1 A2 : S1x256.Idx → Elt F .f32) (A3 : S256x128.Idx → Elt F .f32)
    (A4 : S256x512.Idx → Elt F .f32) (n : Fin 32) (p : Fin 256) (q : Fin 512) :
    G1_6 A0 A1 A2 A3 A4 (ix2 ⟨n.val * 256 + p.val, by omega⟩ q) = out1_6 (rows0 A0 n) A1 A2 A3 A4 (ix2 p q) := by
  unfold G1_6
  have e1 : (⟨(n.val * 256 + p.val) / 256, by omega⟩ : Fin 32) = n := Fin.ext (by show (n.val * 256 + p.val) / 256 = n.val; omega)
  have e2 : (⟨(n.val * 256 + p.val) % 256, by omega⟩ : Fin 256) = p := Fin.ext (by show (n.val * 256 + p.val) % 256 = p.val; omega)
  exact congrArg₂ (fun (a : Fin 32) (b : Fin 256) => out1_6 (rows0 A0 a) A1 A2 A3 A4 (ix2 b q)) e1 e2

/-- Block t of G1_6 of the arrays, read at j: what point t writes at j. -/
theorem G1_6_blk (A0 : S32768x256.Idx → Elt F .f32) (A1 A2 : S1x256.Idx → Elt F .f32) (A3 : S256x128.Idx → Elt F .f32)
    (A4 : S256x512.Idx → Elt F .f32) (t : Fin cfg1.N) (j : S256x512.Idx) :
    ((cfg1.win 6).blk t).view.read (Elt F) (G1_6 A0 A1 A2 A3 A4) j = out1_6 (rows0 A0 ⟨t.val, lt32_1 t⟩) A1 A2 A3 A4 j :=
  (read1_6 (G1_6 A0 A1 A2 A3 A4) t j).trans
    ((G1_6_apply A0 A1 A2 A3 A4 ⟨t.val, lt32_1 t⟩ ⟨(j 0).val, (j 0).isLt⟩ ⟨(j 1).val, (j 1).isLt⟩).trans
      (congrArg (out1_6 (rows0 A0 ⟨t.val, lt32_1 t⟩) A1 A2 A3 A4) (eq_ix2 j).symm))

/-- What point t writes back is block t of G1_6 of the input arrays. -/
theorem flushed1_6_eq (c : Dev nD) (t : Fin cfg1.N) :
    (dat1 V c).flushed 6 t = ((cfg1.win 6).blk t).view.read (Elt F)
      (G1_6 (V c main_call0_v1) (V c main_call0_v23) (V c main_call0_v24) (V c main_arg7) (V c main_arg10)) := by
  show (cfg1.win 6).cut (grid1.coords t) ((dat1 V c).after 6 t) = _
  rw [after1_6, iblk1_0_eq, iblk1_1_eq, iblk1_2_eq, iblk1_3_eq, iblk1_4_eq]
  funext (j : S256x512.Idx)
  exact (G1_6_blk (V c main_call0_v1) (V c main_call0_v23) (V c main_call0_v24) (V c main_arg7) (V c main_arg10) t j).symm

/-- An index of the array is in point t's block iff each coordinate is in the block's range on its axis. -/
theorem mem_blk1_6 (t : Fin cfg1.N) (i : S8192x512.Idx) :
    i ∈ ((cfg1.win 6).blk t).view.set ↔ ∀ a : Fin 2, win1_6.index t a * S256x512.size a ≤ (i a).val ∧ (i a).val < win1_6.index t a * S256x512.size a + S256x512.size a := by
  show i ∈ ((View.whole main_call0_v25_1).slice (win1_6.rect t)).set ↔ _
  rw [View.set_slice_whole, Rect.mem_set_unit]
  exact Iff.rfl

/-- Every row of the result is in some point's block: row i is in point (i div 256)'s. -/
theorem covered1_6 (i : S8192x512.Idx) :
    ∃ t : Fin cfg1.N, (cfg1.win 6).flush t = true ∧ i ∈ ((cfg1.win 6).blk t).view.set := by
  have hi0 : (i 0).val < 8192 := (i 0).isLt
  have hi1 : (i 1).val < 512 := (i 1).isLt
  have hN : cfg1.N = 32 := N_1
  refine ⟨⟨(i 0).val / 256, by omega⟩, flush1_6 _, ?_⟩
  obtain ⟨e0, e1⟩ := idx_facts1_6 ⟨(i 0).val / 256, by omega⟩
  rw [mem_blk1_6]
  intro a
  match a with
  | ⟨0, _⟩ => show win1_6.index _ (0 : Fin 2) * 256 ≤ (i 0).val ∧ (i 0).val < win1_6.index _ (0 : Fin 2) * 256 + 256; rw [e0]; show (i 0).val / 256 * 256 ≤ (i 0).val ∧ (i 0).val < (i 0).val / 256 * 256 + 256; omega
  | ⟨1, _⟩ => show win1_6.index _ (1 : Fin 2) * 512 ≤ (i 1).val ∧ (i 1).val < win1_6.index _ (1 : Fin 2) * 512 + 512; rw [e1]; omega

/-- The [8192, 512] array after the run, as one function of the input arrays as the region finds them. -/
theorem final1_6 (c : Dev nD) : (dat1 V c).arrAt 6 cfg1.N
    = G1_6 (V c main_call0_v1) (V c main_call0_v23) (V c main_call0_v24) (V c main_arg7) (V c main_arg10) :=
  (dat1 V c).arrAt_eq_of_cover 6 _ (fun t _ => flushed1_6_eq V c t) covered1_6

/-! ## The [32, 2, 128] statistics -/

/-- Where an element of the row written at point t sits in the array. -/
theorem emb1_7 (t : Fin cfg1.N) (j : S1x2x128.Idx) : ((cfg1.win 7).blk t).view.emb j
      = ix3 ⟨t.val, lt32_1 t⟩ ⟨(j 1).val, (j 1).isLt⟩ ⟨(j 2).val, (j 2).isLt⟩ := by
  obtain ⟨e0, e1, e2⟩ := idx_facts1_7 t
  have hj0 : (j 0).val < 1 := (j 0).isLt
  funext a; apply Fin.ext
  match a with
  | ⟨0, _⟩ => show win1_7.index t (0 : Fin 3) * 1 + 1 * (j 0).val = t.val; omega
  | ⟨1, _⟩ => show win1_7.index t (1 : Fin 3) * 2 + 1 * (j 1).val = (j 1).val; omega
  | ⟨2, _⟩ => show win1_7.index t (2 : Fin 3) * 128 + 1 * (j 2).val = (j 2).val; omega

/-- An index of a statistics row whose first coordinate is the only possible one. -/
theorem row_idx1 (j : S1x2x128.Idx) : j = ix3 ⟨0, by omega⟩ ⟨(j 1).val, (j 1).isLt⟩ ⟨(j 2).val, (j 2).isLt⟩ := by
  have hj0 : (j 0).val < 1 := (j 0).isLt
  funext a
  match a with
  | ⟨0, _⟩ => exact Fin.ext (by show (j 0).val = 0; omega)
  | ⟨1, _⟩ => rfl
  | ⟨2, _⟩ => rfl

/-- Block t of any [32, 2, 128] array, read at j, is the array at row t. -/
theorem read1_7 (G : S32x2x128.Idx → Elt F .f32) (t : Fin cfg1.N) (j : S1x2x128.Idx) :
    ((cfg1.win 7).blk t).view.read (Elt F) G j = G (ix3 ⟨t.val, lt32_1 t⟩ ⟨(j 1).val, (j 1).isLt⟩ ⟨(j 2).val, (j 2).isLt⟩) :=
  (show ((cfg1.win 7).blk t).view.read (Elt F) G j = G (((cfg1.win 7).blk t).view.emb j) from rfl).trans
    (congrArg G (emb1_7 t j))

/-- G1_7 at row n. -/
theorem G1_7_apply (A0 : S32768x256.Idx → Elt F .f32) (A1 A2 : S1x256.Idx → Elt F .f32) (A3 : S256x128.Idx → Elt F .f32)
    (A4 : S256x512.Idx → Elt F .f32) (n : Fin 32) (a : Fin 2) (b : Fin 128) :
    G1_7 A0 A1 A2 A3 A4 (ix3 n a b) = out1_7 (rows0 A0 n) A1 A2 A3 A4 (ix3 ⟨0, by omega⟩ a b) := by
  unfold G1_7
  exact congrArg₂ (fun (r : Vec F S1024x256 .f32) (k : S1x2x128.Idx) => out1_7 r A1 A2 A3 A4 k)
    (congrArg (rows0 A0) (Fin.ext rfl)) (by funext d; match d with | ⟨0,_⟩ => rfl | ⟨1,_⟩ => rfl | ⟨2,_⟩ => rfl)

/-- Block t of G1_7 of the arrays, read at j: the statistics point t writes at j. -/
theorem G1_7_blk (A0 : S32768x256.Idx → Elt F .f32) (A1 A2 : S1x256.Idx → Elt F .f32) (A3 : S256x128.Idx → Elt F .f32)
    (A4 : S256x512.Idx → Elt F .f32) (t : Fin cfg1.N) (j : S1x2x128.Idx) :
    ((cfg1.win 7).blk t).view.read (Elt F) (G1_7 A0 A1 A2 A3 A4) j = out1_7 (rows0 A0 ⟨t.val, lt32_1 t⟩) A1 A2 A3 A4 j :=
  (read1_7 (G1_7 A0 A1 A2 A3 A4) t j).trans
    ((G1_7_apply A0 A1 A2 A3 A4 ⟨t.val, lt32_1 t⟩ ⟨(j 1).val, (j 1).isLt⟩ ⟨(j 2).val, (j 2).isLt⟩).trans
      (congrArg (out1_7 (rows0 A0 ⟨t.val, lt32_1 t⟩) A1 A2 A3 A4) (row_idx1 j).symm))

/-- What point t writes back is block t of G1_7 of the input arrays. -/
theorem flushed1_7_eq (c : Dev nD) (t : Fin cfg1.N) :
    (dat1 V c).flushed 7 t = ((cfg1.win 7).blk t).view.read (Elt F)
      (G1_7 (V c main_call0_v1) (V c main_call0_v23) (V c main_call0_v24) (V c main_arg7) (V c main_arg10)) := by
  show (cfg1.win 7).cut (grid1.coords t) ((dat1 V c).after 7 t) = _
  rw [after1_7, iblk1_0_eq, iblk1_1_eq, iblk1_2_eq, iblk1_3_eq, iblk1_4_eq]
  funext (j : S1x2x128.Idx)
  exact (G1_7_blk (V c main_call0_v1) (V c main_call0_v23) (V c main_call0_v24) (V c main_arg7) (V c main_arg10) t j).symm

/-- An index of the array is in point t's block iff each coordinate is in the block's range on its axis. -/
theorem mem_blk1_7 (t : Fin cfg1.N) (i : S32x2x128.Idx) :
    i ∈ ((cfg1.win 7).blk t).view.set ↔ ∀ a : Fin 3, win1_7.index t a * S1x2x128.size a ≤ (i a).val ∧ (i a).val < win1_7.index t a * S1x2x128.size a + S1x2x128.size a := by
  show i ∈ ((View.whole main_call0_v25_2).slice (win1_7.rect t)).set ↔ _
  rw [View.set_slice_whole, Rect.mem_set_unit]
  exact Iff.rfl

/-- Every row of the statistics is some point's block: row n is point n's. -/
theorem covered1_7 (i : S32x2x128.Idx) :
    ∃ t : Fin cfg1.N, (cfg1.win 7).flush t = true ∧ i ∈ ((cfg1.win 7).blk t).view.set := by
  have hi0 : (i 0).val < 32 := (i 0).isLt
  have hi1 : (i 1).val < 2 := (i 1).isLt
  have hi2 : (i 2).val < 128 := (i 2).isLt
  have hN : cfg1.N = 32 := N_1
  refine ⟨⟨(i 0).val, by omega⟩, flush1_7 _, ?_⟩
  obtain ⟨e0, e1, e2⟩ := idx_facts1_7 ⟨(i 0).val, by omega⟩
  rw [mem_blk1_7]
  intro a
  match a with
  | ⟨0, _⟩ => show win1_7.index _ (0 : Fin 3) * 1 ≤ (i 0).val ∧ (i 0).val < win1_7.index _ (0 : Fin 3) * 1 + 1; rw [e0]; show (i 0).val * 1 ≤ (i 0).val ∧ (i 0).val < (i 0).val * 1 + 1; omega
  | ⟨1, _⟩ => show win1_7.index _ (1 : Fin 3) * 2 ≤ (i 1).val ∧ (i 1).val < win1_7.index _ (1 : Fin 3) * 2 + 2; rw [e1]; omega
  | ⟨2, _⟩ => show win1_7.index _ (2 : Fin 3) * 128 ≤ (i 2).val ∧ (i 2).val < win1_7.index _ (2 : Fin 3) * 128 + 128; rw [e2]; omega

/-- The statistics array after the run, as one function of the input arrays as the region finds them. -/
theorem final1_7 (c : Dev nD) : (dat1 V c).arrAt 7 cfg1.N
    = G1_7 (V c main_call0_v1) (V c main_call0_v23) (V c main_call0_v24) (V c main_arg7) (V c main_arg10) :=
  (dat1 V c).arrAt_eq_of_cover 7 _ (fun t _ => flushed1_7_eq V c t) covered1_7

/-! ## What each result block holds, as the payload of the five loaded blocks -/

/-- The [1024, 128] block is the product of the rectified activations with the first weight matrix. -/
theorem out1_5_eq (x0 : Vec F S1024x256 .f32) (x1 : Vec F S1x256 .f32) (x2 : Vec F S1x256 .f32) (x3 : Vec F S256x128 .f32)
    (x4 : Vec F S256x512 .f32) : out1_5 x0 x1 x2 x3 x4 = k1_pay2 x0 x1 x2 x3 := by
  unfold out1_5
  rw [View.canon_unit_zero hz2, View.ld_unit_zero hz2, View.ld_unit_zero hz2, View.ld_unit_zero hz2, View.ld_unit_zero hz2]

/-- The [256, 512] block is the product of the selected activation rows with the second weight matrix. -/
theorem out1_6_eq (x0 : Vec F S1024x256 .f32) (x1 : Vec F S1x256 .f32) (x2 : Vec F S1x256 .f32) (x3 : Vec F S256x128 .f32)
    (x4 : Vec F S256x512 .f32) : out1_6 x0 x1 x2 x3 x4 = k1_pay4 x0 x1 x2 x4 := by
  unfold out1_6
  rw [View.canon_unit_zero hz2, View.ld_unit_zero hz2, View.ld_unit_zero hz2, View.ld_unit_zero hz2, View.ld_unit_zero hz2]

/-- The statistics row is the stacked column sums of the product and of its square. -/
theorem out1_7_eq (x0 : Vec F S1024x256 .f32) (x1 : Vec F S1x256 .f32) (x2 : Vec F S1x256 .f32) (x3 : Vec F S256x128 .f32)
    (x4 : Vec F S256x512 .f32) : out1_7 x0 x1 x2 x3 x4 = k1_pay3 x0 x1 x2 x3 := by
  unfold out1_7
  rw [View.canon_unit_zero hz3, View.ld_unit_zero hz2, View.ld_unit_zero hz2, View.ld_unit_zero hz2, View.ld_unit_zero hz2]

end Cert.ReferenceIdeal.Frame

end
-- ==== Proof.RI.V2.lean ====
/-
  Region 2's two result arrays in closed form. Grid point n (one image) reads rows 1024·n … 1024·n + 1023 of the
  [32768, 128] activation array, the whole scale row, shift row and weight matrix, and writes rows
  256·n … 256·n + 255 of the [8192, 128] convolution array and row n of the [32, 2, 128] statistics array. So row i of
  the convolution array is row i mod 256 of what the body makes of image i / 256's rows, and row n of the statistics
  array is what the body makes of image n's rows. The blocks of each result tile it, one per point.
-/
import proofs.«130251_g2000005708365749_pallasbulk_1193_2_alg».proof.Proof.RI.R2
import Idealize.ShloMosaic.Lib.Pipeline.Value
import Idealize.ShloMosaic.Lib.ValueIdx

set_option maxRecDepth 16384

noncomputable section

namespace Cert.ReferenceIdeal.Frame

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable {F : FTy → Type} [FloatOps F]
variable (V : (c : Dev nD) → (b : Ref sig .tc) → Buf (Elt F) ((c : Thread nD τ).loc b))

theorem lt32_2 (t : Fin cfg2.N) : t.val < 32 := by
  have h := t.isLt; have e : cfg2.N = 32 := N_2; omega

/-- Image n's 1024 rows of the [32768, 128] activation array. -/
def rows2 (A : S32768x128.Idx → Elt F .f32) (n : Fin 32) : Vec F S1024x128 .f32 :=
  fun y => A (ix2 ⟨n.val * 1024 + (y 0).val, by have := idx2_lt0 y; omega⟩ ⟨(y 1).val, idx2_lt1 y⟩)

/-- The convolution array as one function of the region's four input arrays. -/
def G2_4 (A0 : S32768x128.Idx → Elt F .f32) (A1 A2 : S1x128.Idx → Elt F .f32) (A3 : S1152x128.Idx → Elt F .f32) :
    S8192x128.Idx → Elt F .f32 :=
  fun i => out2_4 (rows2 A0 ⟨(i 0).val / 256, by have := idx2_lt0 i; omega⟩) A1 A2 A3
    (ix2 ⟨(i 0).val % 256, Nat.mod_lt _ (by decide)⟩ ⟨(i 1).val, (i 1).isLt⟩)

/-- The statistics array as one function of the region's four input arrays. -/
def G2_5 (A0 : S32768x128.Idx → Elt F .f32) (A1 A2 : S1x128.Idx → Elt F .f32) (A3 : S1152x128.Idx → Elt F .f32) :
    S32x2x128.Idx → Elt F .f32 :=
  fun i => out2_5 (rows2 A0 ⟨(i 0).val, (i 0).isLt⟩) A1 A2 A3 (ix3 ⟨0, by omega⟩ ⟨(i 1).val, (i 1).isLt⟩ ⟨(i 2).val, (i 2).isLt⟩)

/-- The printed index maps over the grid: point t reads image t's rows and the one block of each of the scale row,
    the shift row and the weights, and writes block t of the convolution array and row t of the statistics. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

/-! ## Where a block element sits in its array -/

/-- An element of the activation block at point t sits 1024·t rows down. -/
theorem emb2_0 (t : Fin cfg2.N) (y : S1024x128.Idx) : ((cfg2.win 0).blk t).view.emb y
      = ix2 ⟨t.val * 1024 + (y 0).val, by have hy0 : (y 0).val < 1024 := (y 0).isLt; have ht := lt32_2 t; omega⟩ ⟨(y 1).val, (y 1).isLt⟩ := by
  obtain ⟨e0, e1, -⟩ := idx_facts2 t
  funext a; apply Fin.ext
  match a with
  | ⟨0, _⟩ => show win2_0.index t (0 : Fin 2) * 1024 + 1 * (y 0).val = t.val * 1024 + (y 0).val; omega
  | ⟨1, _⟩ => show win2_0.index t (1 : Fin 2) * 128 + 1 * (y 1).val = (y 1).val; omega

/-- The scale row's one block is the whole row. -/
theorem emb2_1 (t : Fin cfg2.N) (y : S1x128.Idx) : ((cfg2.win 1).blk t).view.emb y = y := by
  obtain ⟨-, -, e0, e1, -⟩ := idx_facts2 t
  funext a; apply Fin.ext
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The shift row's one block is the whole row. -/
theorem emb2_2 (t : Fin cfg2.N) (y : S1x128.Idx) : ((cfg2.win 2).blk t).view.emb y = y := by
  obtain ⟨-, -, -, -, e0, e1, -⟩ := idx_facts2 t
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The weights' one block is the whole matrix. -/
theorem emb2_3 (t : Fin cfg2.N) (y : S1152x128.Idx) : ((cfg2.win 3).blk t).view.emb y = y := by
  obtain ⟨-, -, -, -, -, -, e0, e1, -⟩ := idx_facts2 t
  funext a; apply Fin.ext
  match a with
  | ⟨0, _⟩ => show win2_3.index t (0 : Fin 2) * 1152 + 1 * (y 0).val = (y 0).val; omega
  | ⟨1, _⟩ => show win2_3.index t (1 : Fin 2) * 128 + 1 * (y 1).val = (y 1).val; omega

/-- An element of the convolution block at point t sits 256·t rows down. -/
theorem emb2_4 (t : Fin cfg2.N) (y : S256x128.Idx) : ((cfg2.win 4).blk t).view.emb y
      = ix2 ⟨t.val * 256 + (y 0).val, by have hy0 : (y 0).val < 256 := (y 0).isLt; have ht := lt32_2 t; omega⟩ ⟨(y 1).val, (y 1).isLt⟩ := by
  obtain ⟨-, -, -, -, -, -, -, -, e0, e1, -⟩ := idx_facts2 t
  funext a; apply Fin.ext
  match a with
  | ⟨0, _⟩ => show win2_4.index t (0 : Fin 2) * 256 + 1 * (y 0).val = t.val * 256 + (y 0).val; omega
  | ⟨1, _⟩ => show win2_4.index t (1 : Fin 2) * 128 + 1 * (y 1).val = (y 1).val; omega

/-- An element of the statistics row at point t sits in row t. -/
theorem emb2_5 (t : Fin cfg2.N) (j : S1x2x128.Idx) : ((cfg2.win 5).blk t).view.emb j
      = ix3 ⟨t.val, lt32_2 t⟩ ⟨(j 1).val, (j 1).isLt⟩ ⟨(j 2).val, (j 2).isLt⟩ := by
  obtain ⟨-, -, -, -, -, -, -, -, -, -, e2, e3, e4⟩ := idx_facts2 t
  have hj0 : (j 0).val < 1 := (j 0).isLt
  funext a; apply Fin.ext
  match a with
  | ⟨0, _⟩ => show win2_5.index t (0 : Fin 3) * 1 + 1 * (j 0).val = t.val; omega
  | ⟨1, _⟩ => show win2_5.index t (1 : Fin 3) * 2 + 1 * (j 1).val = (j 1).val; omega
  | ⟨2, _⟩ => show win2_5.index t (2 : Fin 3) * 128 + 1 * (j 2).val = (j 2).val; omega

/-! ## The input blocks at a point -/

/-- The activation block at point t is image t's rows. -/
theorem iblk2_0_eq (c : Dev nD) (t : Fin cfg2.N) :
    (iblk2 V c 0 t : Vec F S1024x128 .f32) = rows2 (V c main_call0_v25_0) ⟨t.val, lt32_2 t⟩ :=
  funext fun (y : S1024x128.Idx) =>
    (show iblk2 V c 0 t y = V c main_call0_v25_0 (((cfg2.win 0).blk t).view.emb y) from rfl).trans
      (congrArg (V c main_call0_v25_0) (emb2_0 t y))

/-- The scale block at every point is the scale row. -/
theorem iblk2_1_eq (c : Dev nD) (t : Fin cfg2.N) :
    (iblk2 V c 1 t : Vec F S1x128 .f32) = (V c main_call0_v46 : Vec F S1x128 .f32) :=
  funext fun (y : S1x128.Idx) =>
    (show iblk2 V c 1 t y = V c main_call0_v46 (((cfg2.win 1).blk t).view.emb y) from rfl).trans
      (congrArg (V c main_call0_v46) (emb2_1 t y))

/-- The shift block at every point is the shift row. -/
theorem iblk2_2_eq (c : Dev nD) (t : Fin cfg2.N) :
    (iblk2 V c 2 t : Vec F S1x128 .f32) = (V c main_call0_v47 : Vec F S1x128 .f32) :=
  funext fun (y : S1x128.Idx) =>
    (show iblk2 V c 2 t y = V c main_call0_v47 (((cfg2.win 2).blk t).view.emb y) from rfl).trans
      (congrArg (V c main_call0_v47) (emb2_2 t y))

/-- The weight block at every point is the weight matrix. -/
theorem iblk2_3_eq (c : Dev nD) (t : Fin cfg2.N) :
    (iblk2 V c 3 t : Vec F S1152x128 .f32) = (V c main_call0_v2 : Vec F S1152x128 .f32) :=
  funext fun (y : S1152x128.Idx) =>
    (show iblk2 V c 3 t y = V c main_call0_v2 (((cfg2.win 3).blk t).view.emb y) from rfl).trans
      (congrArg (V c main_call0_v2) (emb2_3 t y))

/-! ## The convolution array -/

/-- Block t of any [8192, 128] array, read at j, is the array 256·t rows down. -/
theorem read2_4 (G : S8192x128.Idx → Elt F .f32) (t : Fin cfg2.N) (j : S256x128.Idx) :
    ((cfg2.win 4).blk t).view.read (Elt F) G j
      = G (ix2 ⟨t.val * 256 + (j 0).val, by have hj0 : (j 0).val < 256 := (j 0).isLt; have ht := lt32_2 t; omega⟩ ⟨(j 1).val, (j 1).isLt⟩) :=
  (show ((cfg2.win 4).blk t).view.read (Elt F) G j = G (((cfg2.win 4).blk t).view.emb j) from rfl).trans
    (congrArg G (emb2_4 t j))

/-- G2_4 at row a of image n. -/
theorem G2_4_apply (A0 : S32768x128.Idx → Elt F .f32) (A1 A2 : S1x128.Idx → Elt F .f32) (A3 : S1152x128.Idx → Elt F .f32)
    (n : Fin 32) (a : Fin 256) (b : Fin 128) :
    G2_4 A0 A1 A2 A3 (ix2 ⟨n.val * 256 + a.val, by have := n.isLt; have := a.isLt; omega⟩ b) = out2_4 (rows2 A0 n) A1 A2 A3 (ix2 a b) := by
  have hn := n.isLt; have ha := a.isLt
  unfold G2_4
  exact congrArg₂ (fun (r : Fin 32) (j : S256x128.Idx) => out2_4 (rows2 A0 r) A1 A2 A3 j)
    (Fin.ext (show (n.val * 256 + a.val) / 256 = n.val by omega))
    (by funext d; match d with
      | ⟨0, _⟩ => exact Fin.ext (show (n.val * 256 + a.val) % 256 = a.val by omega)
      | ⟨1, _⟩ => rfl)

/-- Block t of G2_4 of four arrays, read at j: what the body makes of image t's rows, at j. -/
theorem G2_4_blk (A0 : S32768x128.Idx → Elt F .f32) (A1 A2 : S1x128.Idx → Elt F .f32) (A3 : S1152x128.Idx → Elt F .f32)
    (t : Fin cfg2.N) (j : S256x128.Idx) :
    ((cfg2.win 4).blk t).view.read (Elt F) (G2_4 A0 A1 A2 A3) j = out2_4 (rows2 A0 ⟨t.val, lt32_2 t⟩) A1 A2 A3 j :=
  (read2_4 (G2_4 A0 A1 A2 A3) t j).trans ((G2_4_apply A0 A1 A2 A3 ⟨t.val, lt32_2 t⟩ ⟨(j 0).val, (j 0).isLt⟩ ⟨(j 1).val, (j 1).isLt⟩).trans
    (congrArg (out2_4 (rows2 A0 ⟨t.val, lt32_2 t⟩) A1 A2 A3) (eq_ix2 j).symm))

/-- What point t writes back to the convolution array is block t of G2_4 of the input arrays. -/
theorem flushed2_4_eq (c : Dev nD) (t : Fin cfg2.N) :
    (dat2 V c).flushed 4 t = ((cfg2.win 4).blk t).view.read (Elt F)
      (G2_4 (V c main_call0_v25_0) (V c main_call0_v46) (V c main_call0_v47) (V c main_call0_v2)) := by
  show (cfg2.win 4).cut (grid2.coords t) ((dat2 V c).after 4 t) = _
  rw [after2_4, iblk2_0_eq, iblk2_1_eq, iblk2_2_eq, iblk2_3_eq]
  funext (j : S256x128.Idx)
  exact (G2_4_blk (V c main_call0_v25_0) (V c main_call0_v46) (V c main_call0_v47) (V c main_call0_v2) t j).symm

/-- An index of the convolution array is in point t's block iff each coordinate is in the block's range on its axis. -/
theorem mem_blk2_4 (t : Fin cfg2.N) (i : S8192x128.Idx) :
    i ∈ ((cfg2.win 4).blk t).view.set ↔ ∀ a : Fin 2, win2_4.index t a * S256x128.size a ≤ (i a).val ∧ (i a).val < win2_4.index t a * S256x128.size a + S256x128.size a := by
  show i ∈ ((View.whole main_call0_v48_0).slice (win2_4.rect t)).set ↔ _
  rw [View.set_slice_whole, Rect.mem_set_unit]
  exact Iff.rfl

/-- Every row of the convolution array is in some point's block: row i is in point i / 256's. -/
theorem covered2_4 (i : S8192x128.Idx) :
    ∃ t : Fin cfg2.N, (cfg2.win 4).flush t = true ∧ i ∈ ((cfg2.win 4).blk t).view.set := by
  have hi0 : (i 0).val < 8192 := (i 0).isLt
  have hi1 : (i 1).val < 128 := (i 1).isLt
  have hN : cfg2.N = 32 := N_2
  refine ⟨⟨(i 0).val / 256, by omega⟩, flush2_4 _, ?_⟩
  obtain ⟨-, -, -, -, -, -, -, -, e0, e1, -⟩ := idx_facts2 ⟨(i 0).val / 256, by omega⟩
  rw [mem_blk2_4]
  intro a
  match a with
  | ⟨0, _⟩ => show win2_4.index _ (0 : Fin 2) * 256 ≤ (i 0).val ∧ (i 0).val < win2_4.index _ (0 : Fin 2) * 256 + 256; rw [e0]; show (i 0).val / 256 * 256 ≤ (i 0).val ∧ (i 0).val < (i 0).val / 256 * 256 + 256; omega
  | ⟨1, _⟩ => show win2_4.index _ (1 : Fin 2) * 128 ≤ (i 1).val ∧ (i 1).val < win2_4.index _ (1 : Fin 2) * 128 + 128; rw [e1]; omega

/-- The convolution array after the run, as one function of the input arrays as the region finds them. -/
theorem final2_4 (c : Dev nD) : (dat2 V c).arrAt 4 cfg2.N
    = G2_4 (V c main_call0_v25_0) (V c main_call0_v46) (V c main_call0_v47) (V c main_call0_v2) :=
  (dat2 V c).arrAt_eq_of_cover 4 _ (fun t _ => flushed2_4_eq V c t) covered2_4

/-! ## The statistics array -/

/-- An index of a statistics row whose first coordinate is the only possible one. -/
theorem row_idx2_5 (j : S1x2x128.Idx) : j = ix3 ⟨0, by omega⟩ ⟨(j 1).val, (j 1).isLt⟩ ⟨(j 2).val, (j 2).isLt⟩ := by
  have hj0 : (j 0).val < 1 := (j 0).isLt
  funext a
  match a with
  | ⟨0, _⟩ => exact Fin.ext (by show (j 0).val = 0; omega)
  | ⟨1, _⟩ => rfl
  | ⟨2, _⟩ => rfl

/-- Block t of any [32, 2, 128] array, read at j, is the array at row t. -/
theorem read2_5 (G : S32x2x128.Idx → Elt F .f32) (t : Fin cfg2.N) (j : S1x2x128.Idx) :
    ((cfg2.win 5).blk t).view.read (Elt F) G j = G (ix3 ⟨t.val, lt32_2 t⟩ ⟨(j 1).val, (j 1).isLt⟩ ⟨(j 2).val, (j 2).isLt⟩) :=
  (show ((cfg2.win 5).blk t).view.read (Elt F) G j = G (((cfg2.win 5).blk t).view.emb j) from rfl).trans
    (congrArg G (emb2_5 t j))

/-- G2_5 at row n. -/
theorem G2_5_apply (A0 : S32768x128.Idx → Elt F .f32) (A1 A2 : S1x128.Idx → Elt F .f32) (A3 : S1152x128.Idx → Elt F .f32)
    (n : Fin 32) (a : Fin 2) (b : Fin 128) :
    G2_5 A0 A1 A2 A3 (ix3 n a b) = out2_5 (rows2 A0 n) A1 A2 A3 (ix3 ⟨0, by omega⟩ a b) := by
  unfold G2_5
  exact congrArg₂ (fun (r : Fin 32) (j : S1x2x128.Idx) => out2_5 (rows2 A0 r) A1 A2 A3 j) (Fin.ext rfl)
    (by funext d; match d with | ⟨0, _⟩ => rfl | ⟨1, _⟩ => rfl | ⟨2, _⟩ => rfl)

/-- Block t of G2_5 of four arrays, read at j: the statistics the body makes of image t's rows, at j. -/
theorem G2_5_blk (A0 : S32768x128.Idx → Elt F .f32) (A1 A2 : S1x128.Idx → Elt F .f32) (A3 : S1152x128.Idx → Elt F .f32)
    (t : Fin cfg2.N) (j : S1x2x128.Idx) :
    ((cfg2.win 5).blk t).view.read (Elt F) (G2_5 A0 A1 A2 A3) j = out2_5 (rows2 A0 ⟨t.val, lt32_2 t⟩) A1 A2 A3 j :=
  (read2_5 (G2_5 A0 A1 A2 A3) t j).trans ((G2_5_apply A0 A1 A2 A3 ⟨t.val, lt32_2 t⟩ ⟨(j 1).val, (j 1).isLt⟩ ⟨(j 2).val, (j 2).isLt⟩).trans
    (congrArg (out2_5 (rows2 A0 ⟨t.val, lt32_2 t⟩) A1 A2 A3) (row_idx2_5 j).symm))

/-- What point t writes back to the statistics array is block t of G2_5 of the input arrays. -/
theorem flushed2_5_eq (c : Dev nD) (t : Fin cfg2.N) :
    (dat2 V c).flushed 5 t = ((cfg2.win 5).blk t).view.read (Elt F)
      (G2_5 (V c main_call0_v25_0) (V c main_call0_v46) (V c main_call0_v47) (V c main_call0_v2)) := by
  show (cfg2.win 5).cut (grid2.coords t) ((dat2 V c).after 5 t) = _
  rw [after2_5, iblk2_0_eq, iblk2_1_eq, iblk2_2_eq, iblk2_3_eq]
  funext (j : S1x2x128.Idx)
  exact (G2_5_blk (V c main_call0_v25_0) (V c main_call0_v46) (V c main_call0_v47) (V c main_call0_v2) t j).symm

/-- An index of the statistics array is in point t's block iff each coordinate is in the block's range on its axis. -/
theorem mem_blk2_5 (t : Fin cfg2.N) (i : S32x2x128.Idx) :
    i ∈ ((cfg2.win 5).blk t).view.set ↔ ∀ a : Fin 3, win2_5.index t a * S1x2x128.size a ≤ (i a).val ∧ (i a).val < win2_5.index t a * S1x2x128.size a + S1x2x128.size a := by
  show i ∈ ((View.whole main_call0_v48_1).slice (win2_5.rect t)).set ↔ _
  rw [View.set_slice_whole, Rect.mem_set_unit]
  exact Iff.rfl

/-- Every row of the statistics array is some point's block: row n is point n's. -/
theorem covered2_5 (i : S32x2x128.Idx) :
    ∃ t : Fin cfg2.N, (cfg2.win 5).flush t = true ∧ i ∈ ((cfg2.win 5).blk t).view.set := by
  have hi0 : (i 0).val < 32 := (i 0).isLt
  have hi1 : (i 1).val < 2 := (i 1).isLt
  have hi2 : (i 2).val < 128 := (i 2).isLt
  have hN : cfg2.N = 32 := N_2
  refine ⟨⟨(i 0).val, by omega⟩, flush2_5 _, ?_⟩
  obtain ⟨-, -, -, -, -, -, -, -, -, -, e2, e3, e4⟩ := idx_facts2 ⟨(i 0).val, by omega⟩
  rw [mem_blk2_5]
  intro a
  match a with
  | ⟨0, _⟩ => show win2_5.index _ (0 : Fin 3) * 1 ≤ (i 0).val ∧ (i 0).val < win2_5.index _ (0 : Fin 3) * 1 + 1; rw [e2]; show (i 0).val * 1 ≤ (i 0).val ∧ (i 0).val < (i 0).val * 1 + 1; omega
  | ⟨1, _⟩ => show win2_5.index _ (1 : Fin 3) * 2 ≤ (i 1).val ∧ (i 1).val < win2_5.index _ (1 : Fin 3) * 2 + 2; rw [e3]; omega
  | ⟨2, _⟩ => show win2_5.index _ (2 : Fin 3) * 128 ≤ (i 2).val ∧ (i 2).val < win2_5.index _ (2 : Fin 3) * 128 + 128; rw [e4]; omega

/-- The statistics array after the run, as one function of the input arrays as the region finds them. -/
theorem final2_5 (c : Dev nD) : (dat2 V c).arrAt 5 cfg2.N
    = G2_5 (V c main_call0_v25_0) (V c main_call0_v46) (V c main_call0_v47) (V c main_call0_v2) :=
  (dat2 V c).arrAt_eq_of_cover 5 _ (fun t _ => flushed2_5_eq V c t) covered2_5

end Cert.ReferenceIdeal.Frame

end
-- ==== Proof.Bridge.OutRPay.lean ====
/-
  The last pass's kernel body of the pixel-major program, read at one entry of what it stores.

  The body loads a 1024 × 128 block of activations, a scale row, a shift row, the 128 × 512 weights and a
  64 × 8192 slab of shortcut values, forms the 1024 × 512 product `relu(h · a + b) ⬝ w`, re-reads it in row-major
  order as 64 × 8192 (sixteen pixel rows of 512 channels side by side) and adds the slab. Entry `(p, q)` of the
  stored slab is therefore the contraction over the 128 channels for pixel row `16·p + q / 512` and output channel
  `q mod 512`, plus the slab's entry `(p, q)`. At the exact values the matrix product into a zero accumulator is
  the plain sum.
-/
import proofs.«130251_g2000005708365749_pallasbulk_1193_2_alg».proof.Proof.Gen.ReferenceIdeal.Skeleton
import proofs.«130251_g2000005708365749_pallasbulk_1193_2_alg».proof.Proof.Bridge.SpecOut
import Idealize.ShloMosaic.Lib.Pipeline.Value
import Idealize.ShloMosaic.Lib.ValueIdx
import Idealize.ShloMosaic.PureOps.Ideal.Laws

noncomputable section

namespace Cert.ReferenceIdeal.Out

open Idealize.ShloMosaic Idealize.ShloMosaic.ValueIdx
open Cert.ReferenceIdeal Cert.ReferenceIdeal.Gen

/-- The dimension numbers of the body's matrix product: rows of the left operand against columns of the right. -/
abbrev D3 : DotDims S1024x128 S128x512 S1024x512 := dot_S1024x128_S128x512_S1024x512_1_0_0_1_n_n

/-- The left operand is read at the output's row … -/
theorem lhs3_0 (i : S1024x512.Idx) (q : D3.contr.Idx) : (D3.lhsIdx i q 0).val = (i 0).val := by
  unfold DotDims.lhsIdx
  rw [dif_neg (show ¬(0 : Fin S1024x128.rank) ∈ D3.lhsBatch by decide), dif_pos (show (0 : Fin S1024x128.rank) ∈ D3.lhsNonContracting by decide)]
  rfl
/-- … and the contraction position; -/
theorem lhs3_1 (i : S1024x512.Idx) (q : D3.contr.Idx) : (D3.lhsIdx i q 1).val = (q ⟨0, by decide⟩).val :=
  D3.lhsIdx_val_of_single rfl i q
/-- the right operand at the contraction position … -/
theorem rhs3_0 (i : S1024x512.Idx) (q : D3.contr.Idx) : (D3.rhsIdx i q 0).val = (q ⟨0, by decide⟩).val :=
  D3.rhsIdx_val_of_single rfl i q
/-- … and the output's column. -/
theorem rhs3_1 (i : S1024x512.Idx) (q : D3.contr.Idx) : (D3.rhsIdx i q 1).val = (i 1).val := by
  unfold DotDims.rhsIdx
  rw [dif_neg (show ¬(1 : Fin S128x512.rank) ∈ D3.rhsBatch by decide), dif_pos (show (1 : Fin S128x512.rank) ∈ D3.rhsNonContracting by decide)]
  rfl

/-- A row vector broadcast down 1024 rows reads its one row. -/
theorem bcast_row (x : Vec Ideal S1x128 .f32) (r : Fin 1024) (k : Fin 128) :
    broadcastTo S1024x128 x broadcasts_S1x128_S1024x128 (ix2 r k) = x (ix2 (0 : Fin 1) k) :=
  broadcastTo_apply x broadcasts_S1x128_S1024x128 (ix2 r k) (ix2 (0 : Fin 1) k) fun a => by
    match a with
    | ⟨0, _⟩ => rfl
    | ⟨1, _⟩ => rfl

/-- THE STORED VALUE AT AN ENTRY: row `p`, column `q` of the slab, which stands for pixel row `r = 16·p + q / 512`
    of the block and channel `co = q mod 512`. -/
theorem pay3_apply (x0 : Vec Ideal S1024x128 .f32) (x2 x3 : Vec Ideal S1x128 .f32) (x4 : Vec Ideal S128x512 .f32)
    (x1 : Vec Ideal S64x8192 .f32) (p : Fin 64) (q : Fin 8192) (r : Fin 1024) (co : Fin 512)
    (hr : r.val = p.val * 16 + q.val / 512) (hco : co.val = q.val % 512) :
    k3_pay1 x0 x2 x3 x4 x1 (ix2 p q) = Cert.Spec.act x0 x2 x3 x4 r co + x1 (ix2 p q) := by
  unfold k3_pay1
  try dsimp only
  simp only [shapeCast_self]
  refine congrArg (· + x1 (ix2 p q)) ?_
  refine (shapeCast_apply _ shapeCasts_S1024x512_S64x8192 (ix2 p q) (ix2 r co) (by
    rw [Shape.rowMajor_val_two, Shape.rowMajor_val_two]
    show r.val * 512 + co.val = p.val * 8192 + q.val
    have := p.isLt; have := q.isLt
    omega)).trans ?_
  refine (Ideal.matmul_constant_zero_apply (φ₁ := .f32) (φ₂ := .f32) D3 none _ x4 (ix2 r co)).trans ?_
  rw [← Equiv.sum_comp (contrEquiv1 D3 128 rfl rfl).symm]
  unfold Cert.Spec.act
  refine Finset.sum_congr rfl fun k _ => ?_
  have hk := contrEquiv1_symm_val D3 128 rfl rfl k
  have el : D3.lhsIdx (ix2 r co) ((contrEquiv1 D3 128 rfl rfl).symm k) = ix2 r k := funext fun a => Fin.ext (by
    match a with
    | ⟨0, _⟩ => exact lhs3_0 _ _
    | ⟨1, _⟩ => exact (lhs3_1 _ _).trans hk)
  have er : D3.rhsIdx (ix2 r co) ((contrEquiv1 D3 128 rfl rfl).symm k) = ix2 k co := funext fun a => Fin.ext (by
    match a with
    | ⟨0, _⟩ => exact (rhs3_0 _ _).trans hk
    | ⟨1, _⟩ => exact rhs3_1 _ _)
  rw [el, er]
  show max (x0 (ix2 r k) * broadcastTo S1024x128 x2 broadcasts_S1x128_S1024x128 (ix2 r k)
      + broadcastTo S1024x128 x3 broadcasts_S1x128_S1024x128 (ix2 r k)) (Ideal.ofBits .f32 0x00000000#32) * x4 (ix2 k co) = _
  rw [bcast_row, bcast_row, Ideal.ofBits_zero_f32]

end Cert.ReferenceIdeal.Out

end
-- ==== Proof.Bridge.OutR.lean ====
/-
  The last pass of the pixel-major program, from its blocks to the array it leaves and to the result.

  Grid point `t` (one of 8) reads rows `1024·t … 1024·t + 1023` of the activations, rows `64·t … 64·t + 63` of the
  shortcut slabs, the whole scale row, shift row and weights, and writes back rows `64·t … 64·t + 63` of a
  [512, 8192] array of slabs: row `P`, column `q` is the formula's value for channel `q mod 512` of pixel
  `16·P + q / 512`. The shortcut slabs are the [8192, 512] pixel-by-channel shortcut read in row-major order, so
  the slab entry `(P, q)` is that pixel's and channel's shortcut. The 8 blocks tile the array (row `i` lies in
  block `i / 64`), so after the pass the array is the slab array of the specification, and the host's final
  change of shape to [32, 16, 16, 512] followed by moving the channel axis forward makes it the result.
-/
import proofs.«130251_g2000005708365749_pallasbulk_1193_2_alg».proof.Proof.RI.R3
import proofs.«130251_g2000005708365749_pallasbulk_1193_2_alg».proof.Proof.Bridge.SpecOut
import proofs.«130251_g2000005708365749_pallasbulk_1193_2_alg».proof.Proof.Bridge.OutRPay
import Idealize.ShloMosaic.Lib.Pipeline.Value

noncomputable section

namespace Cert.ReferenceIdeal.Out

open Idealize.ShloMosaic Idealize.ShloMosaic.TcCoe Idealize.SL.Sem Idealize.ShloMosaic.ValueIdx
open Idealize.ShloMosaic.Pipeline (Dat)
open Cert.ReferenceIdeal Cert.ReferenceIdeal.Gen Cert.ReferenceIdeal.Frame

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the 8 grid points: the activation, shortcut and output windows are at block
    `t` of their first axis, the scale, shift and weight windows always at their one block. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The activation block at point `t` is rows `1024·t …` of the activations. -/
theorem blk3_0 (c : Dev nD) (t : Fin cfg3.N) (q : Fin 1024) (k : Fin 128) (r : Fin 8192) (hr : r.val = t.val * 1024 + q.val) :
    (iblk3 V c 0 t : Vec Ideal S1024x128 .f32) (ix2 q k) = (V c main_call0_v48_0 : S8192x128.Idx → EReal) (ix2 r k) := by
  obtain ⟨e0, e1, -⟩ := idx_facts3 t
  unfold iblk3
  rw [View.read_apply]
  show V c main_call0_v48_0 _ = V c main_call0_v48_0 _
  refine congrArg _ (funext fun a => Fin.ext ?_)
  match a with
  | ⟨0, _⟩ => show win3_0.index t (0 : Fin 2) * 1024 + 1 * q.val = r.val; omega
  | ⟨1, _⟩ => show win3_0.index t (1 : Fin 2) * 128 + 1 * k.val = k.val; omega

/-- The shortcut block at point `t` is rows `64·t …` of the slab array. -/
theorem blk3_1 (c : Dev nD) (t : Fin cfg3.N) (p : Fin 64) (q : Fin 8192) (P : Fin 512) (hP : P.val = t.val * 64 + p.val) :
    (iblk3 V c 1 t : Vec Ideal S64x8192 .f32) (ix2 p q) = (V c main_call0_v26 : S512x8192.Idx → EReal) (ix2 P q) := by
  obtain ⟨-, -, e0, e1, -⟩ := idx_facts3 t
  unfold iblk3
  rw [View.read_apply]
  show V c main_call0_v26 _ = V c main_call0_v26 _
  refine congrArg _ (funext fun a => Fin.ext ?_)
  match a with
  | ⟨0, _⟩ => show win3_1.index t (0 : Fin 2) * 64 + 1 * p.val = P.val; omega
  | ⟨1, _⟩ => show win3_1.index t (1 : Fin 2) * 8192 + 1 * q.val = q.val; omega

/-- The scale row's one block is the scale row. -/
theorem blk3_2 (c : Dev nD) (t : Fin cfg3.N) :
    (iblk3 V c 2 t : Vec Ideal S1x128 .f32) = (V c main_call0_v68 : S1x128.Idx → EReal) := by
  obtain ⟨-, -, -, -, e0, e1, -⟩ := idx_facts3 t
  funext y
  unfold iblk3
  rw [View.read_apply]
  show V c main_call0_v68 _ = V c main_call0_v68 _
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The shift row's one block is the shift row. -/
theorem blk3_3 (c : Dev nD) (t : Fin cfg3.N) :
    (iblk3 V c 3 t : Vec Ideal S1x128 .f32) = (V c main_call0_v69 : S1x128.Idx → EReal) := by
  obtain ⟨-, -, -, -, -, -, e0, e1, -⟩ := idx_facts3 t
  funext y
  unfold iblk3
  rw [View.read_apply]
  show V c main_call0_v69 _ = V c main_call0_v69 _
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The weights' one block is the weights. -/
theorem blk3_4 (c : Dev nD) (t : Fin cfg3.N) :
    (iblk3 V c 4 t : Vec Ideal S128x512 .f32) = (V c main_arg9 : S128x512.Idx → EReal) := by
  obtain ⟨-, -, -, -, -, -, -, -, e0, e1, -⟩ := idx_facts3 t
  funext y
  unfold iblk3
  rw [View.read_apply]
  show V c main_arg9 _ = V c main_arg9 _
  refine congrArg _ (funext fun a => Fin.ext ?_)
  match a with
  | ⟨0, _⟩ => show win3_4.index t (0 : Fin 2) * 128 + 1 * (y 0).val = (y 0).val; omega
  | ⟨1, _⟩ => show win3_4.index t (1 : Fin 2) * 512 + 1 * (y 1).val = (y 1).val; omega

/-- The [8192, 512] shortcut read in row-major order as [512, 8192]: slab entry `(P, q)` is pixel `16·P + q / 512`,
    channel `q mod 512`. -/
theorem slab_apply (scut : (⟨2, ![8192, 512]⟩ : Shape).Idx → EReal) (P : Fin 512) (q : Fin 8192) (r : Fin 8192) (co : Fin 512)
    (hr : r.val = P.val * 16 + q.val / 512) (hco : co.val = q.val % 512) :
    shapeCast S512x8192 scut shapeCasts_S8192x512_S512x8192 (ix2 P q) = scut (ix2 r co) := by
  refine shapeCast_apply scut shapeCasts_S8192x512_S512x8192 (ix2 P q) (ix2 r co) ?_
  rw [Shape.rowMajor_val_two, Shape.rowMajor_val_two]
  show r.val * 512 + co.val = P.val * 8192 + q.val
  have := P.isLt; have := q.isLt
  omega

/-- ONE ENTRY OF ONE BLOCK, over variables: if the loaded activation block is rows `1024·n …` of the activations,
    the loaded slab block reads the shortcut of the pixel and channel its entries stand for, and the other three
    blocks are the whole scale, shift and weight arrays, the stored value at block entry `j` is the slab array at
    the array index `i` that lies `64·n` rows further down. -/
theorem point3 (x0 : Vec Ideal S1024x128 .f32) (x1 : Vec Ideal S64x8192 .f32) (x2 x3 : Vec Ideal S1x128 .f32)
    (x4 : Vec Ideal S128x512 .f32)
    (h2 : (⟨2, ![8192, 128]⟩ : Shape).Idx → EReal) (scut : (⟨2, ![8192, 512]⟩ : Shape).Idx → EReal)
    (n : Nat)
    (e0 : ∀ (q : Fin 1024) (k : Fin 128) (r : Fin 8192), r.val = n * 1024 + q.val → x0 (ix2 q k) = h2 (ix2 r k))
    (e1 : ∀ (p : Fin 64) (q : Fin 8192) (r : Fin 8192) (co : Fin 512), r.val = (n * 64 + p.val) * 16 + q.val / 512 →
      co.val = q.val % 512 → x1 (ix2 p q) = scut (ix2 r co))
    (j : S64x8192.Idx) (i : S512x8192.Idx) (hi0 : (i 0).val = n * 64 + (j 0).val) (hi1 : (i 1).val = (j 1).val) :
    k3_pay1 x0 x2 x3 x4 x1 j = Cert.Spec.arrSlab h2 scut x2 x3 x4 i := by
  obtain ⟨p, q, rfl⟩ : ∃ (p : Fin 64) (q : Fin 8192), j = ix2 p q := ⟨j 0, j 1, eq_ix2 j⟩
  have hp := p.isLt; have hq := q.isLt
  have hi0lt : (i 0).val < 512 := (i 0).isLt
  have hi1lt : (i 1).val < 8192 := (i 1).isLt
  have hi0' : (i 0).val = n * 64 + p.val := hi0
  have hi1' : (i 1).val = q.val := hi1
  rw [pay3_apply x0 x2 x3 x4 x1 p q ⟨p.val * 16 + q.val / 512, by omega⟩ ⟨q.val % 512, Nat.mod_lt _ (by decide)⟩ rfl rfl]
  unfold Cert.Spec.arrSlab
  dsimp only
  have hr : (i 0).val * 16 + (i 1).val / 512 = (n * 64 + p.val) * 16 + q.val / 512 := by omega
  have hc : (i 1).val % 512 = q.val % 512 := by omega
  rw [e1 p q ⟨(i 0).val * 16 + (i 1).val / 512, by omega⟩ ⟨(i 1).val % 512, Nat.mod_lt _ (by decide)⟩ hr hc]
  refine congrArg (· + _) ?_
  have hc' : (⟨q.val % 512, Nat.mod_lt _ (by decide)⟩ : Fin 512) = ⟨(i 1).val % 512, Nat.mod_lt _ (by decide)⟩ := Fin.ext hc.symm
  rw [hc']
  exact Cert.Spec.act_rows x0 h2 x2 x3 x4 _ _ _ fun k => e0 _ k _ (by show (i 0).val * 16 + (i 1).val / 512 = n * 1024 + (p.val * 16 + q.val / 512); omega)

/-- WHAT POINT `t` WRITES BACK is block `t` of the slab array of the region's input arrays. -/
theorem flushed3_eq (c : Dev nD) (scut : (⟨2, ![8192, 512]⟩ : Shape).Idx → EReal)
    (hS : V c main_call0_v26 = shapeCast S512x8192 scut shapeCasts_S8192x512_S512x8192) (t : Fin cfg3.N) :
    (dat3 V c).flushed 5 t = ((cfg3.win 5).blk t).view.read (Elt Ideal)
      (Cert.Spec.arrSlab (V c main_call0_v48_0) scut (V c main_call0_v68) (V c main_call0_v69) (V c main_arg9)) := by
  show (cfg3.win 5).cut (grid3.coords t) ((dat3 V c).after 5 t) = _
  rw [after3_5]
  unfold out3_5
  rw [View.canon_unit_zero hz3]
  simp only [View.ld_unit_zero (S := S1024x128) hz3, View.ld_unit_zero (S := S64x8192) hz3, View.ld_unit_zero (S := S1x128) hz3,
    View.ld_unit_zero (S := S128x512) hz3]
  rw [blk3_2, blk3_3, blk3_4]
  obtain ⟨-, -, -, -, -, -, -, -, -, -, e0, e1⟩ := idx_facts3 t
  have hN : grid3.N = 8 := N_3
  have ht : t.val < grid3.N := t.isLt
  funext j
  rw [View.read_apply]
  refine point3 _ _ _ _ _ _ _ t.val (fun q k r hr => blk3_0 V c t q k r hr)
    (fun p q r co hr hco => (blk3_1 V c t p q ⟨t.val * 64 + p.val, by have := p.isLt; omega⟩ rfl).trans
      ((congrFun hS _).trans (slab_apply scut _ q r co hr hco))) j _ ?_ ?_
  · show win3_5.index t (0 : Fin 2) * 64 + 1 * (j 0).val = t.val * 64 + (j 0).val; omega
  · show win3_5.index t (1 : Fin 2) * 8192 + 1 * (j 1).val = (j 1).val; omega

/-- An index of the array is in point `t`'s block iff each coordinate is in the block's range on its axis. -/
theorem mem_blk3 (t : Fin cfg3.N) (i : S512x8192.Idx) :
    i ∈ ((cfg3.win 5).blk t).view.set ↔ ∀ a : Fin 2, win3_5.index t a * S64x8192.size a ≤ (i a).val ∧ (i a).val < win3_5.index t a * S64x8192.size a + S64x8192.size a := by
  show i ∈ ((View.whole main_call0_v70).slice (win3_5.rect t)).set ↔ _
  rw [View.set_slice_whole, Rect.mem_set_unit]
  exact Iff.rfl

/-- Every index of the array is in some point's block: row `i` is in block `i / 64`. -/
theorem cover3 (i : S512x8192.Idx) : ∃ t : Fin cfg3.N, (cfg3.win 5).flush t = true ∧ i ∈ ((cfg3.win 5).blk t).view.set := by
  have hN : grid3.N = 8 := N_3
  have hi0 : (i 0).val < 512 := (i 0).isLt
  have hi1 : (i 1).val < 8192 := (i 1).isLt
  refine ⟨⟨(i 0).val / 64, by show (i 0).val / 64 < grid3.N; omega⟩, flush3_5 _, ?_⟩
  rw [mem_blk3]
  obtain ⟨-, -, -, -, -, -, -, -, -, -, e0, e1⟩ := idx_facts3 ⟨(i 0).val / 64, by show (i 0).val / 64 < grid3.N; omega⟩
  have e0' : win3_5.index ⟨(i 0).val / 64, by show (i 0).val / 64 < grid3.N; omega⟩ (0 : Fin 2) = (i 0).val / 64 := e0
  intro a
  match a with
  | ⟨0, _⟩ => show win3_5.index _ (0 : Fin 2) * 64 ≤ (i 0).val ∧ (i 0).val < win3_5.index _ (0 : Fin 2) * 64 + 64; omega
  | ⟨1, _⟩ => show win3_5.index _ (1 : Fin 2) * 8192 ≤ (i 1).val ∧ (i 1).val < win3_5.index _ (1 : Fin 2) * 8192 + 8192; omega

/-- THE ARRAY after the pass is the slab array of the specification. -/
theorem final3 (c : Dev nD) (scut : (⟨2, ![8192, 512]⟩ : Shape).Idx → EReal)
    (hS : V c main_call0_v26 = shapeCast S512x8192 scut shapeCasts_S8192x512_S512x8192) :
    (dat3 V c).arrAt 5 cfg3.N
      = Cert.Spec.arrSlab (V c main_call0_v48_0) scut (V c main_call0_v68) (V c main_call0_v69) (V c main_arg9) :=
  (dat3 V c).arrAt_eq_of_cover 5 _ (fun t _ => flushed3_eq V c scut hS t) cover3

end Cert.ReferenceIdeal.Out

namespace Cert.ReferenceIdeal.Frame

open Idealize.ShloMosaic Idealize.ShloMosaic.TcCoe Idealize.SL.Sem
open Cert.ReferenceIdeal Cert.ReferenceIdeal.Gen

/-- THE RESULT: the host's final change of shape and transposition of the array the pass leaves is the formula of
    the region's input arrays, the shortcut taken before the host re-read it as slabs. -/
theorem out_eq (V : (c : Dev nD) → (b : Ref sig .tc) → Buf (Elt Ideal) ((c : Thread nD τ).loc b)) (c : Dev nD)
    (scut : S8192x512.Idx → EReal) (hS : V c main_call0_v26 = shapeCast S512x8192 scut shapeCasts_S8192x512_S512x8192) :
    transpose S32x512x16x16 [0, 3, 1, 2]
        (shapeCast S32x16x16x512 ((dat3 V c).arrAt 5 cfg3.N) shapeCasts_S512x8192_S32x16x16x512)
        transposes_S32x16x16x512_S32x512x16x16_0_3_1_2
      = Cert.Spec.out (V c main_call0_v48_0) scut (V c main_call0_v68) (V c main_call0_v69) (V c main_arg9) := by
  rw [Cert.ReferenceIdeal.Out.final3 V c scut hS]
  exact Cert.Spec.transpose_shapeCast_arrSlab _ _ _ _ _ _ _

end Cert.ReferenceIdeal.Frame

end
-- ==== Proof.RI.Vals.lean ====
/-
  The contents of the reference program's buffers at the boundaries of its run, at the exact (extended-real) instance,
  each as a function of the arguments: the input with its channel axis moved last and re-read one row per position, the
  per-image statistics, the folded scale and shift rows, the activations of each pass, and the result.
-/
import proofs.«130251_g2000005708365749_pallasbulk_1193_2_alg».proof.Proof.RI.Run
import proofs.«130251_g2000005708365749_pallasbulk_1193_2_alg».proof.Proof.RI.Host
import proofs.«130251_g2000005708365749_pallasbulk_1193_2_alg».proof.Proof.RI.V0
import proofs.«130251_g2000005708365749_pallasbulk_1193_2_alg».proof.Proof.RI.V1
import proofs.«130251_g2000005708365749_pallasbulk_1193_2_alg».proof.Proof.RI.V2
import proofs.«130251_g2000005708365749_pallasbulk_1193_2_alg».proof.Proof.Bridge.OutR

set_option maxRecDepth 16384

noncomputable section

namespace Cert.ReferenceIdeal.Frame

open Idealize.ShloMosaic Idealize.ShloMosaic.TcCoe
open Idealize.SL Idealize.SL.Sem
open Cert.ReferenceIdeal Cert.ReferenceIdeal.Gen
open Cert.Bridge

variable (m : (ℓ : Loc nD τ sig) → Buf (Elt Ideal) ℓ) (ρ : Dev nD → PrngReg) (c : Dev nD)

/-! ## A buffer a stretch does not write keeps its contents through it -/

theorem W1_keep (b : Ref sig .tc) (h : b ∉ hostOps0_W) : W1 m ρ c (Proc.devRef .tc b) = W0 m ρ c (Proc.devRef .tc b) :=
  StableHlo.after_of_writes_sub hostOps0 _ hostOps0_writes h
theorem W3_keep (b : Ref sig .tc) (h : b ∉ hostOps1_W) : W3 m ρ c (Proc.devRef .tc b) = W2 m ρ c (Proc.devRef .tc b) :=
  StableHlo.after_of_writes_sub hostOps1 _ hostOps1_writes h
theorem W5_keep (b : Ref sig .tc) (h : b ∉ hostOps2_W) : W5 m ρ c (Proc.devRef .tc b) = W4 m ρ c (Proc.devRef .tc b) :=
  StableHlo.after_of_writes_sub hostOps2 _ hostOps2_writes h
theorem W7_keep (b : Ref sig .tc) (h : b ∉ hostOps3_W) : W7 m ρ c (Proc.devRef .tc b) = W6 m ρ c (Proc.devRef .tc b) :=
  StableHlo.after_of_writes_sub hostOps3 _ hostOps3_writes h

/-- An argument is still as launched when region 0 has run: no stretch and no region has written it. -/
theorem W2_arg (b : Ref sig .tc) (h0 : b ∉ hostOps0_W) (a0 : ∀ w, Pipeline.arrRef spec0 w ≠ b) :
    W2 m ρ c (Proc.devRef .tc b) = m ((c : Thread nD τ).loc b) :=
  (W2_of_ne m ρ c b a0).trans (W1_keep m ρ c b h0)
/-- … when region 1 has run. -/
theorem W4_arg (b : Ref sig .tc) (h0 : b ∉ hostOps0_W) (h1 : b ∉ hostOps1_W) (a0 : ∀ w, Pipeline.arrRef spec0 w ≠ b) (a1 : ∀ w, Pipeline.arrRef spec1 w ≠ b) :
    W4 m ρ c (Proc.devRef .tc b) = m ((c : Thread nD τ).loc b) :=
  (W4_of_ne m ρ c b a1).trans ((W3_keep m ρ c b h1).trans (W2_arg m ρ c b h0 a0))
/-- … when region 2 has run. -/
theorem W6_arg (b : Ref sig .tc) (h0 : b ∉ hostOps0_W) (h1 : b ∉ hostOps1_W) (h2 : b ∉ hostOps2_W) (a0 : ∀ w, Pipeline.arrRef spec0 w ≠ b) (a1 : ∀ w, Pipeline.arrRef spec1 w ≠ b) (a2 : ∀ w, Pipeline.arrRef spec2 w ≠ b) :
    W6 m ρ c (Proc.devRef .tc b) = m ((c : Thread nD τ).loc b) :=
  (W6_of_ne m ρ c b a2).trans ((W5_keep m ρ c b h2).trans (W4_arg m ρ c b h0 h1 a0 a1))

/-! ## Pass 0 -/

/-- The input as pass 0 and pass 1 read it: x with its channel axis last, one row per position, [32768, 256]. -/
theorem val_x :
    (W1 m ρ c (Proc.devRef .tc main_call0_v1) : S32768x256.Idx → EReal)
      = shapeCast S32768x256 (transpose S32x32x32x256 [0, 2, 3, 1] (m ((c : Thread nD τ).loc main_arg0) : S32x256x32x32.Idx → EReal)
          transposes_S32x256x32x32_S32x32x32x256_0_2_3_1) shapeCasts_S32x32x32x256_S32768x256 :=
  W1_v1 m ρ c

/-- The statistics pass 0 leaves. -/
theorem val_st0 :
    (W2 m ρ c (Proc.devRef .tc main_call0_v3) : S32x2x256.Idx → EReal)
      = G0_1 (F := Ideal) (shapeCast S32768x256 (transpose S32x32x32x256 [0, 2, 3, 1] (m ((c : Thread nD τ).loc main_arg0) : S32x256x32x32.Idx → EReal)
          transposes_S32x256x32x32_S32x32x32x256_0_2_3_1) shapeCasts_S32x32x32x256_S32768x256) :=
  (W2_arr m ρ c 1).trans ((final0_1 (T1 m ρ) c).trans (congrArg (G0_1 (F := Ideal)) (val_x m ρ c)))

/-- The scale and shift rows of the first normalisation. -/
theorem val_sc1 :
    (W3 m ρ c (Proc.devRef .tc main_call0_v23) : S1x256.Idx → EReal)
      = bnScale256 (W2 m ρ c (Proc.devRef .tc main_call0_v3)) (m ((c : Thread nD τ).loc main_arg1)) :=
  (W3_v23 m ρ c).trans (congrArg (bnScale256 (W2 m ρ c (Proc.devRef .tc main_call0_v3))) (W2_arg m ρ c main_arg1 (by decide) (by decide)))
theorem val_sh1 :
    (W3 m ρ c (Proc.devRef .tc main_call0_v24) : S1x256.Idx → EReal)
      = bnShift256 (W2 m ρ c (Proc.devRef .tc main_call0_v3)) (m ((c : Thread nD τ).loc main_arg1)) (m ((c : Thread nD τ).loc main_arg2)) :=
  (W3_v24 m ρ c).trans (congrArg₂ (bnShift256 (W2 m ρ c (Proc.devRef .tc main_call0_v3))) (W2_arg m ρ c main_arg1 (by decide) (by decide)) (W2_arg m ρ c main_arg2 (by decide) (by decide)))

/-! ## The values by name -/

/-- x with its channel axis last, one row per position: [32768, 256]. -/
def xR : S32768x256.Idx → EReal :=
  shapeCast S32768x256 (transpose S32x32x32x256 [0, 2, 3, 1] (m ((c : Thread nD τ).loc main_arg0) : S32x256x32x32.Idx → EReal)
    transposes_S32x256x32x32_S32x32x32x256_0_2_3_1) shapeCasts_S32x32x32x256_S32768x256
/-- The per-image statistics of x. -/
def st0R : S32x2x256.Idx → EReal := G0_1 (F := Ideal) (xR m c)
/-- The first normalisation's scale and shift rows. -/
def sc1R : S1x256.Idx → EReal := bnScale256 (st0R m c) (m ((c : Thread nD τ).loc main_arg1))
def sh1R : S1x256.Idx → EReal := bnShift256 (st0R m c) (m ((c : Thread nD τ).loc main_arg1)) (m ((c : Thread nD τ).loc main_arg2))
/-- The weights as the regions read them: the arguments themselves, the 3 × 3 weights re-read as [1152, 128]. -/
def w1R : S256x128.Idx → EReal := m ((c : Thread nD τ).loc main_arg7)
def wscR : S256x512.Idx → EReal := m ((c : Thread nD τ).loc main_arg10)
def w2R : S1152x128.Idx → EReal :=
  shapeCast S1152x128 (m ((c : Thread nD τ).loc main_arg8) : S3x3x128x128.Idx → EReal) shapeCasts_S3x3x128x128_S1152x128
def w3R : S128x512.Idx → EReal := m ((c : Thread nD τ).loc main_arg9)
/-- Pass 1's three results. -/
def h1R : S32768x128.Idx → EReal := G1_5 (F := Ideal) (xR m c) (sc1R m c) (sh1R m c) (w1R m c) (wscR m c)
def scutR : S8192x512.Idx → EReal := G1_6 (F := Ideal) (xR m c) (sc1R m c) (sh1R m c) (w1R m c) (wscR m c)
def st1R : S32x2x128.Idx → EReal := G1_7 (F := Ideal) (xR m c) (sc1R m c) (sh1R m c) (w1R m c) (wscR m c)
/-- The second normalisation's rows. -/
def sc2R : S1x128.Idx → EReal := bnScale128 0x47000000#32 (st1R m c) (m ((c : Thread nD τ).loc main_arg3))
def sh2R : S1x128.Idx → EReal := bnShift128 0x47000000#32 (st1R m c) (m ((c : Thread nD τ).loc main_arg3)) (m ((c : Thread nD τ).loc main_arg4))
/-- Pass 2's two results. -/
def h2R : S8192x128.Idx → EReal := G2_4 (F := Ideal) (h1R m c) (sc2R m c) (sh2R m c) (w2R m c)
def st2R : S32x2x128.Idx → EReal := G2_5 (F := Ideal) (h1R m c) (sc2R m c) (sh2R m c) (w2R m c)
/-- The third normalisation's rows. -/
def sc3R : S1x128.Idx → EReal := bnScale128 0x46000000#32 (st2R m c) (m ((c : Thread nD τ).loc main_arg5))
def sh3R : S1x128.Idx → EReal := bnShift128 0x46000000#32 (st2R m c) (m ((c : Thread nD τ).loc main_arg5)) (m ((c : Thread nD τ).loc main_arg6))
/-- The result. -/
def outR : S32x512x16x16.Idx → EReal := Cert.Spec.out (h2R m c) (scutR m c) (sc3R m c) (sh3R m c) (w3R m c)

/-! ## Region 1's inputs and results -/

theorem at3_x : (T3 m ρ c main_call0_v1 : S32768x256.Idx → EReal) = xR m c :=
  (W3_keep m ρ c main_call0_v1 (by decide)).trans ((W2_in m ρ c 0 rfl).trans (W1_v1 m ρ c))
theorem at2_st0 : (W2 m ρ c (Proc.devRef .tc main_call0_v3) : S32x2x256.Idx → EReal) = st0R m c :=
  val_st0 m ρ c
theorem at3_sc : (T3 m ρ c main_call0_v23 : S1x256.Idx → EReal) = sc1R m c := by
  refine (val_sc1 m ρ c).trans ?_
  unfold sc1R
  rw [at2_st0 m ρ c]
theorem at3_sh : (T3 m ρ c main_call0_v24 : S1x256.Idx → EReal) = sh1R m c := by
  refine (val_sh1 m ρ c).trans ?_
  unfold sh1R
  rw [at2_st0 m ρ c]
/-- The weights of pass 1 are arguments no stretch and no earlier region writes. -/
theorem at3_w1 : (T3 m ρ c main_arg7 : S256x128.Idx → EReal) = w1R m c :=
  (W3_keep m ρ c main_arg7 (by decide)).trans (W2_arg m ρ c main_arg7 (by decide) (by decide))
theorem at3_wsc : (T3 m ρ c main_arg10 : S256x512.Idx → EReal) = wscR m c :=
  (W3_keep m ρ c main_arg10 (by decide)).trans (W2_arg m ρ c main_arg10 (by decide) (by decide))

theorem at4_h1 : (W4 m ρ c (Proc.devRef .tc main_call0_v25_0) : S32768x128.Idx → EReal) = h1R m c := by
  refine (W4_arr m ρ c 5).trans ((final1_5 (T3 m ρ) c).trans ?_)
  rw [at3_x m ρ c, at3_sc m ρ c, at3_sh m ρ c, at3_w1 m ρ c, at3_wsc m ρ c]; rfl
theorem at4_scut : (W4 m ρ c (Proc.devRef .tc main_call0_v25_1) : S8192x512.Idx → EReal) = scutR m c := by
  refine (W4_arr m ρ c 6).trans ((final1_6 (T3 m ρ) c).trans ?_)
  rw [at3_x m ρ c, at3_sc m ρ c, at3_sh m ρ c, at3_w1 m ρ c, at3_wsc m ρ c]; rfl
theorem at4_st1 : (W4 m ρ c (Proc.devRef .tc main_call0_v25_2) : S32x2x128.Idx → EReal) = st1R m c := by
  refine (W4_arr m ρ c 7).trans ((final1_7 (T3 m ρ) c).trans ?_)
  rw [at3_x m ρ c, at3_sc m ρ c, at3_sh m ρ c, at3_w1 m ρ c, at3_wsc m ρ c]; rfl

/-! ## Region 2's inputs and results -/

theorem at5_h1 : (T5 m ρ c main_call0_v25_0 : S32768x128.Idx → EReal) = h1R m c :=
  (W5_keep m ρ c main_call0_v25_0 (by decide)).trans (at4_h1 m ρ c)
theorem at5_sc : (T5 m ρ c main_call0_v46 : S1x128.Idx → EReal) = sc2R m c := by
  refine (W5_v46 m ρ c).trans ?_
  unfold sc2R
  rw [at4_st1 m ρ c, W4_arg m ρ c main_arg3 (by decide) (by decide) (by decide) (by decide)]
theorem at5_sh : (T5 m ρ c main_call0_v47 : S1x128.Idx → EReal) = sh2R m c := by
  refine (W5_v47 m ρ c).trans ?_
  unfold sh2R
  rw [at4_st1 m ρ c, W4_arg m ρ c main_arg3 (by decide) (by decide) (by decide) (by decide), W4_arg m ρ c main_arg4 (by decide) (by decide) (by decide) (by decide)]
theorem at5_w2 : (T5 m ρ c main_call0_v2 : S1152x128.Idx → EReal) = w2R m c :=
  (W5_keep m ρ c main_call0_v2 (by decide)).trans ((W4_of_ne m ρ c main_call0_v2 (by decide)).trans ((W3_keep m ρ c main_call0_v2 (by decide)).trans
    ((W2_of_ne m ρ c main_call0_v2 (by decide)).trans (W1_v2 m ρ c))))

theorem at6_h2 : (W6 m ρ c (Proc.devRef .tc main_call0_v48_0) : S8192x128.Idx → EReal) = h2R m c := by
  refine (W6_arr m ρ c 4).trans ((final2_4 (T5 m ρ) c).trans ?_)
  rw [at5_h1 m ρ c, at5_sc m ρ c, at5_sh m ρ c, at5_w2 m ρ c]; rfl
theorem at6_st2 : (W6 m ρ c (Proc.devRef .tc main_call0_v48_1) : S32x2x128.Idx → EReal) = st2R m c := by
  refine (W6_arr m ρ c 5).trans ((final2_5 (T5 m ρ) c).trans ?_)
  rw [at5_h1 m ρ c, at5_sc m ρ c, at5_sh m ρ c, at5_w2 m ρ c]; rfl

/-! ## Region 3's inputs and the result -/

theorem at7_h2 : (T7 m ρ c main_call0_v48_0 : S8192x128.Idx → EReal) = h2R m c :=
  (W7_keep m ρ c main_call0_v48_0 (by decide)).trans (at6_h2 m ρ c)
/-- The shortcut as region 3 reads it: pass 1's [8192, 512] result re-read as [512, 8192] by the stretch before
    region 2, and left alone since. -/
theorem at7_scut : (T7 m ρ c main_call0_v26 : S512x8192.Idx → EReal)
    = shapeCast S512x8192 (scutR m c) shapeCasts_S8192x512_S512x8192 :=
  (W7_keep m ρ c main_call0_v26 (by decide)).trans ((W6_of_ne m ρ c main_call0_v26 (by decide)).trans
    ((W5_v26 m ρ c).trans (congrArg (fun s : S8192x512.Idx → EReal => shapeCast S512x8192 s shapeCasts_S8192x512_S512x8192) (at4_scut m ρ c))))
theorem at7_sc : (T7 m ρ c main_call0_v68 : S1x128.Idx → EReal) = sc3R m c := by
  refine (W7_v68 m ρ c).trans ?_
  unfold sc3R
  rw [at6_st2 m ρ c, W6_arg m ρ c main_arg5 (by decide) (by decide) (by decide) (by decide) (by decide) (by decide)]
theorem at7_sh : (T7 m ρ c main_call0_v69 : S1x128.Idx → EReal) = sh3R m c := by
  refine (W7_v69 m ρ c).trans ?_
  unfold sh3R
  rw [at6_st2 m ρ c, W6_arg m ρ c main_arg5 (by decide) (by decide) (by decide) (by decide) (by decide) (by decide),
    W6_arg m ρ c main_arg6 (by decide) (by decide) (by decide) (by decide) (by decide) (by decide)]
theorem at7_w3 : (T7 m ρ c main_arg9 : S128x512.Idx → EReal) = w3R m c :=
  (W7_keep m ρ c main_arg9 (by decide)).trans (W6_arg m ρ c main_arg9 (by decide) (by decide) (by decide) (by decide) (by decide) (by decide))

/-- THE RESULT of the reference program, as one function of its arguments. -/
theorem at9_out : (W9 m ρ c (Proc.devRef .tc main_v0) : S32x512x16x16.Idx → EReal) = outR m c := by
  refine (W9_v0 m ρ c).trans ?_
  rw [show (W8 m ρ c (Proc.devRef .tc main_call0_v70) : S512x8192.Idx → EReal) = (dat3 (T7 m ρ) c).arrAt 5 cfg3.N from W8_arr m ρ c 5]
  refine (out_eq (T7 m ρ) c (scutR m c) (at7_scut m ρ c)).trans ?_
  unfold outR
  rw [at7_h2 m ρ c, at7_sc m ρ c, at7_sh m ρ c, at7_w3 m ρ c]

end Cert.ReferenceIdeal.Frame

end
-- ==== Proof.Bridge.Pay.lean ====
/-
  The two programs' per-image payloads of passes 0, 1 and 2 are the same functions at the exact
  (extended-real) instance.

  The kernel reads an image's block channel-major, x : [256 channels, 1024 pixels], and transposes it
  inside the body; the reference reads the block already pixel-major, xᵀ : [1024, 256]. At the exact
  instance a narrowing or widening of the float format is the identity, a zero word of either format is
  the real number 0, and a reshape to the same shape is the identity, so once the transposed block is
  named as the reference's argument the two bodies apply the same operations.

  Correspondence (kernel payload ↔ reference payload), all as functions of the same loaded blocks:

  pass 0   k0_pay1 x                      ↔ k0_pay1 xᵀ         [Σ_p x ; Σ_p x²] per channel: a sum along the lanes
                                                                of x is the sum along the rows of xᵀ
  pass 1   k1_pay2 x s t                  ↔ k1_pay1 xᵀ s t     a = max (xᵀ·s + t) 0
           k1_pay3 / k1_pay5 x s t w₁     ↔ k1_pay2 xᵀ s t w₁  h₁ = a · w₁  (k1_pay5 is k1_pay3 narrowed)
           k1_pay4 x s t w₁               ↔ k1_pay3 xᵀ s t w₁  [Σ h₁ ; Σ h₁²]
           k1_pay1 (k1_pay6 x s t w_sc)   ↔ k1_pay4 xᵀ s t w_sc   the even-row, even-column pixels of a, times w_sc
  pass 2   k2_pay1, k2_pay3, k2_pay4      ↔ k2_pay3, k2_pay5, k2_pay6   the zero row [1, 34, 128] of the border
           k2_pay2, k2_pay5, k2_pay6      ↔ k2_pay4, k2_pay7, k2_pay8   the zero column [34, 1, 128] of the border
           k2_pay7 h s t, k2_pay8 (k2_pay7 h s t) ↔ k2_pay9 h s t       max (h·s + t) 0 as [32, 32, 128]
           k2_pay9 … k2_pay13                     ↔ k2_pay10 … k2_pay14 a window's even rows and even columns, as [256, 128]
           k2_pay14 (reshaped to [256, 128])      ↔ k2_pay15            the same, the kernel's value cut before the two reshapes
           k2_pay15 / k2_pay17                    ↔ k2_pay1             h₂ = [nine taps side by side] · w₂ (k2_pay17 is k2_pay15 narrowed)
           k2_pay16                               ↔ k2_pay2             [Σ h₂ ; Σ h₂²]
-/
import proofs.«130251_g2000005708365749_pallasbulk_1193_2_alg».proof.Proof.Gen.KernelIdeal.Skeleton
import proofs.«130251_g2000005708365749_pallasbulk_1193_2_alg».proof.Proof.Gen.ReferenceIdeal.Skeleton
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.Bridge

open Idealize.ShloMosaic Idealize.ShloMosaic.ValueIdx
open scoped BigOperators

/-! ## Format changes and zero words at the exact instance -/

/-- Narrowing a vector's float format changes no element. -/
theorem truncf_ideal {s : Shape} {φ ψ : FTy} (x : FVec Ideal s φ) (h : ψ.bits < φ.bits) :
    (truncf ψ x h : FVec Ideal s ψ) = x := rfl

/-- Widening a vector's float format changes no element. -/
theorem extf_ideal {s : Shape} {φ ψ : FTy} (x : FVec Ideal s φ) (h : φ.bits < ψ.bits) :
    (extf ψ x h : FVec Ideal s ψ) = x := rfl

/-- The 32-bit zero word is the real number 0 … -/
theorem scalar_zero_f32 : (Scalar.ofBits .f32 0x00000000#32 : Ideal .f32) = (0 : EReal) := Ideal.ofBits_zero_f32

/-- … and so is the 16-bit one. -/
theorem scalar_zero_bf16 : (Scalar.ofBits .bf16 0x0000#16 : Ideal .bf16) = (0 : EReal) := Ideal.ofBits_zero_bf16

/-- An image's block in pixel-major layout: the transpose of its channel-major block. -/
abbrev xT (v0 : Vec Ideal Cert.KernelIdeal.S256x1024 .f32) : Vec Ideal Cert.ReferenceIdeal.S1024x256 .f32 :=
  transpose Cert.ReferenceIdeal.S1024x256 [1, 0] v0 Cert.KernelIdeal.Gen.transposes_S256x1024_p1_0_S1024x256

/-! ## Pass 0 -/

/-- Transposing commutes with the elementwise product. -/
theorem transpose_mulf {s t : Shape} {φ : FTy} (perm : List (Fin s.rank)) (a b : FVec Ideal s φ) (h : s.Transposes perm t) :
    (transpose t perm (mulf a b) h : FVec Ideal t φ) = mulf (transpose t perm a h) (transpose t perm b h) := rfl

/-- The sum of a [256, 1024] matrix along its lanes: per channel, over the pixels. -/
def laneSum (u : FVec Ideal Cert.KernelIdeal.S256x1024 .f32) : FVec Ideal Cert.KernelIdeal.S256 .f32 :=
  multiReduction .add [1] Cert.KernelIdeal.S256 u 0x00000000#32 Cert.KernelIdeal.Gen.reduces_S256x1024_S256 (.inl rfl) rfl

/-- The sum of a [1024, 256] matrix along its rows: per channel, over the pixels. -/
def rowSum (u : FVec Ideal Cert.ReferenceIdeal.S1024x256 .f32) : FVec Ideal Cert.ReferenceIdeal.S256 .f32 :=
  multiReduction .add [0] Cert.ReferenceIdeal.S256 u 0x00000000#32 Cert.ReferenceIdeal.Gen.reduces_S1024x256_S256 (.inl rfl) rfl

/-- Two length-256 vectors stacked as the rows of a [1, 2, 256] block. -/
def stack256 (a b : FVec Ideal Cert.KernelIdeal.S256 .f32) : FVec Ideal Cert.KernelIdeal.S1x2x256 .f32 :=
  shapeCast Cert.KernelIdeal.S1x2x256
    (concatenate Cert.KernelIdeal.S2x256 0
      [⟨Cert.KernelIdeal.S1x256, shapeCast Cert.KernelIdeal.S1x256 a Cert.KernelIdeal.Gen.shapeCasts_S256_S1x256⟩,
       ⟨Cert.KernelIdeal.S1x256, shapeCast Cert.KernelIdeal.S1x256 b Cert.KernelIdeal.Gen.shapeCasts_S256_S1x256⟩]
      Cert.KernelIdeal.Gen.concatenates_S1x256_S1x256_S2x256_d0)
    Cert.KernelIdeal.Gen.shapeCasts_S2x256_S1x2x256

/-- The sum along the lanes of a [256, 1024] matrix is, channel by channel, the sum along the rows of its
    transpose: both are the sum over the 1024 pixels of the same elements. -/
theorem laneSum_eq_rowSum_transpose (u : FVec Ideal Cert.KernelIdeal.S256x1024 .f32) :
    laneSum u = rowSum (transpose Cert.ReferenceIdeal.S1024x256 [1, 0] u Cert.KernelIdeal.Gen.transposes_S256x1024_p1_0_S1024x256) := by
  funext j
  unfold laneSum rowSum
  refine (Ideal.multiReduction_add_single u _ _ _ _ j).trans ?_
  refine Eq.trans ?_ (Ideal.multiReduction_add_single _ _ _ _ _ j).symm
  refine Finset.sum_congr rfl fun k _ => ?_
  exact (transpose_apply _ u _ _ _ fun b => match b with | ⟨0, _⟩ => rfl | ⟨1, _⟩ => rfl).symm

/-- The kernel's pass-0 payload: [Σ x ; Σ x²] along the lanes. -/
theorem k0_pay1_kernel (v0 : Vec Ideal Cert.KernelIdeal.S256x1024 .f32) :
    Cert.KernelIdeal.Gen.k0_pay1 (F := Ideal) v0
      = stack256 (laneSum (shapeCast Cert.KernelIdeal.S256x1024 v0 Cert.KernelIdeal.Gen.shapeCasts_S256x1024_S256x1024))
          (laneSum (mulf (shapeCast Cert.KernelIdeal.S256x1024 v0 Cert.KernelIdeal.Gen.shapeCasts_S256x1024_S256x1024)
            (shapeCast Cert.KernelIdeal.S256x1024 v0 Cert.KernelIdeal.Gen.shapeCasts_S256x1024_S256x1024))) := rfl

/-- The reference's pass-0 payload: [Σ xᵀ ; Σ (xᵀ)²] along the rows. -/
theorem k0_pay1_reference (x : Vec Ideal Cert.ReferenceIdeal.S1024x256 .f32) :
    Cert.ReferenceIdeal.Gen.k0_pay1 (F := Ideal) x
      = stack256 (rowSum (shapeCast Cert.ReferenceIdeal.S1024x256 x Cert.ReferenceIdeal.Gen.shapeCasts_S1024x256_S1024x256))
          (rowSum (mulf (shapeCast Cert.ReferenceIdeal.S1024x256 x Cert.ReferenceIdeal.Gen.shapeCasts_S1024x256_S1024x256)
            (shapeCast Cert.ReferenceIdeal.S1024x256 x Cert.ReferenceIdeal.Gen.shapeCasts_S1024x256_S1024x256))) := rfl

theorem pay0 (v0 : Vec Ideal Cert.KernelIdeal.S256x1024 .f32) :
    Cert.KernelIdeal.Gen.k0_pay1 (F := Ideal) v0 = Cert.ReferenceIdeal.Gen.k0_pay1 (F := Ideal) (xT v0) := by
  rw [k0_pay1_kernel, k0_pay1_reference]
  simp only [shapeCast_self]
  rw [laneSum_eq_rowSum_transpose v0, laneSum_eq_rowSum_transpose (mulf v0 v0), transpose_mulf]

/-! ## Pass 1 -/

theorem pay1_act (v0 : Vec Ideal Cert.KernelIdeal.S256x1024 .f32) (v3 v7 : Vec Ideal Cert.KernelIdeal.S1x256 .f32) :
    Cert.KernelIdeal.Gen.k1_pay2 (F := Ideal) v0 v3 v7 = Cert.ReferenceIdeal.Gen.k1_pay1 (F := Ideal) (xT v0) v3 v7 := by
  unfold Cert.KernelIdeal.Gen.k1_pay2 Cert.ReferenceIdeal.Gen.k1_pay1
  simp only [shapeCast_self, truncf_ideal]

theorem pay1_h1_f32 (v0 : Vec Ideal Cert.KernelIdeal.S256x1024 .f32) (v3 v7 : Vec Ideal Cert.KernelIdeal.S1x256 .f32)
    (w1 : Vec Ideal Cert.KernelIdeal.S256x128 .bf16) :
    Cert.KernelIdeal.Gen.k1_pay3 (F := Ideal) v0 v3 v7 w1 = Cert.ReferenceIdeal.Gen.k1_pay2 (F := Ideal) (xT v0) v3 v7 w1 := by
  unfold Cert.KernelIdeal.Gen.k1_pay3 Cert.ReferenceIdeal.Gen.k1_pay2
  simp only [shapeCast_self, pay1_act]
  rfl

theorem pay1_h1 (v0 : Vec Ideal Cert.KernelIdeal.S256x1024 .f32) (v3 v7 : Vec Ideal Cert.KernelIdeal.S1x256 .f32)
    (w1 : Vec Ideal Cert.KernelIdeal.S256x128 .bf16) :
    Cert.KernelIdeal.Gen.k1_pay5 (F := Ideal) v0 v3 v7 w1 = Cert.ReferenceIdeal.Gen.k1_pay2 (F := Ideal) (xT v0) v3 v7 w1 := by
  unfold Cert.KernelIdeal.Gen.k1_pay5
  simp only [truncf_ideal]
  exact pay1_h1_f32 v0 v3 v7 w1

/-- The sum of a [1024, 128] matrix along its rows. -/
def colSum1024 (u : FVec Ideal Cert.KernelIdeal.S1024x128 .f32) : FVec Ideal Cert.KernelIdeal.S128 .f32 :=
  multiReduction .add [0] Cert.KernelIdeal.S128 u 0x00000000#32 Cert.KernelIdeal.Gen.reduces_S1024x128_S128 (.inl rfl) rfl

/-- The sum of a [256, 128] matrix along its rows. -/
def colSum256 (u : FVec Ideal Cert.KernelIdeal.S256x128 .f32) : FVec Ideal Cert.KernelIdeal.S128 .f32 :=
  multiReduction .add [0] Cert.KernelIdeal.S128 u 0x00000000#32 Cert.KernelIdeal.Gen.reduces_S256x128_S128 (.inl rfl) rfl

/-- Two length-128 vectors stacked as the rows of a [1, 2, 128] block. -/
def stack128 (a b : FVec Ideal Cert.KernelIdeal.S128 .f32) : FVec Ideal Cert.KernelIdeal.S1x2x128 .f32 :=
  shapeCast Cert.KernelIdeal.S1x2x128
    (concatenate Cert.KernelIdeal.S2x128 0
      [⟨Cert.KernelIdeal.S1x128, shapeCast Cert.KernelIdeal.S1x128 a Cert.KernelIdeal.Gen.shapeCasts_S128_S1x128⟩,
       ⟨Cert.KernelIdeal.S1x128, shapeCast Cert.KernelIdeal.S1x128 b Cert.KernelIdeal.Gen.shapeCasts_S128_S1x128⟩]
      Cert.KernelIdeal.Gen.concatenates_S1x128_S1x128_S2x128_d0)
    Cert.KernelIdeal.Gen.shapeCasts_S2x128_S1x2x128

/-- The kernel's pass-1 statistics are [Σ h₁ ; Σ h₁²] of its h₁. -/
theorem k1_pay4_kernel (v0 : Vec Ideal Cert.KernelIdeal.S256x1024 .f32) (v3 v7 : Vec Ideal Cert.KernelIdeal.S1x256 .f32)
    (w1 : Vec Ideal Cert.KernelIdeal.S256x128 .bf16) :
    Cert.KernelIdeal.Gen.k1_pay4 (F := Ideal) v0 v3 v7 w1
      = stack128 (colSum1024 (Cert.KernelIdeal.Gen.k1_pay3 (F := Ideal) v0 v3 v7 w1))
          (colSum1024 (mulf (Cert.KernelIdeal.Gen.k1_pay3 (F := Ideal) v0 v3 v7 w1) (Cert.KernelIdeal.Gen.k1_pay3 (F := Ideal) v0 v3 v7 w1))) := rfl

/-- The reference's pass-1 statistics are [Σ h₁ ; Σ h₁²] of its h₁. -/
theorem k1_pay3_reference (x : Vec Ideal Cert.ReferenceIdeal.S1024x256 .f32) (v2 v6 : Vec Ideal Cert.ReferenceIdeal.S1x256 .f32)
    (w1 : Vec Ideal Cert.ReferenceIdeal.S256x128 .f32) :
    Cert.ReferenceIdeal.Gen.k1_pay3 (F := Ideal) x v2 v6 w1
      = stack128 (colSum1024 (Cert.ReferenceIdeal.Gen.k1_pay2 (F := Ideal) x v2 v6 w1))
          (colSum1024 (mulf (Cert.ReferenceIdeal.Gen.k1_pay2 (F := Ideal) x v2 v6 w1) (Cert.ReferenceIdeal.Gen.k1_pay2 (F := Ideal) x v2 v6 w1))) := rfl

theorem pay1_stats (v0 : Vec Ideal Cert.KernelIdeal.S256x1024 .f32) (v3 v7 : Vec Ideal Cert.KernelIdeal.S1x256 .f32)
    (w1 : Vec Ideal Cert.KernelIdeal.S256x128 .bf16) :
    Cert.KernelIdeal.Gen.k1_pay4 (F := Ideal) v0 v3 v7 w1 = Cert.ReferenceIdeal.Gen.k1_pay3 (F := Ideal) (xT v0) v3 v7 w1 := by
  rw [k1_pay4_kernel, pay1_h1_f32]
  exact (k1_pay3_reference (xT v0) v3 v7 w1).symm

theorem pay1_shortcut (v0 : Vec Ideal Cert.KernelIdeal.S256x1024 .f32) (v3 v7 : Vec Ideal Cert.KernelIdeal.S1x256 .f32)
    (wsc : Vec Ideal Cert.KernelIdeal.S256x512 .bf16) :
    Cert.KernelIdeal.Gen.k1_pay1 (F := Ideal) (Cert.KernelIdeal.Gen.k1_pay6 (F := Ideal) v0 v3 v7 wsc)
      = Cert.ReferenceIdeal.Gen.k1_pay4 (F := Ideal) (xT v0) v3 v7 wsc := by
  unfold Cert.KernelIdeal.Gen.k1_pay1 Cert.KernelIdeal.Gen.k1_pay6 Cert.ReferenceIdeal.Gen.k1_pay4
  simp only [shapeCast_self, truncf_ideal, pay1_act]
  rfl

/-! ## Pass 2 -/

theorem pay2_zrow : Cert.KernelIdeal.Gen.k2_pay1 (F := Ideal) = Cert.ReferenceIdeal.Gen.k2_pay3 (F := Ideal) := by
  unfold Cert.KernelIdeal.Gen.k2_pay1 Cert.ReferenceIdeal.Gen.k2_pay3
  simp only [scalar_zero_bf16, scalar_zero_f32]
theorem pay2_zcol : Cert.KernelIdeal.Gen.k2_pay2 (F := Ideal) = Cert.ReferenceIdeal.Gen.k2_pay4 (F := Ideal) := by
  unfold Cert.KernelIdeal.Gen.k2_pay2 Cert.ReferenceIdeal.Gen.k2_pay4
  simp only [scalar_zero_bf16, scalar_zero_f32]
theorem pay2_zrow_top : Cert.KernelIdeal.Gen.k2_pay3 (F := Ideal) = Cert.ReferenceIdeal.Gen.k2_pay5 (F := Ideal) := by
  unfold Cert.KernelIdeal.Gen.k2_pay3 Cert.ReferenceIdeal.Gen.k2_pay5
  simp only [shapeCast_self]
  exact pay2_zrow
theorem pay2_zrow_bot : Cert.KernelIdeal.Gen.k2_pay4 (F := Ideal) = Cert.ReferenceIdeal.Gen.k2_pay6 (F := Ideal) := by
  unfold Cert.KernelIdeal.Gen.k2_pay4 Cert.ReferenceIdeal.Gen.k2_pay6
  simp only [shapeCast_self]
  exact pay2_zrow
theorem pay2_zcol_left : Cert.KernelIdeal.Gen.k2_pay5 (F := Ideal) = Cert.ReferenceIdeal.Gen.k2_pay7 (F := Ideal) := by
  unfold Cert.KernelIdeal.Gen.k2_pay5 Cert.ReferenceIdeal.Gen.k2_pay7
  simp only [shapeCast_self]
  exact pay2_zcol
theorem pay2_zcol_right : Cert.KernelIdeal.Gen.k2_pay6 (F := Ideal) = Cert.ReferenceIdeal.Gen.k2_pay8 (F := Ideal) := by
  unfold Cert.KernelIdeal.Gen.k2_pay6 Cert.ReferenceIdeal.Gen.k2_pay8
  simp only [shapeCast_self]
  exact pay2_zcol

theorem pay2_act (h1 : Vec Ideal Cert.KernelIdeal.S1024x128 .bf16) (v3 v7 : Vec Ideal Cert.KernelIdeal.S1x128 .f32) :
    Cert.KernelIdeal.Gen.k2_pay7 (F := Ideal) h1 v3 v7 = Cert.ReferenceIdeal.Gen.k2_pay9 (F := Ideal) h1 v3 v7 := by
  unfold Cert.KernelIdeal.Gen.k2_pay7 Cert.ReferenceIdeal.Gen.k2_pay9
  simp only [shapeCast_self, truncf_ideal, extf_ideal]

theorem pay2_act_store (h1 : Vec Ideal Cert.KernelIdeal.S1024x128 .bf16) (v3 v7 : Vec Ideal Cert.KernelIdeal.S1x128 .f32) :
    Cert.KernelIdeal.Gen.k2_pay8 (F := Ideal) (Cert.KernelIdeal.Gen.k2_pay7 (F := Ideal) h1 v3 v7)
      = Cert.ReferenceIdeal.Gen.k2_pay9 (F := Ideal) h1 v3 v7 := by
  unfold Cert.KernelIdeal.Gen.k2_pay8
  simp only [shapeCast_self]
  exact pay2_act h1 v3 v7

theorem pay2_tap0 (v : Vec Ideal Cert.KernelIdeal.S32x32x128 .bf16) :
    Cert.KernelIdeal.Gen.k2_pay9 (F := Ideal) v = Cert.ReferenceIdeal.Gen.k2_pay10 (F := Ideal) v := rfl
theorem pay2_tap1 (v : Vec Ideal Cert.KernelIdeal.S32x32x128 .bf16) :
    Cert.KernelIdeal.Gen.k2_pay10 (F := Ideal) v = Cert.ReferenceIdeal.Gen.k2_pay11 (F := Ideal) v := rfl
theorem pay2_tap2 (v : Vec Ideal Cert.KernelIdeal.S32x32x128 .bf16) :
    Cert.KernelIdeal.Gen.k2_pay11 (F := Ideal) v = Cert.ReferenceIdeal.Gen.k2_pay12 (F := Ideal) v := rfl
theorem pay2_tap3 (v : Vec Ideal Cert.KernelIdeal.S32x32x128 .bf16) :
    Cert.KernelIdeal.Gen.k2_pay12 (F := Ideal) v = Cert.ReferenceIdeal.Gen.k2_pay13 (F := Ideal) v := rfl
theorem pay2_tap4 (v : Vec Ideal Cert.KernelIdeal.S32x32x128 .bf16) :
    Cert.KernelIdeal.Gen.k2_pay13 (F := Ideal) v = Cert.ReferenceIdeal.Gen.k2_pay14 (F := Ideal) v := rfl

/-- The kernel's sixth tap value stops before the two reshapes [16,1,16,128] → [16,16,128] → [256,128];
    they are the first two steps of the payload that consumes it. -/
abbrev tap5Flat (t5 : FVec Ideal Cert.KernelIdeal.S16x1x16x128 .bf16) : FVec Ideal Cert.KernelIdeal.S256x128 .bf16 :=
  shapeCast Cert.KernelIdeal.S256x128
    (shapeCast Cert.KernelIdeal.S16x16x128 t5 Cert.KernelIdeal.Gen.shapeCasts_S16x1x16x128_S16x16x128)
    Cert.KernelIdeal.Gen.shapeCasts_S16x16x128_S256x128

theorem pay2_tap5 (v : Vec Ideal Cert.KernelIdeal.S32x32x128 .bf16) :
    tap5Flat (Cert.KernelIdeal.Gen.k2_pay14 (F := Ideal) v) = Cert.ReferenceIdeal.Gen.k2_pay15 (F := Ideal) v := rfl

theorem pay2_h2_f32 (t0 t1 t2 t3 t4 : FVec Ideal Cert.KernelIdeal.S256x128 .bf16) (t5 : FVec Ideal Cert.KernelIdeal.S16x1x16x128 .bf16)
    (a b c : Vec Ideal Cert.KernelIdeal.S32x32x128 .bf16) (w2 : Vec Ideal Cert.KernelIdeal.S1152x128 .bf16) :
    Cert.KernelIdeal.Gen.k2_pay15 (F := Ideal) t0 t1 t2 t3 t4 t5 a b c w2
      = Cert.ReferenceIdeal.Gen.k2_pay1 (F := Ideal) t0 t1 t2 t3 t4 (tap5Flat t5) a b c w2 := by
  unfold Cert.KernelIdeal.Gen.k2_pay15 Cert.ReferenceIdeal.Gen.k2_pay1
  simp only [shapeCast_self]
  rfl

theorem pay2_h2 (t0 t1 t2 t3 t4 : FVec Ideal Cert.KernelIdeal.S256x128 .bf16) (t5 : FVec Ideal Cert.KernelIdeal.S16x1x16x128 .bf16)
    (a b c : Vec Ideal Cert.KernelIdeal.S32x32x128 .bf16) (w2 : Vec Ideal Cert.KernelIdeal.S1152x128 .bf16) :
    Cert.KernelIdeal.Gen.k2_pay17 (F := Ideal) t0 t1 t2 t3 t4 t5 a b c w2
      = Cert.ReferenceIdeal.Gen.k2_pay1 (F := Ideal) t0 t1 t2 t3 t4 (tap5Flat t5) a b c w2 := by
  unfold Cert.KernelIdeal.Gen.k2_pay17
  simp only [truncf_ideal]
  exact pay2_h2_f32 t0 t1 t2 t3 t4 t5 a b c w2

/-- The kernel's pass-2 statistics are [Σ h₂ ; Σ h₂²] of its h₂. -/
theorem k2_pay16_kernel (t0 t1 t2 t3 t4 : FVec Ideal Cert.KernelIdeal.S256x128 .bf16) (t5 : FVec Ideal Cert.KernelIdeal.S16x1x16x128 .bf16)
    (a b c : Vec Ideal Cert.KernelIdeal.S32x32x128 .bf16) (w2 : Vec Ideal Cert.KernelIdeal.S1152x128 .bf16) :
    Cert.KernelIdeal.Gen.k2_pay16 (F := Ideal) t0 t1 t2 t3 t4 t5 a b c w2
      = stack128 (colSum256 (Cert.KernelIdeal.Gen.k2_pay15 (F := Ideal) t0 t1 t2 t3 t4 t5 a b c w2))
          (colSum256 (mulf (Cert.KernelIdeal.Gen.k2_pay15 (F := Ideal) t0 t1 t2 t3 t4 t5 a b c w2)
            (Cert.KernelIdeal.Gen.k2_pay15 (F := Ideal) t0 t1 t2 t3 t4 t5 a b c w2))) := rfl

/-- The reference's pass-2 statistics are [Σ h₂ ; Σ h₂²] of its h₂. -/
theorem k2_pay2_reference (t0 t1 t2 t3 t4 t5 : FVec Ideal Cert.ReferenceIdeal.S256x128 .f32)
    (a b c : Vec Ideal Cert.ReferenceIdeal.S32x32x128 .f32) (w2 : Vec Ideal Cert.ReferenceIdeal.S1152x128 .f32) :
    Cert.ReferenceIdeal.Gen.k2_pay2 (F := Ideal) t0 t1 t2 t3 t4 t5 a b c w2
      = stack128 (colSum256 (Cert.ReferenceIdeal.Gen.k2_pay1 (F := Ideal) t0 t1 t2 t3 t4 t5 a b c w2))
          (colSum256 (mulf (Cert.ReferenceIdeal.Gen.k2_pay1 (F := Ideal) t0 t1 t2 t3 t4 t5 a b c w2)
            (Cert.ReferenceIdeal.Gen.k2_pay1 (F := Ideal) t0 t1 t2 t3 t4 t5 a b c w2))) := rfl

theorem pay2_stats (t0 t1 t2 t3 t4 : FVec Ideal Cert.KernelIdeal.S256x128 .bf16) (t5 : FVec Ideal Cert.KernelIdeal.S16x1x16x128 .bf16)
    (a b c : Vec Ideal Cert.KernelIdeal.S32x32x128 .bf16) (w2 : Vec Ideal Cert.KernelIdeal.S1152x128 .bf16) :
    Cert.KernelIdeal.Gen.k2_pay16 (F := Ideal) t0 t1 t2 t3 t4 t5 a b c w2
      = Cert.ReferenceIdeal.Gen.k2_pay2 (F := Ideal) t0 t1 t2 t3 t4 (tap5Flat t5) a b c w2 := by
  rw [k2_pay16_kernel, pay2_h2_f32]
  exact (k2_pay2_reference t0 t1 t2 t3 t4 (tap5Flat t5) a b c w2).symm

end Cert.Bridge

end
-- ==== Proof.Bridge.XLayout.lean ====
/-
  The two programs lay the same input x : [32 images, 256 channels, 32 rows, 32 columns] out differently
  on the host before the first two passes.

  The kernel's host reshapes it to [8192, 1024]: row n·256 + c holds channel c of image n, and column
  h·32 + w is the pixel (h, w). The reference's host first moves the channel axis last, [32, 32, 32, 256],
  and reshapes that to [32768, 256]: row n·1024 + h·32 + w is pixel (h, w) of image n, and the column is
  the channel.

  So for an image n, a pixel number p = h·32 + w below 1024 and a channel c, the reference's array at
  (n·1024 + p, c) and the kernel's array at (n·256 + c, p) are both x at (n, c, p / 32, p % 32): per image
  one array is the transpose of the other. A reshape reads the operand at the index with the same
  row-major position, and a transposition at the permuted index; what is left is arithmetic on positions.

  The shape facts are taken as hypotheses: they are propositions, so the statement applies to whichever
  proofs of them the programs carry.
-/
import proofs.«130251_g2000005708365749_pallasbulk_1193_2_alg».proof.KernelIdeal
import proofs.«130251_g2000005708365749_pallasbulk_1193_2_alg».proof.ReferenceIdeal
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx

variable {α : Type}

/-- The kernel's [8192, 1024] reshape of x read at (n·256 + c, h·32 + w) is x at (n, c, h, w): both have row-major
    position ((n·256 + c)·32 + h)·32 + w. -/
theorem x_kernel_layout (x : Cert.KernelIdeal.S32x256x32x32.Idx → α)
    (hK : Cert.KernelIdeal.S32x256x32x32.ShapeCasts Cert.KernelIdeal.S8192x1024)
    (n : Fin 32) (c : Fin 256) (h w : Fin 32) (r : Fin 8192) (q : Fin 1024)
    (hr : r.val = n.val * 256 + c.val) (hq : q.val = h.val * 32 + w.val) :
    shapeCast Cert.KernelIdeal.S8192x1024 x hK (ix2 r q) = x (ix4 n c h w) :=
  shapeCast_apply x hK _ _ (by
    rw [Shape.rowMajor_val_four, Shape.rowMajor_val_two]
    show ((n.val * 256 + c.val) * 32 + h.val) * 32 + w.val = r.val * 1024 + q.val
    omega)

/-- The reference's channel-last transposition of x read at (n, h, w, c) is x at (n, c, h, w). -/
theorem x_reference_transpose (x : Cert.ReferenceIdeal.S32x256x32x32.Idx → α)
    (hT : Cert.ReferenceIdeal.S32x256x32x32.Transposes [0, 2, 3, 1] Cert.ReferenceIdeal.S32x32x32x256)
    (n : Fin 32) (c : Fin 256) (h w : Fin 32) :
    transpose Cert.ReferenceIdeal.S32x32x32x256 [0, 2, 3, 1] x hT (ix4 n h w c) = x (ix4 n c h w) :=
  transpose_apply _ x hT _ _ fun b => match b with
    | ⟨0, _⟩ => rfl | ⟨1, _⟩ => rfl | ⟨2, _⟩ => rfl | ⟨3, _⟩ => rfl

/-- The reference's [32768, 256] reshape of the transposed array read at (n·1024 + h·32 + w, c) is x at
    (n, c, h, w): the row-major position of (n, h, w, c) in [32, 32, 32, 256] is ((n·32 + h)·32 + w)·256 + c. -/
theorem x_reference_layout (x : Cert.ReferenceIdeal.S32x256x32x32.Idx → α)
    (hT : Cert.ReferenceIdeal.S32x256x32x32.Transposes [0, 2, 3, 1] Cert.ReferenceIdeal.S32x32x32x256)
    (hR : Cert.ReferenceIdeal.S32x32x32x256.ShapeCasts Cert.ReferenceIdeal.S32768x256)
    (n : Fin 32) (c : Fin 256) (h w : Fin 32) (r : Fin 32768)
    (hr : r.val = n.val * 1024 + (h.val * 32 + w.val)) :
    shapeCast Cert.ReferenceIdeal.S32768x256 (transpose Cert.ReferenceIdeal.S32x32x32x256 [0, 2, 3, 1] x hT) hR (ix2 r c)
      = x (ix4 n c h w) := by
  rw [shapeCast_apply (transpose Cert.ReferenceIdeal.S32x32x32x256 [0, 2, 3, 1] x hT) hR (ix2 r c) (ix4 n h w c) (by
    rw [Shape.rowMajor_val_four, Shape.rowMajor_val_two]
    show ((n.val * 32 + h.val) * 32 + w.val) * 256 + c.val = r.val * 256 + c.val
    omega)]
  exact x_reference_transpose x hT n c h w

/-- THE TWO LAYOUTS OF x AGREE: image n's pixel p of channel c is entry (n·1024 + p, c) of the reference's array and
    entry (n·256 + c, p) of the kernel's; both are x at (n, c, p / 32, p % 32). -/
theorem x_layout (x : Cert.KernelIdeal.S32x256x32x32.Idx → α)
    (hT : Cert.ReferenceIdeal.S32x256x32x32.Transposes [0, 2, 3, 1] Cert.ReferenceIdeal.S32x32x32x256)
    (hR : Cert.ReferenceIdeal.S32x32x32x256.ShapeCasts Cert.ReferenceIdeal.S32768x256)
    (hK : Cert.KernelIdeal.S32x256x32x32.ShapeCasts Cert.KernelIdeal.S8192x1024)
    (n : Fin 32) (p : Fin 1024) (c : Fin 256) :
    shapeCast Cert.ReferenceIdeal.S32768x256 (transpose Cert.ReferenceIdeal.S32x32x32x256 [0, 2, 3, 1] x hT) hR
        (ix2 (⟨n.val * 1024 + p.val, by omega⟩ : Fin 32768) c)
      = shapeCast Cert.KernelIdeal.S8192x1024 x hK (ix2 (⟨n.val * 256 + c.val, by omega⟩ : Fin 8192) p) := by
  have hh : p.val / 32 < 32 := by omega
  have hw : p.val % 32 < 32 := by omega
  rw [x_reference_layout x hT hR n c ⟨p.val / 32, hh⟩ ⟨p.val % 32, hw⟩ _ (by show n.val * 1024 + p.val = n.val * 1024 + (p.val / 32 * 32 + p.val % 32); omega),
    x_kernel_layout x hK n c ⟨p.val / 32, hh⟩ ⟨p.val % 32, hw⟩ _ p rfl (by show p.val = p.val / 32 * 32 + p.val % 32; omega)]

/-- The same, as one value: both entries are x at (n, c, p / 32, p % 32). -/
theorem x_layout_kernel_eq (x : Cert.KernelIdeal.S32x256x32x32.Idx → α)
    (hK : Cert.KernelIdeal.S32x256x32x32.ShapeCasts Cert.KernelIdeal.S8192x1024)
    (n : Fin 32) (p : Fin 1024) (c : Fin 256) :
    shapeCast Cert.KernelIdeal.S8192x1024 x hK (ix2 (⟨n.val * 256 + c.val, by omega⟩ : Fin 8192) p)
      = x (ix4 n c (⟨p.val / 32, by omega⟩ : Fin 32) (⟨p.val % 32, by omega⟩ : Fin 32)) :=
  x_kernel_layout x hK n c _ _ _ p rfl (by show p.val = p.val / 32 * 32 + p.val % 32; omega)

end Cert.Bridge

end
-- ==== Proof.Bridge.B0.lean ====
/-
  Pass 0 agrees: the kernel's per-image statistics of the channel-major input equal the reference's statistics of the
  pixel-major input, because image n's block on one side is the transpose of image n's block on the other and a sum
  over lanes of a matrix is the sum over sublanes of its transpose.
-/
import proofs.«130251_g2000005708365749_pallasbulk_1193_2_alg».proof.Proof.KI.V0
import proofs.«130251_g2000005708365749_pallasbulk_1193_2_alg».proof.Proof.RI.V0
import proofs.«130251_g2000005708365749_pallasbulk_1193_2_alg».proof.Proof.Bridge.Pay
import proofs.«130251_g2000005708365749_pallasbulk_1193_2_alg».proof.Proof.Bridge.XLayout

set_option maxRecDepth 16384

noncomputable section

namespace Cert.Bridge

open Idealize.ShloMosaic Idealize.ShloMosaic.ValueIdx

/-- The result row of pass 0: the kernel's of a block is the reference's of the transposed block. -/
theorem out0_bridge (v : Vec Ideal Cert.KernelIdeal.S256x1024 .f32) :
    Cert.KernelIdeal.Frame.out0_1 (F := Ideal) v = Cert.ReferenceIdeal.Frame.out0_1 (F := Ideal) (xT v) := by
  rw [Cert.KernelIdeal.Frame.out0_1_eq, Cert.ReferenceIdeal.Frame.out0_1_eq]
  exact pay0 v

/-- Image n's rows of the reference's pixel-major array are the transpose of image n's rows of the kernel's
    channel-major array. -/
theorem rows0_rel (x : Cert.KernelIdeal.S32x256x32x32.Idx → EReal)
    (hT : Cert.ReferenceIdeal.S32x256x32x32.Transposes [0, 2, 3, 1] Cert.ReferenceIdeal.S32x32x32x256)
    (hR : Cert.ReferenceIdeal.S32x32x32x256.ShapeCasts Cert.ReferenceIdeal.S32768x256)
    (hK : Cert.KernelIdeal.S32x256x32x32.ShapeCasts Cert.KernelIdeal.S8192x1024) (n : Fin 32) :
    Cert.ReferenceIdeal.Frame.rows0 (F := Ideal)
        (shapeCast Cert.ReferenceIdeal.S32768x256 (transpose Cert.ReferenceIdeal.S32x32x32x256 [0, 2, 3, 1] x hT) hR) n
      = xT (Cert.KernelIdeal.Frame.rows0 (F := Ideal) (shapeCast Cert.KernelIdeal.S8192x1024 x hK) n) := by
  funext (y : Cert.ReferenceIdeal.S1024x256.Idx)
  have hy0 : (y 0).val < 1024 := (y 0).isLt
  have hy1 : (y 1).val < 256 := (y 1).isLt
  refine Eq.trans ?_ (transpose_apply [1, 0] _ Cert.KernelIdeal.Gen.transposes_S256x1024_p1_0_S1024x256 y (ix2 ⟨(y 1).val, hy1⟩ ⟨(y 0).val, hy0⟩) ?_).symm
  · exact x_layout x hT hR hK n ⟨(y 0).val, hy0⟩ ⟨(y 1).val, hy1⟩
  · intro b
    match b with
    | ⟨0, _⟩ => rfl
    | ⟨1, _⟩ => rfl

/-- Pass 0's result array: the kernel's, of its layout of x, is the reference's, of its layout of x. -/
theorem G0_eq (x : Cert.KernelIdeal.S32x256x32x32.Idx → EReal)
    (hT : Cert.ReferenceIdeal.S32x256x32x32.Transposes [0, 2, 3, 1] Cert.ReferenceIdeal.S32x32x32x256)
    (hR : Cert.ReferenceIdeal.S32x32x32x256.ShapeCasts Cert.ReferenceIdeal.S32768x256)
    (hK : Cert.KernelIdeal.S32x256x32x32.ShapeCasts Cert.KernelIdeal.S8192x1024) :
    Cert.KernelIdeal.Frame.G0_1 (F := Ideal) (shapeCast Cert.KernelIdeal.S8192x1024 x hK)
      = Cert.ReferenceIdeal.Frame.G0_1 (F := Ideal)
        (shapeCast Cert.ReferenceIdeal.S32768x256 (transpose Cert.ReferenceIdeal.S32x32x32x256 [0, 2, 3, 1] x hT) hR) := by
  funext i
  unfold Cert.KernelIdeal.Frame.G0_1 Cert.ReferenceIdeal.Frame.G0_1
  rw [rows0_rel x hT hR hK ⟨(i 0).val, (i 0).isLt⟩]
  exact congrFun (out0_bridge _) _

end Cert.Bridge

end
-- ==== Proof.Bridge.B1.lean ====
/-
  Pass 1 agrees. At every image the kernel's block of the channel-major input is the transpose of the reference's
  block of the pixel-major input, the scale row, the shift row and the two weight matrices are the same on both
  sides, and at the exact instance the kernel's narrowings change nothing. So the three blocks a grid point
  writes — the product h₁ with the first weight matrix, the shortcut product and the statistics of h₁ — are
  the same on both sides, and hence so are the three result arrays, which the blocks tile.
-/
import proofs.«130251_g2000005708365749_pallasbulk_1193_2_alg».proof.Proof.KI.V1
import proofs.«130251_g2000005708365749_pallasbulk_1193_2_alg».proof.Proof.RI.V1
import proofs.«130251_g2000005708365749_pallasbulk_1193_2_alg».proof.Proof.Bridge.Pay
import proofs.«130251_g2000005708365749_pallasbulk_1193_2_alg».proof.Proof.Bridge.B0

set_option maxRecDepth 16384

noncomputable section

namespace Cert.Bridge

open Idealize.ShloMosaic Idealize.ShloMosaic.ValueIdx

/-! ## The blocks a point writes -/

/-- The h₁ block: the kernel's of a block is the reference's of the transposed block. -/
theorem out1_5_bridge (v : Vec Ideal Cert.KernelIdeal.S256x1024 .f32) (s t : Vec Ideal Cert.KernelIdeal.S1x256 .f32)
    (w1 : Vec Ideal Cert.KernelIdeal.S256x128 .bf16) (wsc : Vec Ideal Cert.KernelIdeal.S256x512 .bf16) :
    Cert.KernelIdeal.Frame.out1_5 (F := Ideal) v s t w1 wsc = Cert.ReferenceIdeal.Frame.out1_5 (F := Ideal) (xT v) s t w1 wsc := by
  rw [Cert.KernelIdeal.Frame.out1_5_eq, Cert.ReferenceIdeal.Frame.out1_5_eq]
  exact pay1_h1 v s t w1

/-- The shortcut block likewise. -/
theorem out1_6_bridge (v : Vec Ideal Cert.KernelIdeal.S256x1024 .f32) (s t : Vec Ideal Cert.KernelIdeal.S1x256 .f32)
    (w1 : Vec Ideal Cert.KernelIdeal.S256x128 .bf16) (wsc : Vec Ideal Cert.KernelIdeal.S256x512 .bf16) :
    Cert.KernelIdeal.Frame.out1_6 (F := Ideal) v s t w1 wsc = Cert.ReferenceIdeal.Frame.out1_6 (F := Ideal) (xT v) s t w1 wsc := by
  rw [Cert.KernelIdeal.Frame.out1_6_eq, Cert.ReferenceIdeal.Frame.out1_6_eq]
  exact pay1_shortcut v s t wsc

/-- The statistics row likewise. -/
theorem out1_7_bridge (v : Vec Ideal Cert.KernelIdeal.S256x1024 .f32) (s t : Vec Ideal Cert.KernelIdeal.S1x256 .f32)
    (w1 : Vec Ideal Cert.KernelIdeal.S256x128 .bf16) (wsc : Vec Ideal Cert.KernelIdeal.S256x512 .bf16) :
    Cert.KernelIdeal.Frame.out1_7 (F := Ideal) v s t w1 wsc = Cert.ReferenceIdeal.Frame.out1_7 (F := Ideal) (xT v) s t w1 wsc := by
  rw [Cert.KernelIdeal.Frame.out1_7_eq, Cert.ReferenceIdeal.Frame.out1_7_eq]
  exact pay1_stats v s t w1

/-! ## The result arrays, for input arrays related image by image -/

/-- The h₁ array: whenever image n's rows of the reference's activation array are the transpose of image n's
    rows of the kernel's, for every n, and the other four arrays are shared. -/
theorem G1_5_eq_of_rows (AK : Cert.KernelIdeal.S8192x1024.Idx → EReal) (AR : Cert.ReferenceIdeal.S32768x256.Idx → EReal)
    (hx : ∀ n : Fin 32, Cert.ReferenceIdeal.Frame.rows0 (F := Ideal) AR n = xT (Cert.KernelIdeal.Frame.rows0 (F := Ideal) AK n))
    (s t : Cert.KernelIdeal.S1x256.Idx → EReal) (w1 : Cert.KernelIdeal.S256x128.Idx → EReal) (wsc : Cert.KernelIdeal.S256x512.Idx → EReal) :
    Cert.KernelIdeal.Frame.G1_5 (F := Ideal) AK s t w1 wsc = Cert.ReferenceIdeal.Frame.G1_5 (F := Ideal) AR s t w1 wsc := by
  funext i
  unfold Cert.KernelIdeal.Frame.G1_5 Cert.ReferenceIdeal.Frame.G1_5
  rw [hx ⟨(i 0).val / 1024, by have h : (i 0).val < 32768 := (i 0).isLt; omega⟩]
  exact congrFun (out1_5_bridge _ s t w1 wsc) _

/-- The shortcut array likewise. -/
theorem G1_6_eq_of_rows (AK : Cert.KernelIdeal.S8192x1024.Idx → EReal) (AR : Cert.ReferenceIdeal.S32768x256.Idx → EReal)
    (hx : ∀ n : Fin 32, Cert.ReferenceIdeal.Frame.rows0 (F := Ideal) AR n = xT (Cert.KernelIdeal.Frame.rows0 (F := Ideal) AK n))
    (s t : Cert.KernelIdeal.S1x256.Idx → EReal) (w1 : Cert.KernelIdeal.S256x128.Idx → EReal) (wsc : Cert.KernelIdeal.S256x512.Idx → EReal) :
    Cert.KernelIdeal.Frame.G1_6 (F := Ideal) AK s t w1 wsc = Cert.ReferenceIdeal.Frame.G1_6 (F := Ideal) AR s t w1 wsc := by
  funext i
  unfold Cert.KernelIdeal.Frame.G1_6 Cert.ReferenceIdeal.Frame.G1_6
  rw [hx ⟨(i 0).val / 256, by have h : (i 0).val < 8192 := (i 0).isLt; omega⟩]
  exact congrFun (out1_6_bridge _ s t w1 wsc) _

/-- The statistics array likewise. -/
theorem G1_7_eq_of_rows (AK : Cert.KernelIdeal.S8192x1024.Idx → EReal) (AR : Cert.ReferenceIdeal.S32768x256.Idx → EReal)
    (hx : ∀ n : Fin 32, Cert.ReferenceIdeal.Frame.rows0 (F := Ideal) AR n = xT (Cert.KernelIdeal.Frame.rows0 (F := Ideal) AK n))
    (s t : Cert.KernelIdeal.S1x256.Idx → EReal) (w1 : Cert.KernelIdeal.S256x128.Idx → EReal) (wsc : Cert.KernelIdeal.S256x512.Idx → EReal) :
    Cert.KernelIdeal.Frame.G1_7 (F := Ideal) AK s t w1 wsc = Cert.ReferenceIdeal.Frame.G1_7 (F := Ideal) AR s t w1 wsc := by
  funext i
  unfold Cert.KernelIdeal.Frame.G1_7 Cert.ReferenceIdeal.Frame.G1_7
  rw [hx ⟨(i 0).val, (i 0).isLt⟩]
  exact congrFun (out1_7_bridge _ s t w1 wsc) _

/-! ## The result arrays, for the two layouts of one input and equal rows and weights -/

/-- The h₁ array of the kernel's five input arrays is the h₁ array of the reference's five, when the activation
    arrays are the two layouts of one x and the scale rows, the shift rows and the weight matrices are equal. -/
theorem G1_5_eq (x : Cert.KernelIdeal.S32x256x32x32.Idx → EReal)
    (hT : Cert.ReferenceIdeal.S32x256x32x32.Transposes [0, 2, 3, 1] Cert.ReferenceIdeal.S32x32x32x256)
    (hR : Cert.ReferenceIdeal.S32x32x32x256.ShapeCasts Cert.ReferenceIdeal.S32768x256)
    (hK : Cert.KernelIdeal.S32x256x32x32.ShapeCasts Cert.KernelIdeal.S8192x1024)
    (sK tK : Cert.KernelIdeal.S1x256.Idx → EReal) (w1K : Cert.KernelIdeal.S256x128.Idx → EReal) (wscK : Cert.KernelIdeal.S256x512.Idx → EReal)
    (sR tR : Cert.ReferenceIdeal.S1x256.Idx → EReal) (w1R : Cert.ReferenceIdeal.S256x128.Idx → EReal) (wscR : Cert.ReferenceIdeal.S256x512.Idx → EReal)
    (hs : sK = sR) (ht : tK = tR) (hw1 : w1K = w1R) (hwsc : wscK = wscR) :
    Cert.KernelIdeal.Frame.G1_5 (F := Ideal) (shapeCast Cert.KernelIdeal.S8192x1024 x hK) sK tK w1K wscK
      = Cert.ReferenceIdeal.Frame.G1_5 (F := Ideal) (shapeCast Cert.ReferenceIdeal.S32768x256 (transpose Cert.ReferenceIdeal.S32x32x32x256 [0, 2, 3, 1] x hT) hR) sR tR w1R wscR := by
  subst hs ht hw1 hwsc
  exact G1_5_eq_of_rows _ _ (rows0_rel x hT hR hK) sK tK w1K wscK

/-- The shortcut array likewise. -/
theorem G1_6_eq (x : Cert.KernelIdeal.S32x256x32x32.Idx → EReal)
    (hT : Cert.ReferenceIdeal.S32x256x32x32.Transposes [0, 2, 3, 1] Cert.ReferenceIdeal.S32x32x32x256)
    (hR : Cert.ReferenceIdeal.S32x32x32x256.ShapeCasts Cert.ReferenceIdeal.S32768x256)
    (hK : Cert.KernelIdeal.S32x256x32x32.ShapeCasts Cert.KernelIdeal.S8192x1024)
    (sK tK : Cert.KernelIdeal.S1x256.Idx → EReal) (w1K : Cert.KernelIdeal.S256x128.Idx → EReal) (wscK : Cert.KernelIdeal.S256x512.Idx → EReal)
    (sR tR : Cert.ReferenceIdeal.S1x256.Idx → EReal) (w1R : Cert.ReferenceIdeal.S256x128.Idx → EReal) (wscR : Cert.ReferenceIdeal.S256x512.Idx → EReal)
    (hs : sK = sR) (ht : tK = tR) (hw1 : w1K = w1R) (hwsc : wscK = wscR) :
    Cert.KernelIdeal.Frame.G1_6 (F := Ideal) (shapeCast Cert.KernelIdeal.S8192x1024 x hK) sK tK w1K wscK
      = Cert.ReferenceIdeal.Frame.G1_6 (F := Ideal) (shapeCast Cert.ReferenceIdeal.S32768x256 (transpose Cert.ReferenceIdeal.S32x32x32x256 [0, 2, 3, 1] x hT) hR) sR tR w1R wscR := by
  subst hs ht hw1 hwsc
  exact G1_6_eq_of_rows _ _ (rows0_rel x hT hR hK) sK tK w1K wscK

/-- The statistics array likewise. -/
theorem G1_7_eq (x : Cert.KernelIdeal.S32x256x32x32.Idx → EReal)
    (hT : Cert.ReferenceIdeal.S32x256x32x32.Transposes [0, 2, 3, 1] Cert.ReferenceIdeal.S32x32x32x256)
    (hR : Cert.ReferenceIdeal.S32x32x32x256.ShapeCasts Cert.ReferenceIdeal.S32768x256)
    (hK : Cert.KernelIdeal.S32x256x32x32.ShapeCasts Cert.KernelIdeal.S8192x1024)
    (sK tK : Cert.KernelIdeal.S1x256.Idx → EReal) (w1K : Cert.KernelIdeal.S256x128.Idx → EReal) (wscK : Cert.KernelIdeal.S256x512.Idx → EReal)
    (sR tR : Cert.ReferenceIdeal.S1x256.Idx → EReal) (w1R : Cert.ReferenceIdeal.S256x128.Idx → EReal) (wscR : Cert.ReferenceIdeal.S256x512.Idx → EReal)
    (hs : sK = sR) (ht : tK = tR) (hw1 : w1K = w1R) (hwsc : wscK = wscR) :
    Cert.KernelIdeal.Frame.G1_7 (F := Ideal) (shapeCast Cert.KernelIdeal.S8192x1024 x hK) sK tK w1K wscK
      = Cert.ReferenceIdeal.Frame.G1_7 (F := Ideal) (shapeCast Cert.ReferenceIdeal.S32768x256 (transpose Cert.ReferenceIdeal.S32x32x32x256 [0, 2, 3, 1] x hT) hR) sR tR w1R wscR := by
  subst hs ht hw1 hwsc
  exact G1_7_eq_of_rows _ _ (rows0_rel x hT hR hK) sK tK w1K wscK

end Cert.Bridge

end
-- ==== Proof.Bridge.B2out.lean ====
/-
  Pass 2's two output blocks are the same functions of the input blocks in the two programs, at the exact
  (extended-real) instance.

  Both programs compute, per image, the activation tile a = max (h₁·scale + shift) 0 read as 32 rows of 32 pixels,
  surround it with a border of zeros to a 34 × 34 tile, read the nine 32 × 32 windows of the padded tile a 3 × 3
  stencil needs, keep the even rows and even columns of each, lay the nine side by side and multiply by the weights;
  the second output is the column sums of the product and of its square. The kernel does this in bf16 and the
  reference in f32, and the kernel's value of the sixth window stops two reshapes earlier than the reference's; at the
  exact instance a change of float format is the identity and the two reshapes are the first steps of the payload
  that consumes the value, so each step of one program is the corresponding step of the other:

    the activation tile          act2        the payloads agree on the loaded blocks
    the padded tile              pad2        five pieces over the same rectangles, the border constants agree
    the product, its statistics  conv2_4/5   the window payloads agree one by one, then the product payloads

  The rectangles of the two programs are the same offsets and sizes over the same shapes; they differ only in which
  proof of the bounds they carry, so they are equal by definition.
-/
import proofs.«130251_g2000005708365749_pallasbulk_1193_2_alg».proof.Proof.KI.R2
import proofs.«130251_g2000005708365749_pallasbulk_1193_2_alg».proof.Proof.RI.R2
import proofs.«130251_g2000005708365749_pallasbulk_1193_2_alg».proof.Proof.Bridge.Pay

noncomputable section

namespace Cert.Bridge

open Idealize.ShloMosaic

/-- The activation tile: the kernel's rectified, normalised block (rounded and reshaped) is the reference's. -/
theorem act2_bridge (x0 : Vec Ideal Cert.KernelIdeal.S1024x128 .bf16) (x1 x2 : Vec Ideal Cert.KernelIdeal.S1x128 .f32) :
    Cert.KernelIdeal.Frame.act2 (F := Ideal) x0 x1 x2 = Cert.ReferenceIdeal.Frame.act2 (F := Ideal) x0 x1 x2 := by
  unfold Cert.KernelIdeal.Frame.act2 Cert.ReferenceIdeal.Frame.act2
  exact pay2_act_store _ _ _

/-- The padded tile: the same five pieces — the interior and the four border strips, whose constants agree. -/
theorem pad2_bridge (a : Vec Ideal Cert.KernelIdeal.S32x32x128 .bf16) :
    Cert.KernelIdeal.Frame.pad2 (F := Ideal) a = Cert.ReferenceIdeal.Frame.pad2 (F := Ideal) a := by
  unfold Cert.KernelIdeal.Frame.pad2 Cert.ReferenceIdeal.Frame.pad2
  rw [pay2_zcol_right, pay2_zcol_left, pay2_zrow_bot, pay2_zrow_top]
  rfl

/-- The product: the nine windows' payloads agree one by one (the sixth after its two reshapes), and then the
    product payloads agree. -/
theorem conv2_4_bridge (p : Vec Ideal Cert.KernelIdeal.S34x34x128 .bf16) (w : Vec Ideal Cert.KernelIdeal.S1152x128 .bf16) :
    Cert.KernelIdeal.Frame.conv2_4 (F := Ideal) p w = Cert.ReferenceIdeal.Frame.conv2_4 (F := Ideal) p w := by
  unfold Cert.KernelIdeal.Frame.conv2_4 Cert.ReferenceIdeal.Frame.conv2_4
  rw [pay2_h2, pay2_tap0, pay2_tap1, pay2_tap2, pay2_tap3, pay2_tap4, pay2_tap5]

/-- The statistics of the product, likewise. -/
theorem conv2_5_bridge (p : Vec Ideal Cert.KernelIdeal.S34x34x128 .bf16) (w : Vec Ideal Cert.KernelIdeal.S1152x128 .bf16) :
    Cert.KernelIdeal.Frame.conv2_5 (F := Ideal) p w = Cert.ReferenceIdeal.Frame.conv2_5 (F := Ideal) p w := by
  unfold Cert.KernelIdeal.Frame.conv2_5 Cert.ReferenceIdeal.Frame.conv2_5
  rw [pay2_stats, pay2_tap0, pay2_tap1, pay2_tap2, pay2_tap3, pay2_tap4, pay2_tap5]

/-- THE PRODUCT BLOCKS AGREE: what the two programs leave in the h₂ window is the same function of the four input
    blocks. -/
theorem out2_4_bridge (x0 : Vec Ideal Cert.KernelIdeal.S1024x128 .bf16) (x1 x2 : Vec Ideal Cert.KernelIdeal.S1x128 .f32)
    (x3 : Vec Ideal Cert.KernelIdeal.S1152x128 .bf16) :
    Cert.KernelIdeal.Frame.out2_4 (F := Ideal) x0 x1 x2 x3 = Cert.ReferenceIdeal.Frame.out2_4 (F := Ideal) x0 x1 x2 x3 := by
  unfold Cert.KernelIdeal.Frame.out2_4 Cert.ReferenceIdeal.Frame.out2_4
  rw [act2_bridge, pad2_bridge, conv2_4_bridge]
  rfl

/-- THE STATISTICS BLOCKS AGREE. -/
theorem out2_5_bridge (x0 : Vec Ideal Cert.KernelIdeal.S1024x128 .bf16) (x1 x2 : Vec Ideal Cert.KernelIdeal.S1x128 .f32)
    (x3 : Vec Ideal Cert.KernelIdeal.S1152x128 .bf16) :
    Cert.KernelIdeal.Frame.out2_5 (F := Ideal) x0 x1 x2 x3 = Cert.ReferenceIdeal.Frame.out2_5 (F := Ideal) x0 x1 x2 x3 := by
  unfold Cert.KernelIdeal.Frame.out2_5 Cert.ReferenceIdeal.Frame.out2_5
  rw [act2_bridge, pad2_bridge, conv2_5_bridge]

end Cert.Bridge

end
-- ==== Proof.Bridge.B2.lean ====
/-
  Pass 2 agrees: as functions of the same four input arrays, the two programs' convolution arrays are equal and so
  are their statistics arrays. Both programs cut the activation array into the same 32 blocks of 1024 rows, and on
  equal blocks their bodies leave equal output blocks; each result array is assembled from those blocks in the
  same way.
-/
import proofs.«130251_g2000005708365749_pallasbulk_1193_2_alg».proof.Proof.KI.V2
import proofs.«130251_g2000005708365749_pallasbulk_1193_2_alg».proof.Proof.RI.V2
import proofs.«130251_g2000005708365749_pallasbulk_1193_2_alg».proof.Proof.Bridge.B2out

set_option maxRecDepth 16384

noncomputable section

namespace Cert.Bridge

open Idealize.ShloMosaic Idealize.ShloMosaic.ValueIdx

/-- Image n's rows of the activation array are the same block in both programs. -/
theorem rows2_eq (A0 : Cert.KernelIdeal.S32768x128.Idx → EReal) (n : Fin 32) :
    Cert.KernelIdeal.Frame.rows2 (F := Ideal) A0 n = Cert.ReferenceIdeal.Frame.rows2 (F := Ideal) A0 n := rfl

/-- Pass 2's convolution array: the kernel's is the reference's. -/
theorem G2_4_eq (A0 : Cert.KernelIdeal.S32768x128.Idx → EReal) (A1 A2 : Cert.KernelIdeal.S1x128.Idx → EReal)
    (A3 : Cert.KernelIdeal.S1152x128.Idx → EReal) :
    Cert.KernelIdeal.Frame.G2_4 (F := Ideal) A0 A1 A2 A3 = Cert.ReferenceIdeal.Frame.G2_4 (F := Ideal) A0 A1 A2 A3 := by
  funext i
  unfold Cert.KernelIdeal.Frame.G2_4 Cert.ReferenceIdeal.Frame.G2_4
  rw [← rows2_eq A0]
  exact congrFun (out2_4_bridge _ A1 A2 A3) _

/-- Pass 2's statistics array: the kernel's is the reference's. -/
theorem G2_5_eq (A0 : Cert.KernelIdeal.S32768x128.Idx → EReal) (A1 A2 : Cert.KernelIdeal.S1x128.Idx → EReal)
    (A3 : Cert.KernelIdeal.S1152x128.Idx → EReal) :
    Cert.KernelIdeal.Frame.G2_5 (F := Ideal) A0 A1 A2 A3 = Cert.ReferenceIdeal.Frame.G2_5 (F := Ideal) A0 A1 A2 A3 := by
  funext i
  unfold Cert.KernelIdeal.Frame.G2_5 Cert.ReferenceIdeal.Frame.G2_5
  rw [← rows2_eq A0]
  exact congrFun (out2_5_bridge _ A1 A2 A3) _

end Cert.Bridge

end
-- ==== Proof.Bridge.Final.lean ====
/-
  The two programs compute one function. Stage by stage — the per-image statistics of x, the first normalisation's
  rows, the first convolution with its shortcut and statistics, the second normalisation's rows, the 3 × 3 convolution
  and its statistics, the third normalisation's rows, the last convolution with the residual — the kernel's value, as a
  function of its arguments, is the reference's value of the same arguments.
-/
import proofs.«130251_g2000005708365749_pallasbulk_1193_2_alg».proof.Proof.KI.Vals
import proofs.«130251_g2000005708365749_pallasbulk_1193_2_alg».proof.Proof.RI.Vals
import proofs.«130251_g2000005708365749_pallasbulk_1193_2_alg».proof.Proof.Bridge.B0
import proofs.«130251_g2000005708365749_pallasbulk_1193_2_alg».proof.Proof.Bridge.B1
import proofs.«130251_g2000005708365749_pallasbulk_1193_2_alg».proof.Proof.Bridge.B2

set_option maxRecDepth 16384

noncomputable section

namespace Cert.Bridge

open Idealize.ShloMosaic Idealize.SL Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-! ## Pass 0 and the first normalisation -/

theorem st0_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) : Cert.KernelIdeal.Frame.st0K m c = Cert.ReferenceIdeal.Frame.st0R m' c := by
  unfold Cert.KernelIdeal.Frame.st0K Cert.ReferenceIdeal.Frame.st0R Cert.KernelIdeal.Frame.xK Cert.ReferenceIdeal.Frame.xR
  rw [h0]
  exact G0_eq _ _ _ _

theorem sc1_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : Cert.KernelIdeal.Frame.sc1K m c = Cert.ReferenceIdeal.Frame.sc1R m' c := by
  unfold Cert.KernelIdeal.Frame.sc1K Cert.ReferenceIdeal.Frame.sc1R
  rw [st0_agree m m' c h0, h1]
theorem sh1_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) : Cert.KernelIdeal.Frame.sh1K m c = Cert.ReferenceIdeal.Frame.sh1R m' c := by
  unfold Cert.KernelIdeal.Frame.sh1K Cert.ReferenceIdeal.Frame.sh1R
  rw [st0_agree m m' c h0, h1, h2]

/-! ## The weights: narrowing to bf16 is the identity on extended reals -/

theorem w1_agree (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) : Cert.KernelIdeal.Frame.w1K m c = Cert.ReferenceIdeal.Frame.w1R m' c := by
  unfold Cert.KernelIdeal.Frame.w1K Cert.ReferenceIdeal.Frame.w1R
  rw [h7]; rfl
theorem wsc_agree (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : Cert.KernelIdeal.Frame.wscK m c = Cert.ReferenceIdeal.Frame.wscR m' c := by
  unfold Cert.KernelIdeal.Frame.wscK Cert.ReferenceIdeal.Frame.wscR
  rw [h10]; rfl
theorem w2_agree (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) : Cert.KernelIdeal.Frame.w2K m c = Cert.ReferenceIdeal.Frame.w2R m' c := by
  unfold Cert.KernelIdeal.Frame.w2K Cert.ReferenceIdeal.Frame.w2R
  rw [h8]; rfl
theorem w3_agree (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) : Cert.KernelIdeal.Frame.w3K m c = Cert.ReferenceIdeal.Frame.w3R m' c := by
  unfold Cert.KernelIdeal.Frame.w3K Cert.ReferenceIdeal.Frame.w3R
  rw [h9]; rfl

/-! ## Pass 1 -/

theorem h1_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : Cert.KernelIdeal.Frame.h1K m c = Cert.ReferenceIdeal.Frame.h1R m' c := by
  unfold Cert.KernelIdeal.Frame.h1K Cert.ReferenceIdeal.Frame.h1R Cert.KernelIdeal.Frame.xK Cert.ReferenceIdeal.Frame.xR
  rw [h0]
  exact G1_5_eq _ _ _ _ _ _ _ _ _ _ _ _ (sc1_agree m m' c h0 h1) (sh1_agree m m' c h0 h1 h2) (w1_agree m m' c h7) (wsc_agree m m' c h10)
theorem scut_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : Cert.KernelIdeal.Frame.scutK m c = Cert.ReferenceIdeal.Frame.scutR m' c := by
  unfold Cert.KernelIdeal.Frame.scutK Cert.ReferenceIdeal.Frame.scutR Cert.KernelIdeal.Frame.xK Cert.ReferenceIdeal.Frame.xR
  rw [h0]
  exact G1_6_eq _ _ _ _ _ _ _ _ _ _ _ _ (sc1_agree m m' c h0 h1) (sh1_agree m m' c h0 h1 h2) (w1_agree m m' c h7) (wsc_agree m m' c h10)
theorem st1_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : Cert.KernelIdeal.Frame.st1K m c = Cert.ReferenceIdeal.Frame.st1R m' c := by
  unfold Cert.KernelIdeal.Frame.st1K Cert.ReferenceIdeal.Frame.st1R Cert.KernelIdeal.Frame.xK Cert.ReferenceIdeal.Frame.xR
  rw [h0]
  exact G1_7_eq _ _ _ _ _ _ _ _ _ _ _ _ (sc1_agree m m' c h0 h1) (sh1_agree m m' c h0 h1 h2) (w1_agree m m' c h7) (wsc_agree m m' c h10)

/-! ## The second normalisation and pass 2 -/

theorem sc2_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : Cert.KernelIdeal.Frame.sc2K m c = Cert.ReferenceIdeal.Frame.sc2R m' c := by
  unfold Cert.KernelIdeal.Frame.sc2K Cert.ReferenceIdeal.Frame.sc2R
  rw [st1_agree m m' c h0 h1 h2 h7 h10, h3]
theorem sh2_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : Cert.KernelIdeal.Frame.sh2K m c = Cert.ReferenceIdeal.Frame.sh2R m' c := by
  unfold Cert.KernelIdeal.Frame.sh2K Cert.ReferenceIdeal.Frame.sh2R
  rw [st1_agree m m' c h0 h1 h2 h7 h10, h3, h4]

theorem h2_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : Cert.KernelIdeal.Frame.h2K m c = Cert.ReferenceIdeal.Frame.h2R m' c := by
  unfold Cert.KernelIdeal.Frame.h2K Cert.ReferenceIdeal.Frame.h2R
  rw [h1_agree m m' c h0 h1 h2 h7 h10, sc2_agree m m' c h0 h1 h2 h3 h7 h10, sh2_agree m m' c h0 h1 h2 h3 h4 h7 h10, w2_agree m m' c h8]
  exact G2_4_eq _ _ _ _
theorem st2_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : Cert.KernelIdeal.Frame.st2K m c = Cert.ReferenceIdeal.Frame.st2R m' c := by
  unfold Cert.KernelIdeal.Frame.st2K Cert.ReferenceIdeal.Frame.st2R
  rw [h1_agree m m' c h0 h1 h2 h7 h10, sc2_agree m m' c h0 h1 h2 h3 h7 h10, sh2_agree m m' c h0 h1 h2 h3 h4 h7 h10, w2_agree m m' c h8]
  exact G2_5_eq _ _ _ _

/-! ## The third normalisation and the result -/

theorem sc3_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : Cert.KernelIdeal.Frame.sc3K m c = Cert.ReferenceIdeal.Frame.sc3R m' c := by
  unfold Cert.KernelIdeal.Frame.sc3K Cert.ReferenceIdeal.Frame.sc3R
  rw [st2_agree m m' c h0 h1 h2 h3 h4 h7 h8 h10, h5]
theorem sh3_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : Cert.KernelIdeal.Frame.sh3K m c = Cert.ReferenceIdeal.Frame.sh3R m' c := by
  unfold Cert.KernelIdeal.Frame.sh3K Cert.ReferenceIdeal.Frame.sh3R
  rw [st2_agree m m' c h0 h1 h2 h3 h4 h7 h8 h10, h5, h6]

/-- The two programs' results are one function of the arguments. -/
theorem out_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.KernelIdeal.Frame.outK m c = Cert.ReferenceIdeal.Frame.outR m' c := by
  unfold Cert.KernelIdeal.Frame.outK Cert.ReferenceIdeal.Frame.outR
  rw [h2_agree m m' c h0 h1 h2 h3 h4 h7 h8 h10, scut_agree m m' c h0 h1 h2 h7 h10, sc3_agree m m' c h0 h1 h2 h3 h4 h5 h7 h8 h10,
    sh3_agree m m' c h0 h1 h2 h3 h4 h5 h6 h7 h8 h10, w3_agree m m' c h9]

end Cert.Bridge

end
-- ==== Proof.lean ====
/-
  The certificate of a pre-activation bottleneck block computed in four kernel passes — per-image statistics of the
  input; the first normalisation, 1 × 1 convolution and strided shortcut; the second normalisation and the strided
  3 × 3 convolution read off a zero-bordered tile; the third normalisation, 1 × 1 convolution and residual sum — against a
  reference of the same four passes in another memory layout and without the narrowing to sixteen bits.

  Each program's run is one chain of host stretches and kernel regions: every weakly fair execution terminates with
  every buffer at the contents the chain gives it, which yields the three frames. At the exact instance each pass's
  result array is one function of the pass's input arrays, the narrowing is the identity, a sum over the lanes of a
  block is the sum over the sublanes of its transpose, and the last pass on either side is one closed formula; so the two
  results are one function of the arguments. The kernel's idealisation rewrote nothing.
-/
import proofs.«130251_g2000005708365749_pallasbulk_1193_2_alg».proof.Defs
import proofs.«130251_g2000005708365749_pallasbulk_1193_2_alg».proof.Proof.Gen.Kernel
import proofs.«130251_g2000005708365749_pallasbulk_1193_2_alg».proof.Proof.Gen.KernelIdeal
import proofs.«130251_g2000005708365749_pallasbulk_1193_2_alg».proof.Proof.Gen.ReferenceIdeal
import proofs.«130251_g2000005708365749_pallasbulk_1193_2_alg».proof.Proof.Gen.Pre_finite_inputs
import proofs.«130251_g2000005708365749_pallasbulk_1193_2_alg».proof.Proof.K.Run
import proofs.«130251_g2000005708365749_pallasbulk_1193_2_alg».proof.Proof.KI.Run
import proofs.«130251_g2000005708365749_pallasbulk_1193_2_alg».proof.Proof.RI.Run
import proofs.«130251_g2000005708365749_pallasbulk_1193_2_alg».proof.Proof.KI.Vals
import proofs.«130251_g2000005708365749_pallasbulk_1193_2_alg».proof.Proof.RI.Vals
import proofs.«130251_g2000005708365749_pallasbulk_1193_2_alg».proof.Proof.Bridge.Final
import Idealize.ShloMosaic.Adequacy
import Idealize.ShloMosaic.Init

noncomputable section

namespace Cert.Proof

open Idealize.ShloMosaic Idealize.SL.Sem

/-- The three frames: each program's run, with the arguments read off the last boundary. -/
theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ => Cert.ReferenceIdeal.Frame.frame m ρ

/-- The idealisation rewrote no operation. -/
theorem preserves : Cert.preserves_Kernel_KernelIdeal := trivial

/-- At the exact instance both programs end with the result buffer at one function of the arguments. -/
theorem algebraic : Cert.algebraic_KernelIdeal_ReferenceIdeal := by
  intro m ρ m' ρ' _ hagree
  refine ⟨fun c => Cert.KernelIdeal.Frame.W9 m ρ c (Proc.devRef .tc Cert.KernelIdeal.main_v0), Cert.KernelIdeal.Frame.run_v0 m ρ, ?_⟩
  refine (θ_run Cert.ReferenceIdeal.defs _ _).mono (fun r h c => ⟨(h c).1.trans ?_, (h c).2⟩) (Cert.ReferenceIdeal.Frame.run_v0 m' ρ')
  obtain ⟨h0, h1, h2, h3, h4, h5, h6, h7, h8, h9, h10⟩ := hagree c
  exact (Cert.ReferenceIdeal.Frame.at9_out m' ρ' c).trans
    ((Cert.Bridge.out_agree m m' c h0 h1 h2 h3 h4 h5 h6 h7 h8 h9 h10).symm.trans (Cert.KernelIdeal.Frame.at9_out m ρ c).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
